-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v206) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S30000x64 : Shape := ⟨2, ![30000, 64]⟩
abbrev S80000x64 : Shape := ⟨2, ![80000, 64]⟩
abbrev S50000x64 : Shape := ⟨2, ![50000, 64]⟩
abbrev S2x3x64x64 : Shape := ⟨4, ![2, 3, 64, 64]⟩
abbrev S2x3x64 : Shape := ⟨3, ![2, 3, 64]⟩
abbrev S2x1600000 : Shape := ⟨2, ![2, 1600000]⟩
abbrev S_ : Shape := ⟨0, ![]⟩
abbrev S80000 : Shape := ⟨1, ![80000]⟩
abbrev S1x1600000 : Shape := ⟨2, ![1, 1600000]⟩
abbrev S1600000 : Shape := ⟨1, ![1600000]⟩
abbrev S1600000x1 : Shape := ⟨2, ![1600000, 1]⟩

class Facts : Prop where
  bcast_S_S30000x64 : S_.BroadcastsInDim S30000x64 (![] : Fin 0 → Fin S30000x64.rank)
  reducesTo_S30000x64_S_d0_1 : S30000x64.ReducesTo [0, 1] S_
  h_S_ : 0 < S_.numel
  bcast_S_S80000x64 : S_.BroadcastsInDim S80000x64 (![] : Fin 0 → Fin S80000x64.rank)
  reducesTo_S80000x64_S_d0_1 : S80000x64.ReducesTo [0, 1] S_
  bcast_S_S50000x64 : S_.BroadcastsInDim S50000x64 (![] : Fin 0 → Fin S50000x64.rank)
  reducesTo_S50000x64_S_d0_1 : S50000x64.ReducesTo [0, 1] S_
  bcast_S_S2x3x64x64 : S_.BroadcastsInDim S2x3x64x64 (![] : Fin 0 → Fin S2x3x64x64.rank)
  reducesTo_S2x3x64x64_S_d0_1_2_3 : S2x3x64x64.ReducesTo [0, 1, 2, 3] S_
  bcast_S_S2x3x64 : S_.BroadcastsInDim S2x3x64 (![] : Fin 0 → Fin S2x3x64.rank)
  reducesTo_S2x3x64_S_d0_1_2 : S2x3x64.ReducesTo [0, 1, 2] S_
  bcast_S_S80000 : S_.BroadcastsInDim S80000 (![] : Fin 0 → Fin S80000.rank)
  slices_S2x1600000_S1x1600000_0_0 : S2x1600000.Slices ![0, 0] S1x1600000
  shapeCasts_S1x1600000_S1600000 : S1x1600000.ShapeCasts S1600000
  bcast_S1600000_S1600000x1_0 : S1600000.BroadcastsInDim S1600000x1 (![0] : Fin 1 → Fin S1600000x1.rank)
  bcast_S_S1600000 : S_.BroadcastsInDim S1600000 (![] : Fin 0 → Fin S1600000.rank)
  reducesTo_S80000_S_d0 : S80000.ReducesTo [0] S_
  scatter_S80000_S1600000x1_S1600000_n_0_0_1_wf : ScatterDims.WF S80000 S1600000x1 S1600000 [] [0] [0] 1

variable [Facts]

def scatter_S80000_S1600000x1_S1600000_n_0_0_1 : ScatterDims S80000 S1600000x1 S1600000 where
  updateWindowDims := []
  insertedWindowDims := [0]
  scatterDimsToOperandDims := [0]
  indexVectorDim := 1
  wf := scatter_S80000_S1600000x1_S1600000_n_0_0_1_wf
def fn_part3 {F : FTy → Type} [FloatOps F] (main_v43 : IVec S_ 1) (main_v49 : FVec F S80000 .f32) (main_v50 : FVec F S80000 .f32) : IVec S_ 1 :=
  let main_v51 : IVec S80000 1 := cmpf .ogt main_v49 main_v50
  let main_c_19 : IVec S_ 1 := constantI S_ 1 1#1
  let main_v52 : IVec S_ 1 := (fun x v => Host.reduce IntOp.andi x v reducesTo_S80000_S_d0 h_S_) main_v51 main_c_19
  let main_v53 : IVec S_ 1 := andi main_v43 main_v52
  main_v53

def fn_part2 {F : FTy → Type} [FloatOps F] (main_arg7 : FVec F S2x3x64x64 .f32) (main_arg8 : FVec F S2x3x64 .f32) (main_arg9 : IVec S2x1600000 32) (main_v33 : IVec S_ 1) : IVec S_ 1 :=
  let main_v34 : FVec F S2x3x64x64 .f32 := Host.absf main_arg7
  let main_cst_12 : FVec F S_ .f32 := constant S_ .f32 0x7F800000#32
  let main_v35 : FVec F S2x3x64x64 .f32 := broadcastInDim S2x3x64x64 ![] bcast_S_S2x3x64x64 main_cst_12
  let main_v36 : IVec S2x3x64x64 1 := cmpf .olt main_v34 main_v35
  let main_c_13 : IVec S_ 1 := constantI S_ 1 1#1
  let main_v37 : IVec S_ 1 := (fun x v => Host.reduce IntOp.andi x v reducesTo_S2x3x64x64_S_d0_1_2_3 h_S_) main_v36 main_c_13
  let main_v38 : IVec S_ 1 := andi main_v33 main_v37
  let main_v39 : FVec F S2x3x64 .f32 := Host.absf main_arg8
  let main_cst_14 : FVec F S_ .f32 := constant S_ .f32 0x7F800000#32
  let main_v40 : FVec F S2x3x64 .f32 := broadcastInDim S2x3x64 ![] bcast_S_S2x3x64 main_cst_14
  let main_v41 : IVec S2x3x64 1 := cmpf .olt main_v39 main_v40
  let main_c_15 : IVec S_ 1 := constantI S_ 1 1#1
  let main_v42 : IVec S_ 1 := (fun x v => Host.reduce IntOp.andi x v reducesTo_S2x3x64_S_d0_1_2 h_S_) main_v41 main_c_15
  let main_v43 : IVec S_ 1 := andi main_v38 main_v42
  let main_cst_16 : FVec F S_ .f32 := constant S_ .f32 0x00000000#32
  let main_v44 : FVec F S80000 .f32 := broadcastInDim S80000 ![] bcast_S_S80000 main_cst_16
  let main_v45 : IVec S1x1600000 32 := (extractStridedSlice S1x1600000 ![0, 0] · slices_S2x1600000_S1x1600000_0_0) main_arg9
  let main_v46 : IVec S1600000 32 := shapeCast S1600000 main_v45 shapeCasts_S1x1600000_S1600000
  let main_v47 : IVec S1600000x1 32 := broadcastInDim S1600000x1 ![0] bcast_S1600000_S1600000x1_0 main_v46
  let main_cst_17 : FVec F S_ .f32 := constant S_ .f32 0x3F800000#32
  let main_v48 : FVec F S1600000 .f32 := broadcastInDim S1600000 ![] bcast_S_S1600000 main_cst_17
  let main_v49 : FVec F S80000 .f32 := (fun x i u => Host.scatterAdd scatter_S80000_S1600000x1_S1600000_n_0_0_1 x i u) main_v44 main_v47 main_v48
  let main_cst_18 : FVec F S_ .f32 := constant S_ .f32 0x00000000#32
  let main_v50 : FVec F S80000 .f32 := broadcastInDim S80000 ![] bcast_S_S80000 main_cst_18
  fn_part3 (F := F) main_v43 main_v49 main_v50

def fn_part1 {F : FTy → Type} [FloatOps F] (main_arg4 : FVec F S50000x64 .f32) (main_arg5 : FVec F S2x3x64x64 .f32) (main_arg6 : FVec F S2x3x64 .f32) (main_arg7 : FVec F S2x3x64x64 .f32) (main_arg8 : FVec F S2x3x64 .f32) (main_arg9 : IVec S2x1600000 32) (main_v13 : IVec S_ 1) (main_v16 : IVec S50000x64 1) : IVec S_ 1 :=
  let main_c_5 : IVec S_ 1 := constantI S_ 1 1#1
  let main_v17 : IVec S_ 1 := (fun x v => Host.reduce IntOp.andi x v reducesTo_S50000x64_S_d0_1 h_S_) main_v16 main_c_5
  let main_v18 : IVec S_ 1 := andi main_v13 main_v17
  let main_v19 : FVec F S50000x64 .f32 := Host.absf main_arg4
  let main_cst_6 : FVec F S_ .f32 := constant S_ .f32 0x7F800000#32
  let main_v20 : FVec F S50000x64 .f32 := broadcastInDim S50000x64 ![] bcast_S_S50000x64 main_cst_6
  let main_v21 : IVec S50000x64 1 := cmpf .olt main_v19 main_v20
  let main_c_7 : IVec S_ 1 := constantI S_ 1 1#1
  let main_v22 : IVec S_ 1 := (fun x v => Host.reduce IntOp.andi x v reducesTo_S50000x64_S_d0_1 h_S_) main_v21 main_c_7
  let main_v23 : IVec S_ 1 := andi main_v18 main_v22
  let main_v24 : FVec F S2x3x64x64 .f32 := Host.absf main_arg5
  let main_cst_8 : FVec F S_ .f32 := constant S_ .f32 0x7F800000#32
  let main_v25 : FVec F S2x3x64x64 .f32 := broadcastInDim S2x3x64x64 ![] bcast_S_S2x3x64x64 main_cst_8
  let main_v26 : IVec S2x3x64x64 1 := cmpf .olt main_v24 main_v25
  let main_c_9 : IVec S_ 1 := constantI S_ 1 1#1
  let main_v27 : IVec S_ 1 := (fun x v => Host.reduce IntOp.andi x v reducesTo_S2x3x64x64_S_d0_1_2_3 h_S_) main_v26 main_c_9
  let main_v28 : IVec S_ 1 := andi main_v23 main_v27
  let main_v29 : FVec F S2x3x64 .f32 := Host.absf main_arg6
  let main_cst_10 : FVec F S_ .f32 := constant S_ .f32 0x7F800000#32
  let main_v30 : FVec F S2x3x64 .f32 := broadcastInDim S2x3x64 ![] bcast_S_S2x3x64 main_cst_10
  let main_v31 : IVec S2x3x64 1 := cmpf .olt main_v29 main_v30
  let main_c_11 : IVec S_ 1 := constantI S_ 1 1#1
  let main_v32 : IVec S_ 1 := (fun x v => Host.reduce IntOp.andi x v reducesTo_S2x3x64_S_d0_1_2 h_S_) main_v31 main_c_11
  let main_v33 : IVec S_ 1 := andi main_v28 main_v32
  fn_part2 (F := F) main_arg7 main_arg8 main_arg9 main_v33

def fn {F : FTy → Type} [FloatOps F] (main_arg0 : FVec F S30000x64 .f32) (main_arg1 : FVec F S30000x64 .f32) (main_arg2 : FVec F S80000x64 .f32) (main_arg3 : FVec F S50000x64 .f32) (main_arg4 : FVec F S50000x64 .f32) (main_arg5 : FVec F S2x3x64x64 .f32) (main_arg6 : FVec F S2x3x64 .f32) (main_arg7 : FVec F S2x3x64x64 .f32) (main_arg8 : FVec F S2x3x64 .f32) (main_arg9 : IVec S2x1600000 32) : IVec S_ 1 :=
  let main_v0 : FVec F S30000x64 .f32 := Host.absf main_arg0
  let main_cst : FVec F S_ .f32 := constant S_ .f32 0x7F800000#32
  let main_v1 : FVec F S30000x64 .f32 := broadcastInDim S30000x64 ![] bcast_S_S30000x64 main_cst
  let main_v2 : IVec S30000x64 1 := cmpf .olt main_v0 main_v1
  let main_c : IVec S_ 1 := constantI S_ 1 1#1
  let main_v3 : IVec S_ 1 := (fun x v => Host.reduce IntOp.andi x v reducesTo_S30000x64_S_d0_1 h_S_) main_v2 main_c
  let main_v4 : FVec F S30000x64 .f32 := Host.absf main_arg1
  let main_cst_0 : FVec F S_ .f32 := constant S_ .f32 0x7F800000#32
  let main_v5 : FVec F S30000x64 .f32 := broadcastInDim S30000x64 ![] bcast_S_S30000x64 main_cst_0
  let main_v6 : IVec S30000x64 1 := cmpf .olt main_v4 main_v5
  let main_c_1 : IVec S_ 1 := constantI S_ 1 1#1
  let main_v7 : IVec S_ 1 := (fun x v => Host.reduce IntOp.andi x v reducesTo_S30000x64_S_d0_1 h_S_) main_v6 main_c_1
  let main_v8 : IVec S_ 1 := andi main_v3 main_v7
  let main_v9 : FVec F S80000x64 .f32 := Host.absf main_arg2
  let main_cst_2 : FVec F S_ .f32 := constant S_ .f32 0x7F800000#32
  let main_v10 : FVec F S80000x64 .f32 := broadcastInDim S80000x64 ![] bcast_S_S80000x64 main_cst_2
  let main_v11 : IVec S80000x64 1 := cmpf .olt main_v9 main_v10
  let main_c_3 : IVec S_ 1 := constantI S_ 1 1#1
  let main_v12 : IVec S_ 1 := (fun x v => Host.reduce IntOp.andi x v reducesTo_S80000x64_S_d0_1 h_S_) main_v11 main_c_3
  let main_v13 : IVec S_ 1 := andi main_v8 main_v12
  let main_v14 : FVec F S50000x64 .f32 := Host.absf main_arg3
  let main_cst_4 : FVec F S_ .f32 := constant S_ .f32 0x7F800000#32
  let main_v15 : FVec F S50000x64 .f32 := broadcastInDim S50000x64 ![] bcast_S_S50000x64 main_cst_4
  let main_v16 : IVec S50000x64 1 := cmpf .olt main_v14 main_v15
  fn_part1 (F := F) main_arg4 main_arg5 main_arg6 main_arg7 main_arg8 main_arg9 main_v13 main_v16
-- ==== Kernel.lean ====
abbrev S30000x64 : Shape := ⟨2, ![30000, 64]⟩
abbrev S80000x64 : Shape := ⟨2, ![80000, 64]⟩
abbrev S50000x64 : Shape := ⟨2, ![50000, 64]⟩
abbrev S2x3x64x64 : Shape := ⟨4, ![2, 3, 64, 64]⟩
abbrev S2x3x64 : Shape := ⟨3, ![2, 3, 64]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S80000 : Shape := ⟨1, ![80000]⟩
abbrev S1600000x1 : Shape := ⟨2, ![1600000, 1]⟩
abbrev S80000x1 : Shape := ⟨2, ![80000, 1]⟩
abbrev S4000x64 : Shape := ⟨2, ![4000, 64]⟩
abbrev S4000 : Shape := ⟨1, ![4000]⟩
abbrev S4000x1 : Shape := ⟨2, ![4000, 1]⟩
abbrev S1600000x64 : Shape := ⟨2, ![1600000, 64]⟩
abbrev S1x3x64x64 : Shape := ⟨4, ![1, 3, 64, 64]⟩
abbrev S3x64x64 : Shape := ⟨3, ![3, 64, 64]⟩
abbrev S1x3x64 : Shape := ⟨3, ![1, 3, 64]⟩
abbrev S3x64 : Shape := ⟨2, ![3, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩

abbrev nBuf : Space → Nat
  | .hbm => 106
  | .vmem => 56
  | .smem => 0
  | _ => 0

abbrev bufTy : (tb : Table) → Fin (tcTables nBuf tb) → BufTy
  | .hbm, ⟨0, _⟩ => ⟨S30000x64, .f32⟩
  | .hbm, ⟨1, _⟩ => ⟨S30000x64, .f32⟩
  | .hbm, ⟨2, _⟩ => ⟨S80000x64, .f32⟩
  | .hbm, ⟨3, _⟩ => ⟨S50000x64, .f32⟩
  | .hbm, ⟨4, _⟩ => ⟨S50000x64, .f32⟩
  | .hbm, ⟨5, _⟩ => ⟨S2x3x64x64, .f32⟩
  | .hbm, ⟨6, _⟩ => ⟨S2x3x64, .f32⟩
  | .hbm, ⟨7, _⟩ => ⟨S2x3x64x64, .f32⟩
  | .hbm, ⟨8, _⟩ => ⟨S2x3x64, .f32⟩
  | .hbm, ⟨9, _⟩ => ⟨S2x1600000, .i32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S80000, .f32⟩
  | .hbm, ⟨18, _⟩ => ⟨S1600000x1, .i32⟩
  | .hbm, ⟨19, _⟩ => ⟨S80000, .f32⟩
  | .hbm, ⟨20, _⟩ => ⟨S_, .f32⟩
  | .hbm, ⟨21, _⟩ => ⟨S80000, .f32⟩
  | .hbm, ⟨22, _⟩ => ⟨S80000, .f32⟩
  | .hbm, ⟨23, _⟩ => ⟨S80000x1, .f32⟩
  | .hbm, ⟨24, _⟩ => ⟨S80000x64, .f32⟩
  | .hbm, ⟨25, _⟩ => ⟨S80000x64, .f32⟩
  | .hbm, ⟨26, _⟩ => ⟨S2x3x64x64, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x64, .f32⟩
  | .hbm, ⟨36, _⟩ => ⟨S_, .f32⟩
  | .hbm, ⟨37, _⟩ => ⟨S80000x64, .f32⟩
  | .hbm, ⟨38, _⟩ => ⟨S1600000x1, .i32⟩
  | .hbm, ⟨39, _⟩ => ⟨S80000x64, .f32⟩
  | .hbm, ⟨40, _⟩ => ⟨S1x3x64x64, .f32⟩
  | .hbm, ⟨41, _⟩ => ⟨S3x64x64, .f32⟩
  | .hbm, ⟨42, _⟩ => ⟨S1x3x64, .f32⟩
  | .hbm, ⟨43, _⟩ => ⟨S3x64, .f32⟩
  | .hbm, ⟨44, _⟩ => ⟨S80000x64, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x64, .f32⟩
  | .hbm, ⟨54, _⟩ => ⟨S_, .f32⟩
  | .hbm, ⟨55, _⟩ => ⟨S80000x64, .f32⟩
  | .hbm, ⟨56, _⟩ => ⟨S1600000x1, .i32⟩
  | .hbm, ⟨57, _⟩ => ⟨S80000x64, .f32⟩
  | .hbm, ⟨58, _⟩ => ⟨S1x3x64x64, .f32⟩
  | .hbm, ⟨59, _⟩ => ⟨S3x64x64, .f32⟩
  | .hbm, ⟨60, _⟩ => ⟨S1x3x64, .f32⟩
  | .hbm, ⟨61, _⟩ => ⟨S3x64, .f32⟩
  | .hbm, ⟨62, _⟩ => ⟨S80000x64, .f32⟩
  | .hbm, ⟨63, _⟩ => ⟨S80000x64, .f32⟩
  | .hbm, ⟨64, _⟩ => ⟨S80000x64, .f32⟩
  | .hbm, ⟨65, _⟩ => ⟨S2x3x64x64, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x64, .f32⟩
  | .hbm, ⟨75, _⟩ => ⟨S_, .f32⟩
  | .hbm, ⟨76, _⟩ => ⟨S80000x64, .f32⟩
  | .hbm, ⟨77, _⟩ => ⟨S1600000x1, .i32⟩
  | .hbm, ⟨78, _⟩ => ⟨S80000x64, .f32⟩
  | .hbm, ⟨79, _⟩ => ⟨S1x3x64x64, .f32⟩
  | .hbm, ⟨80, _⟩ => ⟨S3x64x64, .f32⟩
  | .hbm, ⟨81, _⟩ => ⟨S1x3x64, .f32⟩
  | .hbm, ⟨82, _⟩ => ⟨S3x64, .f32⟩
  | .hbm, ⟨83, _⟩ => ⟨S80000x64, .f32⟩
  | .hbm, ⟨84, _⟩ => ⟨S_, .i32⟩
  | .hbm, ⟨85, _⟩ => ⟨S1600000, .i32⟩
  | .hbm, ⟨86, _⟩ => ⟨S1600000, .i1⟩
  | .hbm, ⟨87, _⟩ => ⟨S_, .i32⟩
  | .hbm, ⟨88, _⟩ => ⟨S1600000, .i32⟩
  | .hbm, ⟨89, _⟩ => ⟨S1600000, .i32⟩
  | .hbm, ⟨90, _⟩ => ⟨S1600000, .i32⟩
  | .hbm, ⟨91, _⟩ => ⟨S1600000x1, .i32⟩
  | .hbm, ⟨92, _⟩ => ⟨S1600000x64, .f32⟩
  | .hbm, ⟨93, _⟩ => ⟨S_, .f32⟩
  | .hbm, ⟨94, _⟩ => ⟨S80000x64, .f32⟩
  | .hbm, ⟨95, _⟩ => ⟨S1600000x1, .i32⟩
  | .hbm, ⟨96, _⟩ => ⟨S80000x64, .f32⟩
  | .hbm, ⟨97, _⟩ => ⟨S1x3x64x64, .f32⟩
  | .hbm, ⟨98, _⟩ => ⟨S3x64x64, .f32⟩
  | .hbm, ⟨99, _⟩ => ⟨S1x3x64, .f32⟩
  | .hbm, ⟨100, _⟩ => ⟨S3x64, .f32⟩
  | .hbm, ⟨101, _⟩ => ⟨S80000x64, .f32⟩
  | .hbm, ⟨102, _⟩ => ⟨S80000x64, .f32⟩
  | .hbm, ⟨103, _⟩ => ⟨S_, .f32⟩
  | .hbm, ⟨104, _⟩ => ⟨S80000x64, .f32⟩
  | .hbm, ⟨105, _⟩ => ⟨S80000x64, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S4000x1, .f32⟩
  | .local _ .vmem, ⟨7, _⟩ => ⟨S4000x1, .f32⟩
  | .local _ .vmem, ⟨8, _⟩ => ⟨S4000x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S3x64x64, .f32⟩
  | .local _ .vmem, ⟨13, _⟩ => ⟨S3x64, .f32⟩
  | .local _ .vmem, ⟨14, _⟩ => ⟨S4000x64, .f32⟩
  | .local _ .vmem, ⟨15, _⟩ => ⟨S4000x64, .f32⟩
  | .local _ .vmem, ⟨16, _⟩ => ⟨S4000x64, .f32⟩
  | .local _ .vmem, ⟨17, _⟩ => ⟨S4000x64, .f32⟩
  | .local _ .vmem, ⟨18, _⟩ => ⟨S4000x1, .f32⟩
  | .local _ .vmem, ⟨19, _⟩ => ⟨S4000x1, .f32⟩
  | .local _ .vmem, ⟨20, _⟩ => ⟨S4000x64, .f32⟩
  | .local _ .vmem, ⟨21, _⟩ => ⟨S4000x64, .f32⟩
  | .local _ .vmem, ⟨22, _⟩ => ⟨S4000x64, .f32⟩
  | .local _ .vmem, ⟨23, _⟩ => ⟨S4000x64, .f32⟩
  | .local _ .vmem, ⟨24, _⟩ => ⟨S3x64x64, .f32⟩
  | .local _ .vmem, ⟨25, _⟩ => ⟨S3x64, .f32⟩
  | .local _ .vmem, ⟨26, _⟩ => ⟨S4000x64, .f32⟩
  | .local _ .vmem, ⟨27, _⟩ => ⟨S4000x64, .f32⟩
  | .local _ .vmem, ⟨28, _⟩ => ⟨S4000x64, .f32⟩
  | .local _ .vmem, ⟨29, _⟩ => ⟨S4000x64, .f32⟩
  | .local _ .vmem, ⟨30, _⟩ => ⟨S4000x64, .f32⟩
  | .local _ .vmem, ⟨31, _⟩ => ⟨S4000x64, .f32⟩
  | .local _ .vmem, ⟨32, _⟩ => ⟨S4000x64, .f32⟩
  | .local _ .vmem, ⟨33, _⟩ => ⟨S4000x64, .f32⟩
  | .local _ .vmem, ⟨34, _⟩ => ⟨S4000x1, .f32⟩
  | .local _ .vmem, ⟨35, _⟩ => ⟨S4000x1, .f32⟩
  | .local _ .vmem, ⟨36, _⟩ => ⟨S4000x64, .f32⟩
  | .local _ .vmem, ⟨37, _⟩ => ⟨S4000x64, .f32⟩
  | .local _ .vmem, ⟨38, _⟩ => ⟨S4000x64, .f32⟩
  | .local _ .vmem, ⟨39, _⟩ => ⟨S4000x64, .f32⟩
  | .local _ .vmem, ⟨40, _⟩ => ⟨S3x64x64, .f32⟩
  | .local _ .vmem, ⟨41, _⟩ => ⟨S3x64, .f32⟩
  | .local _ .vmem, ⟨42, _⟩ => ⟨S4000x64, .f32⟩
  | .local _ .vmem, ⟨43, _⟩ => ⟨S4000x64, .f32⟩
  | .local _ .vmem, ⟨44, _⟩ => ⟨S4000x64, .f32⟩
  | .local _ .vmem, ⟨45, _⟩ => ⟨S4000x64, .f32⟩
  | .local _ .vmem, ⟨46, _⟩ => ⟨S4000x1, .f32⟩
  | .local _ .vmem, ⟨47, _⟩ => ⟨S4000x1, .f32⟩
  | .local _ .vmem, ⟨48, _⟩ => ⟨S4000x64, .f32⟩
  | .local _ .vmem, ⟨49, _⟩ => ⟨S4000x64, .f32⟩
  | .local _ .vmem, ⟨50, _⟩ => ⟨S4000x64, .f32⟩
  | .local _ .vmem, ⟨51, _⟩ => ⟨S4000x64, .f32⟩
  | .local _ .vmem, ⟨52, _⟩ => ⟨S3x64x64, .f32⟩
  | .local _ .vmem, ⟨53, _⟩ => ⟨S3x64, .f32⟩
  | .local _ .vmem, ⟨54, _⟩ => ⟨S4000x64, .f32⟩
  | .local _ .vmem, ⟨55, _⟩ => ⟨S4000x64, .f32⟩
  | _, _ => ⟨S30000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_7 : Ref sig .tc := ⟨.hbm, 66, rfl⟩
abbrev main_v47 : Ref sig .tc := ⟨.hbm, 67, rfl⟩
abbrev main_v48 : Ref sig .tc := ⟨.hbm, 68, rfl⟩
abbrev main_c_8 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_9 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_c_10 : Ref sig .tc := ⟨.hbm, 84, rfl⟩
abbrev main_v62 : Ref sig .tc := ⟨.hbm, 85, rfl⟩
abbrev main_v63 : Ref sig .tc := ⟨.hbm, 86, rfl⟩
abbrev main_c_11 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_12 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_13 : Ref sig .tc := ⟨.hbm, 103, rfl⟩
abbrev main_v78 : Ref sig .tc := ⟨.hbm, 104, rfl⟩
abbrev main_v79 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_stg3_1 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg6_0 : Ref sig .tc := ⟨.vmem, 42, rfl⟩
abbrev cc4_stg6_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg1_1 : Ref sig .tc := ⟨.vmem, 47, rfl⟩
abbrev cc5_stg2_0 : Ref sig .tc := ⟨.vmem, 48, rfl⟩
abbrev cc5_stg2_1 : Ref sig .tc := ⟨.vmem, 49, rfl⟩
abbrev cc5_stg3_0 : Ref sig .tc := ⟨.vmem, 50, rfl⟩
abbrev cc5_stg3_1 : Ref sig .tc := ⟨.vmem, 51, rfl⟩
abbrev cc5_stg4_0 : Ref sig .tc := ⟨.vmem, 52, rfl⟩
abbrev cc5_stg5_0 : Ref sig .tc := ⟨.vmem, 53, rfl⟩
abbrev cc5_stg6_0 : Ref sig .tc := ⟨.vmem, 54, rfl⟩
abbrev cc5_stg6_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem5_0 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem3_1 : DmaSem sig := 39
abbrev cc4_sem4_0 : DmaSem sig := 40
abbrev cc4_sem5_0 : DmaSem sig := 41
abbrev cc4_sem6_0 : DmaSem sig := 42
abbrev cc4_sem6_1 : DmaSem sig := 43
abbrev cc5_sem0_0 : DmaSem sig := 44
abbrev cc5_sem0_1 : DmaSem sig := 45
abbrev cc5_sem1_0 : DmaSem sig := 46
abbrev cc5_sem1_1 : DmaSem sig := 47
abbrev cc5_sem2_0 : DmaSem sig := 48
abbrev cc5_sem2_1 : DmaSem sig := 49
abbrev cc5_sem3_0 : DmaSem sig := 50
abbrev cc5_sem3_1 : DmaSem sig := 51
abbrev cc5_sem4_0 : DmaSem sig := 52
abbrev cc5_sem5_0 : DmaSem sig := 53
abbrev cc5_sem6_0 : DmaSem sig := 54
abbrev cc5_sem6_1 : DmaSem sig := 55

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S3x64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S3x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S3x64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S3x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S4000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S3x64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S3x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S4000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S4000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S3x64x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S3x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S4000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S80000 : S_.BroadcastsInDim S80000 (![] : Fin 0 → Fin S80000.rank)
  bcast_S1600000_S1600000x1_0 : S1600000.BroadcastsInDim S1600000x1 (![0] : Fin 1 → Fin S1600000x1.rank)
  shapeCasts_S80000_S80000x1 : S80000.ShapeCasts S80000x1
  concatenates_S50000x64_S30000x64_S80000x64_d0 : Shape.Concatenates [S50000x64, S30000x64] S80000x64 0
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  reduces_S4000x64_S4000 : S4000x64.Reduces [1] S4000
  shapeCasts_S4000_S4000x1 : S4000.ShapeCasts S4000x1
  broadcasts_S4000x1_S4000x64 : S4000x1.Broadcasts S4000x64
  transposes_S2x3x64x64_S2x3x64x64_0_1_3_2 : S2x3x64x64.Transposes [0, 1, 3, 2] S2x3x64x64
  bcast_S_S80000x64 : S_.BroadcastsInDim S80000x64 (![] : Fin 0 → Fin S80000x64.rank)
  slices_S2x3x64x64_S1x3x64x64_0_0_0_0 : S2x3x64x64.Slices ![0, 0, 0, 0] S1x3x64x64
  shapeCasts_S1x3x64x64_S3x64x64 : S1x3x64x64.ShapeCasts S3x64x64
  slices_S2x3x64_S1x3x64_0_0_0 : S2x3x64.Slices ![0, 0, 0] S1x3x64
  shapeCasts_S1x3x64_S3x64 : S1x3x64.ShapeCasts S3x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S3x64x64_S1x64x64_0_0_0 : ∀ a, (![0, 0, 0] : Fin 3 → Nat) a + S1x64x64.size a ≤ S3x64x64.size a
  h_S1x64x64 : 0 < S1x64x64.numel
  shapeCasts_S1x64x64_S64x64 : S1x64x64.ShapeCasts S64x64
  bitsLt_bf16_f32 : FTy.bits .bf16 < FTy.bits .f32
  inb_S3x64x64_S1x64x64_1_0_0 : ∀ a, (![1, 0, 0] : Fin 3 → Nat) a + S1x64x64.size a ≤ S3x64x64.size a
  inb_S3x64x64_S1x64x64_2_0_0 : ∀ a, (![2, 0, 0] : Fin 3 → Nat) a + S1x64x64.size a ≤ S3x64x64.size a
  inb_S3x64_S1x64_0_0 : ∀ a, (![0, 0] : Fin 2 → Nat) a + S1x64.size a ≤ S3x64.size a
  h_S1x64 : 0 < S1x64.numel
  shapeCasts_S1x64_S64 : S1x64.ShapeCasts S64
  inb_S3x64_S1x64_1_0 : ∀ a, (![1, 0] : Fin 2 → Nat) a + S1x64.size a ≤ S3x64.size a
  inb_S3x64_S1x64_2_0 : ∀ a, (![2, 0] : Fin 2 → Nat) a + S1x64.size a ≤ S3x64.size a
  shapeCasts_S64_S1x64 : S64.ShapeCasts S1x64
  broadcasts_S1x64_S4000x64 : S1x64.Broadcasts S4000x64
  slices_S2x3x64x64_S1x3x64x64_1_0_0_0 : S2x3x64x64.Slices ![1, 0, 0, 0] S1x3x64x64
  slices_S2x3x64_S1x3x64_1_0_0 : S2x3x64.Slices ![1, 0, 0] S1x3x64
  scatter_S80000_S1600000x1_S1600000_n_0_0_1_wf : ScatterDims.WF S80000 S1600000x1 S1600000 [] [0] [0] 1
  gather_S80000x64_S1600000x1_S1600000x64_1_0_n_n_0_1_164_wf : GatherDims.WF S80000x64 S1600000x1 S1600000x64 [1] [0] [] [0] [] 1 ![1, 64]
  scatter_S80000x64_S1600000x1_S1600000x64_1_0_0_1_wf : ScatterDims.WF S80000x64 S1600000x1 S1600000x64 [1] [0] [0] 1
  dot_S4000x64_S64x64_S4000x64_1_0_0_1_n_n_wf : DotDims.WF S4000x64 S64x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S80000x64.size a
  hwx0_0 : ∀ i : grid0.Coords, EltTy.bits .f32 = 32 ∨ (Rect.block (s := S80000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S80000x64.size a
  hwx0_1 : ∀ i : grid0.Coords, EltTy.bits .f32 = 32 ∨ (Rect.block (s := S80000x64) S4000x64.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S80000x64.size a
  hwx1_0 : ∀ i : grid1.Coords, EltTy.bits .f32 = 32 ∨ (Rect.block (s := S80000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S80000x1.size a
  hwx1_1 : ∀ i : grid1.Coords, EltTy.bits .f32 = 32 ∨ (Rect.block (s := S80000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S80000x64.size a
  hwx1_2 : ∀ i : grid1.Coords, EltTy.bits .f32 = 32 ∨ (Rect.block (s := S80000x64) S4000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x64.size a ≤ S80000x64.size a
  hwx1_3 : ∀ i : grid1.Coords, EltTy.bits .f32 = 32 ∨ (Rect.block (s := S80000x64) S4000x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S3x64x64.size a ≤ S3x64x64.size a
  hwx1_4 : ∀ i : grid1.Coords, EltTy.bits .f32 = 32 ∨ (Rect.block (s := S3x64x64) S3x64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S3x64.size a ≤ S3x64.size a
  hwx1_5 : ∀ i : grid1.Coords, EltTy.bits .f32 = 32 ∨ (Rect.block (s := S3x64) S3x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x64.size a ≤ S80000x64.size a
  hwx1_6 : ∀ i : grid1.Coords, EltTy.bits .f32 = 32 ∨ (Rect.block (s := S80000x64) S4000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S80000x64.size a
  hwx2_0 : ∀ i : grid2.Coords, EltTy.bits .f32 = 32 ∨ (Rect.block (s := S80000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S80000x1.size a
  hwx2_1 : ∀ i : grid2.Coords, EltTy.bits .f32 = 32 ∨ (Rect.block (s := S80000x1) S4000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S80000x64.size a
  hwx2_2 : ∀ i : grid2.Coords, EltTy.bits .f32 = 32 ∨ (Rect.block (s := S80000x64) S4000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x64.size a ≤ S80000x64.size a
  hwx2_3 : ∀ i : grid2.Coords, EltTy.bits .f32 = 32 ∨ (Rect.block (s := S80000x64) S4000x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S3x64x64.size a ≤ S3x64x64.size a
  hwx2_4 : ∀ i : grid2.Coords, EltTy.bits .f32 = 32 ∨ (Rect.block (s := S3x64x64) S3x64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S3x64.size a ≤ S3x64.size a
  hwx2_5 : ∀ i : grid2.Coords, EltTy.bits .f32 = 32 ∨ (Rect.block (s := S3x64) S3x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x64.size a ≤ S80000x64.size a
  hwx2_6 : ∀ i : grid2.Coords, EltTy.bits .f32 = 32 ∨ (Rect.block (s := S80000x64) S4000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S80000x64.size a
  hwx3_0 : ∀ i : grid3.Coords, EltTy.bits .f32 = 32 ∨ (Rect.block (s := S80000x64) S4000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x64.size a ≤ S80000x64.size a
  hwx3_1 : ∀ i : grid3.Coords, EltTy.bits .f32 = 32 ∨ (Rect.block (s := S80000x64) S4000x64.size (cc3_transform_1 i) (hinb3_1 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x64.size a ≤ S80000x64.size a
  hwx4_0 : ∀ i : grid4.Coords, EltTy.bits .f32 = 32 ∨ (Rect.block (s := S80000x64) S4000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x1.size a ≤ S80000x1.size a
  hwx4_1 : ∀ i : grid4.Coords, EltTy.bits .f32 = 32 ∨ (Rect.block (s := S80000x1) S4000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x64.size a ≤ S80000x64.size a
  hwx4_2 : ∀ i : grid4.Coords, EltTy.bits .f32 = 32 ∨ (Rect.block (s := S80000x64) S4000x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4000x64.size a ≤ S80000x64.size a
  hwx4_3 : ∀ i : grid4.Coords, EltTy.bits .f32 = 32 ∨ (Rect.block (s := S80000x64) S4000x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S3x64x64.size a ≤ S3x64x64.size a
  hwx4_4 : ∀ i : grid4.Coords, EltTy.bits .f32 = 32 ∨ (Rect.block (s := S3x64x64) S3x64x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S3x64.size a ≤ S3x64.size a
  hwx4_5 : ∀ i : grid4.Coords, EltTy.bits .f32 = 32 ∨ (Rect.block (s := S3x64) S3x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S4000x64.size a ≤ S80000x64.size a
  hwx4_6 : ∀ i : grid4.Coords, EltTy.bits .f32 = 32 ∨ (Rect.block (s := S80000x64) S4000x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x64.size a ≤ S80000x64.size a
  hwx5_0 : ∀ i : grid5.Coords, EltTy.bits .f32 = 32 ∨ (Rect.block (s := S80000x64) S4000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x1.size a ≤ S80000x1.size a
  hwx5_1 : ∀ i : grid5.Coords, EltTy.bits .f32 = 32 ∨ (Rect.block (s := S80000x1) S4000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x64.size a ≤ S80000x64.size a
  hwx5_2 : ∀ i : grid5.Coords, EltTy.bits .f32 = 32 ∨ (Rect.block (s := S80000x64) S4000x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S4000x64.size a ≤ S80000x64.size a
  hwx5_3 : ∀ i : grid5.Coords, EltTy.bits .f32 = 32 ∨ (Rect.block (s := S80000x64) S4000x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S3x64x64.size a ≤ S3x64x64.size a
  hwx5_4 : ∀ i : grid5.Coords, EltTy.bits .f32 = 32 ∨ (Rect.block (s := S3x64x64) S3x64x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S3x64.size a ≤ S3x64.size a
  hwx5_5 : ∀ i : grid5.Coords, EltTy.bits .f32 = 32 ∨ (Rect.block (s := S3x64) S3x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S4000x64.size a ≤ S80000x64.size a
  hwx5_6 : ∀ i : grid5.Coords, EltTy.bits .f32 = 32 ∨ (Rect.block (s := S80000x64) S4000x64.size (cc5_transform_6 i) (hinb5_6 i)).WholeWords (EltTy.packing .f32)

variable [Facts₀]

def scatter_S80000_S1600000x1_S1600000_n_0_0_1 : ScatterDims S80000 S1600000x1 S1600000 where
  updateWindowDims := []
  insertedWindowDims := [0]
  scatterDimsToOperandDims := [0]
  indexVectorDim := 1
  wf := scatter_S80000_S1600000x1_S1600000_n_0_0_1_wf
def gather_S80000x64_S1600000x1_S1600000x64_1_0_n_n_0_1_164 : GatherDims S80000x64 S1600000x1 S1600000x64 where
  offsetDims := [1]
  collapsedSliceDims := [0]
  operandBatchingDims := []
  startIndicesBatchingDims := []
  startIndexMap := [0]
  indexVectorDim := 1
  sliceSizes := ![1, 64]
  wf := gather_S80000x64_S1600000x1_S1600000x64_1_0_n_n_0_1_164_wf
def scatter_S80000x64_S1600000x1_S1600000x64_1_0_0_1 : ScatterDims S80000x64 S1600000x1 S1600000x64 where
  updateWindowDims := [1]
  insertedWindowDims := [0]
  scatterDimsToOperandDims := [0]
  indexVectorDim := 1
  wf := scatter_S80000x64_S1600000x1_S1600000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf

abbrev win0_0 : Pipeline.Window sig grid0 :=
  Pipeline.Window.ofSpec (Memref.whole main_v11) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S4000x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v23) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S4000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S4000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v25) S3x64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S3x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S4000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v38) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S4000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg2) S4000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v40) S3x64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S3x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v43) S4000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v44) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S4000x64.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev win4_0 : Pipeline.Window sig grid4 :=
  Pipeline.Window.ofSpec (Memref.whole main_v56) S4000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v10) S4000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v45) S4000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg2) S4000x64.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v58) S3x64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v60) S3x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v61) S4000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v71) S4000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v10) S4000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v61) S4000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg2) S4000x64.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v73) S3x64x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v75) S3x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v76) S4000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S30000x64 : Shape := ⟨2, ![30000, 64]⟩
abbrev S80000x64 : Shape := ⟨2, ![80000, 64]⟩
abbrev S50000x64 : Shape := ⟨2, ![50000, 64]⟩
abbrev S2x3x64x64 : Shape := ⟨4, ![2, 3, 64, 64]⟩
abbrev S2x3x64 : Shape := ⟨3, ![2, 3, 64]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S80000 : Shape := ⟨1, ![80000]⟩
abbrev S80000x1 : Shape := ⟨2, ![80000, 1]⟩
abbrev S1600000x1 : Shape := ⟨2, ![1600000, 1]⟩
abbrev S1600000x64 : Shape := ⟨2, ![1600000, 64]⟩
abbrev S1x1x64x64 : Shape := ⟨4, ![1, 1, 64, 64]⟩
abbrev S64x64 : Shape := ⟨2, ![64, 64]⟩
abbrev S1x1x64 : Shape := ⟨3, ![1, 1, 64]⟩
abbrev S64 : Shape := ⟨1, ![64]⟩
abbrev S1x64 : Shape := ⟨2, ![1, 64]⟩

abbrev nBuf : Space → Nat
  | .hbm => 328
  | .vmem => 0
  | .smem => 0
  | _ => 0

abbrev hbmTy0_0 (i : Nat) : BufTy := match i % 128 with
  | 0 => ⟨S30000x64, .f32⟩
  | 1 => ⟨S30000x64, .f32⟩
  | 2 => ⟨S80000x64, .f32⟩
  | 3 => ⟨S50000x64, .f32⟩
  | 4 => ⟨S50000x64, .f32⟩
  | 5 => ⟨S2x3x64x64, .f32⟩
  | 6 => ⟨S2x3x64, .f32⟩
  | 7 => ⟨S2x3x64x64, .f32⟩
  | 8 => ⟨S2x3x64, .f32⟩
  | 9 => ⟨S2x1600000, .i32⟩
  | 10 => ⟨S1x1600000, .i32⟩
  | 11 => ⟨S1600000, .i32⟩
  | 12 => ⟨S1x1600000, .i32⟩
  | 13 => ⟨S1600000, .i32⟩
  | 14 => ⟨S80000x64, .f32⟩
  | 15 => ⟨S80000x64, .f32⟩
  | 16 => ⟨S_, .f32⟩
  | 17 => ⟨S80000, .f32⟩
  | 18 => ⟨S80000x1, .f32⟩
  | 19 => ⟨S80000x1, .f32⟩
  | 20 => ⟨S_, .f32⟩
  | 21 => ⟨S80000x1, .f32⟩
  | 22 => ⟨S80000x1, .f32⟩
  | 23 => ⟨S80000x64, .f32⟩
  | 24 => ⟨S80000x64, .f32⟩
  | 25 => ⟨S_, .f32⟩
  | 26 => ⟨S1600000, .f32⟩
  | 27 => ⟨S_, .f32⟩
  | 28 => ⟨S80000, .f32⟩
  | 29 => ⟨S1600000x1, .i32⟩
  | 30 => ⟨S80000, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000x64, .f32⟩
  | 40 => ⟨S_, .f32⟩
  | 41 => ⟨S80000x64, .f32⟩
  | 42 => ⟨S1600000x1, .i32⟩
  | 43 => ⟨S80000x64, .f32⟩
  | 44 => ⟨S80000x1, .f32⟩
  | 45 => ⟨S80000x64, .f32⟩
  | 46 => ⟨S80000x64, .f32⟩
  | 47 => ⟨S1x1x64x64, .f32⟩
  | 48 => ⟨S64x64, .f32⟩
  | 49 => ⟨S64x64, .f32⟩
  | 50 => ⟨S80000x64, .f32⟩
  | 51 => ⟨S1x1x64, .f32⟩
  | 52 => ⟨S64, .f32⟩
  | 53 => ⟨S1x64, .f32⟩
  | 54 => ⟨S80000x64, .f32⟩
  | 55 => ⟨S80000x64, .f32⟩
  | 56 => ⟨S_, .f32⟩
  | 57 => ⟨S_, .f32⟩
  | 58 => ⟨S80000x64, .f32⟩
  | 59 => ⟨S80000x64, .i1⟩
  | 60 => ⟨S_, .f32⟩
  | 61 => ⟨S80000x64, .f32⟩
  | 62 => ⟨S80000x64, .f32⟩
  | 63 => ⟨S80000x64, .f32⟩
  | 64 => ⟨S1x1x64x64, .f32⟩
  | 65 => ⟨S64x64, .f32⟩
  | 66 => ⟨S64x64, .f32⟩
  | 67 => ⟨S80000x64, .f32⟩
  | 68 => ⟨S1x1x64, .f32⟩
  | 69 => ⟨S64, .f32⟩
  | 70 => ⟨S1x64, .f32⟩
  | 71 => ⟨S80000x64, .f32⟩
  | 72 => ⟨S80000x64, .f32⟩
  | 73 => ⟨S_, .f32⟩
  | 74 => ⟨S_, .f32⟩
  | 75 => ⟨S80000x64, .f32⟩
  | 76 => ⟨S80000x64, .i1⟩
  | 77 => ⟨S_, .f32⟩
  | 78 => ⟨S80000x64, .f32⟩
  | 79 => ⟨S80000x64, .f32⟩
  | 80 => ⟨S80000x64, .f32⟩
  | 81 => ⟨S80000x64, .f32⟩
  | 82 => ⟨S1x1x64x64, .f32⟩
  | 83 => ⟨S64x64, .f32⟩
  | 84 => ⟨S64x64, .f32⟩
  | 85 => ⟨S80000x64, .f32⟩
  | 86 => ⟨S1x1x64, .f32⟩
  | 87 => ⟨S64, .f32⟩
  | 88 => ⟨S1x64, .f32⟩
  | 89 => ⟨S80000x64, .f32⟩
  | 90 => ⟨S80000x64, .f32⟩
  | 91 => ⟨S80000x64, .f32⟩
  | 92 => ⟨S_, .f32⟩
  | 93 => ⟨S_, .f32⟩
  | 94 => ⟨S80000x64, .f32⟩
  | 95 => ⟨S80000x64, .i1⟩
  | 96 => ⟨S_, .f32⟩
  | 97 => ⟨S80000x64, .f32⟩
  | 98 => ⟨S80000x64, .f32⟩
  | 99 => ⟨S80000x64, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x64, .f32⟩
  | 109 => ⟨S_, .f32⟩
  | 110 => ⟨S80000x64, .f32⟩
  | 111 => ⟨S1600000x1, .i32⟩
  | 112 => ⟨S80000x64, .f32⟩
  | 113 => ⟨S80000x1, .f32⟩
  | 114 => ⟨S80000x64, .f32⟩
  | 115 => ⟨S80000x64, .f32⟩
  | 116 => ⟨S1x1x64x64, .f32⟩
  | 117 => ⟨S64x64, .f32⟩
  | 118 => ⟨S64x64, .f32⟩
  | 119 => ⟨S80000x64, .f32⟩
  | 120 => ⟨S1x1x64, .f32⟩
  | 121 => ⟨S64, .f32⟩
  | 122 => ⟨S1x64, .f32⟩
  | 123 => ⟨S80000x64, .f32⟩
  | 124 => ⟨S80000x64, .f32⟩
  | 125 => ⟨S_, .f32⟩
  | 126 => ⟨S_, .f32⟩
  | 127 => ⟨S80000x64, .f32⟩
  | _ => ⟨S30000x64, .f32⟩

abbrev hbmTy0_1 (i : Nat) : BufTy := match i % 128 with
  | 0 => ⟨S80000x64, .i1⟩
  | 1 => ⟨S_, .f32⟩
  | 2 => ⟨S80000x64, .f32⟩
  | 3 => ⟨S80000x64, .f32⟩
  | 4 => ⟨S80000x64, .f32⟩
  | 5 => ⟨S1x1x64x64, .f32⟩
  | 6 => ⟨S64x64, .f32⟩
  | 7 => ⟨S64x64, .f32⟩
  | 8 => ⟨S80000x64, .f32⟩
  | 9 => ⟨S1x1x64, .f32⟩
  | 10 => ⟨S64, .f32⟩
  | 11 => ⟨S1x64, .f32⟩
  | 12 => ⟨S80000x64, .f32⟩
  | 13 => ⟨S80000x64, .f32⟩
  | 14 => ⟨S_, .f32⟩
  | 15 => ⟨S_, .f32⟩
  | 16 => ⟨S80000x64, .f32⟩
  | 17 => ⟨S80000x64, .i1⟩
  | 18 => ⟨S_, .f32⟩
  | 19 => ⟨S80000x64, .f32⟩
  | 20 => ⟨S80000x64, .f32⟩
  | 21 => ⟨S80000x64, .f32⟩
  | 22 => ⟨S80000x64, .f32⟩
  | 23 => ⟨S1x1x64x64, .f32⟩
  | 24 => ⟨S64x64, .f32⟩
  | 25 => ⟨S64x64, .f32⟩
  | 26 => ⟨S80000x64, .f32⟩
  | 27 => ⟨S1x1x64, .f32⟩
  | 28 => ⟨S64, .f32⟩
  | 29 => ⟨S1x64, .f32⟩
  | 30 => ⟨S80000x64, .f32⟩
  | 31 => ⟨S80000x64, .f32⟩
  | 32 => ⟨S80000x64, .f32⟩
  | 33 => ⟨S_, .f32⟩
  | 34 => ⟨S_, .f32⟩
  | 35 => ⟨S80000x64, .f32⟩
  | 36 => ⟨S80000x64, .i1⟩
  | 37 => ⟨S_, .f32⟩
  | 38 => ⟨S80000x64, .f32⟩
  | 39 => ⟨S80000x64, .f32⟩
  | 40 => ⟨S80000x64, .f32⟩
  | 41 => ⟨S80000x64, .f32⟩
  | 42 => ⟨S80000x64, .f32⟩
  | 43 => ⟨S_, .f32⟩
  | 44 => ⟨S80000, .f32⟩
  | 45 => ⟨S80000x1, .f32⟩
  | 46 => ⟨S80000x1, .f32⟩
  | 47 => ⟨S_, .f32⟩
  | 48 => ⟨S80000x1, .f32⟩
  | 49 => ⟨S80000x1, .f32⟩
  | 50 => ⟨S80000x64, .f32⟩
  | 51 => ⟨S80000x64, .f32⟩
  | 52 => ⟨S_, .f32⟩
  | 53 => ⟨S1600000, .f32⟩
  | 54 => ⟨S_, .f32⟩
  | 55 => ⟨S80000, .f32⟩
  | 56 => ⟨S1600000x1, .i32⟩
  | 57 => ⟨S80000, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x64, .f32⟩
  | 67 => ⟨S_, .f32⟩
  | 68 => ⟨S80000x64, .f32⟩
  | 69 => ⟨S1600000x1, .i32⟩
  | 70 => ⟨S80000x64, .f32⟩
  | 71 => ⟨S80000x1, .f32⟩
  | 72 => ⟨S80000x64, .f32⟩
  | 73 => ⟨S80000x64, .f32⟩
  | 74 => ⟨S1x1x64x64, .f32⟩
  | 75 => ⟨S64x64, .f32⟩
  | 76 => ⟨S64x64, .f32⟩
  | 77 => ⟨S80000x64, .f32⟩
  | 78 => ⟨S1x1x64, .f32⟩
  | 79 => ⟨S64, .f32⟩
  | 80 => ⟨S1x64, .f32⟩
  | 81 => ⟨S80000x64, .f32⟩
  | 82 => ⟨S80000x64, .f32⟩
  | 83 => ⟨S_, .f32⟩
  | 84 => ⟨S_, .f32⟩
  | 85 => ⟨S80000x64, .f32⟩
  | 86 => ⟨S80000x64, .i1⟩
  | 87 => ⟨S_, .f32⟩
  | 88 => ⟨S80000x64, .f32⟩
  | 89 => ⟨S80000x64, .f32⟩
  | 90 => ⟨S80000x64, .f32⟩
  | 91 => ⟨S1x1x64x64, .f32⟩
  | 92 => ⟨S64x64, .f32⟩
  | 93 => ⟨S64x64, .f32⟩
  | 94 => ⟨S80000x64, .f32⟩
  | 95 => ⟨S1x1x64, .f32⟩
  | 96 => ⟨S64, .f32⟩
  | 97 => ⟨S1x64, .f32⟩
  | 98 => ⟨S80000x64, .f32⟩
  | 99 => ⟨S80000x64, .f32⟩
  | 100 => ⟨S_, .f32⟩
  | 101 => ⟨S_, .f32⟩
  | 102 => ⟨S80000x64, .f32⟩
  | 103 => ⟨S80000x64, .i1⟩
  | 104 => ⟨S_, .f32⟩
  | 105 => ⟨S80000x64, .f32⟩
  | 106 => ⟨S80000x64, .f32⟩
  | 107 => ⟨S80000x64, .f32⟩
  | 108 => ⟨S80000x64, .f32⟩
  | 109 => ⟨S1x1x64x64, .f32⟩
  | 110 => ⟨S64x64, .f32⟩
  | 111 => ⟨S64x64, .f32⟩
  | 112 => ⟨S80000x64, .f32⟩
  | 113 => ⟨S1x1x64, .f32⟩
  | 114 => ⟨S64, .f32⟩
  | 115 => ⟨S1x64, .f32⟩
  | 116 => ⟨S80000x64, .f32⟩
  | 117 => ⟨S80000x64, .f32⟩
  | 118 => ⟨S80000x64, .f32⟩
  | 119 => ⟨S_, .f32⟩
  | 120 => ⟨S_, .f32⟩
  | 121 => ⟨S80000x64, .f32⟩
  | 122 => ⟨S80000x64, .i1⟩
  | 123 => ⟨S_, .f32⟩
  | 124 => ⟨S80000x64, .f32⟩
  | 125 => ⟨S80000x64, .f32⟩
  | 126 => ⟨S80000x64, .f32⟩
  | 127 => ⟨S_, .i32⟩
  | _ => ⟨S30000x64, .f32⟩

abbrev hbmTy0_2 (i : Nat) : BufTy := match i % 128 with
  | 0 => ⟨S1600000, .i32⟩
  | 1 => ⟨S1600000, .i1⟩
  | 2 => ⟨S_, .i32⟩
  | 3 => ⟨S1600000, .i32⟩
  | 4 => ⟨S1600000, .i32⟩
  | 5 => ⟨S1600000, .i32⟩
  | 6 => ⟨S1600000x1, .i32⟩
  | 7 => ⟨S1600000x64, .f32⟩
  | 8 => ⟨S_, .f32⟩
  | 9 => ⟨S80000x64, .f32⟩
  | 10 => ⟨S1600000x1, .i32⟩
  | 11 => ⟨S80000x64, .f32⟩
  | 12 => ⟨S80000x1, .f32⟩
  | 13 => ⟨S80000x64, .f32⟩
  | 14 => ⟨S80000x64, .f32⟩
  | 15 => ⟨S1x1x64x64, .f32⟩
  | 16 => ⟨S64x64, .f32⟩
  | 17 => ⟨S64x64, .f32⟩
  | 18 => ⟨S80000x64, .f32⟩
  | 19 => ⟨S1x1x64, .f32⟩
  | 20 => ⟨S64, .f32⟩
  | 21 => ⟨S1x64, .f32⟩
  | 22 => ⟨S80000x64, .f32⟩
  | 23 => ⟨S80000x64, .f32⟩
  | 24 => ⟨S_, .f32⟩
  | 25 => ⟨S_, .f32⟩
  | 26 => ⟨S80000x64, .f32⟩
  | 27 => ⟨S80000x64, .i1⟩
  | 28 => ⟨S_, .f32⟩
  | 29 => ⟨S80000x64, .f32⟩
  | 30 => ⟨S80000x64, .f32⟩
  | 31 => ⟨S80000x64, .f32⟩
  | 32 => ⟨S1x1x64x64, .f32⟩
  | 33 => ⟨S64x64, .f32⟩
  | 34 => ⟨S64x64, .f32⟩
  | 35 => ⟨S80000x64, .f32⟩
  | 36 => ⟨S1x1x64, .f32⟩
  | 37 => ⟨S64, .f32⟩
  | 38 => ⟨S1x64, .f32⟩
  | 39 => ⟨S80000x64, .f32⟩
  | 40 => ⟨S80000x64, .f32⟩
  | 41 => ⟨S_, .f32⟩
  | 42 => ⟨S_, .f32⟩
  | 43 => ⟨S80000x64, .f32⟩
  | 44 => ⟨S80000x64, .i1⟩
  | 45 => ⟨S_, .f32⟩
  | 46 => ⟨S80000x64, .f32⟩
  | 47 => ⟨S80000x64, .f32⟩
  | 48 => ⟨S80000x64, .f32⟩
  | 49 => ⟨S80000x64, .f32⟩
  | 50 => ⟨S1x1x64x64, .f32⟩
  | 51 => ⟨S64x64, .f32⟩
  | 52 => ⟨S64x64, .f32⟩
  | 53 => ⟨S80000x64, .f32⟩
  | 54 => ⟨S1x1x64, .f32⟩
  | 55 => ⟨S64, .f32⟩
  | 56 => ⟨S1x64, .f32⟩
  | 57 => ⟨S80000x64, .f32⟩
  | 58 => ⟨S80000x64, .f32⟩
  | 59 => ⟨S80000x64, .f32⟩
  | 60 => ⟨S_, .f32⟩
  | 61 => ⟨S_, .f32⟩
  | 62 => ⟨S80000x64, .f32⟩
  | 63 => ⟨S80000x64, .i1⟩
  | 64 => ⟨S_, .f32⟩
  | 65 => ⟨S80000x64, .f32⟩
  | 66 => ⟨S80000x64, .f32⟩
  | 67 => ⟨S80000x64, .f32⟩
  | 68 => ⟨S80000x64, .f32⟩
  | 69 => ⟨S_, .f32⟩
  | 70 => ⟨S80000x64, .f32⟩
  | 71 => ⟨S80000x64, .f32⟩
  | _ => ⟨S30000x64, .f32⟩

abbrev hbmTy (i : Nat) : BufTy := match i / 128 with
  | 0 => hbmTy0_0 i
  | 1 => hbmTy0_1 i
  | 2 => hbmTy0_2 i
  | _ => ⟨S30000x64, .f32⟩

abbrev bufTy : (tb : Table) → Fin (tcTables nBuf tb) → BufTy
  | .hbm, ⟨i, _⟩ => hbmTy i
  | _, _ => ⟨S30000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_v0 : Ref sig .tc := ⟨.hbm, 15, rfl⟩
abbrev main_call0_cst : Ref sig .tc := ⟨.hbm, 16, rfl⟩
abbrev main_call0_v1 : Ref sig .tc := ⟨.hbm, 17, rfl⟩
abbrev main_call0_v2 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_4 : Ref sig .tc := ⟨.hbm, 56, rfl⟩
abbrev main_call1_cst : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_5 : Ref sig .tc := ⟨.hbm, 73, rfl⟩
abbrev main_call2_cst : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_6 : Ref sig .tc := ⟨.hbm, 92, rfl⟩
abbrev main_call3_cst : Ref sig .tc := ⟨.hbm, 93, rfl⟩
abbrev main_call3_v0 : Ref sig .tc := ⟨.hbm, 94, rfl⟩
abbrev main_call3_v1 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_v58 : Ref sig .tc := ⟨.hbm, 99, rfl⟩
abbrev main_c_7 : Ref sig .tc := ⟨.hbm, 100, rfl⟩
abbrev main_v59 : Ref sig .tc := ⟨.hbm, 101, rfl⟩
abbrev main_v60 : Ref sig .tc := ⟨.hbm, 102, rfl⟩
abbrev main_c_8 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_cst_9 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_cst_10 : Ref sig .tc := ⟨.hbm, 125, rfl⟩
abbrev main_call4_cst : Ref sig .tc := ⟨.hbm, 126, rfl⟩
abbrev main_call4_v0 : Ref sig .tc := ⟨.hbm, 127, rfl⟩
abbrev main_call4_v1 : Ref sig .tc := ⟨.hbm, 128, rfl⟩
abbrev main_call4_v2 : Ref sig .tc := ⟨.hbm, 129, rfl⟩
abbrev main_call4_v3 : Ref sig .tc := ⟨.hbm, 130, rfl⟩
abbrev main_call4_v4 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_cst_11 : Ref sig .tc := ⟨.hbm, 142, rfl⟩
abbrev main_call5_cst : Ref sig .tc := ⟨.hbm, 143, rfl⟩
abbrev main_call5_v0 : Ref sig .tc := ⟨.hbm, 144, rfl⟩
abbrev main_call5_v1 : Ref sig .tc := ⟨.hbm, 145, rfl⟩
abbrev main_call5_v2 : Ref sig .tc := ⟨.hbm, 146, rfl⟩
abbrev main_call5_v3 : Ref sig .tc := ⟨.hbm, 147, rfl⟩
abbrev main_call5_v4 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_cst_12 : Ref sig .tc := ⟨.hbm, 161, rfl⟩
abbrev main_call6_cst : Ref sig .tc := ⟨.hbm, 162, rfl⟩
abbrev main_call6_v0 : Ref sig .tc := ⟨.hbm, 163, rfl⟩
abbrev main_call6_v1 : Ref sig .tc := ⟨.hbm, 164, rfl⟩
abbrev main_call6_v2 : Ref sig .tc := ⟨.hbm, 165, rfl⟩
abbrev main_call6_v3 : Ref sig .tc := ⟨.hbm, 166, rfl⟩
abbrev main_call6_v4 : Ref sig .tc := ⟨.hbm, 167, rfl⟩
abbrev main_v103 : Ref sig .tc := ⟨.hbm, 168, rfl⟩
abbrev main_v104 : Ref sig .tc := ⟨.hbm, 169, rfl⟩
abbrev main_call7_v0 : Ref sig .tc := ⟨.hbm, 170, rfl⟩
abbrev main_call7_cst : Ref sig .tc := ⟨.hbm, 171, rfl⟩
abbrev main_call7_v1 : Ref sig .tc := ⟨.hbm, 172, rfl⟩
abbrev main_call7_v2 : Ref sig .tc := ⟨.hbm, 173, rfl⟩
abbrev main_v105 : Ref sig .tc := ⟨.hbm, 174, rfl⟩
abbrev main_cst_13 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_v109 : Ref sig .tc := ⟨.hbm, 179, rfl⟩
abbrev main_cst_14 : Ref sig .tc := ⟨.hbm, 180, rfl⟩
abbrev main_v110 : Ref sig .tc := ⟨.hbm, 181, rfl⟩
abbrev main_cst_15 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_c_16 : Ref sig .tc := ⟨.hbm, 186, rfl⟩
abbrev main_v114 : Ref sig .tc := ⟨.hbm, 187, rfl⟩
abbrev main_v115 : Ref sig .tc := ⟨.hbm, 188, rfl⟩
abbrev main_c_17 : Ref sig .tc := ⟨.hbm, 189, rfl⟩
abbrev main_v116 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_v120 : Ref sig .tc := ⟨.hbm, 194, rfl⟩
abbrev main_cst_18 : Ref sig .tc := ⟨.hbm, 195, rfl⟩
abbrev main_v121 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_cst_19 : Ref sig .tc := ⟨.hbm, 211, rfl⟩
abbrev main_call8_cst : Ref sig .tc := ⟨.hbm, 212, rfl⟩
abbrev main_call8_v0 : Ref sig .tc := ⟨.hbm, 213, rfl⟩
abbrev main_call8_v1 : Ref sig .tc := ⟨.hbm, 214, rfl⟩
abbrev main_call8_v2 : Ref sig .tc := ⟨.hbm, 215, rfl⟩
abbrev main_call8_v3 : Ref sig .tc := ⟨.hbm, 216, rfl⟩
abbrev main_call8_v4 : Ref sig .tc := ⟨.hbm, 217, rfl⟩
abbrev main_v136 : Ref sig .tc := ⟨.hbm, 218, rfl⟩
abbrev main_v137 : Ref sig .tc := ⟨.hbm, 219, rfl⟩
abbrev main_v138 : Ref sig .tc := ⟨.hbm, 220, rfl⟩
abbrev main_v139 : Ref sig .tc := ⟨.hbm, 221, rfl⟩
abbrev main_v140 : Ref sig .tc := ⟨.hbm, 222, rfl⟩
abbrev main_v141 : Ref sig .tc := ⟨.hbm, 223, rfl⟩
abbrev main_v142 : Ref sig .tc := ⟨.hbm, 224, rfl⟩
abbrev main_v143 : Ref sig .tc := ⟨.hbm, 225, rfl⟩
abbrev main_v144 : Ref sig .tc := ⟨.hbm, 226, rfl⟩
abbrev main_v145 : Ref sig .tc := ⟨.hbm, 227, rfl⟩
abbrev main_cst_20 : Ref sig .tc := ⟨.hbm, 228, rfl⟩
abbrev main_call9_cst : Ref sig .tc := ⟨.hbm, 229, rfl⟩
abbrev main_call9_v0 : Ref sig .tc := ⟨.hbm, 230, rfl⟩
abbrev main_call9_v1 : Ref sig .tc := ⟨.hbm, 231, rfl⟩
abbrev main_call9_v2 : Ref sig .tc := ⟨.hbm, 232, rfl⟩
abbrev main_call9_v3 : Ref sig .tc := ⟨.hbm, 233, rfl⟩
abbrev main_call9_v4 : Ref sig .tc := ⟨.hbm, 234, rfl⟩
abbrev main_v146 : Ref sig .tc := ⟨.hbm, 235, rfl⟩
abbrev main_v147 : Ref sig .tc := ⟨.hbm, 236, rfl⟩
abbrev main_v148 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_v152 : Ref sig .tc := ⟨.hbm, 241, rfl⟩
abbrev main_v153 : Ref sig .tc := ⟨.hbm, 242, rfl⟩
abbrev main_v154 : Ref sig .tc := ⟨.hbm, 243, rfl⟩
abbrev main_v155 : Ref sig .tc := ⟨.hbm, 244, rfl⟩
abbrev main_v156 : Ref sig .tc := ⟨.hbm, 245, rfl⟩
abbrev main_v157 : Ref sig .tc := ⟨.hbm, 246, rfl⟩
abbrev main_cst_21 : Ref sig .tc := ⟨.hbm, 247, rfl⟩
abbrev main_call10_cst : Ref sig .tc := ⟨.hbm, 248, rfl⟩
abbrev main_call10_v0 : Ref sig .tc := ⟨.hbm, 249, rfl⟩
abbrev main_call10_v1 : Ref sig .tc := ⟨.hbm, 250, rfl⟩
abbrev main_call10_v2 : Ref sig .tc := ⟨.hbm, 251, rfl⟩
abbrev main_call10_v3 : Ref sig .tc := ⟨.hbm, 252, rfl⟩
abbrev main_call10_v4 : Ref sig .tc := ⟨.hbm, 253, rfl⟩
abbrev main_v158 : Ref sig .tc := ⟨.hbm, 254, rfl⟩
abbrev main_c_22 : Ref sig .tc := ⟨.hbm, 255, rfl⟩
abbrev main_v159 : Ref sig .tc := ⟨.hbm, 256, rfl⟩
abbrev main_v160 : Ref sig .tc := ⟨.hbm, 257, rfl⟩
abbrev main_c_23 : Ref sig .tc := ⟨.hbm, 258, rfl⟩
abbrev main_v161 : Ref sig .tc := ⟨.hbm, 259, rfl⟩
abbrev main_v162 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_cst_24 : Ref sig .tc := ⟨.hbm, 264, rfl⟩
abbrev main_v166 : Ref sig .tc := ⟨.hbm, 265, rfl⟩
abbrev main_v167 : Ref sig .tc := ⟨.hbm, 266, rfl⟩
abbrev main_v168 : Ref sig .tc := ⟨.hbm, 267, rfl⟩
abbrev main_v169 : Ref sig .tc := ⟨.hbm, 268, rfl⟩
abbrev main_v170 : Ref sig .tc := ⟨.hbm, 269, rfl⟩
abbrev main_v171 : Ref sig .tc := ⟨.hbm, 270, rfl⟩
abbrev main_v172 : Ref sig .tc := ⟨.hbm, 271, rfl⟩
abbrev main_v173 : Ref sig .tc := ⟨.hbm, 272, rfl⟩
abbrev main_v174 : Ref sig .tc := ⟨.hbm, 273, rfl⟩
abbrev main_v175 : Ref sig .tc := ⟨.hbm, 274, rfl⟩
abbrev main_v176 : Ref sig .tc := ⟨.hbm, 275, rfl⟩
abbrev main_v177 : Ref sig .tc := ⟨.hbm, 276, rfl⟩
abbrev main_v178 : Ref sig .tc := ⟨.hbm, 277, rfl⟩
abbrev main_v179 : Ref sig .tc := ⟨.hbm, 278, rfl⟩
abbrev main_v180 : Ref sig .tc := ⟨.hbm, 279, rfl⟩
abbrev main_cst_25 : Ref sig .tc := ⟨.hbm, 280, rfl⟩
abbrev main_call11_cst : Ref sig .tc := ⟨.hbm, 281, rfl⟩
abbrev main_call11_v0 : Ref sig .tc := ⟨.hbm, 282, rfl⟩
abbrev main_call11_v1 : Ref sig .tc := ⟨.hbm, 283, rfl⟩
abbrev main_call11_v2 : Ref sig .tc := ⟨.hbm, 284, rfl⟩
abbrev main_call11_v3 : Ref sig .tc := ⟨.hbm, 285, rfl⟩
abbrev main_call11_v4 : Ref sig .tc := ⟨.hbm, 286, rfl⟩
abbrev main_v181 : Ref sig .tc := ⟨.hbm, 287, rfl⟩
abbrev main_v182 : Ref sig .tc := ⟨.hbm, 288, rfl⟩
abbrev main_v183 : Ref sig .tc := ⟨.hbm, 289, rfl⟩
abbrev main_v184 : Ref sig .tc := ⟨.hbm, 290, rfl⟩
abbrev main_v185 : Ref sig .tc := ⟨.hbm, 291, rfl⟩
abbrev main_v186 : Ref sig .tc := ⟨.hbm, 292, rfl⟩
abbrev main_v187 : Ref sig .tc := ⟨.hbm, 293, rfl⟩
abbrev main_v188 : Ref sig .tc := ⟨.hbm, 294, rfl⟩
abbrev main_v189 : Ref sig .tc := ⟨.hbm, 295, rfl⟩
abbrev main_v190 : Ref sig .tc := ⟨.hbm, 296, rfl⟩
abbrev main_cst_26 : Ref sig .tc := ⟨.hbm, 297, rfl⟩
abbrev main_call12_cst : Ref sig .tc := ⟨.hbm, 298, rfl⟩
abbrev main_call12_v0 : Ref sig .tc := ⟨.hbm, 299, rfl⟩
abbrev main_call12_v1 : Ref sig .tc := ⟨.hbm, 300, rfl⟩
abbrev main_call12_v2 : Ref sig .tc := ⟨.hbm, 301, rfl⟩
abbrev main_call12_v3 : Ref sig .tc := ⟨.hbm, 302, rfl⟩
abbrev main_call12_v4 : Ref sig .tc := ⟨.hbm, 303, rfl⟩
abbrev main_v191 : Ref sig .tc := ⟨.hbm, 304, rfl⟩
abbrev main_v192 : Ref sig .tc := ⟨.hbm, 305, rfl⟩
abbrev main_v193 : Ref sig .tc := ⟨.hbm, 306, rfl⟩
abbrev main_v194 : Ref sig .tc := ⟨.hbm, 307, rfl⟩
abbrev main_v195 : Ref sig .tc := ⟨.hbm, 308, rfl⟩
abbrev main_v196 : Ref sig .tc := ⟨.hbm, 309, rfl⟩
abbrev main_v197 : Ref sig .tc := ⟨.hbm, 310, rfl⟩
abbrev main_v198 : Ref sig .tc := ⟨.hbm, 311, rfl⟩
abbrev main_v199 : Ref sig .tc := ⟨.hbm, 312, rfl⟩
abbrev main_v200 : Ref sig .tc := ⟨.hbm, 313, rfl⟩
abbrev main_v201 : Ref sig .tc := ⟨.hbm, 314, rfl⟩
abbrev main_v202 : Ref sig .tc := ⟨.hbm, 315, rfl⟩
abbrev main_cst_27 : Ref sig .tc := ⟨.hbm, 316, rfl⟩
abbrev main_call13_cst : Ref sig .tc := ⟨.hbm, 317, rfl⟩
abbrev main_call13_v0 : Ref sig .tc := ⟨.hbm, 318, rfl⟩
abbrev main_call13_v1 : Ref sig .tc := ⟨.hbm, 319, rfl⟩
abbrev main_call13_v2 : Ref sig .tc := ⟨.hbm, 320, rfl⟩
abbrev main_call13_v3 : Ref sig .tc := ⟨.hbm, 321, rfl⟩
abbrev main_call13_v4 : Ref sig .tc := ⟨.hbm, 322, rfl⟩
abbrev main_v203 : Ref sig .tc := ⟨.hbm, 323, rfl⟩
abbrev main_v204 : Ref sig .tc := ⟨.hbm, 324, rfl⟩
abbrev main_cst_28 : Ref sig .tc := ⟨.hbm, 325, rfl⟩
abbrev main_v205 : Ref sig .tc := ⟨.hbm, 326, rfl⟩
abbrev main_v206 : Ref sig .tc := ⟨.hbm, 327, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S50000x64_S30000x64_S80000x64_d0 : Shape.Concatenates [S50000x64, S30000x64] S80000x64 0
  reducesTo_S80000x64_S80000_d1 : S80000x64.ReducesTo [1] S80000
  h_S_ : 0 < S_.numel
  bcast_S80000_S80000x1_0 : S80000.BroadcastsInDim S80000x1 (![0] : Fin 1 → Fin S80000x1.rank)
  bcast_S_S80000x1 : S_.BroadcastsInDim S80000x1 (![] : Fin 0 → Fin S80000x1.rank)
  bcast_S80000x1_S80000x64_0_1 : S80000x1.BroadcastsInDim S80000x64 (![0, 1] : Fin 2 → Fin S80000x64.rank)
  bcast_S_S1600000 : S_.BroadcastsInDim S1600000 (![] : Fin 0 → Fin S1600000.rank)
  bcast_S_S80000 : S_.BroadcastsInDim S80000 (![] : Fin 0 → Fin S80000.rank)
  bcast_S1600000_S1600000x1_0 : S1600000.BroadcastsInDim S1600000x1 (![0] : Fin 1 → Fin S1600000x1.rank)
  bcast_S_S80000x64 : S_.BroadcastsInDim S80000x64 (![] : Fin 0 → Fin S80000x64.rank)
  slices_S2x3x64x64_S1x1x64x64_0_0_0_0 : S2x3x64x64.Slices ![0, 0, 0, 0] S1x1x64x64
  shapeCasts_S1x1x64x64_S64x64 : S1x1x64x64.ShapeCasts S64x64
  transposes_S64x64_S64x64_1_0 : S64x64.Transposes [1, 0] S64x64
  slices_S2x3x64_S1x1x64_0_0_0 : S2x3x64.Slices ![0, 0, 0] S1x1x64
  shapeCasts_S1x1x64_S64 : S1x1x64.ShapeCasts S64
  bcast_S64_S1x64_1 : S64.BroadcastsInDim S1x64 (![1] : Fin 1 → Fin S1x64.rank)
  bcast_S1x64_S80000x64_0_1 : S1x64.BroadcastsInDim S80000x64 (![0, 1] : Fin 2 → Fin S80000x64.rank)
  slices_S2x3x64x64_S1x1x64x64_0_1_0_0 : S2x3x64x64.Slices ![0, 1, 0, 0] S1x1x64x64
  slices_S2x3x64_S1x1x64_0_1_0 : S2x3x64.Slices ![0, 1, 0] S1x1x64
  slices_S2x3x64x64_S1x1x64x64_0_2_0_0 : S2x3x64x64.Slices ![0, 2, 0, 0] S1x1x64x64
  slices_S2x3x64_S1x1x64_0_2_0 : S2x3x64.Slices ![0, 2, 0] S1x1x64
  slices_S2x3x64x64_S1x1x64x64_1_0_0_0 : S2x3x64x64.Slices ![1, 0, 0, 0] S1x1x64x64
  slices_S2x3x64_S1x1x64_1_0_0 : S2x3x64.Slices ![1, 0, 0] S1x1x64
  slices_S2x3x64x64_S1x1x64x64_1_1_0_0 : S2x3x64x64.Slices ![1, 1, 0, 0] S1x1x64x64
  slices_S2x3x64_S1x1x64_1_1_0 : S2x3x64.Slices ![1, 1, 0] S1x1x64
  slices_S2x3x64x64_S1x1x64x64_1_2_0_0 : S2x3x64x64.Slices ![1, 2, 0, 0] S1x1x64x64
  slices_S2x3x64_S1x1x64_1_2_0 : S2x3x64.Slices ![1, 2, 0] S1x1x64
  scatter_S80000_S1600000x1_S1600000_n_0_0_1_wf : ScatterDims.WF S80000 S1600000x1 S1600000 [] [0] [0] 1
  gather_S80000x64_S1600000x1_S1600000x64_1_0_n_n_0_1_164_wf : GatherDims.WF S80000x64 S1600000x1 S1600000x64 [1] [0] [] [0] [] 1 ![1, 64]
  scatter_S80000x64_S1600000x1_S1600000x64_1_0_0_1_wf : ScatterDims.WF S80000x64 S1600000x1 S1600000x64 [1] [0] [0] 1
  dot_S80000x64_S64x64_S80000x64_1_0_0_1_n_n_wf : DotDims.WF S80000x64 S64x64 S80000x64 [1] [0] [0] [1] [] []

variable [Facts₀]

def scatter_S80000_S1600000x1_S1600000_n_0_0_1 : ScatterDims S80000 S1600000x1 S1600000 where
  updateWindowDims := []
  insertedWindowDims := [0]
  scatterDimsToOperandDims := [0]
  indexVectorDim := 1
  wf := scatter_S80000_S1600000x1_S1600000_n_0_0_1_wf
def gather_S80000x64_S1600000x1_S1600000x64_1_0_n_n_0_1_164 : GatherDims S80000x64 S1600000x1 S1600000x64 where
  offsetDims := [1]
  collapsedSliceDims := [0]
  operandBatchingDims := []
  startIndicesBatchingDims := []
  startIndexMap := [0]
  indexVectorDim := 1
  sliceSizes := ![1, 64]
  wf := gather_S80000x64_S1600000x1_S1600000x64_1_0_n_n_0_1_164_wf
def scatter_S80000x64_S1600000x1_S1600000x64_1_0_0_1 : ScatterDims S80000x64 S1600000x1 S1600000x64 where
  updateWindowDims := [1]
  insertedWindowDims := [0]
  scatterDimsToOperandDims := [0]
  indexVectorDim := 1
  wf := scatter_S80000x64_S1600000x1_S1600000x64_1_0_0_1_wf
def dot_S80000x64_S64x64_S80000x64_1_0_0_1_n_n : DotDims S80000x64 S64x64 S80000x64 where
  lhsContracting := [1]
  rhsContracting := [0]
  lhsNonContracting := [0]
  rhsNonContracting := [1]
  lhsBatch := []
  rhsBatch := []
  wf := dot_S80000x64_S64x64_S80000x64_1_0_0_1_n_n_wf

class Facts : Prop extends Facts₀ where

variable [Facts]
-- ==== Proof.KRun.lean ====
/-
  The idealized kernel program's run with its result named: every weakly fair execution of @main terminates,
  nothing faulting, with the argument arrays as launched and the result buffer at the value the chain of
  segment boundaries gives it (the buffer contents after the last stretch of host operations).
-/
import proofs.«109543_j54176717472163_1_alg».proof.Proof.Gen.KernelIdeal.Frame

set_option maxRecDepth 16384

noncomputable section

namespace Cert.KernelIdeal.HandRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the segments, read against the final state at the result buffer and at every argument. -/
theorem run_W : θ_run defs (onTc (τ := τ) (main (F := F))) ⟨m, fun _ => 0, ρ⟩ (fun r => ∀ c : Dev nD,
      r.2.mem ((c.tc : Thread nD τ).loc main_v79) = W13 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v79 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c)⟩)

end Cert.KernelIdeal.HandRun

end
-- ==== Proof.KOps.lean ====
/-
  The kernel program's host operations grouped into the stages of its computation, as functions of whole arrays
  at any float instance: the edge rows and columns, the in-degree count and its reciprocal laid out as a column,
  the row gather followed by the accumulating row scatter, the weight stack with its last two axes exchanged and
  one layer's three matrices and three bias vectors cut out of it, and the closing half sum.
-/
import proofs.«109543_j54176717472163_1_alg».proof.Proof.Gen.KernelIdeal

noncomputable section

namespace Cert.KernelIdeal.Hand

open Cert.KernelIdeal Cert.KernelIdeal.Gen Idealize.ShloMosaic

variable {F : FTy → Type} [FloatOps F]

/-- The first line of the edge table: the row (target) of every edge. -/
def rowOf (e : IVec S2x1600000 32) : IVec S1600000 32 :=
  shapeCast S1600000 (extractStridedSlice S1x1600000 ![0, 0] e slices_S2x1600000_S1x1600000_0_0) shapeCasts_S1x1600000_S1600000

/-- The second line: the column (source) of every edge. -/
def colOf (e : IVec S2x1600000 32) : IVec S1600000 32 :=
  shapeCast S1600000 (extractStridedSlice S1x1600000 ![1, 0] e slices_S2x1600000_S1x1600000_1_0) shapeCasts_S1x1600000_S1600000

/-- Edge rows as a column of row numbers. -/
def rowIdx (row : IVec S1600000 32) : IVec S1600000x1 32 :=
  broadcastInDim S1600000x1 ![0] bcast_S1600000_S1600000x1_0 row

/-- How many edges point at each node: ones accumulated at the edge rows. -/
def degOf (e : IVec S2x1600000 32) : FVec F S80000 .f32 :=
  Host.scatterAdd scatter_S80000_S1600000x1_S1600000_n_0_0_1
    (broadcastInDim S80000 ![] bcast_S_S80000 (constant S_ .f32 0x00000000#32)) (rowIdx (rowOf e))
    (broadcastInDim S1600000 ![] bcast_S_S1600000 (constant S_ .f32 0x3F800000#32))

/-- The reciprocal of the count, as a column. -/
def dinvOf (e : IVec S2x1600000 32) : FVec F S80000x1 .f32 :=
  shapeCast S80000x1 (Host.divf (broadcastInDim S80000 ![] bcast_S_S80000 (constant S_ .f32 0x3F800000#32)) (degOf e)) shapeCasts_S80000_S80000x1

/-- Edge columns with a negative number counted from the end, as a column of row numbers. -/
def colIdx (col : IVec S1600000 32) : IVec S1600000x1 32 :=
  broadcastInDim S1600000x1 ![0] bcast_S1600000_S1600000x1_0
    (select (cmpi .slt col (broadcastInDim S1600000 ![] bcast_S_S1600000 (constantI S_ 32 0#32)))
      (addi col (broadcastInDim S1600000 ![] bcast_S_S1600000 (constantI S_ 32 80000#32))) col)

/-- The sum, at each node, of the source rows of the edges pointing at it. -/
def rawRC (x : FVec F S80000x64 .f32) (row col : IVec S1600000 32) : FVec F S80000x64 .f32 :=
  Host.scatterAdd scatter_S80000x64_S1600000x1_S1600000x64_1_0_0_1
    (broadcastInDim S80000x64 ![] bcast_S_S80000x64 (constant S_ .f32 0x00000000#32)) (rowIdx row)
    (Host.gather gather_S80000x64_S1600000x1_S1600000x64_1_0_n_n_0_1_164 x (colIdx col))

/-- The features of all nodes: the preferences above the item features. -/
def catOf (pref : FVec F S50000x64 .f32) (feat : FVec F S30000x64 .f32) : FVec F S80000x64 .f32 :=
  concatenate S80000x64 0 [⟨S50000x64, pref⟩, ⟨S30000x64, feat⟩] concatenates_S50000x64_S30000x64_S80000x64_d0

/-- The weight stack with every matrix transposed. -/
def wtOf (W : FVec F S2x3x64x64 .f32) : FVec F S2x3x64x64 .f32 :=
  transpose S2x3x64x64 [0, 1, 3, 2] W transposes_S2x3x64x64_S2x3x64x64_0_1_3_2

/-- Layer 0's three matrices out of the transposed stack. -/
def wSlab0 (Wt : FVec F S2x3x64x64 .f32) : FVec F S3x64x64 .f32 :=
  shapeCast S3x64x64 (extractStridedSlice S1x3x64x64 ![0, 0, 0, 0] Wt slices_S2x3x64x64_S1x3x64x64_0_0_0_0) shapeCasts_S1x3x64x64_S3x64x64

/-- Layer 1's three matrices out of the transposed stack. -/
def wSlab1 (Wt : FVec F S2x3x64x64 .f32) : FVec F S3x64x64 .f32 :=
  shapeCast S3x64x64 (extractStridedSlice S1x3x64x64 ![1, 0, 0, 0] Wt slices_S2x3x64x64_S1x3x64x64_1_0_0_0) shapeCasts_S1x3x64x64_S3x64x64

/-- Layer 0's three bias vectors. -/
def bSlab0 (b : FVec F S2x3x64 .f32) : FVec F S3x64 .f32 :=
  shapeCast S3x64 (extractStridedSlice S1x3x64 ![0, 0, 0] b slices_S2x3x64_S1x3x64_0_0_0) shapeCasts_S1x3x64_S3x64

/-- Layer 1's three bias vectors. -/
def bSlab1 (b : FVec F S2x3x64 .f32) : FVec F S3x64 .f32 :=
  shapeCast S3x64 (extractStridedSlice S1x3x64 ![1, 0, 0] b slices_S2x3x64_S1x3x64_1_0_0) shapeCasts_S1x3x64_S3x64

/-- Half the sum of two tower outputs. -/
def halfSum (u v : FVec F S80000x64 .f32) : FVec F S80000x64 .f32 :=
  Host.divf (addf u v) (broadcastInDim S80000x64 ![] bcast_S_S80000x64 (constant S_ .f32 0x40000000#32))

end Cert.KernelIdeal.Hand

end
-- ==== Proof.KChain0.lean ====
/-
  What each stretch of the kernel program's host operations leaves in the buffers that matter later, as the
  stage functions of what the stretch found: a stretch is a straight line of pure operations, so each buffer
  after it holds the composed term of the buffers before it, and a buffer no operation of the stretch writes is
  left as found.
-/
import proofs.«109543_j54176717472163_1_alg».proof.Proof.Gen.KernelIdeal.Launch
import proofs.«109543_j54176717472163_1_alg».proof.Proof.KOps
import Idealize.ShloMosaic.Lib.StableHlo.Run

noncomputable section

namespace Cert.KernelIdeal.Chain

open Cert.KernelIdeal Cert.KernelIdeal.Gen Idealize.ShloMosaic Idealize.ShloMosaic.TcCoe Idealize.ShloMosaic.StableHlo

variable {F : FTy → Type} [FloatOps F] (V : Valuation τ sig (Elt F))

/-! ## The first stretch: the edge lines, the reciprocal count, tower v's node features -/

theorem ops0_v1 : after hostOps0 V (Proc.devRef .tc main_v1) = Hand.rowOf (V (Proc.devRef .tc main_arg9)) := by
  after_results; rfl
theorem ops0_v3 : after hostOps0 V (Proc.devRef .tc main_v3) = Hand.colOf (V (Proc.devRef .tc main_arg9)) := by
  after_results; rfl
theorem ops0_v10 : after hostOps0 V (Proc.devRef .tc main_v10) = Hand.dinvOf (V (Proc.devRef .tc main_arg9)) := by
  after_results; rfl
theorem ops0_v11 : after hostOps0 V (Proc.devRef .tc main_v11) = Hand.catOf (V (Proc.devRef .tc main_arg3)) (V (Proc.devRef .tc main_arg0)) := by
  after_results; rfl
theorem ops0_keep_arg1 : after hostOps0 V (Proc.devRef .tc main_arg1) = V (Proc.devRef .tc main_arg1) := by
  after_results
theorem ops0_keep_arg2 : after hostOps0 V (Proc.devRef .tc main_arg2) = V (Proc.devRef .tc main_arg2) := by
  after_results
theorem ops0_keep_arg4 : after hostOps0 V (Proc.devRef .tc main_arg4) = V (Proc.devRef .tc main_arg4) := by
  after_results
theorem ops0_keep_arg5 : after hostOps0 V (Proc.devRef .tc main_arg5) = V (Proc.devRef .tc main_arg5) := by
  after_results
theorem ops0_keep_arg6 : after hostOps0 V (Proc.devRef .tc main_arg6) = V (Proc.devRef .tc main_arg6) := by
  after_results
theorem ops0_keep_arg7 : after hostOps0 V (Proc.devRef .tc main_arg7) = V (Proc.devRef .tc main_arg7) := by
  after_results
theorem ops0_keep_arg8 : after hostOps0 V (Proc.devRef .tc main_arg8) = V (Proc.devRef .tc main_arg8) := by
  after_results

/-! ## Before the first layer of tower v: the scattered gather of the scaled features, layer 0's weights -/

set_option maxHeartbeats 1000000 in
attribute [local irreducible] Host.scatterAdd Host.gather in
theorem ops1_v23 : after hostOps1 V (Proc.devRef .tc main_v23) = Hand.rawRC (V (Proc.devRef .tc main_v12)) (V (Proc.devRef .tc main_v1)) (V (Proc.devRef .tc main_v3)) := by
  after_results_simp
  unfold Hand.rawRC Hand.rowIdx Hand.colIdx
  rfl
theorem ops1_v13 : after hostOps1 V (Proc.devRef .tc main_v13) = Hand.wtOf (V (Proc.devRef .tc main_arg5)) := by
  after_results; rfl
theorem ops1_v25 : after hostOps1 V (Proc.devRef .tc main_v25) = Hand.wSlab0 (Hand.wtOf (V (Proc.devRef .tc main_arg5))) := by
  after_results; rfl
theorem ops1_v27 : after hostOps1 V (Proc.devRef .tc main_v27) = Hand.bSlab0 (V (Proc.devRef .tc main_arg6)) := by
  after_results; rfl
theorem ops1_keep_v1 : after hostOps1 V (Proc.devRef .tc main_v1) = V (Proc.devRef .tc main_v1) := by
  after_results
theorem ops1_keep_v3 : after hostOps1 V (Proc.devRef .tc main_v3) = V (Proc.devRef .tc main_v3) := by
  after_results
theorem ops1_keep_v10 : after hostOps1 V (Proc.devRef .tc main_v10) = V (Proc.devRef .tc main_v10) := by
  after_results
theorem ops1_keep_v12 : after hostOps1 V (Proc.devRef .tc main_v12) = V (Proc.devRef .tc main_v12) := by
  after_results
theorem ops1_keep_arg1 : after hostOps1 V (Proc.devRef .tc main_arg1) = V (Proc.devRef .tc main_arg1) := by
  after_results
theorem ops1_keep_arg2 : after hostOps1 V (Proc.devRef .tc main_arg2) = V (Proc.devRef .tc main_arg2) := by
  after_results
theorem ops1_keep_arg4 : after hostOps1 V (Proc.devRef .tc main_arg4) = V (Proc.devRef .tc main_arg4) := by
  after_results
theorem ops1_keep_arg6 : after hostOps1 V (Proc.devRef .tc main_arg6) = V (Proc.devRef .tc main_arg6) := by
  after_results
theorem ops1_keep_arg7 : after hostOps1 V (Proc.devRef .tc main_arg7) = V (Proc.devRef .tc main_arg7) := by
  after_results
theorem ops1_keep_arg8 : after hostOps1 V (Proc.devRef .tc main_arg8) = V (Proc.devRef .tc main_arg8) := by
  after_results

/-! ## Before the second layer of tower v -/

set_option maxHeartbeats 1000000 in
attribute [local irreducible] Host.scatterAdd Host.gather in
theorem ops2_v38 : after hostOps2 V (Proc.devRef .tc main_v38) = Hand.rawRC (V (Proc.devRef .tc main_v28)) (V (Proc.devRef .tc main_v1)) (V (Proc.devRef .tc main_v3)) := by
  after_results_simp
  unfold Hand.rawRC Hand.rowIdx Hand.colIdx
  rfl
theorem ops2_v40 : after hostOps2 V (Proc.devRef .tc main_v40) = Hand.wSlab1 (V (Proc.devRef .tc main_v13)) := by
  after_results; rfl
theorem ops2_v42 : after hostOps2 V (Proc.devRef .tc main_v42) = Hand.bSlab1 (V (Proc.devRef .tc main_arg6)) := by
  after_results; rfl
theorem ops2_keep_v1 : after hostOps2 V (Proc.devRef .tc main_v1) = V (Proc.devRef .tc main_v1) := by
  after_results
theorem ops2_keep_v3 : after hostOps2 V (Proc.devRef .tc main_v3) = V (Proc.devRef .tc main_v3) := by
  after_results
theorem ops2_keep_v10 : after hostOps2 V (Proc.devRef .tc main_v10) = V (Proc.devRef .tc main_v10) := by
  after_results
theorem ops2_keep_v28 : after hostOps2 V (Proc.devRef .tc main_v28) = V (Proc.devRef .tc main_v28) := by
  after_results
theorem ops2_keep_arg1 : after hostOps2 V (Proc.devRef .tc main_arg1) = V (Proc.devRef .tc main_arg1) := by
  after_results
theorem ops2_keep_arg2 : after hostOps2 V (Proc.devRef .tc main_arg2) = V (Proc.devRef .tc main_arg2) := by
  after_results
theorem ops2_keep_arg4 : after hostOps2 V (Proc.devRef .tc main_arg4) = V (Proc.devRef .tc main_arg4) := by
  after_results
theorem ops2_keep_arg7 : after hostOps2 V (Proc.devRef .tc main_arg7) = V (Proc.devRef .tc main_arg7) := by
  after_results
theorem ops2_keep_arg8 : after hostOps2 V (Proc.devRef .tc main_arg8) = V (Proc.devRef .tc main_arg8) := by
  after_results

/-! ## Tower t's node features -/

theorem ops3_v44 : after hostOps3 V (Proc.devRef .tc main_v44) = Hand.catOf (V (Proc.devRef .tc main_arg4)) (V (Proc.devRef .tc main_arg1)) := by
  after_results; rfl
theorem ops3_keep_v1 : after hostOps3 V (Proc.devRef .tc main_v1) = V (Proc.devRef .tc main_v1) := by
  after_results
theorem ops3_keep_v3 : after hostOps3 V (Proc.devRef .tc main_v3) = V (Proc.devRef .tc main_v3) := by
  after_results
theorem ops3_keep_v10 : after hostOps3 V (Proc.devRef .tc main_v10) = V (Proc.devRef .tc main_v10) := by
  after_results
theorem ops3_keep_v43 : after hostOps3 V (Proc.devRef .tc main_v43) = V (Proc.devRef .tc main_v43) := by
  after_results
theorem ops3_keep_arg2 : after hostOps3 V (Proc.devRef .tc main_arg2) = V (Proc.devRef .tc main_arg2) := by
  after_results
theorem ops3_keep_arg7 : after hostOps3 V (Proc.devRef .tc main_arg7) = V (Proc.devRef .tc main_arg7) := by
  after_results
theorem ops3_keep_arg8 : after hostOps3 V (Proc.devRef .tc main_arg8) = V (Proc.devRef .tc main_arg8) := by
  after_results

/-! ## Before the first layer of tower t -/

set_option maxHeartbeats 1000000 in
attribute [local irreducible] Host.scatterAdd Host.gather in
theorem ops4_v56 : after hostOps4 V (Proc.devRef .tc main_v56) = Hand.rawRC (V (Proc.devRef .tc main_v45)) (V (Proc.devRef .tc main_v1)) (V (Proc.devRef .tc main_v3)) := by
  after_results_simp
  unfold Hand.rawRC Hand.rowIdx Hand.colIdx
  rfl
theorem ops4_v46 : after hostOps4 V (Proc.devRef .tc main_v46) = Hand.wtOf (V (Proc.devRef .tc main_arg7)) := by
  after_results; rfl
theorem ops4_v58 : after hostOps4 V (Proc.devRef .tc main_v58) = Hand.wSlab0 (Hand.wtOf (V (Proc.devRef .tc main_arg7))) := by
  after_results; rfl
theorem ops4_v60 : after hostOps4 V (Proc.devRef .tc main_v60) = Hand.bSlab0 (V (Proc.devRef .tc main_arg8)) := by
  after_results; rfl
theorem ops4_keep_v1 : after hostOps4 V (Proc.devRef .tc main_v1) = V (Proc.devRef .tc main_v1) := by
  after_results
theorem ops4_keep_v3 : after hostOps4 V (Proc.devRef .tc main_v3) = V (Proc.devRef .tc main_v3) := by
  after_results
theorem ops4_keep_v10 : after hostOps4 V (Proc.devRef .tc main_v10) = V (Proc.devRef .tc main_v10) := by
  after_results
theorem ops4_keep_v43 : after hostOps4 V (Proc.devRef .tc main_v43) = V (Proc.devRef .tc main_v43) := by
  after_results
theorem ops4_keep_v45 : after hostOps4 V (Proc.devRef .tc main_v45) = V (Proc.devRef .tc main_v45) := by
  after_results
theorem ops4_keep_arg2 : after hostOps4 V (Proc.devRef .tc main_arg2) = V (Proc.devRef .tc main_arg2) := by
  after_results
theorem ops4_keep_arg8 : after hostOps4 V (Proc.devRef .tc main_arg8) = V (Proc.devRef .tc main_arg8) := by
  after_results

/-! ## Before the second layer of tower t -/

set_option maxHeartbeats 1000000 in
attribute [local irreducible] Host.scatterAdd Host.gather in
theorem ops5_v71 : after hostOps5 V (Proc.devRef .tc main_v71) = Hand.rawRC (V (Proc.devRef .tc main_v61)) (V (Proc.devRef .tc main_v1)) (V (Proc.devRef .tc main_v3)) := by
  after_results_simp
  unfold Hand.rawRC Hand.rowIdx Hand.colIdx
  rfl
theorem ops5_v73 : after hostOps5 V (Proc.devRef .tc main_v73) = Hand.wSlab1 (V (Proc.devRef .tc main_v46)) := by
  after_results; rfl
theorem ops5_v75 : after hostOps5 V (Proc.devRef .tc main_v75) = Hand.bSlab1 (V (Proc.devRef .tc main_arg8)) := by
  after_results; rfl
theorem ops5_keep_v10 : after hostOps5 V (Proc.devRef .tc main_v10) = V (Proc.devRef .tc main_v10) := by
  after_results
theorem ops5_keep_v43 : after hostOps5 V (Proc.devRef .tc main_v43) = V (Proc.devRef .tc main_v43) := by
  after_results
theorem ops5_keep_v61 : after hostOps5 V (Proc.devRef .tc main_v61) = V (Proc.devRef .tc main_v61) := by
  after_results
theorem ops5_keep_arg2 : after hostOps5 V (Proc.devRef .tc main_arg2) = V (Proc.devRef .tc main_arg2) := by
  after_results

/-! ## The closing half sum -/

theorem ops6_v79 : after hostOps6 V (Proc.devRef .tc main_v79) = Hand.halfSum (V (Proc.devRef .tc main_v43)) (V (Proc.devRef .tc main_v76)) := by
  after_results; rfl

end Cert.KernelIdeal.Chain

end
-- ==== Proof.Spec.lean ====
/-
  Two towers of a two-layer graph convolution on the extended reals, entry by entry.

  A node table `x : [n, d]` is first scaled row by row to unit Euclidean length (the length guarded from below by a
  small positive word), then passed twice through a layer that reads, at row `r`, the row `r` of three tables
  — the neighbourhood mean `agg`, the current features `x`, the identity embedding — and three square weight
  matrices stored output-major (`w (j, k)` multiplies input coordinate `k` into output coordinate `j`):

      h     = leaky (agg · w0ᵀ + b0)
      x̂     = leaky (x · w1ᵀ + b1) + id
      out   = leaky ((h · w2ᵀ + b2) + x̂)

  Every sum is a finite sum in the commutative monoid of the extended reals, so neither its order nor its tiling
  matters, and nothing here needs an entry to be finite.
-/
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx

/-- A table of `n` rows and `d` columns of extended reals. -/
abbrev Mat (n d : ℕ) : Type := (⟨2, ![n, d]⟩ : Shape).Idx → EReal

/-- The lower guard of a row's length. -/
def eps : EReal := Ideal.ofBits .f32 0x2B8CBCCC#32
/-- The slope of the leaky rectifier on the negative side. -/
def slope : EReal := Ideal.ofBits .f32 0x3C23D70A#32
/-- The value of the zero word. -/
def zeroW : EReal := Ideal.ofBits .f32 0x00000000#32

/-- The leaky rectifier: the argument where it is at least the zero word's value, `slope` times it elsewhere. -/
def leaky (v : EReal) : EReal := Scalar.select (Ideal.cmp .oge v zeroW) v (slope * v)

/-- The sum of the squares of row `r`. -/
def sumsq {n d : ℕ} (x : Mat n d) (r : Fin n) : EReal := ∑ k : Fin d, x (ix2 r k) * x (ix2 r k)

/-- Every row divided by its guarded Euclidean length. -/
def normRows {n d : ℕ} (x : Mat n d) : Mat n d :=
  fun i => Ideal.div (x i) (max (Ideal.sqrt (sumsq x (i 0))) eps)

/-- An affine map with the weight stored output-major: entry (r, j) is `∑ k, a (r, k) * w (j, k) + b j`. -/
def lin {n K d : ℕ} (a : Mat n K) (w : Mat d K) (b : Fin d → EReal) : Mat n d :=
  fun i => (∑ k : Fin K, a (ix2 (i 0) k) * w (ix2 (i 1) k)) + b (i 1)

/-- One layer. -/
def layer {n d : ℕ} (agg x idm : Mat n d) (w0 w1 w2 : Mat d d) (b0 b1 b2 : Fin d → EReal) : Mat n d :=
  fun i => leaky (lin (fun i' => leaky (lin agg w0 b0 i')) w2 b2 i + (leaky (lin x w1 b1 i) + idm i))

/-- An entry of `lin` reads one row of the left operand. -/
theorem lin_congr {n n' K d : ℕ} (a : Mat n K) (a' : Mat n' K) (w : Mat d K) (b : Fin d → EReal) (r : Fin n) (r' : Fin n') (j : Fin d)
    (ha : ∀ k : Fin K, a (ix2 r k) = a' (ix2 r' k)) : lin a w b (ix2 r j) = lin a' w b (ix2 r' j) := by
  unfold lin
  exact congrArg (· + b j) (Finset.sum_congr rfl fun k _ => congrArg (· * w (ix2 j k)) (ha k))

/-- An entry of a layer reads row `r` of each of its three tables. -/
theorem layer_congr {n n' d : ℕ} (agg x idm : Mat n d) (agg' x' idm' : Mat n' d) (w0 w1 w2 : Mat d d) (b0 b1 b2 : Fin d → EReal)
    (r : Fin n) (r' : Fin n') (j : Fin d)
    (hagg : ∀ k : Fin d, agg (ix2 r k) = agg' (ix2 r' k)) (hx : ∀ k : Fin d, x (ix2 r k) = x' (ix2 r' k))
    (hid : idm (ix2 r j) = idm' (ix2 r' j)) :
    layer agg x idm w0 w1 w2 b0 b1 b2 (ix2 r j) = layer agg' x' idm' w0 w1 w2 b0 b1 b2 (ix2 r' j) := by
  unfold layer
  have h1 : lin x w1 b1 (ix2 r j) = lin x' w1 b1 (ix2 r' j) := lin_congr x x' w1 b1 r r' j hx
  have h0 : ∀ k : Fin d, (fun i' => leaky (lin agg w0 b0 i')) (ix2 r k) = (fun i' => leaky (lin agg' w0 b0 i')) (ix2 r' k) :=
    fun k => congrArg leaky (lin_congr agg agg' w0 b0 r r' k hagg)
  have h2 := lin_congr (fun i' => leaky (lin agg w0 b0 i')) (fun i' => leaky (lin agg' w0 b0 i')) w2 b2 r r' j h0
  rw [h1, h2, hid]

/-- Scaling a row reads that row only. -/
theorem normRows_congr {n n' d : ℕ} (x : Mat n d) (x' : Mat n' d) (r : Fin n) (r' : Fin n') (j : Fin d)
    (hx : ∀ k : Fin d, x (ix2 r k) = x' (ix2 r' k)) : normRows x (ix2 r j) = normRows x' (ix2 r' j) := by
  unfold normRows sumsq
  have hs : (∑ k : Fin d, x (ix2 r k) * x (ix2 r k)) = ∑ k : Fin d, x' (ix2 r' k) * x' (ix2 r' k) :=
    Finset.sum_congr rfl fun k _ => by rw [hx k]
  show Ideal.div (x (ix2 r j)) (max (Ideal.sqrt (∑ k : Fin d, x (ix2 r k) * x (ix2 r k))) eps) = _
  rw [hs, hx j]
  rfl

/-- A product with the reciprocal of a non-zero divisor is the quotient. -/
theorem mul_div_one (a d : EReal) (hd : d ≠ 0) : a * Ideal.div 1 d = Ideal.div a d := by
  unfold Ideal.div
  rw [if_neg hd, if_neg hd, one_mul]

end Cert.Gcn

end
-- ==== Proof.KRegLayerDef.lean ====
/-
  One layer as a function of the six tables a layer region of the kernel program reads: the neighbourhood sums,
  the reciprocal in-degree as a column, the current features, the identity embedding, the stack of three
  transposed weight matrices and the stack of three bias vectors. The neighbourhood mean is the sum times the
  reciprocal count of its row; the weight stack holds matrix `s` as (s, k, j): input coordinate `k` into output `j`.
-/
import proofs.«109543_j54176717472163_1_alg».proof.KernelIdeal
import proofs.«109543_j54176717472163_1_alg».proof.Proof.Spec
import Idealize.ShloMosaic.Lib.ValueIdx

noncomputable section

namespace Cert.KernelIdeal.Reg

open Cert.KernelIdeal Idealize.ShloMosaic Idealize.ShloMosaic.ValueIdx

/-- The offsets of a whole-buffer access, however they are spelt, are zero. -/
theorem hz2' : (![0, 0] : Fin 2 → Nat) = fun _ => 0 := funext fun a => by fin_cases a <;> rfl

/-- The layer of a region's six input tables. -/
def layerTab (raw : S80000x64.Idx → EReal) (dinv : S80000x1.Idx → EReal) (x idm : S80000x64.Idx → EReal)
    (ws : S3x64x64.Idx → EReal) (bs : S3x64.Idx → EReal) : Cert.Gcn.Mat 80000 64 :=
  Cert.Gcn.layer (fun i => raw i * dinv (ix2 (i 0) 0)) x idm
    (fun a => ws (ix3 0 (a 1) (a 0))) (fun a => ws (ix3 1 (a 1) (a 0))) (fun a => ws (ix3 2 (a 1) (a 0)))
    (fun j => bs (ix2 0 j)) (fun j => bs (ix2 1 j)) (fun j => bs (ix2 2 j))

end Cert.KernelIdeal.Reg

end
-- ==== Proof.KTower.lean ====
/-
  A tower of the kernel program as functions of its argument arrays: the scaled node features, then two layers,
  each fed the accumulated gather of the previous features along the edges, the reciprocal in-degree column and
  that layer's weights and biases cut out of the transposed stack.
-/
import proofs.«109543_j54176717472163_1_alg».proof.Proof.KOps
import proofs.«109543_j54176717472163_1_alg».proof.Proof.KRegLayerDef

noncomputable section

namespace Cert.KernelIdeal.Chain

open Cert.KernelIdeal Idealize.ShloMosaic

/-- A tower's features before the first layer: the rows of the stacked preferences and item features, scaled. -/
def x0K (pref : S50000x64.Idx → EReal) (feat : S30000x64.Idx → EReal) : Cert.Gcn.Mat 80000 64 :=
  Cert.Gcn.normRows (Hand.catOf (F := Ideal) pref feat)

/-- After the first layer. -/
def x1K (pref : S50000x64.Idx → EReal) (feat : S30000x64.Idx → EReal) (idm : S80000x64.Idx → EReal)
    (W : S2x3x64x64.Idx → EReal) (b : S2x3x64.Idx → EReal) (e : IVec S2x1600000 32) : Cert.Gcn.Mat 80000 64 :=
  Reg.layerTab (Hand.rawRC (F := Ideal) (x0K pref feat) (Hand.rowOf e) (Hand.colOf e)) (Hand.dinvOf (F := Ideal) e) (x0K pref feat) idm
    (Hand.wSlab0 (F := Ideal) (Hand.wtOf W)) (Hand.bSlab0 (F := Ideal) b)

/-- After the second layer: the tower's output. -/
def x2K (pref : S50000x64.Idx → EReal) (feat : S30000x64.Idx → EReal) (idm : S80000x64.Idx → EReal)
    (W : S2x3x64x64.Idx → EReal) (b : S2x3x64.Idx → EReal) (e : IVec S2x1600000 32) : Cert.Gcn.Mat 80000 64 :=
  Reg.layerTab (Hand.rawRC (F := Ideal) (x1K pref feat idm W b e) (Hand.rowOf e) (Hand.colOf e)) (Hand.dinvOf (F := Ideal) e) (x1K pref feat idm W b e) idm
    (Hand.wSlab1 (F := Ideal) (Hand.wtOf W)) (Hand.bSlab1 (F := Ideal) b)

end Cert.KernelIdeal.Chain

end
-- ==== Proof.LibAxisSum.lean ====
/-
  A sum along one axis of a rank-2 array, read at an index on the extended reals.

  A vector unit's additive reduction of `src : [n, d]` along its last axis is, at row `r`, the finite sum
  `∑ k, src (r, k)`; along its first axis it is, at column `j`, `∑ r, src (r, j)`. The accumulator word is the
  neutral element of addition, so no initial value appears, and a finite sum on the extended reals is a sum in a
  commutative monoid: no order or finiteness matters.
-/
import Idealize.ShloMosaic.PureOps.Ideal
import Idealize.ShloMosaic.PureOps.Ideal.Laws
import Idealize.ShloMosaic.Lib.ValueIdx

noncomputable section

namespace Cert.LibAxisSum

open Idealize.ShloMosaic Idealize.ShloMosaic.ValueIdx

/-- The reduction of `[n, d]` along its last axis, at row `r`, is the sum of that row. -/
theorem sum_last {n d : ℕ} {φ : FTy} (src : FVec Ideal ⟨2, ![n, d]⟩ φ) (acc : BitVec φ.bits)
    (h : Shape.Reduces ⟨2, ![n, d]⟩ [1] ⟨1, ![n]⟩) (hφ : FKind.Formats φ) (hacc : acc = FKind.add.neutral φ hφ) (r : Fin n) :
    multiReduction .add [1] ⟨1, ![n]⟩ src acc h hφ hacc (ix1 r) = ∑ k : Fin d, src (ix2 r k) := by
  refine (Ideal.multiReduction_add_single src acc h hφ hacc (ix1 r)).trans ?_
  refine Finset.sum_congr rfl fun k _ => congrArg src (funext fun a => Fin.ext ?_)
  match a with
  | ⟨0, _⟩ => rfl
  | ⟨1, _⟩ => rfl

/-- The reduction of `[n, d]` along its first axis, at column `j`, is the sum of that column. -/
theorem sum_first {n d : ℕ} {φ : FTy} (src : FVec Ideal ⟨2, ![n, d]⟩ φ) (acc : BitVec φ.bits)
    (h : Shape.Reduces ⟨2, ![n, d]⟩ [0] ⟨1, ![d]⟩) (hφ : FKind.Formats φ) (hacc : acc = FKind.add.neutral φ hφ) (j : Fin d) :
    multiReduction .add [0] ⟨1, ![d]⟩ src acc h hφ hacc (ix1 j) = ∑ r : Fin n, src (ix2 r j) := by
  refine (Ideal.multiReduction_add_single src acc h hφ hacc (ix1 j)).trans ?_
  refine Finset.sum_congr rfl fun r _ => congrArg src (funext fun a => Fin.ext ?_)
  match a with
  | ⟨0, _⟩ => rfl
  | ⟨1, _⟩ => rfl

end Cert.LibAxisSum

end
-- ==== Proof.KPayNorm.lean ====
/-
  The row-scaling kernel body, entry by entry, on the extended reals.

  The body divides every entry of a `[4000, 64]` block by the guarded Euclidean length of its row: the lane sum of the
  squares is a finite sum, the keep-dims column and its broadcast along the lanes read one entry of their operand, and
  the square root, the maximum with the guard word and the quotient act entry by entry.
-/
import proofs.«109543_j54176717472163_1_alg».proof.Proof.Spec
import proofs.«109543_j54176717472163_1_alg».proof.Proof.Gen.KernelIdeal.Skeleton
import proofs.«109543_j54176717472163_1_alg».proof.Proof.LibAxisSum
import Idealize.ShloMosaic.Lib.ValueLayout

noncomputable section

namespace Cert.KernelIdeal.Pay

open Idealize.ShloMosaic Idealize.ShloMosaic.ValueIdx Cert.KernelIdeal

variable {α : Type}

/-! ## The row scaling -/

/-- A vector `[n]` cast to the column `[n, 1]` reads, at `(r, u)`, the vector at `r`. -/
theorem col_cast {n : ℕ} (x : (⟨1, ![n]⟩ : Shape).Idx → α) (h : (⟨1, ![n]⟩ : Shape).ShapeCasts ⟨2, ![n, 1]⟩)
    (r : Fin n) (u : Fin 1) : shapeCast ⟨2, ![n, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[n, 1]` broadcast along `d` lanes reads, at `(r, c)`, the column at `r`. -/
theorem col_bcast {n d : ℕ} (x : (⟨2, ![n, 1]⟩ : Shape).Idx → α) (h : (⟨2, ![n, 1]⟩ : Shape).Broadcasts ⟨2, ![n, d]⟩)
    (r : Fin n) (c : Fin d) : broadcastTo ⟨2, ![n, d]⟩ x h (ix2 r c) = x (ix2 r (0 : Fin 1)) := by
  refine broadcastTo_apply x h (ix2 r c) (ix2 r (0 : Fin 1)) fun ax => ?_
  match ax with
  | ⟨0, _⟩ =>
    show r.val = if n = 1 then 0 else r.val
    split
    · have := r.isLt; omega
    · rfl
  | ⟨1, _⟩ => rfl

/-- The row-scaling body, entry by entry: each entry divided by the guarded Euclidean length of its row. -/
theorem pay_norm (x0 : Vec Ideal S4000x64 .f32) (p : Fin 4000) (q : Fin 64) :
    Gen.k0_pay1 (F := Ideal) x0 (ix2 p q) = Cert.Gcn.normRows x0 (ix2 p q) := by
  have hx : shapeCast S4000x64 x0 Gen.shapeCasts_S4000x64_S4000x64 = x0 := shapeCast_self x0 _
  unfold Gen.k0_pay1
  simp only [hx]
  refine (divf_apply _ _ _).trans ?_
  unfold Cert.Gcn.normRows
  refine congrArg (Ideal.div (x0 (ix2 p q))) ?_
  refine (col_bcast _ _ p q).trans ?_
  refine (maximumf_apply _ _ _).trans ?_
  refine congrArg₂ max ?_ rfl
  show Ideal.sqrt (shapeCast S4000x1 _ _ (ix2 p (0 : Fin 1))) = _
  refine congrArg Ideal.sqrt ?_
  refine (col_cast _ _ p 0).trans ?_
  exact Cert.LibAxisSum.sum_last _ _ _ _ _ p

/-- The second tower's row-scaling body is the first's, word for word. -/
theorem k3_pay1_eq : @Gen.k3_pay1 = @Gen.k0_pay1 := rfl

/-- The second tower's row-scaling body, entry by entry. -/
theorem pay_norm3 (x0 : Vec Ideal S4000x64 .f32) (p : Fin 4000) (q : Fin 64) :
    Gen.k3_pay1 (F := Ideal) x0 (ix2 p q) = Cert.Gcn.normRows x0 (ix2 p q) :=
  pay_norm x0 p q

end Cert.KernelIdeal.Pay

end
-- ==== Proof.KRegNorm.lean ====
/-
  The two row-scaling regions of the kernel program, from blocks to tables: each grid point reads one block of
  4000 rows of the input table and writes the block of the same rows of the output table, every row divided by
  its guarded Euclidean length; a row's scaling reads that row only, the twenty blocks tile the table, so the
  output table after the region is the row-scaled input table.
-/
import proofs.«109543_j54176717472163_1_alg».proof.Proof.Gen.KernelIdeal.Frame
import proofs.«109543_j54176717472163_1_alg».proof.Proof.Spec
import proofs.«109543_j54176717472163_1_alg».proof.Proof.KPayNorm
import Idealize.ShloMosaic.Lib.Pipeline.Value
import Idealize.ShloMosaic.Lib.ValueIdx

set_option maxRecDepth 16384

noncomputable section

namespace Cert.KernelIdeal.Reg

open Cert.KernelIdeal Cert.KernelIdeal.Gen Cert.KernelIdeal.Pay Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-! ## Region 0: rows scaled to unit length, block by block -/

theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What grid point `t` writes back is block `t` of the row-scaled table: the body's value at row `p` of the block reads
    row `p` of the input block, which is row `4000 t + p` of the table. -/
theorem flushed0_eq (c : Dev nD) (t : Fin cfg0.N) :
    (dat0 V c).flushed 1 t = ((cfg0.win 1).blk t).view.read (Elt Ideal) (Cert.Gcn.normRows (V c main_v11)) := by
  show (cfg0.win 1).cut (grid0.coords t) ((dat0 V c).after 1 t) = _
  rw [after0_1]
  unfold out0_1
  rw [View.canon_unit_zero hz2]
  simp only [View.ld_unit_zero (S := S4000x64) hz2]
  obtain ⟨e0, e1, e2, e3⟩ := idx_facts0 t
  have ht : t.val < 20 := lt_of_lt_of_eq t.isLt N_0
  have key : ∀ (p : Fin 4000) (q : Fin 64), k0_pay1 (F := Ideal) (iblk0 V c 0 t) (ix2 p q)
      = Cert.Gcn.normRows (V c main_v11) (((cfg0.win 1).blk t).view.emb (ix2 p q)) := by
    intro p q
    refine (pay_norm _ p q).trans ?_
    have hp : p.val < 4000 := p.isLt
    have hemb : ((cfg0.win 1).blk t).view.emb (ix2 p q) = ix2 (⟨t.val * 4000 + p.val, by omega⟩ : Fin 80000) q := by
      funext a; apply Fin.ext
      match a with
      | ⟨0, _⟩ => show win0_1.index t (0 : Fin 2) * 4000 + 1 * p.val = t.val * 4000 + p.val; omega
      | ⟨1, _⟩ => show win0_1.index t (1 : Fin 2) * 64 + 1 * q.val = q.val; omega
    rw [hemb]
    refine Cert.Gcn.normRows_congr _ _ p _ q (fun k => ?_)
    show V c main_v11 (((cfg0.win 0).blk t).view.emb (ix2 p k)) = V c main_v11 (ix2 (⟨t.val * 4000 + p.val, by omega⟩ : Fin 80000) k)
    refine congrArg _ ?_
    funext a; apply Fin.ext
    match a with
    | ⟨0, _⟩ => show win0_0.index t (0 : Fin 2) * 4000 + 1 * p.val = t.val * 4000 + p.val; omega
    | ⟨1, _⟩ => show win0_0.index t (1 : Fin 2) * 64 + 1 * k.val = k.val; omega
  funext j
  exact (congrArg _ (eq_ix2 j)).trans ((key (j 0) (j 1)).trans (congrArg _ (congrArg _ (eq_ix2 j).symm)))

/-- An index of the table is in point `t`'s block iff each coordinate is in the block's range on its axis. -/
theorem mem_blk0 (t : Fin cfg0.N) (i : S80000x64.Idx) :
    i ∈ ((cfg0.win 1).blk t).view.set ↔ ∀ a : Fin 2, win0_1.index t a * S4000x64.size a ≤ (i a).val ∧ (i a).val < win0_1.index t a * S4000x64.size a + S4000x64.size a := by
  show i ∈ ((View.whole main_v12).slice (win0_1.rect t)).set ↔ _
  rw [View.set_slice_whole, Rect.mem_set_unit]
  exact Iff.rfl

/-- Row `r` lies in the block of point `r / 4000`: the twenty blocks tile the table. -/
theorem cover0 (i : S80000x64.Idx) : ∃ t : Fin cfg0.N, (cfg0.win 1).flush t = true ∧ i ∈ ((cfg0.win 1).blk t).view.set := by
  have hi0 : (i 0).val < 80000 := (i 0).isLt
  have hi1 : (i 1).val < 64 := (i 1).isLt
  have hN : cfg0.N = 20 := N_0
  obtain ⟨t, htv⟩ : ∃ t : Fin cfg0.N, t.val = (i 0).val / 4000 := ⟨⟨(i 0).val / 4000, by rw [hN]; omega⟩, rfl⟩
  obtain ⟨e0, e1, e2, e3⟩ := idx_facts0 t
  refine ⟨t, flush0_1 t, ?_⟩
  rw [mem_blk0]
  intro a
  match a with
  | ⟨0, _⟩ => show win0_1.index t (0 : Fin 2) * 4000 ≤ (i 0).val ∧ (i 0).val < win0_1.index t (0 : Fin 2) * 4000 + 4000; omega
  | ⟨1, _⟩ => show win0_1.index t (1 : Fin 2) * 64 ≤ (i 1).val ∧ (i 1).val < win0_1.index t (1 : Fin 2) * 64 + 64; omega

/-- The output table after the region: the input table, its rows scaled. -/
theorem final0 (c : Dev nD) : (dat0 V c).arrAt 1 cfg0.N = Cert.Gcn.normRows (V c main_v11) :=
  (dat0 V c).arrAt_eq_of_cover 1 _ (fun t _ => flushed0_eq V c t) cover0

/-! ## Region 3: rows scaled to unit length, block by block -/

theorem idx_facts3 : ∀ t : Fin cfg3.N, win3_0.index t (0 : Fin 2) = t.val ∧ win3_0.index t (1 : Fin 2) = 0
    ∧ win3_1.index t (0 : Fin 2) = t.val ∧ win3_1.index t (1 : Fin 2) = 0 :=
  (by decide +kernel : ∀ t : Fin grid3.N, _)

/-- What grid point `t` writes back is block `t` of the row-scaled table: the body's value at row `p` of the block reads
    row `p` of the input block, which is row `4000 t + p` of the table. -/
theorem flushed3_eq (c : Dev nD) (t : Fin cfg3.N) :
    (dat3 V c).flushed 1 t = ((cfg3.win 1).blk t).view.read (Elt Ideal) (Cert.Gcn.normRows (V c main_v44)) := by
  show (cfg3.win 1).cut (grid3.coords t) ((dat3 V c).after 1 t) = _
  rw [after3_1]
  unfold out3_1
  rw [View.canon_unit_zero hz2]
  simp only [View.ld_unit_zero (S := S4000x64) hz2]
  obtain ⟨e0, e1, e2, e3⟩ := idx_facts3 t
  have ht : t.val < 20 := lt_of_lt_of_eq t.isLt N_3
  have key : ∀ (p : Fin 4000) (q : Fin 64), k3_pay1 (F := Ideal) (iblk3 V c 0 t) (ix2 p q)
      = Cert.Gcn.normRows (V c main_v44) (((cfg3.win 1).blk t).view.emb (ix2 p q)) := by
    intro p q
    refine (pay_norm3 _ p q).trans ?_
    have hp : p.val < 4000 := p.isLt
    have hemb : ((cfg3.win 1).blk t).view.emb (ix2 p q) = ix2 (⟨t.val * 4000 + p.val, by omega⟩ : Fin 80000) q := by
      funext a; apply Fin.ext
      match a with
      | ⟨0, _⟩ => show win3_1.index t (0 : Fin 2) * 4000 + 1 * p.val = t.val * 4000 + p.val; omega
      | ⟨1, _⟩ => show win3_1.index t (1 : Fin 2) * 64 + 1 * q.val = q.val; omega
    rw [hemb]
    refine Cert.Gcn.normRows_congr _ _ p _ q (fun k => ?_)
    show V c main_v44 (((cfg3.win 0).blk t).view.emb (ix2 p k)) = V c main_v44 (ix2 (⟨t.val * 4000 + p.val, by omega⟩ : Fin 80000) k)
    refine congrArg _ ?_
    funext a; apply Fin.ext
    match a with
    | ⟨0, _⟩ => show win3_0.index t (0 : Fin 2) * 4000 + 1 * p.val = t.val * 4000 + p.val; omega
    | ⟨1, _⟩ => show win3_0.index t (1 : Fin 2) * 64 + 1 * k.val = k.val; omega
  funext j
  exact (congrArg _ (eq_ix2 j)).trans ((key (j 0) (j 1)).trans (congrArg _ (congrArg _ (eq_ix2 j).symm)))

/-- An index of the table is in point `t`'s block iff each coordinate is in the block's range on its axis. -/
theorem mem_blk3 (t : Fin cfg3.N) (i : S80000x64.Idx) :
    i ∈ ((cfg3.win 1).blk t).view.set ↔ ∀ a : Fin 2, win3_1.index t a * S4000x64.size a ≤ (i a).val ∧ (i a).val < win3_1.index t a * S4000x64.size a + S4000x64.size a := by
  show i ∈ ((View.whole main_v45).slice (win3_1.rect t)).set ↔ _
  rw [View.set_slice_whole, Rect.mem_set_unit]
  exact Iff.rfl

/-- Row `r` lies in the block of point `r / 4000`: the twenty blocks tile the table. -/
theorem cover3 (i : S80000x64.Idx) : ∃ t : Fin cfg3.N, (cfg3.win 1).flush t = true ∧ i ∈ ((cfg3.win 1).blk t).view.set := by
  have hi0 : (i 0).val < 80000 := (i 0).isLt
  have hi1 : (i 1).val < 64 := (i 1).isLt
  have hN : cfg3.N = 20 := N_3
  obtain ⟨t, htv⟩ : ∃ t : Fin cfg3.N, t.val = (i 0).val / 4000 := ⟨⟨(i 0).val / 4000, by rw [hN]; omega⟩, rfl⟩
  obtain ⟨e0, e1, e2, e3⟩ := idx_facts3 t
  refine ⟨t, flush3_1 t, ?_⟩
  rw [mem_blk3]
  intro a
  match a with
  | ⟨0, _⟩ => show win3_1.index t (0 : Fin 2) * 4000 ≤ (i 0).val ∧ (i 0).val < win3_1.index t (0 : Fin 2) * 4000 + 4000; omega
  | ⟨1, _⟩ => show win3_1.index t (1 : Fin 2) * 64 ≤ (i 1).val ∧ (i 1).val < win3_1.index t (1 : Fin 2) * 64 + 64; omega

/-- The output table after the region: the input table, its rows scaled. -/
theorem final3 (c : Dev nD) : (dat3 V c).arrAt 1 cfg3.N = Cert.Gcn.normRows (V c main_v44) :=
  (dat3 V c).arrAt_eq_of_cover 1 _ (fun t _ => flushed3_eq V c t) cover3

end Cert.KernelIdeal.Reg

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.KPay.lean ====
/-
  The layer kernel body, entry by entry, on the extended reals.

  The body reads, at row `r`, the row `r` of the scaled neighbourhood sum, of the current features and of the identity
  embedding, and three `[64, 64]` weight slabs stored input-major (`slab (0, k, j)` multiplies input coordinate `k`
  into output coordinate `j`). Every layout operation reads one entry of its operand, every format change is the
  identity, and a matrix product into the zero accumulator is a finite sum in a commutative monoid.
-/
import proofs.«109543_j54176717472163_1_alg».proof.Proof.KPayNorm
import proofs.«109543_j54176717472163_1_alg».proof.Proof.LibDense

noncomputable section

namespace Cert.KernelIdeal.Pay

open Idealize.ShloMosaic Idealize.ShloMosaic.ValueIdx Cert.KernelIdeal

variable {α : Type}

/-! ## The layer -/

/-- The leaky rectifier as the body spells it — a comparison with the broadcast zero word, a product with the broadcast
    slope word, a select between the two — at an entry. -/
theorem leaky_read {s : Shape} (v : FVec Ideal s .f32) (i : s.Idx) :
    select (cmpf .oge v (broadcast s (Scalar.ofBits (F := Ideal) .f32 0x00000000#32))) v
      (mulf (broadcast s (Scalar.ofBits (F := Ideal) .f32 0x3C23D70A#32)) v) i = Cert.Gcn.leaky (v i) := rfl

/-- A `[1, 64, 64]` slab viewed `[64, 64]` and narrowed, at `(k, j)`, is the slab at `(0, k, j)`. -/
theorem slab_read (w : Vec Ideal S1x64x64 .f32) (k j : Fin 64) :
    (truncf .bf16 (shapeCast S64x64 w Gen.shapeCasts_S1x64x64_S64x64) Gen.bitsLt_bf16_f32 : FVec Ideal S64x64 .bf16) (ix2 k j)
      = w (ix3 (0 : Fin 1) k j) :=
  shapeCast_1ab_ab_apply w Gen.shapeCasts_S1x64x64_S64x64 k j

/-- A `[1, 64]` row viewed `[64]`, at `j`, is the row at `(0, j)`. -/
theorem row_read (b : Vec Ideal S1x64 .f32) (j : Fin 64) :
    shapeCast S64 b Gen.shapeCasts_S1x64_S64 (ix1 j) = b (ix2 (0 : Fin 1) j) :=
  shapeCast_1a_a_apply b Gen.shapeCasts_S1x64_S64 j

/-- The body's matrix product into the zero accumulator plus its bias row, at an entry: the affine map of `Cert.Gcn.lin`
    with the slab read output-major, `w (j, k) = slab (0, k, j)`. -/
theorem dense_read (a : FVec Ideal S4000x64 .bf16) (w : Vec Ideal S1x64x64 .f32) (b : Vec Ideal S1x64 .f32) (p : Fin 4000) (q : Fin 64) :
    addf (matmul dot_S4000x64_S64x64_S4000x64_1_0_0_1_n_n none a
            (truncf .bf16 (shapeCast S64x64 w Gen.shapeCasts_S1x64x64_S64x64) Gen.bitsLt_bf16_f32 : FVec Ideal S64x64 .bf16)
            (constant S4000x64 .f32 0x00000000#32))
         (broadcastTo S4000x64 (shapeCast S1x64 (shapeCast S64 b Gen.shapeCasts_S1x64_S64) Gen.shapeCasts_S64_S1x64) Gen.broadcasts_S1x64_S4000x64)
         (ix2 p q)
      = Cert.Gcn.lin (n := 4000) (K := 64) (d := 64) a (fun i => w (ix3 (0 : Fin 1) (i 1) (i 0))) (fun j => b (ix2 (0 : Fin 1) j)) (ix2 p q) := by
  refine (addf_apply _ _ _).trans ?_
  unfold Cert.Gcn.lin
  refine congrArg₂ (· + ·) ?_ ?_
  · refine (Cert.LibDense.matmul_plain (M := 4000) (K := 64) (N := 64) a _ (ix2 p q)).trans ?_
    unfold Cert.LibDense.prod
    exact Finset.sum_congr rfl fun k _ => congrArg (a (ix2 p k) * ·) (slab_read w k q)
  · exact (Cert.LibDense.bias_row _ _ _ (ix2 p q)).trans (row_read b q)

/-- The hidden stage of the layer body, entry by entry: the rectified affine map of the neighbourhood sum scaled by the
    reciprocal degree of its row. -/
theorem pay_hidden (v0 : Vec Ideal S4000x64 .f32) (v2 : Vec Ideal S4000x1 .f32) (v6 : Vec Ideal S1x64x64 .f32)
    (v15 : Vec Ideal S1x64 .f32) (p : Fin 4000) (q : Fin 64) :
    Gen.k1_pay6 (F := Ideal) v0 v2 v6 v15 (ix2 p q)
      = Cert.Gcn.leaky (Cert.Gcn.lin (n := 4000) (K := 64) (d := 64) (fun i => v0 i * v2 (ix2 (i 0) (0 : Fin 1)))
          (fun a => v6 (ix3 (0 : Fin 1) (a 1) (a 0))) (fun j => v15 (ix2 (0 : Fin 1) j)) (ix2 p q)) := by
  have hx : shapeCast S4000x64 v0 Gen.shapeCasts_S4000x64_S4000x64 = v0 := shapeCast_self v0 _
  have hd : shapeCast S4000x1 v2 Gen.shapeCasts_S4000x1_S4000x1 = v2 := shapeCast_self v2 _
  unfold Gen.k1_pay6
  simp only [hx, hd]
  refine (leaky_read _ (ix2 p q)).trans ?_
  refine congrArg Cert.Gcn.leaky ?_
  refine (dense_read _ v6 v15 p q).trans ?_
  refine Cert.Gcn.lin_congr _ _ _ _ p p q fun k => ?_
  show v0 (ix2 p k) * broadcastTo S4000x64 v2 Gen.broadcasts_S4000x1_S4000x64 (ix2 p k) = _
  exact congrArg (v0 (ix2 p k) * ·) (col_bcast v2 _ p k)

/-- The layer body, entry by entry: `Cert.Gcn.layer` of the scaled neighbourhood sum, the current features and the
    identity embedding, each weight slab read output-major. -/
theorem pay_layer (v0 : Vec Ideal S4000x64 .f32) (v2 : Vec Ideal S4000x1 .f32) (v6 v9 v12 : Vec Ideal S1x64x64 .f32)
    (v15 v17 v19 : Vec Ideal S1x64 .f32) (v31 v43 : Vec Ideal S4000x64 .f32) (p : Fin 4000) (q : Fin 64) :
    Gen.k1_pay1 (F := Ideal) (Gen.k1_pay2 v9) (Gen.k1_pay3 v12) (Gen.k1_pay4 v17) (Gen.k1_pay5 v19) (Gen.k1_pay6 v0 v2 v6 v15)
        (Gen.k1_pay7 v31) (constant S4000x64 .f32 0x00000000#32) v43 (ix2 p q)
      = Cert.Gcn.layer (fun i => v0 i * v2 (ix2 (i 0) 0)) v31 v43 (fun a => v6 (ix3 0 (a 1) (a 0)))
          (fun a => v9 (ix3 0 (a 1) (a 0))) (fun a => v12 (ix3 0 (a 1) (a 0))) (fun j => v15 (ix2 0 j))
          (fun j => v17 (ix2 0 j)) (fun j => v19 (ix2 0 j)) (ix2 p q) := by
  have hx : shapeCast S4000x64 v31 Gen.shapeCasts_S4000x64_S4000x64 = v31 := shapeCast_self v31 _
  unfold Gen.k1_pay1 Gen.k1_pay2 Gen.k1_pay3 Gen.k1_pay4 Gen.k1_pay5 Gen.k1_pay7
  simp only [hx]
  refine (leaky_read _ (ix2 p q)).trans ?_
  unfold Cert.Gcn.layer
  refine congrArg Cert.Gcn.leaky ?_
  refine (addf_apply _ _ _).trans ?_
  refine congrArg₂ (· + ·) ?_ ?_
  · refine (dense_read _ v12 v19 p q).trans ?_
    exact Cert.Gcn.lin_congr _ _ _ _ p p q fun k => pay_hidden v0 v2 v6 v15 p k
  · refine (addf_apply _ _ _).trans ?_
    refine congrArg (· + v43 (ix2 p q)) ?_
    refine (leaky_read _ (ix2 p q)).trans ?_
    exact congrArg Cert.Gcn.leaky (dense_read _ v9 v17 p q)

/-! ## The other three launches of the layer body

The layer body is launched four times (two layers in each of two towers); the three other copies are the first, word
for word. -/

theorem k2_pay1_eq : @Gen.k2_pay1 = @Gen.k1_pay1 := rfl
theorem k2_pay2_eq : @Gen.k2_pay2 = @Gen.k1_pay2 := rfl
theorem k2_pay3_eq : @Gen.k2_pay3 = @Gen.k1_pay3 := rfl
theorem k2_pay4_eq : @Gen.k2_pay4 = @Gen.k1_pay4 := rfl
theorem k2_pay5_eq : @Gen.k2_pay5 = @Gen.k1_pay5 := rfl
theorem k2_pay6_eq : @Gen.k2_pay6 = @Gen.k1_pay6 := rfl
theorem k2_pay7_eq : @Gen.k2_pay7 = @Gen.k1_pay7 := rfl

/-- The layer body's launch 2, entry by entry. -/
theorem pay_layer2 (v0 : Vec Ideal S4000x64 .f32) (v2 : Vec Ideal S4000x1 .f32) (v6 v9 v12 : Vec Ideal S1x64x64 .f32)
    (v15 v17 v19 : Vec Ideal S1x64 .f32) (v31 v43 : Vec Ideal S4000x64 .f32) (p : Fin 4000) (q : Fin 64) :
    Gen.k2_pay1 (F := Ideal) (Gen.k2_pay2 v9) (Gen.k2_pay3 v12) (Gen.k2_pay4 v17) (Gen.k2_pay5 v19) (Gen.k2_pay6 v0 v2 v6 v15)
        (Gen.k2_pay7 v31) (constant S4000x64 .f32 0x00000000#32) v43 (ix2 p q)
      = Cert.Gcn.layer (fun i => v0 i * v2 (ix2 (i 0) 0)) v31 v43 (fun a => v6 (ix3 0 (a 1) (a 0)))
          (fun a => v9 (ix3 0 (a 1) (a 0))) (fun a => v12 (ix3 0 (a 1) (a 0))) (fun j => v15 (ix2 0 j))
          (fun j => v17 (ix2 0 j)) (fun j => v19 (ix2 0 j)) (ix2 p q) := by
  rw [k2_pay1_eq, k2_pay2_eq, k2_pay3_eq, k2_pay4_eq, k2_pay5_eq, k2_pay6_eq, k2_pay7_eq]
  exact pay_layer v0 v2 v6 v9 v12 v15 v17 v19 v31 v43 p q

theorem k4_pay1_eq : @Gen.k4_pay1 = @Gen.k1_pay1 := rfl
theorem k4_pay2_eq : @Gen.k4_pay2 = @Gen.k1_pay2 := rfl
theorem k4_pay3_eq : @Gen.k4_pay3 = @Gen.k1_pay3 := rfl
theorem k4_pay4_eq : @Gen.k4_pay4 = @Gen.k1_pay4 := rfl
theorem k4_pay5_eq : @Gen.k4_pay5 = @Gen.k1_pay5 := rfl
theorem k4_pay6_eq : @Gen.k4_pay6 = @Gen.k1_pay6 := rfl
theorem k4_pay7_eq : @Gen.k4_pay7 = @Gen.k1_pay7 := rfl

/-- The layer body's launch 4, entry by entry. -/
theorem pay_layer4 (v0 : Vec Ideal S4000x64 .f32) (v2 : Vec Ideal S4000x1 .f32) (v6 v9 v12 : Vec Ideal S1x64x64 .f32)
    (v15 v17 v19 : Vec Ideal S1x64 .f32) (v31 v43 : Vec Ideal S4000x64 .f32) (p : Fin 4000) (q : Fin 64) :
    Gen.k4_pay1 (F := Ideal) (Gen.k4_pay2 v9) (Gen.k4_pay3 v12) (Gen.k4_pay4 v17) (Gen.k4_pay5 v19) (Gen.k4_pay6 v0 v2 v6 v15)
        (Gen.k4_pay7 v31) (constant S4000x64 .f32 0x00000000#32) v43 (ix2 p q)
      = Cert.Gcn.layer (fun i => v0 i * v2 (ix2 (i 0) 0)) v31 v43 (fun a => v6 (ix3 0 (a 1) (a 0)))
          (fun a => v9 (ix3 0 (a 1) (a 0))) (fun a => v12 (ix3 0 (a 1) (a 0))) (fun j => v15 (ix2 0 j))
          (fun j => v17 (ix2 0 j)) (fun j => v19 (ix2 0 j)) (ix2 p q) := by
  rw [k4_pay1_eq, k4_pay2_eq, k4_pay3_eq, k4_pay4_eq, k4_pay5_eq, k4_pay6_eq, k4_pay7_eq]
  exact pay_layer v0 v2 v6 v9 v12 v15 v17 v19 v31 v43 p q

theorem k5_pay1_eq : @Gen.k5_pay1 = @Gen.k1_pay1 := rfl
theorem k5_pay2_eq : @Gen.k5_pay2 = @Gen.k1_pay2 := rfl
theorem k5_pay3_eq : @Gen.k5_pay3 = @Gen.k1_pay3 := rfl
theorem k5_pay4_eq : @Gen.k5_pay4 = @Gen.k1_pay4 := rfl
theorem k5_pay5_eq : @Gen.k5_pay5 = @Gen.k1_pay5 := rfl
theorem k5_pay6_eq : @Gen.k5_pay6 = @Gen.k1_pay6 := rfl
theorem k5_pay7_eq : @Gen.k5_pay7 = @Gen.k1_pay7 := rfl

/-- The layer body's launch 5, entry by entry. -/
theorem pay_layer5 (v0 : Vec Ideal S4000x64 .f32) (v2 : Vec Ideal S4000x1 .f32) (v6 v9 v12 : Vec Ideal S1x64x64 .f32)
    (v15 v17 v19 : Vec Ideal S1x64 .f32) (v31 v43 : Vec Ideal S4000x64 .f32) (p : Fin 4000) (q : Fin 64) :
    Gen.k5_pay1 (F := Ideal) (Gen.k5_pay2 v9) (Gen.k5_pay3 v12) (Gen.k5_pay4 v17) (Gen.k5_pay5 v19) (Gen.k5_pay6 v0 v2 v6 v15)
        (Gen.k5_pay7 v31) (constant S4000x64 .f32 0x00000000#32) v43 (ix2 p q)
      = Cert.Gcn.layer (fun i => v0 i * v2 (ix2 (i 0) 0)) v31 v43 (fun a => v6 (ix3 0 (a 1) (a 0)))
          (fun a => v9 (ix3 0 (a 1) (a 0))) (fun a => v12 (ix3 0 (a 1) (a 0))) (fun j => v15 (ix2 0 j))
          (fun j => v17 (ix2 0 j)) (fun j => v19 (ix2 0 j)) (ix2 p q) := by
  rw [k5_pay1_eq, k5_pay2_eq, k5_pay3_eq, k5_pay4_eq, k5_pay5_eq, k5_pay6_eq, k5_pay7_eq]
  exact pay_layer v0 v2 v6 v9 v12 v15 v17 v19 v31 v43 p q

end Cert.KernelIdeal.Pay

end
-- ==== Proof.KRegLayer1.lean ====
/-
  Layer region 1 of the kernel program, from blocks to tables: each grid point reads one block of 4000 rows of
  the neighbourhood sums, of the reciprocal counts, of the current features and of the identity embedding, with
  the whole stacks of three weight matrices and three bias vectors, and writes the block of the same rows of the
  layer's output; an entry of the layer reads its own row only and the twenty blocks tile the table, so the
  output table after the region is the layer of the input tables.
-/
import proofs.«109543_j54176717472163_1_alg».proof.Proof.Gen.KernelIdeal.Frame
import proofs.«109543_j54176717472163_1_alg».proof.Proof.Spec
import proofs.«109543_j54176717472163_1_alg».proof.Proof.KPay
import proofs.«109543_j54176717472163_1_alg».proof.Proof.KRegLayerDef
import Idealize.ShloMosaic.Lib.Pipeline.Value
import Idealize.ShloMosaic.Lib.ValueIdx

set_option maxRecDepth 16384

noncomputable section

namespace Cert.KernelIdeal.Reg

open Cert.KernelIdeal Cert.KernelIdeal.Gen Cert.KernelIdeal.Pay Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## Region 1: one layer, block by block -/

theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 3) = 0 ∧ win1_4.index t (1 : Fin 3) = 0 ∧ win1_4.index t (2 : Fin 3) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Matrix 0 of the weight block a point finds, cut out as a one-matrix stack, is matrix 0 of the whole stack. -/
theorem wblk1_0 (c : Dev nD) (t : Fin cfg1.N) (k j : Fin 64) :
    View.ld (iblk1 V c 4 t) r1_2 (ix3 0 k j) = V c main_v25 (ix3 0 k j) := by
  obtain ⟨-, -, -, -, -, -, -, -, e8, e9, e10, -, -, -, -⟩ := idx_facts1 t
  show V c main_v25 (((cfg1.win 4).blk t).view.emb (r1_2.emb (ix3 0 k j))) = V c main_v25 (ix3 0 k j)
  refine congrArg _ ?_
  funext a; apply Fin.ext
  match a with
  | ⟨0, _⟩ => show win1_4.index t (0 : Fin 3) * 3 + 1 * (0 + 1 * 0) = 0; omega
  | ⟨1, _⟩ => show win1_4.index t (1 : Fin 3) * 64 + 1 * (0 + 1 * k.val) = k.val; omega
  | ⟨2, _⟩ => show win1_4.index t (2 : Fin 3) * 64 + 1 * (0 + 1 * j.val) = j.val; omega

/-- Vector 0 of the bias block a point finds is vector 0 of the whole stack. -/
theorem bblk1_0 (c : Dev nD) (t : Fin cfg1.N) (j : Fin 64) :
    View.ld (iblk1 V c 5 t) r1_5 (ix2 0 j) = V c main_v27 (ix2 0 j) := by
  obtain ⟨-, -, -, -, -, -, -, -, -, -, -, e11, e12, -, -⟩ := idx_facts1 t
  show V c main_v27 (((cfg1.win 5).blk t).view.emb (r1_5.emb (ix2 0 j))) = V c main_v27 (ix2 0 j)
  refine congrArg _ ?_
  funext a; apply Fin.ext
  match a with
  | ⟨0, _⟩ => show win1_5.index t (0 : Fin 2) * 3 + 1 * (0 + 1 * 0) = 0; omega
  | ⟨1, _⟩ => show win1_5.index t (1 : Fin 2) * 64 + 1 * (0 + 1 * j.val) = j.val; omega

/-- Matrix 1 of the weight block a point finds, cut out as a one-matrix stack, is matrix 1 of the whole stack. -/
theorem wblk1_1 (c : Dev nD) (t : Fin cfg1.N) (k j : Fin 64) :
    View.ld (iblk1 V c 4 t) r1_3 (ix3 0 k j) = V c main_v25 (ix3 1 k j) := by
  obtain ⟨-, -, -, -, -, -, -, -, e8, e9, e10, -, -, -, -⟩ := idx_facts1 t
  show V c main_v25 (((cfg1.win 4).blk t).view.emb (r1_3.emb (ix3 0 k j))) = V c main_v25 (ix3 1 k j)
  refine congrArg _ ?_
  funext a; apply Fin.ext
  match a with
  | ⟨0, _⟩ => show win1_4.index t (0 : Fin 3) * 3 + 1 * (1 + 1 * 0) = 1; omega
  | ⟨1, _⟩ => show win1_4.index t (1 : Fin 3) * 64 + 1 * (0 + 1 * k.val) = k.val; omega
  | ⟨2, _⟩ => show win1_4.index t (2 : Fin 3) * 64 + 1 * (0 + 1 * j.val) = j.val; omega

/-- Vector 1 of the bias block a point finds is vector 1 of the whole stack. -/
theorem bblk1_1 (c : Dev nD) (t : Fin cfg1.N) (j : Fin 64) :
    View.ld (iblk1 V c 5 t) r1_6 (ix2 0 j) = V c main_v27 (ix2 1 j) := by
  obtain ⟨-, -, -, -, -, -, -, -, -, -, -, e11, e12, -, -⟩ := idx_facts1 t
  show V c main_v27 (((cfg1.win 5).blk t).view.emb (r1_6.emb (ix2 0 j))) = V c main_v27 (ix2 1 j)
  refine congrArg _ ?_
  funext a; apply Fin.ext
  match a with
  | ⟨0, _⟩ => show win1_5.index t (0 : Fin 2) * 3 + 1 * (1 + 1 * 0) = 1; omega
  | ⟨1, _⟩ => show win1_5.index t (1 : Fin 2) * 64 + 1 * (0 + 1 * j.val) = j.val; omega

/-- Matrix 2 of the weight block a point finds, cut out as a one-matrix stack, is matrix 2 of the whole stack. -/
theorem wblk1_2 (c : Dev nD) (t : Fin cfg1.N) (k j : Fin 64) :
    View.ld (iblk1 V c 4 t) r1_4 (ix3 0 k j) = V c main_v25 (ix3 2 k j) := by
  obtain ⟨-, -, -, -, -, -, -, -, e8, e9, e10, -, -, -, -⟩ := idx_facts1 t
  show V c main_v25 (((cfg1.win 4).blk t).view.emb (r1_4.emb (ix3 0 k j))) = V c main_v25 (ix3 2 k j)
  refine congrArg _ ?_
  funext a; apply Fin.ext
  match a with
  | ⟨0, _⟩ => show win1_4.index t (0 : Fin 3) * 3 + 1 * (2 + 1 * 0) = 2; omega
  | ⟨1, _⟩ => show win1_4.index t (1 : Fin 3) * 64 + 1 * (0 + 1 * k.val) = k.val; omega
  | ⟨2, _⟩ => show win1_4.index t (2 : Fin 3) * 64 + 1 * (0 + 1 * j.val) = j.val; omega

/-- Vector 2 of the bias block a point finds is vector 2 of the whole stack. -/
theorem bblk1_2 (c : Dev nD) (t : Fin cfg1.N) (j : Fin 64) :
    View.ld (iblk1 V c 5 t) r1_7 (ix2 0 j) = V c main_v27 (ix2 2 j) := by
  obtain ⟨-, -, -, -, -, -, -, -, -, -, -, e11, e12, -, -⟩ := idx_facts1 t
  show V c main_v27 (((cfg1.win 5).blk t).view.emb (r1_7.emb (ix2 0 j))) = V c main_v27 (ix2 2 j)
  refine congrArg _ ?_
  funext a; apply Fin.ext
  match a with
  | ⟨0, _⟩ => show win1_5.index t (0 : Fin 2) * 3 + 1 * (2 + 1 * 0) = 2; omega
  | ⟨1, _⟩ => show win1_5.index t (1 : Fin 2) * 64 + 1 * (0 + 1 * j.val) = j.val; omega

set_option maxHeartbeats 1000000 in
/-- What grid point `t` writes back is block `t` of the layer's table: row `p` of the block reads row `p` of the three
    row-blocked input blocks, which are rows `4000 t + p` of their tables, and the whole weight and bias stacks. -/
theorem flushed1_eq (c : Dev nD) (t : Fin cfg1.N) :
    (dat1 V c).flushed 6 t = ((cfg1.win 6).blk t).view.read (Elt Ideal)
      (layerTab (V c main_v23) (V c main_v10) (V c main_v12) (V c main_arg2) (V c main_v25) (V c main_v27)) := by
  show (cfg1.win 6).cut (grid1.coords t) ((dat1 V c).after 6 t) = _
  rw [after1_6]
  unfold out1_6
  rw [View.canon_unit_zero hz2']
  simp only [View.ld_unit_zero (S := S4000x64) hz2', View.ld_unit_zero (S := S4000x1) hz2']
  obtain ⟨e0, e1, e2, e3, e4, e5, e6, e7, -, -, -, -, -, e13, e14⟩ := idx_facts1 t
  have ht : t.val < 20 := lt_of_lt_of_eq t.isLt N_1
  have key : ∀ (p : Fin 4000) (q : Fin 64),
      k1_pay1 (F := Ideal) (k1_pay2 (View.ld (iblk1 V c 4 t) r1_3)) (k1_pay3 (View.ld (iblk1 V c 4 t) r1_4))
        (k1_pay4 (View.ld (iblk1 V c 5 t) r1_6)) (k1_pay5 (View.ld (iblk1 V c 5 t) r1_7))
        (k1_pay6 (iblk1 V c 0 t) (iblk1 V c 1 t) (View.ld (iblk1 V c 4 t) r1_2) (View.ld (iblk1 V c 5 t) r1_5))
        (k1_pay7 (iblk1 V c 2 t)) (constant S4000x64 .f32 0x00000000#32) (iblk1 V c 3 t) (ix2 p q)
      = layerTab (V c main_v23) (V c main_v10) (V c main_v12) (V c main_arg2) (V c main_v25) (V c main_v27) (((cfg1.win 6).blk t).view.emb (ix2 p q)) := by
    intro p q
    refine (pay_layer (iblk1 V c 0 t) (iblk1 V c 1 t) (View.ld (iblk1 V c 4 t) r1_2) (View.ld (iblk1 V c 4 t) r1_3) (View.ld (iblk1 V c 4 t) r1_4)
      (View.ld (iblk1 V c 5 t) r1_5) (View.ld (iblk1 V c 5 t) r1_6) (View.ld (iblk1 V c 5 t) r1_7) (iblk1 V c 2 t) (iblk1 V c 3 t) p q).trans ?_
    have hp : p.val < 4000 := p.isLt
    have hemb : ((cfg1.win 6).blk t).view.emb (ix2 p q) = ix2 (⟨t.val * 4000 + p.val, by omega⟩ : Fin 80000) q := by
      funext a; apply Fin.ext
      match a with
      | ⟨0, _⟩ => show win1_6.index t (0 : Fin 2) * 4000 + 1 * p.val = t.val * 4000 + p.val; omega
      | ⟨1, _⟩ => show win1_6.index t (1 : Fin 2) * 64 + 1 * q.val = q.val; omega
    rw [hemb]
    have hw0 : (fun a : (⟨2, ![64, 64]⟩ : Shape).Idx => View.ld (iblk1 V c 4 t) r1_2 (ix3 0 (a 1) (a 0))) = fun a => V c main_v25 (ix3 0 (a 1) (a 0)) :=
      funext fun a => (wblk1_0 V c t (a 1) (a 0))
    have hw1 : (fun a : (⟨2, ![64, 64]⟩ : Shape).Idx => View.ld (iblk1 V c 4 t) r1_3 (ix3 0 (a 1) (a 0))) = fun a => V c main_v25 (ix3 1 (a 1) (a 0)) :=
      funext fun a => (wblk1_1 V c t (a 1) (a 0))
    have hw2 : (fun a : (⟨2, ![64, 64]⟩ : Shape).Idx => View.ld (iblk1 V c 4 t) r1_4 (ix3 0 (a 1) (a 0))) = fun a => V c main_v25 (ix3 2 (a 1) (a 0)) :=
      funext fun a => (wblk1_2 V c t (a 1) (a 0))
    have hb0 : (fun j : Fin 64 => View.ld (iblk1 V c 5 t) r1_5 (ix2 0 j)) = fun j => V c main_v27 (ix2 0 j) := funext fun j => bblk1_0 V c t j
    have hb1 : (fun j : Fin 64 => View.ld (iblk1 V c 5 t) r1_6 (ix2 0 j)) = fun j => V c main_v27 (ix2 1 j) := funext fun j => bblk1_1 V c t j
    have hb2 : (fun j : Fin 64 => View.ld (iblk1 V c 5 t) r1_7 (ix2 0 j)) = fun j => V c main_v27 (ix2 2 j) := funext fun j => bblk1_2 V c t j
    rw [hw0, hw1, hw2, hb0, hb1, hb2]
    unfold layerTab
    refine Cert.Gcn.layer_congr _ _ _ _ _ _ _ _ _ _ _ _ p _ q (fun k => ?_) (fun k => ?_) ?_
    · beta_reduce
      refine congrArg₂ (fun (u v : EReal) => u * v) ?_ ?_
      · show V c main_v23 (((cfg1.win 0).blk t).view.emb (ix2 p k)) = V c main_v23 (ix2 (⟨t.val * 4000 + p.val, by omega⟩ : Fin 80000) k)
        refine congrArg _ ?_
        funext a; apply Fin.ext
        match a with
        | ⟨0, _⟩ => show win1_0.index t (0 : Fin 2) * 4000 + 1 * p.val = t.val * 4000 + p.val; omega
        | ⟨1, _⟩ => show win1_0.index t (1 : Fin 2) * 64 + 1 * k.val = k.val; omega
      · show V c main_v10 (((cfg1.win 1).blk t).view.emb (ix2 p 0)) = V c main_v10 (ix2 (⟨t.val * 4000 + p.val, by omega⟩ : Fin 80000) 0)
        refine congrArg _ ?_
        funext a; apply Fin.ext
        match a with
        | ⟨0, _⟩ => show win1_1.index t (0 : Fin 2) * 4000 + 1 * p.val = t.val * 4000 + p.val; omega
        | ⟨1, _⟩ => show win1_1.index t (1 : Fin 2) * 1 + 1 * 0 = 0; omega
    · show V c main_v12 (((cfg1.win 2).blk t).view.emb (ix2 p k)) = V c main_v12 (ix2 (⟨t.val * 4000 + p.val, by omega⟩ : Fin 80000) k)
      refine congrArg _ ?_
      funext a; apply Fin.ext
      match a with
      | ⟨0, _⟩ => show win1_2.index t (0 : Fin 2) * 4000 + 1 * p.val = t.val * 4000 + p.val; omega
      | ⟨1, _⟩ => show win1_2.index t (1 : Fin 2) * 64 + 1 * k.val = k.val; omega
    · show V c main_arg2 (((cfg1.win 3).blk t).view.emb (ix2 p q)) = V c main_arg2 (ix2 (⟨t.val * 4000 + p.val, by omega⟩ : Fin 80000) q)
      refine congrArg _ ?_
      funext a; apply Fin.ext
      match a with
      | ⟨0, _⟩ => show win1_3.index t (0 : Fin 2) * 4000 + 1 * p.val = t.val * 4000 + p.val; omega
      | ⟨1, _⟩ => show win1_3.index t (1 : Fin 2) * 64 + 1 * q.val = q.val; omega
  funext j
  exact (congrArg _ (eq_ix2 j)).trans ((key (j 0) (j 1)).trans (congrArg _ (congrArg _ (eq_ix2 j).symm)))

/-- An index of the table is in point `t`'s block iff each coordinate is in the block's range on its axis. -/
theorem mem_blk1 (t : Fin cfg1.N) (i : S80000x64.Idx) :
    i ∈ ((cfg1.win 6).blk t).view.set ↔ ∀ a : Fin 2, win1_6.index t a * S4000x64.size a ≤ (i a).val ∧ (i a).val < win1_6.index t a * S4000x64.size a + S4000x64.size a := by
  show i ∈ ((View.whole main_v28).slice (win1_6.rect t)).set ↔ _
  rw [View.set_slice_whole, Rect.mem_set_unit]
  exact Iff.rfl

/-- Row `r` lies in the block of point `r / 4000`: the twenty blocks tile the table. -/
theorem cover1 (i : S80000x64.Idx) : ∃ t : Fin cfg1.N, (cfg1.win 6).flush t = true ∧ i ∈ ((cfg1.win 6).blk t).view.set := by
  have hi0 : (i 0).val < 80000 := (i 0).isLt
  have hi1 : (i 1).val < 64 := (i 1).isLt
  have hN : cfg1.N = 20 := N_1
  obtain ⟨t, htv⟩ : ∃ t : Fin cfg1.N, t.val = (i 0).val / 4000 := ⟨⟨(i 0).val / 4000, by rw [hN]; omega⟩, rfl⟩
  obtain ⟨-, -, -, -, -, -, -, -, -, -, -, -, -, e13, e14⟩ := idx_facts1 t
  refine ⟨t, flush1_6 t, ?_⟩
  rw [mem_blk1]
  intro a
  match a with
  | ⟨0, _⟩ => show win1_6.index t (0 : Fin 2) * 4000 ≤ (i 0).val ∧ (i 0).val < win1_6.index t (0 : Fin 2) * 4000 + 4000; omega
  | ⟨1, _⟩ => show win1_6.index t (1 : Fin 2) * 64 ≤ (i 1).val ∧ (i 1).val < win1_6.index t (1 : Fin 2) * 64 + 64; omega

/-- The output table after the region: the layer of the six input tables. -/
theorem final1 (c : Dev nD) : (dat1 V c).arrAt 6 cfg1.N
    = layerTab (V c main_v23) (V c main_v10) (V c main_v12) (V c main_arg2) (V c main_v25) (V c main_v27) :=
  (dat1 V c).arrAt_eq_of_cover 6 _ (fun t _ => flushed1_eq V c t) cover1

end Cert.KernelIdeal.Reg

end
-- ==== Proof.KRegLayer2.lean ====
/-
  Layer region 2 of the kernel program, from blocks to tables: each grid point reads one block of 4000 rows of
  the neighbourhood sums, of the reciprocal counts, of the current features and of the identity embedding, with
  the whole stacks of three weight matrices and three bias vectors, and writes the block of the same rows of the
  layer's output; an entry of the layer reads its own row only and the twenty blocks tile the table, so the
  output table after the region is the layer of the input tables.
-/
import proofs.«109543_j54176717472163_1_alg».proof.Proof.Gen.KernelIdeal.Frame
import proofs.«109543_j54176717472163_1_alg».proof.Proof.Spec
import proofs.«109543_j54176717472163_1_alg».proof.Proof.KPay
import proofs.«109543_j54176717472163_1_alg».proof.Proof.KRegLayerDef
import Idealize.ShloMosaic.Lib.Pipeline.Value
import Idealize.ShloMosaic.Lib.ValueIdx

set_option maxRecDepth 16384

noncomputable section

namespace Cert.KernelIdeal.Reg

open Cert.KernelIdeal Cert.KernelIdeal.Gen Cert.KernelIdeal.Pay Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## Region 2: one layer, block by block -/

theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 3) = 0 ∧ win2_4.index t (1 : Fin 3) = 0 ∧ win2_4.index t (2 : Fin 3) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Matrix 0 of the weight block a point finds, cut out as a one-matrix stack, is matrix 0 of the whole stack. -/
theorem wblk2_0 (c : Dev nD) (t : Fin cfg2.N) (k j : Fin 64) :
    View.ld (iblk2 V c 4 t) r2_2 (ix3 0 k j) = V c main_v40 (ix3 0 k j) := by
  obtain ⟨-, -, -, -, -, -, -, -, e8, e9, e10, -, -, -, -⟩ := idx_facts2 t
  show V c main_v40 (((cfg2.win 4).blk t).view.emb (r2_2.emb (ix3 0 k j))) = V c main_v40 (ix3 0 k j)
  refine congrArg _ ?_
  funext a; apply Fin.ext
  match a with
  | ⟨0, _⟩ => show win2_4.index t (0 : Fin 3) * 3 + 1 * (0 + 1 * 0) = 0; omega
  | ⟨1, _⟩ => show win2_4.index t (1 : Fin 3) * 64 + 1 * (0 + 1 * k.val) = k.val; omega
  | ⟨2, _⟩ => show win2_4.index t (2 : Fin 3) * 64 + 1 * (0 + 1 * j.val) = j.val; omega

/-- Vector 0 of the bias block a point finds is vector 0 of the whole stack. -/
theorem bblk2_0 (c : Dev nD) (t : Fin cfg2.N) (j : Fin 64) :
    View.ld (iblk2 V c 5 t) r2_5 (ix2 0 j) = V c main_v42 (ix2 0 j) := by
  obtain ⟨-, -, -, -, -, -, -, -, -, -, -, e11, e12, -, -⟩ := idx_facts2 t
  show V c main_v42 (((cfg2.win 5).blk t).view.emb (r2_5.emb (ix2 0 j))) = V c main_v42 (ix2 0 j)
  refine congrArg _ ?_
  funext a; apply Fin.ext
  match a with
  | ⟨0, _⟩ => show win2_5.index t (0 : Fin 2) * 3 + 1 * (0 + 1 * 0) = 0; omega
  | ⟨1, _⟩ => show win2_5.index t (1 : Fin 2) * 64 + 1 * (0 + 1 * j.val) = j.val; omega

/-- Matrix 1 of the weight block a point finds, cut out as a one-matrix stack, is matrix 1 of the whole stack. -/
theorem wblk2_1 (c : Dev nD) (t : Fin cfg2.N) (k j : Fin 64) :
    View.ld (iblk2 V c 4 t) r2_3 (ix3 0 k j) = V c main_v40 (ix3 1 k j) := by
  obtain ⟨-, -, -, -, -, -, -, -, e8, e9, e10, -, -, -, -⟩ := idx_facts2 t
  show V c main_v40 (((cfg2.win 4).blk t).view.emb (r2_3.emb (ix3 0 k j))) = V c main_v40 (ix3 1 k j)
  refine congrArg _ ?_
  funext a; apply Fin.ext
  match a with
  | ⟨0, _⟩ => show win2_4.index t (0 : Fin 3) * 3 + 1 * (1 + 1 * 0) = 1; omega
  | ⟨1, _⟩ => show win2_4.index t (1 : Fin 3) * 64 + 1 * (0 + 1 * k.val) = k.val; omega
  | ⟨2, _⟩ => show win2_4.index t (2 : Fin 3) * 64 + 1 * (0 + 1 * j.val) = j.val; omega

/-- Vector 1 of the bias block a point finds is vector 1 of the whole stack. -/
theorem bblk2_1 (c : Dev nD) (t : Fin cfg2.N) (j : Fin 64) :
    View.ld (iblk2 V c 5 t) r2_6 (ix2 0 j) = V c main_v42 (ix2 1 j) := by
  obtain ⟨-, -, -, -, -, -, -, -, -, -, -, e11, e12, -, -⟩ := idx_facts2 t
  show V c main_v42 (((cfg2.win 5).blk t).view.emb (r2_6.emb (ix2 0 j))) = V c main_v42 (ix2 1 j)
  refine congrArg _ ?_
  funext a; apply Fin.ext
  match a with
  | ⟨0, _⟩ => show win2_5.index t (0 : Fin 2) * 3 + 1 * (1 + 1 * 0) = 1; omega
  | ⟨1, _⟩ => show win2_5.index t (1 : Fin 2) * 64 + 1 * (0 + 1 * j.val) = j.val; omega

/-- Matrix 2 of the weight block a point finds, cut out as a one-matrix stack, is matrix 2 of the whole stack. -/
theorem wblk2_2 (c : Dev nD) (t : Fin cfg2.N) (k j : Fin 64) :
    View.ld (iblk2 V c 4 t) r2_4 (ix3 0 k j) = V c main_v40 (ix3 2 k j) := by
  obtain ⟨-, -, -, -, -, -, -, -, e8, e9, e10, -, -, -, -⟩ := idx_facts2 t
  show V c main_v40 (((cfg2.win 4).blk t).view.emb (r2_4.emb (ix3 0 k j))) = V c main_v40 (ix3 2 k j)
  refine congrArg _ ?_
  funext a; apply Fin.ext
  match a with
  | ⟨0, _⟩ => show win2_4.index t (0 : Fin 3) * 3 + 1 * (2 + 1 * 0) = 2; omega
  | ⟨1, _⟩ => show win2_4.index t (1 : Fin 3) * 64 + 1 * (0 + 1 * k.val) = k.val; omega
  | ⟨2, _⟩ => show win2_4.index t (2 : Fin 3) * 64 + 1 * (0 + 1 * j.val) = j.val; omega

/-- Vector 2 of the bias block a point finds is vector 2 of the whole stack. -/
theorem bblk2_2 (c : Dev nD) (t : Fin cfg2.N) (j : Fin 64) :
    View.ld (iblk2 V c 5 t) r2_7 (ix2 0 j) = V c main_v42 (ix2 2 j) := by
  obtain ⟨-, -, -, -, -, -, -, -, -, -, -, e11, e12, -, -⟩ := idx_facts2 t
  show V c main_v42 (((cfg2.win 5).blk t).view.emb (r2_7.emb (ix2 0 j))) = V c main_v42 (ix2 2 j)
  refine congrArg _ ?_
  funext a; apply Fin.ext
  match a with
  | ⟨0, _⟩ => show win2_5.index t (0 : Fin 2) * 3 + 1 * (2 + 1 * 0) = 2; omega
  | ⟨1, _⟩ => show win2_5.index t (1 : Fin 2) * 64 + 1 * (0 + 1 * j.val) = j.val; omega

set_option maxHeartbeats 1000000 in
/-- What grid point `t` writes back is block `t` of the layer's table: row `p` of the block reads row `p` of the three
    row-blocked input blocks, which are rows `4000 t + p` of their tables, and the whole weight and bias stacks. -/
theorem flushed2_eq (c : Dev nD) (t : Fin cfg2.N) :
    (dat2 V c).flushed 6 t = ((cfg2.win 6).blk t).view.read (Elt Ideal)
      (layerTab (V c main_v38) (V c main_v10) (V c main_v28) (V c main_arg2) (V c main_v40) (V c main_v42)) := by
  show (cfg2.win 6).cut (grid2.coords t) ((dat2 V c).after 6 t) = _
  rw [after2_6]
  unfold out2_6
  rw [View.canon_unit_zero hz2']
  simp only [View.ld_unit_zero (S := S4000x64) hz2', View.ld_unit_zero (S := S4000x1) hz2']
  obtain ⟨e0, e1, e2, e3, e4, e5, e6, e7, -, -, -, -, -, e13, e14⟩ := idx_facts2 t
  have ht : t.val < 20 := lt_of_lt_of_eq t.isLt N_2
  have key : ∀ (p : Fin 4000) (q : Fin 64),
      k2_pay1 (F := Ideal) (k2_pay2 (View.ld (iblk2 V c 4 t) r2_3)) (k2_pay3 (View.ld (iblk2 V c 4 t) r2_4))
        (k2_pay4 (View.ld (iblk2 V c 5 t) r2_6)) (k2_pay5 (View.ld (iblk2 V c 5 t) r2_7))
        (k2_pay6 (iblk2 V c 0 t) (iblk2 V c 1 t) (View.ld (iblk2 V c 4 t) r2_2) (View.ld (iblk2 V c 5 t) r2_5))
        (k2_pay7 (iblk2 V c 2 t)) (constant S4000x64 .f32 0x00000000#32) (iblk2 V c 3 t) (ix2 p q)
      = layerTab (V c main_v38) (V c main_v10) (V c main_v28) (V c main_arg2) (V c main_v40) (V c main_v42) (((cfg2.win 6).blk t).view.emb (ix2 p q)) := by
    intro p q
    refine (pay_layer2 (iblk2 V c 0 t) (iblk2 V c 1 t) (View.ld (iblk2 V c 4 t) r2_2) (View.ld (iblk2 V c 4 t) r2_3) (View.ld (iblk2 V c 4 t) r2_4)
      (View.ld (iblk2 V c 5 t) r2_5) (View.ld (iblk2 V c 5 t) r2_6) (View.ld (iblk2 V c 5 t) r2_7) (iblk2 V c 2 t) (iblk2 V c 3 t) p q).trans ?_
    have hp : p.val < 4000 := p.isLt
    have hemb : ((cfg2.win 6).blk t).view.emb (ix2 p q) = ix2 (⟨t.val * 4000 + p.val, by omega⟩ : Fin 80000) q := by
      funext a; apply Fin.ext
      match a with
      | ⟨0, _⟩ => show win2_6.index t (0 : Fin 2) * 4000 + 1 * p.val = t.val * 4000 + p.val; omega
      | ⟨1, _⟩ => show win2_6.index t (1 : Fin 2) * 64 + 1 * q.val = q.val; omega
    rw [hemb]
    have hw0 : (fun a : (⟨2, ![64, 64]⟩ : Shape).Idx => View.ld (iblk2 V c 4 t) r2_2 (ix3 0 (a 1) (a 0))) = fun a => V c main_v40 (ix3 0 (a 1) (a 0)) :=
      funext fun a => (wblk2_0 V c t (a 1) (a 0))
    have hw1 : (fun a : (⟨2, ![64, 64]⟩ : Shape).Idx => View.ld (iblk2 V c 4 t) r2_3 (ix3 0 (a 1) (a 0))) = fun a => V c main_v40 (ix3 1 (a 1) (a 0)) :=
      funext fun a => (wblk2_1 V c t (a 1) (a 0))
    have hw2 : (fun a : (⟨2, ![64, 64]⟩ : Shape).Idx => View.ld (iblk2 V c 4 t) r2_4 (ix3 0 (a 1) (a 0))) = fun a => V c main_v40 (ix3 2 (a 1) (a 0)) :=
      funext fun a => (wblk2_2 V c t (a 1) (a 0))
    have hb0 : (fun j : Fin 64 => View.ld (iblk2 V c 5 t) r2_5 (ix2 0 j)) = fun j => V c main_v42 (ix2 0 j) := funext fun j => bblk2_0 V c t j
    have hb1 : (fun j : Fin 64 => View.ld (iblk2 V c 5 t) r2_6 (ix2 0 j)) = fun j => V c main_v42 (ix2 1 j) := funext fun j => bblk2_1 V c t j
    have hb2 : (fun j : Fin 64 => View.ld (iblk2 V c 5 t) r2_7 (ix2 0 j)) = fun j => V c main_v42 (ix2 2 j) := funext fun j => bblk2_2 V c t j
    rw [hw0, hw1, hw2, hb0, hb1, hb2]
    unfold layerTab
    refine Cert.Gcn.layer_congr _ _ _ _ _ _ _ _ _ _ _ _ p _ q (fun k => ?_) (fun k => ?_) ?_
    · beta_reduce
      refine congrArg₂ (fun (u v : EReal) => u * v) ?_ ?_
      · show V c main_v38 (((cfg2.win 0).blk t).view.emb (ix2 p k)) = V c main_v38 (ix2 (⟨t.val * 4000 + p.val, by omega⟩ : Fin 80000) k)
        refine congrArg _ ?_
        funext a; apply Fin.ext
        match a with
        | ⟨0, _⟩ => show win2_0.index t (0 : Fin 2) * 4000 + 1 * p.val = t.val * 4000 + p.val; omega
        | ⟨1, _⟩ => show win2_0.index t (1 : Fin 2) * 64 + 1 * k.val = k.val; omega
      · show V c main_v10 (((cfg2.win 1).blk t).view.emb (ix2 p 0)) = V c main_v10 (ix2 (⟨t.val * 4000 + p.val, by omega⟩ : Fin 80000) 0)
        refine congrArg _ ?_
        funext a; apply Fin.ext
        match a with
        | ⟨0, _⟩ => show win2_1.index t (0 : Fin 2) * 4000 + 1 * p.val = t.val * 4000 + p.val; omega
        | ⟨1, _⟩ => show win2_1.index t (1 : Fin 2) * 1 + 1 * 0 = 0; omega
    · show V c main_v28 (((cfg2.win 2).blk t).view.emb (ix2 p k)) = V c main_v28 (ix2 (⟨t.val * 4000 + p.val, by omega⟩ : Fin 80000) k)
      refine congrArg _ ?_
      funext a; apply Fin.ext
      match a with
      | ⟨0, _⟩ => show win2_2.index t (0 : Fin 2) * 4000 + 1 * p.val = t.val * 4000 + p.val; omega
      | ⟨1, _⟩ => show win2_2.index t (1 : Fin 2) * 64 + 1 * k.val = k.val; omega
    · show V c main_arg2 (((cfg2.win 3).blk t).view.emb (ix2 p q)) = V c main_arg2 (ix2 (⟨t.val * 4000 + p.val, by omega⟩ : Fin 80000) q)
      refine congrArg _ ?_
      funext a; apply Fin.ext
      match a with
      | ⟨0, _⟩ => show win2_3.index t (0 : Fin 2) * 4000 + 1 * p.val = t.val * 4000 + p.val; omega
      | ⟨1, _⟩ => show win2_3.index t (1 : Fin 2) * 64 + 1 * q.val = q.val; omega
  funext j
  exact (congrArg _ (eq_ix2 j)).trans ((key (j 0) (j 1)).trans (congrArg _ (congrArg _ (eq_ix2 j).symm)))

/-- An index of the table is in point `t`'s block iff each coordinate is in the block's range on its axis. -/
theorem mem_blk2 (t : Fin cfg2.N) (i : S80000x64.Idx) :
    i ∈ ((cfg2.win 6).blk t).view.set ↔ ∀ a : Fin 2, win2_6.index t a * S4000x64.size a ≤ (i a).val ∧ (i a).val < win2_6.index t a * S4000x64.size a + S4000x64.size a := by
  show i ∈ ((View.whole main_v43).slice (win2_6.rect t)).set ↔ _
  rw [View.set_slice_whole, Rect.mem_set_unit]
  exact Iff.rfl

/-- Row `r` lies in the block of point `r / 4000`: the twenty blocks tile the table. -/
theorem cover2 (i : S80000x64.Idx) : ∃ t : Fin cfg2.N, (cfg2.win 6).flush t = true ∧ i ∈ ((cfg2.win 6).blk t).view.set := by
  have hi0 : (i 0).val < 80000 := (i 0).isLt
  have hi1 : (i 1).val < 64 := (i 1).isLt
  have hN : cfg2.N = 20 := N_2
  obtain ⟨t, htv⟩ : ∃ t : Fin cfg2.N, t.val = (i 0).val / 4000 := ⟨⟨(i 0).val / 4000, by rw [hN]; omega⟩, rfl⟩
  obtain ⟨-, -, -, -, -, -, -, -, -, -, -, -, -, e13, e14⟩ := idx_facts2 t
  refine ⟨t, flush2_6 t, ?_⟩
  rw [mem_blk2]
  intro a
  match a with
  | ⟨0, _⟩ => show win2_6.index t (0 : Fin 2) * 4000 ≤ (i 0).val ∧ (i 0).val < win2_6.index t (0 : Fin 2) * 4000 + 4000; omega
  | ⟨1, _⟩ => show win2_6.index t (1 : Fin 2) * 64 ≤ (i 1).val ∧ (i 1).val < win2_6.index t (1 : Fin 2) * 64 + 64; omega

/-- The output table after the region: the layer of the six input tables. -/
theorem final2 (c : Dev nD) : (dat2 V c).arrAt 6 cfg2.N
    = layerTab (V c main_v38) (V c main_v10) (V c main_v28) (V c main_arg2) (V c main_v40) (V c main_v42) :=
  (dat2 V c).arrAt_eq_of_cover 6 _ (fun t _ => flushed2_eq V c t) cover2

end Cert.KernelIdeal.Reg

end
-- ==== Proof.KRegLayer4.lean ====
/-
  Layer region 4 of the kernel program, from blocks to tables: each grid point reads one block of 4000 rows of
  the neighbourhood sums, of the reciprocal counts, of the current features and of the identity embedding, with
  the whole stacks of three weight matrices and three bias vectors, and writes the block of the same rows of the
  layer's output; an entry of the layer reads its own row only and the twenty blocks tile the table, so the
  output table after the region is the layer of the input tables.
-/
import proofs.«109543_j54176717472163_1_alg».proof.Proof.Gen.KernelIdeal.Frame
import proofs.«109543_j54176717472163_1_alg».proof.Proof.Spec
import proofs.«109543_j54176717472163_1_alg».proof.Proof.KPay
import proofs.«109543_j54176717472163_1_alg».proof.Proof.KRegLayerDef
import Idealize.ShloMosaic.Lib.Pipeline.Value
import Idealize.ShloMosaic.Lib.ValueIdx

set_option maxRecDepth 16384

noncomputable section

namespace Cert.KernelIdeal.Reg

open Cert.KernelIdeal Cert.KernelIdeal.Gen Cert.KernelIdeal.Pay Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## Region 4: one layer, block by block -/

theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 3) = 0 ∧ win4_4.index t (1 : Fin 3) = 0 ∧ win4_4.index t (2 : Fin 3) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- Matrix 0 of the weight block a point finds, cut out as a one-matrix stack, is matrix 0 of the whole stack. -/
theorem wblk4_0 (c : Dev nD) (t : Fin cfg4.N) (k j : Fin 64) :
    View.ld (iblk4 V c 4 t) r4_2 (ix3 0 k j) = V c main_v58 (ix3 0 k j) := by
  obtain ⟨-, -, -, -, -, -, -, -, e8, e9, e10, -, -, -, -⟩ := idx_facts4 t
  show V c main_v58 (((cfg4.win 4).blk t).view.emb (r4_2.emb (ix3 0 k j))) = V c main_v58 (ix3 0 k j)
  refine congrArg _ ?_
  funext a; apply Fin.ext
  match a with
  | ⟨0, _⟩ => show win4_4.index t (0 : Fin 3) * 3 + 1 * (0 + 1 * 0) = 0; omega
  | ⟨1, _⟩ => show win4_4.index t (1 : Fin 3) * 64 + 1 * (0 + 1 * k.val) = k.val; omega
  | ⟨2, _⟩ => show win4_4.index t (2 : Fin 3) * 64 + 1 * (0 + 1 * j.val) = j.val; omega

/-- Vector 0 of the bias block a point finds is vector 0 of the whole stack. -/
theorem bblk4_0 (c : Dev nD) (t : Fin cfg4.N) (j : Fin 64) :
    View.ld (iblk4 V c 5 t) r4_5 (ix2 0 j) = V c main_v60 (ix2 0 j) := by
  obtain ⟨-, -, -, -, -, -, -, -, -, -, -, e11, e12, -, -⟩ := idx_facts4 t
  show V c main_v60 (((cfg4.win 5).blk t).view.emb (r4_5.emb (ix2 0 j))) = V c main_v60 (ix2 0 j)
  refine congrArg _ ?_
  funext a; apply Fin.ext
  match a with
  | ⟨0, _⟩ => show win4_5.index t (0 : Fin 2) * 3 + 1 * (0 + 1 * 0) = 0; omega
  | ⟨1, _⟩ => show win4_5.index t (1 : Fin 2) * 64 + 1 * (0 + 1 * j.val) = j.val; omega

/-- Matrix 1 of the weight block a point finds, cut out as a one-matrix stack, is matrix 1 of the whole stack. -/
theorem wblk4_1 (c : Dev nD) (t : Fin cfg4.N) (k j : Fin 64) :
    View.ld (iblk4 V c 4 t) r4_3 (ix3 0 k j) = V c main_v58 (ix3 1 k j) := by
  obtain ⟨-, -, -, -, -, -, -, -, e8, e9, e10, -, -, -, -⟩ := idx_facts4 t
  show V c main_v58 (((cfg4.win 4).blk t).view.emb (r4_3.emb (ix3 0 k j))) = V c main_v58 (ix3 1 k j)
  refine congrArg _ ?_
  funext a; apply Fin.ext
  match a with
  | ⟨0, _⟩ => show win4_4.index t (0 : Fin 3) * 3 + 1 * (1 + 1 * 0) = 1; omega
  | ⟨1, _⟩ => show win4_4.index t (1 : Fin 3) * 64 + 1 * (0 + 1 * k.val) = k.val; omega
  | ⟨2, _⟩ => show win4_4.index t (2 : Fin 3) * 64 + 1 * (0 + 1 * j.val) = j.val; omega

/-- Vector 1 of the bias block a point finds is vector 1 of the whole stack. -/
theorem bblk4_1 (c : Dev nD) (t : Fin cfg4.N) (j : Fin 64) :
    View.ld (iblk4 V c 5 t) r4_6 (ix2 0 j) = V c main_v60 (ix2 1 j) := by
  obtain ⟨-, -, -, -, -, -, -, -, -, -, -, e11, e12, -, -⟩ := idx_facts4 t
  show V c main_v60 (((cfg4.win 5).blk t).view.emb (r4_6.emb (ix2 0 j))) = V c main_v60 (ix2 1 j)
  refine congrArg _ ?_
  funext a; apply Fin.ext
  match a with
  | ⟨0, _⟩ => show win4_5.index t (0 : Fin 2) * 3 + 1 * (1 + 1 * 0) = 1; omega
  | ⟨1, _⟩ => show win4_5.index t (1 : Fin 2) * 64 + 1 * (0 + 1 * j.val) = j.val; omega

/-- Matrix 2 of the weight block a point finds, cut out as a one-matrix stack, is matrix 2 of the whole stack. -/
theorem wblk4_2 (c : Dev nD) (t : Fin cfg4.N) (k j : Fin 64) :
    View.ld (iblk4 V c 4 t) r4_4 (ix3 0 k j) = V c main_v58 (ix3 2 k j) := by
  obtain ⟨-, -, -, -, -, -, -, -, e8, e9, e10, -, -, -, -⟩ := idx_facts4 t
  show V c main_v58 (((cfg4.win 4).blk t).view.emb (r4_4.emb (ix3 0 k j))) = V c main_v58 (ix3 2 k j)
  refine congrArg _ ?_
  funext a; apply Fin.ext
  match a with
  | ⟨0, _⟩ => show win4_4.index t (0 : Fin 3) * 3 + 1 * (2 + 1 * 0) = 2; omega
  | ⟨1, _⟩ => show win4_4.index t (1 : Fin 3) * 64 + 1 * (0 + 1 * k.val) = k.val; omega
  | ⟨2, _⟩ => show win4_4.index t (2 : Fin 3) * 64 + 1 * (0 + 1 * j.val) = j.val; omega

/-- Vector 2 of the bias block a point finds is vector 2 of the whole stack. -/
theorem bblk4_2 (c : Dev nD) (t : Fin cfg4.N) (j : Fin 64) :
    View.ld (iblk4 V c 5 t) r4_7 (ix2 0 j) = V c main_v60 (ix2 2 j) := by
  obtain ⟨-, -, -, -, -, -, -, -, -, -, -, e11, e12, -, -⟩ := idx_facts4 t
  show V c main_v60 (((cfg4.win 5).blk t).view.emb (r4_7.emb (ix2 0 j))) = V c main_v60 (ix2 2 j)
  refine congrArg _ ?_
  funext a; apply Fin.ext
  match a with
  | ⟨0, _⟩ => show win4_5.index t (0 : Fin 2) * 3 + 1 * (2 + 1 * 0) = 2; omega
  | ⟨1, _⟩ => show win4_5.index t (1 : Fin 2) * 64 + 1 * (0 + 1 * j.val) = j.val; omega

set_option maxHeartbeats 1000000 in
/-- What grid point `t` writes back is block `t` of the layer's table: row `p` of the block reads row `p` of the three
    row-blocked input blocks, which are rows `4000 t + p` of their tables, and the whole weight and bias stacks. -/
theorem flushed4_eq (c : Dev nD) (t : Fin cfg4.N) :
    (dat4 V c).flushed 6 t = ((cfg4.win 6).blk t).view.read (Elt Ideal)
      (layerTab (V c main_v56) (V c main_v10) (V c main_v45) (V c main_arg2) (V c main_v58) (V c main_v60)) := by
  show (cfg4.win 6).cut (grid4.coords t) ((dat4 V c).after 6 t) = _
  rw [after4_6]
  unfold out4_6
  rw [View.canon_unit_zero hz2']
  simp only [View.ld_unit_zero (S := S4000x64) hz2', View.ld_unit_zero (S := S4000x1) hz2']
  obtain ⟨e0, e1, e2, e3, e4, e5, e6, e7, -, -, -, -, -, e13, e14⟩ := idx_facts4 t
  have ht : t.val < 20 := lt_of_lt_of_eq t.isLt N_4
  have key : ∀ (p : Fin 4000) (q : Fin 64),
      k4_pay1 (F := Ideal) (k4_pay2 (View.ld (iblk4 V c 4 t) r4_3)) (k4_pay3 (View.ld (iblk4 V c 4 t) r4_4))
        (k4_pay4 (View.ld (iblk4 V c 5 t) r4_6)) (k4_pay5 (View.ld (iblk4 V c 5 t) r4_7))
        (k4_pay6 (iblk4 V c 0 t) (iblk4 V c 1 t) (View.ld (iblk4 V c 4 t) r4_2) (View.ld (iblk4 V c 5 t) r4_5))
        (k4_pay7 (iblk4 V c 2 t)) (constant S4000x64 .f32 0x00000000#32) (iblk4 V c 3 t) (ix2 p q)
      = layerTab (V c main_v56) (V c main_v10) (V c main_v45) (V c main_arg2) (V c main_v58) (V c main_v60) (((cfg4.win 6).blk t).view.emb (ix2 p q)) := by
    intro p q
    refine (pay_layer4 (iblk4 V c 0 t) (iblk4 V c 1 t) (View.ld (iblk4 V c 4 t) r4_2) (View.ld (iblk4 V c 4 t) r4_3) (View.ld (iblk4 V c 4 t) r4_4)
      (View.ld (iblk4 V c 5 t) r4_5) (View.ld (iblk4 V c 5 t) r4_6) (View.ld (iblk4 V c 5 t) r4_7) (iblk4 V c 2 t) (iblk4 V c 3 t) p q).trans ?_
    have hp : p.val < 4000 := p.isLt
    have hemb : ((cfg4.win 6).blk t).view.emb (ix2 p q) = ix2 (⟨t.val * 4000 + p.val, by omega⟩ : Fin 80000) q := by
      funext a; apply Fin.ext
      match a with
      | ⟨0, _⟩ => show win4_6.index t (0 : Fin 2) * 4000 + 1 * p.val = t.val * 4000 + p.val; omega
      | ⟨1, _⟩ => show win4_6.index t (1 : Fin 2) * 64 + 1 * q.val = q.val; omega
    rw [hemb]
    have hw0 : (fun a : (⟨2, ![64, 64]⟩ : Shape).Idx => View.ld (iblk4 V c 4 t) r4_2 (ix3 0 (a 1) (a 0))) = fun a => V c main_v58 (ix3 0 (a 1) (a 0)) :=
      funext fun a => (wblk4_0 V c t (a 1) (a 0))
    have hw1 : (fun a : (⟨2, ![64, 64]⟩ : Shape).Idx => View.ld (iblk4 V c 4 t) r4_3 (ix3 0 (a 1) (a 0))) = fun a => V c main_v58 (ix3 1 (a 1) (a 0)) :=
      funext fun a => (wblk4_1 V c t (a 1) (a 0))
    have hw2 : (fun a : (⟨2, ![64, 64]⟩ : Shape).Idx => View.ld (iblk4 V c 4 t) r4_4 (ix3 0 (a 1) (a 0))) = fun a => V c main_v58 (ix3 2 (a 1) (a 0)) :=
      funext fun a => (wblk4_2 V c t (a 1) (a 0))
    have hb0 : (fun j : Fin 64 => View.ld (iblk4 V c 5 t) r4_5 (ix2 0 j)) = fun j => V c main_v60 (ix2 0 j) := funext fun j => bblk4_0 V c t j
    have hb1 : (fun j : Fin 64 => View.ld (iblk4 V c 5 t) r4_6 (ix2 0 j)) = fun j => V c main_v60 (ix2 1 j) := funext fun j => bblk4_1 V c t j
    have hb2 : (fun j : Fin 64 => View.ld (iblk4 V c 5 t) r4_7 (ix2 0 j)) = fun j => V c main_v60 (ix2 2 j) := funext fun j => bblk4_2 V c t j
    rw [hw0, hw1, hw2, hb0, hb1, hb2]
    unfold layerTab
    refine Cert.Gcn.layer_congr _ _ _ _ _ _ _ _ _ _ _ _ p _ q (fun k => ?_) (fun k => ?_) ?_
    · beta_reduce
      refine congrArg₂ (fun (u v : EReal) => u * v) ?_ ?_
      · show V c main_v56 (((cfg4.win 0).blk t).view.emb (ix2 p k)) = V c main_v56 (ix2 (⟨t.val * 4000 + p.val, by omega⟩ : Fin 80000) k)
        refine congrArg _ ?_
        funext a; apply Fin.ext
        match a with
        | ⟨0, _⟩ => show win4_0.index t (0 : Fin 2) * 4000 + 1 * p.val = t.val * 4000 + p.val; omega
        | ⟨1, _⟩ => show win4_0.index t (1 : Fin 2) * 64 + 1 * k.val = k.val; omega
      · show V c main_v10 (((cfg4.win 1).blk t).view.emb (ix2 p 0)) = V c main_v10 (ix2 (⟨t.val * 4000 + p.val, by omega⟩ : Fin 80000) 0)
        refine congrArg _ ?_
        funext a; apply Fin.ext
        match a with
        | ⟨0, _⟩ => show win4_1.index t (0 : Fin 2) * 4000 + 1 * p.val = t.val * 4000 + p.val; omega
        | ⟨1, _⟩ => show win4_1.index t (1 : Fin 2) * 1 + 1 * 0 = 0; omega
    · show V c main_v45 (((cfg4.win 2).blk t).view.emb (ix2 p k)) = V c main_v45 (ix2 (⟨t.val * 4000 + p.val, by omega⟩ : Fin 80000) k)
      refine congrArg _ ?_
      funext a; apply Fin.ext
      match a with
      | ⟨0, _⟩ => show win4_2.index t (0 : Fin 2) * 4000 + 1 * p.val = t.val * 4000 + p.val; omega
      | ⟨1, _⟩ => show win4_2.index t (1 : Fin 2) * 64 + 1 * k.val = k.val; omega
    · show V c main_arg2 (((cfg4.win 3).blk t).view.emb (ix2 p q)) = V c main_arg2 (ix2 (⟨t.val * 4000 + p.val, by omega⟩ : Fin 80000) q)
      refine congrArg _ ?_
      funext a; apply Fin.ext
      match a with
      | ⟨0, _⟩ => show win4_3.index t (0 : Fin 2) * 4000 + 1 * p.val = t.val * 4000 + p.val; omega
      | ⟨1, _⟩ => show win4_3.index t (1 : Fin 2) * 64 + 1 * q.val = q.val; omega
  funext j
  exact (congrArg _ (eq_ix2 j)).trans ((key (j 0) (j 1)).trans (congrArg _ (congrArg _ (eq_ix2 j).symm)))

/-- An index of the table is in point `t`'s block iff each coordinate is in the block's range on its axis. -/
theorem mem_blk4 (t : Fin cfg4.N) (i : S80000x64.Idx) :
    i ∈ ((cfg4.win 6).blk t).view.set ↔ ∀ a : Fin 2, win4_6.index t a * S4000x64.size a ≤ (i a).val ∧ (i a).val < win4_6.index t a * S4000x64.size a + S4000x64.size a := by
  show i ∈ ((View.whole main_v61).slice (win4_6.rect t)).set ↔ _
  rw [View.set_slice_whole, Rect.mem_set_unit]
  exact Iff.rfl

/-- Row `r` lies in the block of point `r / 4000`: the twenty blocks tile the table. -/
theorem cover4 (i : S80000x64.Idx) : ∃ t : Fin cfg4.N, (cfg4.win 6).flush t = true ∧ i ∈ ((cfg4.win 6).blk t).view.set := by
  have hi0 : (i 0).val < 80000 := (i 0).isLt
  have hi1 : (i 1).val < 64 := (i 1).isLt
  have hN : cfg4.N = 20 := N_4
  obtain ⟨t, htv⟩ : ∃ t : Fin cfg4.N, t.val = (i 0).val / 4000 := ⟨⟨(i 0).val / 4000, by rw [hN]; omega⟩, rfl⟩
  obtain ⟨-, -, -, -, -, -, -, -, -, -, -, -, -, e13, e14⟩ := idx_facts4 t
  refine ⟨t, flush4_6 t, ?_⟩
  rw [mem_blk4]
  intro a
  match a with
  | ⟨0, _⟩ => show win4_6.index t (0 : Fin 2) * 4000 ≤ (i 0).val ∧ (i 0).val < win4_6.index t (0 : Fin 2) * 4000 + 4000; omega
  | ⟨1, _⟩ => show win4_6.index t (1 : Fin 2) * 64 ≤ (i 1).val ∧ (i 1).val < win4_6.index t (1 : Fin 2) * 64 + 64; omega

/-- The output table after the region: the layer of the six input tables. -/
theorem final4 (c : Dev nD) : (dat4 V c).arrAt 6 cfg4.N
    = layerTab (V c main_v56) (V c main_v10) (V c main_v45) (V c main_arg2) (V c main_v58) (V c main_v60) :=
  (dat4 V c).arrAt_eq_of_cover 6 _ (fun t _ => flushed4_eq V c t) cover4

end Cert.KernelIdeal.Reg

end
-- ==== Proof.KRegLayer5.lean ====
/-
  Layer region 5 of the kernel program, from blocks to tables: each grid point reads one block of 4000 rows of
  the neighbourhood sums, of the reciprocal counts, of the current features and of the identity embedding, with
  the whole stacks of three weight matrices and three bias vectors, and writes the block of the same rows of the
  layer's output; an entry of the layer reads its own row only and the twenty blocks tile the table, so the
  output table after the region is the layer of the input tables.
-/
import proofs.«109543_j54176717472163_1_alg».proof.Proof.Gen.KernelIdeal.Frame
import proofs.«109543_j54176717472163_1_alg».proof.Proof.Spec
import proofs.«109543_j54176717472163_1_alg».proof.Proof.KPay
import proofs.«109543_j54176717472163_1_alg».proof.Proof.KRegLayerDef
import Idealize.ShloMosaic.Lib.Pipeline.Value
import Idealize.ShloMosaic.Lib.ValueIdx

set_option maxRecDepth 16384

noncomputable section

namespace Cert.KernelIdeal.Reg

open Cert.KernelIdeal Cert.KernelIdeal.Gen Cert.KernelIdeal.Pay Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## Region 5: one layer, block by block -/

theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0
    ∧ win5_4.index t (0 : Fin 3) = 0 ∧ win5_4.index t (1 : Fin 3) = 0 ∧ win5_4.index t (2 : Fin 3) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- Matrix 0 of the weight block a point finds, cut out as a one-matrix stack, is matrix 0 of the whole stack. -/
theorem wblk5_0 (c : Dev nD) (t : Fin cfg5.N) (k j : Fin 64) :
    View.ld (iblk5 V c 4 t) r5_2 (ix3 0 k j) = V c main_v73 (ix3 0 k j) := by
  obtain ⟨-, -, -, -, -, -, -, -, e8, e9, e10, -, -, -, -⟩ := idx_facts5 t
  show V c main_v73 (((cfg5.win 4).blk t).view.emb (r5_2.emb (ix3 0 k j))) = V c main_v73 (ix3 0 k j)
  refine congrArg _ ?_
  funext a; apply Fin.ext
  match a with
  | ⟨0, _⟩ => show win5_4.index t (0 : Fin 3) * 3 + 1 * (0 + 1 * 0) = 0; omega
  | ⟨1, _⟩ => show win5_4.index t (1 : Fin 3) * 64 + 1 * (0 + 1 * k.val) = k.val; omega
  | ⟨2, _⟩ => show win5_4.index t (2 : Fin 3) * 64 + 1 * (0 + 1 * j.val) = j.val; omega

/-- Vector 0 of the bias block a point finds is vector 0 of the whole stack. -/
theorem bblk5_0 (c : Dev nD) (t : Fin cfg5.N) (j : Fin 64) :
    View.ld (iblk5 V c 5 t) r5_5 (ix2 0 j) = V c main_v75 (ix2 0 j) := by
  obtain ⟨-, -, -, -, -, -, -, -, -, -, -, e11, e12, -, -⟩ := idx_facts5 t
  show V c main_v75 (((cfg5.win 5).blk t).view.emb (r5_5.emb (ix2 0 j))) = V c main_v75 (ix2 0 j)
  refine congrArg _ ?_
  funext a; apply Fin.ext
  match a with
  | ⟨0, _⟩ => show win5_5.index t (0 : Fin 2) * 3 + 1 * (0 + 1 * 0) = 0; omega
  | ⟨1, _⟩ => show win5_5.index t (1 : Fin 2) * 64 + 1 * (0 + 1 * j.val) = j.val; omega

/-- Matrix 1 of the weight block a point finds, cut out as a one-matrix stack, is matrix 1 of the whole stack. -/
theorem wblk5_1 (c : Dev nD) (t : Fin cfg5.N) (k j : Fin 64) :
    View.ld (iblk5 V c 4 t) r5_3 (ix3 0 k j) = V c main_v73 (ix3 1 k j) := by
  obtain ⟨-, -, -, -, -, -, -, -, e8, e9, e10, -, -, -, -⟩ := idx_facts5 t
  show V c main_v73 (((cfg5.win 4).blk t).view.emb (r5_3.emb (ix3 0 k j))) = V c main_v73 (ix3 1 k j)
  refine congrArg _ ?_
  funext a; apply Fin.ext
  match a with
  | ⟨0, _⟩ => show win5_4.index t (0 : Fin 3) * 3 + 1 * (1 + 1 * 0) = 1; omega
  | ⟨1, _⟩ => show win5_4.index t (1 : Fin 3) * 64 + 1 * (0 + 1 * k.val) = k.val; omega
  | ⟨2, _⟩ => show win5_4.index t (2 : Fin 3) * 64 + 1 * (0 + 1 * j.val) = j.val; omega

/-- Vector 1 of the bias block a point finds is vector 1 of the whole stack. -/
theorem bblk5_1 (c : Dev nD) (t : Fin cfg5.N) (j : Fin 64) :
    View.ld (iblk5 V c 5 t) r5_6 (ix2 0 j) = V c main_v75 (ix2 1 j) := by
  obtain ⟨-, -, -, -, -, -, -, -, -, -, -, e11, e12, -, -⟩ := idx_facts5 t
  show V c main_v75 (((cfg5.win 5).blk t).view.emb (r5_6.emb (ix2 0 j))) = V c main_v75 (ix2 1 j)
  refine congrArg _ ?_
  funext a; apply Fin.ext
  match a with
  | ⟨0, _⟩ => show win5_5.index t (0 : Fin 2) * 3 + 1 * (1 + 1 * 0) = 1; omega
  | ⟨1, _⟩ => show win5_5.index t (1 : Fin 2) * 64 + 1 * (0 + 1 * j.val) = j.val; omega

/-- Matrix 2 of the weight block a point finds, cut out as a one-matrix stack, is matrix 2 of the whole stack. -/
theorem wblk5_2 (c : Dev nD) (t : Fin cfg5.N) (k j : Fin 64) :
    View.ld (iblk5 V c 4 t) r5_4 (ix3 0 k j) = V c main_v73 (ix3 2 k j) := by
  obtain ⟨-, -, -, -, -, -, -, -, e8, e9, e10, -, -, -, -⟩ := idx_facts5 t
  show V c main_v73 (((cfg5.win 4).blk t).view.emb (r5_4.emb (ix3 0 k j))) = V c main_v73 (ix3 2 k j)
  refine congrArg _ ?_
  funext a; apply Fin.ext
  match a with
  | ⟨0, _⟩ => show win5_4.index t (0 : Fin 3) * 3 + 1 * (2 + 1 * 0) = 2; omega
  | ⟨1, _⟩ => show win5_4.index t (1 : Fin 3) * 64 + 1 * (0 + 1 * k.val) = k.val; omega
  | ⟨2, _⟩ => show win5_4.index t (2 : Fin 3) * 64 + 1 * (0 + 1 * j.val) = j.val; omega

/-- Vector 2 of the bias block a point finds is vector 2 of the whole stack. -/
theorem bblk5_2 (c : Dev nD) (t : Fin cfg5.N) (j : Fin 64) :
    View.ld (iblk5 V c 5 t) r5_7 (ix2 0 j) = V c main_v75 (ix2 2 j) := by
  obtain ⟨-, -, -, -, -, -, -, -, -, -, -, e11, e12, -, -⟩ := idx_facts5 t
  show V c main_v75 (((cfg5.win 5).blk t).view.emb (r5_7.emb (ix2 0 j))) = V c main_v75 (ix2 2 j)
  refine congrArg _ ?_
  funext a; apply Fin.ext
  match a with
  | ⟨0, _⟩ => show win5_5.index t (0 : Fin 2) * 3 + 1 * (2 + 1 * 0) = 2; omega
  | ⟨1, _⟩ => show win5_5.index t (1 : Fin 2) * 64 + 1 * (0 + 1 * j.val) = j.val; omega

set_option maxHeartbeats 1000000 in
/-- What grid point `t` writes back is block `t` of the layer's table: row `p` of the block reads row `p` of the three
    row-blocked input blocks, which are rows `4000 t + p` of their tables, and the whole weight and bias stacks. -/
theorem flushed5_eq (c : Dev nD) (t : Fin cfg5.N) :
    (dat5 V c).flushed 6 t = ((cfg5.win 6).blk t).view.read (Elt Ideal)
      (layerTab (V c main_v71) (V c main_v10) (V c main_v61) (V c main_arg2) (V c main_v73) (V c main_v75)) := by
  show (cfg5.win 6).cut (grid5.coords t) ((dat5 V c).after 6 t) = _
  rw [after5_6]
  unfold out5_6
  rw [View.canon_unit_zero hz2']
  simp only [View.ld_unit_zero (S := S4000x64) hz2', View.ld_unit_zero (S := S4000x1) hz2']
  obtain ⟨e0, e1, e2, e3, e4, e5, e6, e7, -, -, -, -, -, e13, e14⟩ := idx_facts5 t
  have ht : t.val < 20 := lt_of_lt_of_eq t.isLt N_5
  have key : ∀ (p : Fin 4000) (q : Fin 64),
      k5_pay1 (F := Ideal) (k5_pay2 (View.ld (iblk5 V c 4 t) r5_3)) (k5_pay3 (View.ld (iblk5 V c 4 t) r5_4))
        (k5_pay4 (View.ld (iblk5 V c 5 t) r5_6)) (k5_pay5 (View.ld (iblk5 V c 5 t) r5_7))
        (k5_pay6 (iblk5 V c 0 t) (iblk5 V c 1 t) (View.ld (iblk5 V c 4 t) r5_2) (View.ld (iblk5 V c 5 t) r5_5))
        (k5_pay7 (iblk5 V c 2 t)) (constant S4000x64 .f32 0x00000000#32) (iblk5 V c 3 t) (ix2 p q)
      = layerTab (V c main_v71) (V c main_v10) (V c main_v61) (V c main_arg2) (V c main_v73) (V c main_v75) (((cfg5.win 6).blk t).view.emb (ix2 p q)) := by
    intro p q
    refine (pay_layer5 (iblk5 V c 0 t) (iblk5 V c 1 t) (View.ld (iblk5 V c 4 t) r5_2) (View.ld (iblk5 V c 4 t) r5_3) (View.ld (iblk5 V c 4 t) r5_4)
      (View.ld (iblk5 V c 5 t) r5_5) (View.ld (iblk5 V c 5 t) r5_6) (View.ld (iblk5 V c 5 t) r5_7) (iblk5 V c 2 t) (iblk5 V c 3 t) p q).trans ?_
    have hp : p.val < 4000 := p.isLt
    have hemb : ((cfg5.win 6).blk t).view.emb (ix2 p q) = ix2 (⟨t.val * 4000 + p.val, by omega⟩ : Fin 80000) q := by
      funext a; apply Fin.ext
      match a with
      | ⟨0, _⟩ => show win5_6.index t (0 : Fin 2) * 4000 + 1 * p.val = t.val * 4000 + p.val; omega
      | ⟨1, _⟩ => show win5_6.index t (1 : Fin 2) * 64 + 1 * q.val = q.val; omega
    rw [hemb]
    have hw0 : (fun a : (⟨2, ![64, 64]⟩ : Shape).Idx => View.ld (iblk5 V c 4 t) r5_2 (ix3 0 (a 1) (a 0))) = fun a => V c main_v73 (ix3 0 (a 1) (a 0)) :=
      funext fun a => (wblk5_0 V c t (a 1) (a 0))
    have hw1 : (fun a : (⟨2, ![64, 64]⟩ : Shape).Idx => View.ld (iblk5 V c 4 t) r5_3 (ix3 0 (a 1) (a 0))) = fun a => V c main_v73 (ix3 1 (a 1) (a 0)) :=
      funext fun a => (wblk5_1 V c t (a 1) (a 0))
    have hw2 : (fun a : (⟨2, ![64, 64]⟩ : Shape).Idx => View.ld (iblk5 V c 4 t) r5_4 (ix3 0 (a 1) (a 0))) = fun a => V c main_v73 (ix3 2 (a 1) (a 0)) :=
      funext fun a => (wblk5_2 V c t (a 1) (a 0))
    have hb0 : (fun j : Fin 64 => View.ld (iblk5 V c 5 t) r5_5 (ix2 0 j)) = fun j => V c main_v75 (ix2 0 j) := funext fun j => bblk5_0 V c t j
    have hb1 : (fun j : Fin 64 => View.ld (iblk5 V c 5 t) r5_6 (ix2 0 j)) = fun j => V c main_v75 (ix2 1 j) := funext fun j => bblk5_1 V c t j
    have hb2 : (fun j : Fin 64 => View.ld (iblk5 V c 5 t) r5_7 (ix2 0 j)) = fun j => V c main_v75 (ix2 2 j) := funext fun j => bblk5_2 V c t j
    rw [hw0, hw1, hw2, hb0, hb1, hb2]
    unfold layerTab
    refine Cert.Gcn.layer_congr _ _ _ _ _ _ _ _ _ _ _ _ p _ q (fun k => ?_) (fun k => ?_) ?_
    · beta_reduce
      refine congrArg₂ (fun (u v : EReal) => u * v) ?_ ?_
      · show V c main_v71 (((cfg5.win 0).blk t).view.emb (ix2 p k)) = V c main_v71 (ix2 (⟨t.val * 4000 + p.val, by omega⟩ : Fin 80000) k)
        refine congrArg _ ?_
        funext a; apply Fin.ext
        match a with
        | ⟨0, _⟩ => show win5_0.index t (0 : Fin 2) * 4000 + 1 * p.val = t.val * 4000 + p.val; omega
        | ⟨1, _⟩ => show win5_0.index t (1 : Fin 2) * 64 + 1 * k.val = k.val; omega
      · show V c main_v10 (((cfg5.win 1).blk t).view.emb (ix2 p 0)) = V c main_v10 (ix2 (⟨t.val * 4000 + p.val, by omega⟩ : Fin 80000) 0)
        refine congrArg _ ?_
        funext a; apply Fin.ext
        match a with
        | ⟨0, _⟩ => show win5_1.index t (0 : Fin 2) * 4000 + 1 * p.val = t.val * 4000 + p.val; omega
        | ⟨1, _⟩ => show win5_1.index t (1 : Fin 2) * 1 + 1 * 0 = 0; omega
    · show V c main_v61 (((cfg5.win 2).blk t).view.emb (ix2 p k)) = V c main_v61 (ix2 (⟨t.val * 4000 + p.val, by omega⟩ : Fin 80000) k)
      refine congrArg _ ?_
      funext a; apply Fin.ext
      match a with
      | ⟨0, _⟩ => show win5_2.index t (0 : Fin 2) * 4000 + 1 * p.val = t.val * 4000 + p.val; omega
      | ⟨1, _⟩ => show win5_2.index t (1 : Fin 2) * 64 + 1 * k.val = k.val; omega
    · show V c main_arg2 (((cfg5.win 3).blk t).view.emb (ix2 p q)) = V c main_arg2 (ix2 (⟨t.val * 4000 + p.val, by omega⟩ : Fin 80000) q)
      refine congrArg _ ?_
      funext a; apply Fin.ext
      match a with
      | ⟨0, _⟩ => show win5_3.index t (0 : Fin 2) * 4000 + 1 * p.val = t.val * 4000 + p.val; omega
      | ⟨1, _⟩ => show win5_3.index t (1 : Fin 2) * 64 + 1 * q.val = q.val; omega
  funext j
  exact (congrArg _ (eq_ix2 j)).trans ((key (j 0) (j 1)).trans (congrArg _ (congrArg _ (eq_ix2 j).symm)))

/-- An index of the table is in point `t`'s block iff each coordinate is in the block's range on its axis. -/
theorem mem_blk5 (t : Fin cfg5.N) (i : S80000x64.Idx) :
    i ∈ ((cfg5.win 6).blk t).view.set ↔ ∀ a : Fin 2, win5_6.index t a * S4000x64.size a ≤ (i a).val ∧ (i a).val < win5_6.index t a * S4000x64.size a + S4000x64.size a := by
  show i ∈ ((View.whole main_v76).slice (win5_6.rect t)).set ↔ _
  rw [View.set_slice_whole, Rect.mem_set_unit]
  exact Iff.rfl

/-- Row `r` lies in the block of point `r / 4000`: the twenty blocks tile the table. -/
theorem cover5 (i : S80000x64.Idx) : ∃ t : Fin cfg5.N, (cfg5.win 6).flush t = true ∧ i ∈ ((cfg5.win 6).blk t).view.set := by
  have hi0 : (i 0).val < 80000 := (i 0).isLt
  have hi1 : (i 1).val < 64 := (i 1).isLt
  have hN : cfg5.N = 20 := N_5
  obtain ⟨t, htv⟩ : ∃ t : Fin cfg5.N, t.val = (i 0).val / 4000 := ⟨⟨(i 0).val / 4000, by rw [hN]; omega⟩, rfl⟩
  obtain ⟨-, -, -, -, -, -, -, -, -, -, -, -, -, e13, e14⟩ := idx_facts5 t
  refine ⟨t, flush5_6 t, ?_⟩
  rw [mem_blk5]
  intro a
  match a with
  | ⟨0, _⟩ => show win5_6.index t (0 : Fin 2) * 4000 ≤ (i 0).val ∧ (i 0).val < win5_6.index t (0 : Fin 2) * 4000 + 4000; omega
  | ⟨1, _⟩ => show win5_6.index t (1 : Fin 2) * 64 ≤ (i 1).val ∧ (i 1).val < win5_6.index t (1 : Fin 2) * 64 + 64; omega

/-- The output table after the region: the layer of the six input tables. -/
theorem final5 (c : Dev nD) : (dat5 V c).arrAt 6 cfg5.N
    = layerTab (V c main_v71) (V c main_v10) (V c main_v61) (V c main_arg2) (V c main_v73) (V c main_v75) :=
  (dat5 V c).arrAt_eq_of_cover 6 _ (fun t _ => flushed5_eq V c t) cover5

end Cert.KernelIdeal.Reg

end
-- ==== Proof.KChain.lean ====
/-
  The kernel program's result as a function of its arguments: the buffer contents are followed through the
  thirteen segments of @main — a stretch of host operations leaves each buffer at the stage function of what it
  found, a region leaves its output table at the row scaling or the layer of its input tables and every other
  buffer as it found it — from the launch memory to the result buffer, which ends holding half the sum of the
  two towers.
-/
import proofs.«109543_j54176717472163_1_alg».proof.Proof.Gen.KernelIdeal.Frame
import proofs.«109543_j54176717472163_1_alg».proof.Proof.KChain0
import proofs.«109543_j54176717472163_1_alg».proof.Proof.KTower
import proofs.«109543_j54176717472163_1_alg».proof.Proof.KRegNorm
import proofs.«109543_j54176717472163_1_alg».proof.Proof.KRegLayer1
import proofs.«109543_j54176717472163_1_alg».proof.Proof.KRegLayer2
import proofs.«109543_j54176717472163_1_alg».proof.Proof.KRegLayer4
import proofs.«109543_j54176717472163_1_alg».proof.Proof.KRegLayer5

set_option maxRecDepth 16384

noncomputable section

namespace Cert.KernelIdeal.Chain

open Cert.KernelIdeal Cert.KernelIdeal.Gen Idealize.ShloMosaic Idealize.ShloMosaic.TcCoe Idealize.ShloMosaic.StableHlo
open Idealize.SL.Sem
open Idealize.ShloMosaic.Pipeline (Dat Cfg Window)

variable (m : (ℓ : Loc nD τ sig) → Buf (Elt Ideal) ℓ) (ρ : Dev nD → PrngReg) (c : Dev nD)

theorem W1_v1 : W1 m ρ c (Proc.devRef .tc main_v1) = (Hand.rowOf (m ((c : Thread nD τ).loc main_arg9))) :=
  ops0_v1 (W0 m ρ c)
theorem W1_v3 : W1 m ρ c (Proc.devRef .tc main_v3) = (Hand.colOf (m ((c : Thread nD τ).loc main_arg9))) :=
  ops0_v3 (W0 m ρ c)
theorem W1_v10 : W1 m ρ c (Proc.devRef .tc main_v10) = (Hand.dinvOf (F := Ideal) (m ((c : Thread nD τ).loc main_arg9))) :=
  ops0_v10 (W0 m ρ c)
theorem W1_v11 : W1 m ρ c (Proc.devRef .tc main_v11) = (Hand.catOf (F := Ideal) (m ((c : Thread nD τ).loc main_arg3)) (m ((c : Thread nD τ).loc main_arg0))) :=
  ops0_v11 (W0 m ρ c)
theorem W1_arg1 : W1 m ρ c (Proc.devRef .tc main_arg1) = (m ((c : Thread nD τ).loc main_arg1)) :=
  ops0_keep_arg1 (W0 m ρ c)
theorem W1_arg2 : W1 m ρ c (Proc.devRef .tc main_arg2) = (m ((c : Thread nD τ).loc main_arg2)) :=
  ops0_keep_arg2 (W0 m ρ c)
theorem W1_arg4 : W1 m ρ c (Proc.devRef .tc main_arg4) = (m ((c : Thread nD τ).loc main_arg4)) :=
  ops0_keep_arg4 (W0 m ρ c)
theorem W1_arg5 : W1 m ρ c (Proc.devRef .tc main_arg5) = (m ((c : Thread nD τ).loc main_arg5)) :=
  ops0_keep_arg5 (W0 m ρ c)
theorem W1_arg6 : W1 m ρ c (Proc.devRef .tc main_arg6) = (m ((c : Thread nD τ).loc main_arg6)) :=
  ops0_keep_arg6 (W0 m ρ c)
theorem W1_arg7 : W1 m ρ c (Proc.devRef .tc main_arg7) = (m ((c : Thread nD τ).loc main_arg7)) :=
  ops0_keep_arg7 (W0 m ρ c)
theorem W1_arg8 : W1 m ρ c (Proc.devRef .tc main_arg8) = (m ((c : Thread nD τ).loc main_arg8)) :=
  ops0_keep_arg8 (W0 m ρ c)
theorem W2_v12 : W2 m ρ c (Proc.devRef .tc main_v12) = (x0K (m ((c : Thread nD τ).loc main_arg3)) (m ((c : Thread nD τ).loc main_arg0))) :=
  (W2_arr m ρ c 1).trans ((Reg.final0 (V1 m ρ) c).trans (congrArg Cert.Gcn.normRows (W1_v11 m ρ c)))
theorem W2_v1 : W2 m ρ c (Proc.devRef .tc main_v1) = (Hand.rowOf (m ((c : Thread nD τ).loc main_arg9))) :=
  (W2_of_ne m ρ c main_v1 (by decide)).trans (W1_v1 m ρ c)
theorem W2_v3 : W2 m ρ c (Proc.devRef .tc main_v3) = (Hand.colOf (m ((c : Thread nD τ).loc main_arg9))) :=
  (W2_of_ne m ρ c main_v3 (by decide)).trans (W1_v3 m ρ c)
theorem W2_v10 : W2 m ρ c (Proc.devRef .tc main_v10) = (Hand.dinvOf (F := Ideal) (m ((c : Thread nD τ).loc main_arg9))) :=
  (W2_of_ne m ρ c main_v10 (by decide)).trans (W1_v10 m ρ c)
theorem W2_arg1 : W2 m ρ c (Proc.devRef .tc main_arg1) = (m ((c : Thread nD τ).loc main_arg1)) :=
  (W2_of_ne m ρ c main_arg1 (by decide)).trans (W1_arg1 m ρ c)
theorem W2_arg2 : W2 m ρ c (Proc.devRef .tc main_arg2) = (m ((c : Thread nD τ).loc main_arg2)) :=
  (W2_of_ne m ρ c main_arg2 (by decide)).trans (W1_arg2 m ρ c)
theorem W2_arg4 : W2 m ρ c (Proc.devRef .tc main_arg4) = (m ((c : Thread nD τ).loc main_arg4)) :=
  (W2_of_ne m ρ c main_arg4 (by decide)).trans (W1_arg4 m ρ c)
theorem W2_arg5 : W2 m ρ c (Proc.devRef .tc main_arg5) = (m ((c : Thread nD τ).loc main_arg5)) :=
  (W2_of_ne m ρ c main_arg5 (by decide)).trans (W1_arg5 m ρ c)
theorem W2_arg6 : W2 m ρ c (Proc.devRef .tc main_arg6) = (m ((c : Thread nD τ).loc main_arg6)) :=
  (W2_of_ne m ρ c main_arg6 (by decide)).trans (W1_arg6 m ρ c)
theorem W2_arg7 : W2 m ρ c (Proc.devRef .tc main_arg7) = (m ((c : Thread nD τ).loc main_arg7)) :=
  (W2_of_ne m ρ c main_arg7 (by decide)).trans (W1_arg7 m ρ c)
theorem W2_arg8 : W2 m ρ c (Proc.devRef .tc main_arg8) = (m ((c : Thread nD τ).loc main_arg8)) :=
  (W2_of_ne m ρ c main_arg8 (by decide)).trans (W1_arg8 m ρ c)
theorem W3_v23 : W3 m ρ c (Proc.devRef .tc main_v23) = (Hand.rawRC (F := Ideal) (x0K (m ((c : Thread nD τ).loc main_arg3)) (m ((c : Thread nD τ).loc main_arg0))) (Hand.rowOf (m ((c : Thread nD τ).loc main_arg9))) (Hand.colOf (m ((c : Thread nD τ).loc main_arg9)))) :=
  (ops1_v23 (W2 m ρ c)).trans (by rw [W2_v12 m ρ c, W2_v1 m ρ c, W2_v3 m ρ c])
theorem W3_v13 : W3 m ρ c (Proc.devRef .tc main_v13) = (Hand.wtOf (F := Ideal) (m ((c : Thread nD τ).loc main_arg5))) :=
  (ops1_v13 (W2 m ρ c)).trans (by rw [W2_arg5 m ρ c])
theorem W3_v25 : W3 m ρ c (Proc.devRef .tc main_v25) = (Hand.wSlab0 (F := Ideal) (Hand.wtOf (m ((c : Thread nD τ).loc main_arg5)))) :=
  (ops1_v25 (W2 m ρ c)).trans (by rw [W2_arg5 m ρ c])
theorem W3_v27 : W3 m ρ c (Proc.devRef .tc main_v27) = (Hand.bSlab0 (F := Ideal) (m ((c : Thread nD τ).loc main_arg6))) :=
  (ops1_v27 (W2 m ρ c)).trans (by rw [W2_arg6 m ρ c])
theorem W3_v1 : W3 m ρ c (Proc.devRef .tc main_v1) = (Hand.rowOf (m ((c : Thread nD τ).loc main_arg9))) :=
  (ops1_keep_v1 (W2 m ρ c)).trans (W2_v1 m ρ c)
theorem W3_v3 : W3 m ρ c (Proc.devRef .tc main_v3) = (Hand.colOf (m ((c : Thread nD τ).loc main_arg9))) :=
  (ops1_keep_v3 (W2 m ρ c)).trans (W2_v3 m ρ c)
theorem W3_v10 : W3 m ρ c (Proc.devRef .tc main_v10) = (Hand.dinvOf (F := Ideal) (m ((c : Thread nD τ).loc main_arg9))) :=
  (ops1_keep_v10 (W2 m ρ c)).trans (W2_v10 m ρ c)
theorem W3_v12 : W3 m ρ c (Proc.devRef .tc main_v12) = (x0K (m ((c : Thread nD τ).loc main_arg3)) (m ((c : Thread nD τ).loc main_arg0))) :=
  (ops1_keep_v12 (W2 m ρ c)).trans (W2_v12 m ρ c)
theorem W3_arg1 : W3 m ρ c (Proc.devRef .tc main_arg1) = (m ((c : Thread nD τ).loc main_arg1)) :=
  (ops1_keep_arg1 (W2 m ρ c)).trans (W2_arg1 m ρ c)
theorem W3_arg2 : W3 m ρ c (Proc.devRef .tc main_arg2) = (m ((c : Thread nD τ).loc main_arg2)) :=
  (ops1_keep_arg2 (W2 m ρ c)).trans (W2_arg2 m ρ c)
theorem W3_arg4 : W3 m ρ c (Proc.devRef .tc main_arg4) = (m ((c : Thread nD τ).loc main_arg4)) :=
  (ops1_keep_arg4 (W2 m ρ c)).trans (W2_arg4 m ρ c)
theorem W3_arg6 : W3 m ρ c (Proc.devRef .tc main_arg6) = (m ((c : Thread nD τ).loc main_arg6)) :=
  (ops1_keep_arg6 (W2 m ρ c)).trans (W2_arg6 m ρ c)
theorem W3_arg7 : W3 m ρ c (Proc.devRef .tc main_arg7) = (m ((c : Thread nD τ).loc main_arg7)) :=
  (ops1_keep_arg7 (W2 m ρ c)).trans (W2_arg7 m ρ c)
theorem W3_arg8 : W3 m ρ c (Proc.devRef .tc main_arg8) = (m ((c : Thread nD τ).loc main_arg8)) :=
  (ops1_keep_arg8 (W2 m ρ c)).trans (W2_arg8 m ρ c)
theorem W4_v28 : W4 m ρ c (Proc.devRef .tc main_v28) = (x1K (m ((c : Thread nD τ).loc main_arg3)) (m ((c : Thread nD τ).loc main_arg0)) (m ((c : Thread nD τ).loc main_arg2)) (m ((c : Thread nD τ).loc main_arg5)) (m ((c : Thread nD τ).loc main_arg6)) (m ((c : Thread nD τ).loc main_arg9))) :=
  (W4_arr m ρ c 6).trans ((Reg.final1 (V3 m ρ) c).trans (show Reg.layerTab (W3 m ρ c (Proc.devRef .tc main_v23)) (W3 m ρ c (Proc.devRef .tc main_v10)) (W3 m ρ c (Proc.devRef .tc main_v12)) (W3 m ρ c (Proc.devRef .tc main_arg2)) (W3 m ρ c (Proc.devRef .tc main_v25)) (W3 m ρ c (Proc.devRef .tc main_v27)) = _ from by rw [W3_v23 m ρ c, W3_v10 m ρ c, W3_v12 m ρ c, W3_arg2 m ρ c, W3_v25 m ρ c, W3_v27 m ρ c]; rfl))
theorem W4_v10 : W4 m ρ c (Proc.devRef .tc main_v10) = (Hand.dinvOf (F := Ideal) (m ((c : Thread nD τ).loc main_arg9))) :=
  (W4_arr m ρ c 1).trans (((dat1 (V3 m ρ) c).arrAt_in 1 rfl cfg1.N).trans ((A_eq1 (V3 m ρ) c 1).trans (W3_v10 m ρ c)))
theorem W4_arg2 : W4 m ρ c (Proc.devRef .tc main_arg2) = (m ((c : Thread nD τ).loc main_arg2)) :=
  (W4_arr m ρ c 3).trans (((dat1 (V3 m ρ) c).arrAt_in 3 rfl cfg1.N).trans ((A_eq1 (V3 m ρ) c 3).trans (W3_arg2 m ρ c)))
theorem W4_v1 : W4 m ρ c (Proc.devRef .tc main_v1) = (Hand.rowOf (m ((c : Thread nD τ).loc main_arg9))) :=
  (W4_of_ne m ρ c main_v1 (by decide)).trans (W3_v1 m ρ c)
theorem W4_v3 : W4 m ρ c (Proc.devRef .tc main_v3) = (Hand.colOf (m ((c : Thread nD τ).loc main_arg9))) :=
  (W4_of_ne m ρ c main_v3 (by decide)).trans (W3_v3 m ρ c)
theorem W4_v13 : W4 m ρ c (Proc.devRef .tc main_v13) = (Hand.wtOf (F := Ideal) (m ((c : Thread nD τ).loc main_arg5))) :=
  (W4_of_ne m ρ c main_v13 (by decide)).trans (W3_v13 m ρ c)
theorem W4_arg1 : W4 m ρ c (Proc.devRef .tc main_arg1) = (m ((c : Thread nD τ).loc main_arg1)) :=
  (W4_of_ne m ρ c main_arg1 (by decide)).trans (W3_arg1 m ρ c)
theorem W4_arg4 : W4 m ρ c (Proc.devRef .tc main_arg4) = (m ((c : Thread nD τ).loc main_arg4)) :=
  (W4_of_ne m ρ c main_arg4 (by decide)).trans (W3_arg4 m ρ c)
theorem W4_arg6 : W4 m ρ c (Proc.devRef .tc main_arg6) = (m ((c : Thread nD τ).loc main_arg6)) :=
  (W4_of_ne m ρ c main_arg6 (by decide)).trans (W3_arg6 m ρ c)
theorem W4_arg7 : W4 m ρ c (Proc.devRef .tc main_arg7) = (m ((c : Thread nD τ).loc main_arg7)) :=
  (W4_of_ne m ρ c main_arg7 (by decide)).trans (W3_arg7 m ρ c)
theorem W4_arg8 : W4 m ρ c (Proc.devRef .tc main_arg8) = (m ((c : Thread nD τ).loc main_arg8)) :=
  (W4_of_ne m ρ c main_arg8 (by decide)).trans (W3_arg8 m ρ c)
theorem W5_v38 : W5 m ρ c (Proc.devRef .tc main_v38) = (Hand.rawRC (F := Ideal) (x1K (m ((c : Thread nD τ).loc main_arg3)) (m ((c : Thread nD τ).loc main_arg0)) (m ((c : Thread nD τ).loc main_arg2)) (m ((c : Thread nD τ).loc main_arg5)) (m ((c : Thread nD τ).loc main_arg6)) (m ((c : Thread nD τ).loc main_arg9))) (Hand.rowOf (m ((c : Thread nD τ).loc main_arg9))) (Hand.colOf (m ((c : Thread nD τ).loc main_arg9)))) :=
  (ops2_v38 (W4 m ρ c)).trans (by rw [W4_v28 m ρ c, W4_v1 m ρ c, W4_v3 m ρ c])
theorem W5_v40 : W5 m ρ c (Proc.devRef .tc main_v40) = (Hand.wSlab1 (F := Ideal) (Hand.wtOf (m ((c : Thread nD τ).loc main_arg5)))) :=
  (ops2_v40 (W4 m ρ c)).trans (by rw [W4_v13 m ρ c])
theorem W5_v42 : W5 m ρ c (Proc.devRef .tc main_v42) = (Hand.bSlab1 (F := Ideal) (m ((c : Thread nD τ).loc main_arg6))) :=
  (ops2_v42 (W4 m ρ c)).trans (by rw [W4_arg6 m ρ c])
theorem W5_v1 : W5 m ρ c (Proc.devRef .tc main_v1) = (Hand.rowOf (m ((c : Thread nD τ).loc main_arg9))) :=
  (ops2_keep_v1 (W4 m ρ c)).trans (W4_v1 m ρ c)
theorem W5_v3 : W5 m ρ c (Proc.devRef .tc main_v3) = (Hand.colOf (m ((c : Thread nD τ).loc main_arg9))) :=
  (ops2_keep_v3 (W4 m ρ c)).trans (W4_v3 m ρ c)
theorem W5_v10 : W5 m ρ c (Proc.devRef .tc main_v10) = (Hand.dinvOf (F := Ideal) (m ((c : Thread nD τ).loc main_arg9))) :=
  (ops2_keep_v10 (W4 m ρ c)).trans (W4_v10 m ρ c)
theorem W5_v28 : W5 m ρ c (Proc.devRef .tc main_v28) = (x1K (m ((c : Thread nD τ).loc main_arg3)) (m ((c : Thread nD τ).loc main_arg0)) (m ((c : Thread nD τ).loc main_arg2)) (m ((c : Thread nD τ).loc main_arg5)) (m ((c : Thread nD τ).loc main_arg6)) (m ((c : Thread nD τ).loc main_arg9))) :=
  (ops2_keep_v28 (W4 m ρ c)).trans (W4_v28 m ρ c)
theorem W5_arg1 : W5 m ρ c (Proc.devRef .tc main_arg1) = (m ((c : Thread nD τ).loc main_arg1)) :=
  (ops2_keep_arg1 (W4 m ρ c)).trans (W4_arg1 m ρ c)
theorem W5_arg2 : W5 m ρ c (Proc.devRef .tc main_arg2) = (m ((c : Thread nD τ).loc main_arg2)) :=
  (ops2_keep_arg2 (W4 m ρ c)).trans (W4_arg2 m ρ c)
theorem W5_arg4 : W5 m ρ c (Proc.devRef .tc main_arg4) = (m ((c : Thread nD τ).loc main_arg4)) :=
  (ops2_keep_arg4 (W4 m ρ c)).trans (W4_arg4 m ρ c)
theorem W5_arg7 : W5 m ρ c (Proc.devRef .tc main_arg7) = (m ((c : Thread nD τ).loc main_arg7)) :=
  (ops2_keep_arg7 (W4 m ρ c)).trans (W4_arg7 m ρ c)
theorem W5_arg8 : W5 m ρ c (Proc.devRef .tc main_arg8) = (m ((c : Thread nD τ).loc main_arg8)) :=
  (ops2_keep_arg8 (W4 m ρ c)).trans (W4_arg8 m ρ c)
theorem W6_v43 : W6 m ρ c (Proc.devRef .tc main_v43) = (x2K (m ((c : Thread nD τ).loc main_arg3)) (m ((c : Thread nD τ).loc main_arg0)) (m ((c : Thread nD τ).loc main_arg2)) (m ((c : Thread nD τ).loc main_arg5)) (m ((c : Thread nD τ).loc main_arg6)) (m ((c : Thread nD τ).loc main_arg9))) :=
  (W6_arr m ρ c 6).trans ((Reg.final2 (V5 m ρ) c).trans (show Reg.layerTab (W5 m ρ c (Proc.devRef .tc main_v38)) (W5 m ρ c (Proc.devRef .tc main_v10)) (W5 m ρ c (Proc.devRef .tc main_v28)) (W5 m ρ c (Proc.devRef .tc main_arg2)) (W5 m ρ c (Proc.devRef .tc main_v40)) (W5 m ρ c (Proc.devRef .tc main_v42)) = _ from by rw [W5_v38 m ρ c, W5_v10 m ρ c, W5_v28 m ρ c, W5_arg2 m ρ c, W5_v40 m ρ c, W5_v42 m ρ c]; rfl))
theorem W6_v10 : W6 m ρ c (Proc.devRef .tc main_v10) = (Hand.dinvOf (F := Ideal) (m ((c : Thread nD τ).loc main_arg9))) :=
  (W6_arr m ρ c 1).trans (((dat2 (V5 m ρ) c).arrAt_in 1 rfl cfg2.N).trans ((A_eq2 (V5 m ρ) c 1).trans (W5_v10 m ρ c)))
theorem W6_arg2 : W6 m ρ c (Proc.devRef .tc main_arg2) = (m ((c : Thread nD τ).loc main_arg2)) :=
  (W6_arr m ρ c 3).trans (((dat2 (V5 m ρ) c).arrAt_in 3 rfl cfg2.N).trans ((A_eq2 (V5 m ρ) c 3).trans (W5_arg2 m ρ c)))
theorem W6_v1 : W6 m ρ c (Proc.devRef .tc main_v1) = (Hand.rowOf (m ((c : Thread nD τ).loc main_arg9))) :=
  (W6_of_ne m ρ c main_v1 (by decide)).trans (W5_v1 m ρ c)
theorem W6_v3 : W6 m ρ c (Proc.devRef .tc main_v3) = (Hand.colOf (m ((c : Thread nD τ).loc main_arg9))) :=
  (W6_of_ne m ρ c main_v3 (by decide)).trans (W5_v3 m ρ c)
theorem W6_arg1 : W6 m ρ c (Proc.devRef .tc main_arg1) = (m ((c : Thread nD τ).loc main_arg1)) :=
  (W6_of_ne m ρ c main_arg1 (by decide)).trans (W5_arg1 m ρ c)
theorem W6_arg4 : W6 m ρ c (Proc.devRef .tc main_arg4) = (m ((c : Thread nD τ).loc main_arg4)) :=
  (W6_of_ne m ρ c main_arg4 (by decide)).trans (W5_arg4 m ρ c)
theorem W6_arg7 : W6 m ρ c (Proc.devRef .tc main_arg7) = (m ((c : Thread nD τ).loc main_arg7)) :=
  (W6_of_ne m ρ c main_arg7 (by decide)).trans (W5_arg7 m ρ c)
theorem W6_arg8 : W6 m ρ c (Proc.devRef .tc main_arg8) = (m ((c : Thread nD τ).loc main_arg8)) :=
  (W6_of_ne m ρ c main_arg8 (by decide)).trans (W5_arg8 m ρ c)
theorem W7_v44 : W7 m ρ c (Proc.devRef .tc main_v44) = (Hand.catOf (F := Ideal) (m ((c : Thread nD τ).loc main_arg4)) (m ((c : Thread nD τ).loc main_arg1))) :=
  (ops3_v44 (W6 m ρ c)).trans (by rw [W6_arg4 m ρ c, W6_arg1 m ρ c])
theorem W7_v1 : W7 m ρ c (Proc.devRef .tc main_v1) = (Hand.rowOf (m ((c : Thread nD τ).loc main_arg9))) :=
  (ops3_keep_v1 (W6 m ρ c)).trans (W6_v1 m ρ c)
theorem W7_v3 : W7 m ρ c (Proc.devRef .tc main_v3) = (Hand.colOf (m ((c : Thread nD τ).loc main_arg9))) :=
  (ops3_keep_v3 (W6 m ρ c)).trans (W6_v3 m ρ c)
theorem W7_v10 : W7 m ρ c (Proc.devRef .tc main_v10) = (Hand.dinvOf (F := Ideal) (m ((c : Thread nD τ).loc main_arg9))) :=
  (ops3_keep_v10 (W6 m ρ c)).trans (W6_v10 m ρ c)
theorem W7_v43 : W7 m ρ c (Proc.devRef .tc main_v43) = (x2K (m ((c : Thread nD τ).loc main_arg3)) (m ((c : Thread nD τ).loc main_arg0)) (m ((c : Thread nD τ).loc main_arg2)) (m ((c : Thread nD τ).loc main_arg5)) (m ((c : Thread nD τ).loc main_arg6)) (m ((c : Thread nD τ).loc main_arg9))) :=
  (ops3_keep_v43 (W6 m ρ c)).trans (W6_v43 m ρ c)
theorem W7_arg2 : W7 m ρ c (Proc.devRef .tc main_arg2) = (m ((c : Thread nD τ).loc main_arg2)) :=
  (ops3_keep_arg2 (W6 m ρ c)).trans (W6_arg2 m ρ c)
theorem W7_arg7 : W7 m ρ c (Proc.devRef .tc main_arg7) = (m ((c : Thread nD τ).loc main_arg7)) :=
  (ops3_keep_arg7 (W6 m ρ c)).trans (W6_arg7 m ρ c)
theorem W7_arg8 : W7 m ρ c (Proc.devRef .tc main_arg8) = (m ((c : Thread nD τ).loc main_arg8)) :=
  (ops3_keep_arg8 (W6 m ρ c)).trans (W6_arg8 m ρ c)
theorem W8_v45 : W8 m ρ c (Proc.devRef .tc main_v45) = (x0K (m ((c : Thread nD τ).loc main_arg4)) (m ((c : Thread nD τ).loc main_arg1))) :=
  (W8_arr m ρ c 1).trans ((Reg.final3 (V7 m ρ) c).trans (congrArg Cert.Gcn.normRows (W7_v44 m ρ c)))
theorem W8_v1 : W8 m ρ c (Proc.devRef .tc main_v1) = (Hand.rowOf (m ((c : Thread nD τ).loc main_arg9))) :=
  (W8_of_ne m ρ c main_v1 (by decide)).trans (W7_v1 m ρ c)
theorem W8_v3 : W8 m ρ c (Proc.devRef .tc main_v3) = (Hand.colOf (m ((c : Thread nD τ).loc main_arg9))) :=
  (W8_of_ne m ρ c main_v3 (by decide)).trans (W7_v3 m ρ c)
theorem W8_v10 : W8 m ρ c (Proc.devRef .tc main_v10) = (Hand.dinvOf (F := Ideal) (m ((c : Thread nD τ).loc main_arg9))) :=
  (W8_of_ne m ρ c main_v10 (by decide)).trans (W7_v10 m ρ c)
theorem W8_v43 : W8 m ρ c (Proc.devRef .tc main_v43) = (x2K (m ((c : Thread nD τ).loc main_arg3)) (m ((c : Thread nD τ).loc main_arg0)) (m ((c : Thread nD τ).loc main_arg2)) (m ((c : Thread nD τ).loc main_arg5)) (m ((c : Thread nD τ).loc main_arg6)) (m ((c : Thread nD τ).loc main_arg9))) :=
  (W8_of_ne m ρ c main_v43 (by decide)).trans (W7_v43 m ρ c)
theorem W8_arg2 : W8 m ρ c (Proc.devRef .tc main_arg2) = (m ((c : Thread nD τ).loc main_arg2)) :=
  (W8_of_ne m ρ c main_arg2 (by decide)).trans (W7_arg2 m ρ c)
theorem W8_arg7 : W8 m ρ c (Proc.devRef .tc main_arg7) = (m ((c : Thread nD τ).loc main_arg7)) :=
  (W8_of_ne m ρ c main_arg7 (by decide)).trans (W7_arg7 m ρ c)
theorem W8_arg8 : W8 m ρ c (Proc.devRef .tc main_arg8) = (m ((c : Thread nD τ).loc main_arg8)) :=
  (W8_of_ne m ρ c main_arg8 (by decide)).trans (W7_arg8 m ρ c)
theorem W9_v56 : W9 m ρ c (Proc.devRef .tc main_v56) = (Hand.rawRC (F := Ideal) (x0K (m ((c : Thread nD τ).loc main_arg4)) (m ((c : Thread nD τ).loc main_arg1))) (Hand.rowOf (m ((c : Thread nD τ).loc main_arg9))) (Hand.colOf (m ((c : Thread nD τ).loc main_arg9)))) :=
  (ops4_v56 (W8 m ρ c)).trans (by rw [W8_v45 m ρ c, W8_v1 m ρ c, W8_v3 m ρ c])
theorem W9_v46 : W9 m ρ c (Proc.devRef .tc main_v46) = (Hand.wtOf (F := Ideal) (m ((c : Thread nD τ).loc main_arg7))) :=
  (ops4_v46 (W8 m ρ c)).trans (by rw [W8_arg7 m ρ c])
theorem W9_v58 : W9 m ρ c (Proc.devRef .tc main_v58) = (Hand.wSlab0 (F := Ideal) (Hand.wtOf (m ((c : Thread nD τ).loc main_arg7)))) :=
  (ops4_v58 (W8 m ρ c)).trans (by rw [W8_arg7 m ρ c])
theorem W9_v60 : W9 m ρ c (Proc.devRef .tc main_v60) = (Hand.bSlab0 (F := Ideal) (m ((c : Thread nD τ).loc main_arg8))) :=
  (ops4_v60 (W8 m ρ c)).trans (by rw [W8_arg8 m ρ c])
theorem W9_v1 : W9 m ρ c (Proc.devRef .tc main_v1) = (Hand.rowOf (m ((c : Thread nD τ).loc main_arg9))) :=
  (ops4_keep_v1 (W8 m ρ c)).trans (W8_v1 m ρ c)
theorem W9_v3 : W9 m ρ c (Proc.devRef .tc main_v3) = (Hand.colOf (m ((c : Thread nD τ).loc main_arg9))) :=
  (ops4_keep_v3 (W8 m ρ c)).trans (W8_v3 m ρ c)
theorem W9_v10 : W9 m ρ c (Proc.devRef .tc main_v10) = (Hand.dinvOf (F := Ideal) (m ((c : Thread nD τ).loc main_arg9))) :=
  (ops4_keep_v10 (W8 m ρ c)).trans (W8_v10 m ρ c)
theorem W9_v43 : W9 m ρ c (Proc.devRef .tc main_v43) = (x2K (m ((c : Thread nD τ).loc main_arg3)) (m ((c : Thread nD τ).loc main_arg0)) (m ((c : Thread nD τ).loc main_arg2)) (m ((c : Thread nD τ).loc main_arg5)) (m ((c : Thread nD τ).loc main_arg6)) (m ((c : Thread nD τ).loc main_arg9))) :=
  (ops4_keep_v43 (W8 m ρ c)).trans (W8_v43 m ρ c)
theorem W9_v45 : W9 m ρ c (Proc.devRef .tc main_v45) = (x0K (m ((c : Thread nD τ).loc main_arg4)) (m ((c : Thread nD τ).loc main_arg1))) :=
  (ops4_keep_v45 (W8 m ρ c)).trans (W8_v45 m ρ c)
theorem W9_arg2 : W9 m ρ c (Proc.devRef .tc main_arg2) = (m ((c : Thread nD τ).loc main_arg2)) :=
  (ops4_keep_arg2 (W8 m ρ c)).trans (W8_arg2 m ρ c)
theorem W9_arg8 : W9 m ρ c (Proc.devRef .tc main_arg8) = (m ((c : Thread nD τ).loc main_arg8)) :=
  (ops4_keep_arg8 (W8 m ρ c)).trans (W8_arg8 m ρ c)
theorem W10_v61 : W10 m ρ c (Proc.devRef .tc main_v61) = (x1K (m ((c : Thread nD τ).loc main_arg4)) (m ((c : Thread nD τ).loc main_arg1)) (m ((c : Thread nD τ).loc main_arg2)) (m ((c : Thread nD τ).loc main_arg7)) (m ((c : Thread nD τ).loc main_arg8)) (m ((c : Thread nD τ).loc main_arg9))) :=
  (W10_arr m ρ c 6).trans ((Reg.final4 (V9 m ρ) c).trans (show Reg.layerTab (W9 m ρ c (Proc.devRef .tc main_v56)) (W9 m ρ c (Proc.devRef .tc main_v10)) (W9 m ρ c (Proc.devRef .tc main_v45)) (W9 m ρ c (Proc.devRef .tc main_arg2)) (W9 m ρ c (Proc.devRef .tc main_v58)) (W9 m ρ c (Proc.devRef .tc main_v60)) = _ from by rw [W9_v56 m ρ c, W9_v10 m ρ c, W9_v45 m ρ c, W9_arg2 m ρ c, W9_v58 m ρ c, W9_v60 m ρ c]; rfl))
theorem W10_v10 : W10 m ρ c (Proc.devRef .tc main_v10) = (Hand.dinvOf (F := Ideal) (m ((c : Thread nD τ).loc main_arg9))) :=
  (W10_arr m ρ c 1).trans (((dat4 (V9 m ρ) c).arrAt_in 1 rfl cfg4.N).trans ((A_eq4 (V9 m ρ) c 1).trans (W9_v10 m ρ c)))
theorem W10_arg2 : W10 m ρ c (Proc.devRef .tc main_arg2) = (m ((c : Thread nD τ).loc main_arg2)) :=
  (W10_arr m ρ c 3).trans (((dat4 (V9 m ρ) c).arrAt_in 3 rfl cfg4.N).trans ((A_eq4 (V9 m ρ) c 3).trans (W9_arg2 m ρ c)))
theorem W10_v1 : W10 m ρ c (Proc.devRef .tc main_v1) = (Hand.rowOf (m ((c : Thread nD τ).loc main_arg9))) :=
  (W10_of_ne m ρ c main_v1 (by decide)).trans (W9_v1 m ρ c)
theorem W10_v3 : W10 m ρ c (Proc.devRef .tc main_v3) = (Hand.colOf (m ((c : Thread nD τ).loc main_arg9))) :=
  (W10_of_ne m ρ c main_v3 (by decide)).trans (W9_v3 m ρ c)
theorem W10_v43 : W10 m ρ c (Proc.devRef .tc main_v43) = (x2K (m ((c : Thread nD τ).loc main_arg3)) (m ((c : Thread nD τ).loc main_arg0)) (m ((c : Thread nD τ).loc main_arg2)) (m ((c : Thread nD τ).loc main_arg5)) (m ((c : Thread nD τ).loc main_arg6)) (m ((c : Thread nD τ).loc main_arg9))) :=
  (W10_of_ne m ρ c main_v43 (by decide)).trans (W9_v43 m ρ c)
theorem W10_v46 : W10 m ρ c (Proc.devRef .tc main_v46) = (Hand.wtOf (F := Ideal) (m ((c : Thread nD τ).loc main_arg7))) :=
  (W10_of_ne m ρ c main_v46 (by decide)).trans (W9_v46 m ρ c)
theorem W10_arg8 : W10 m ρ c (Proc.devRef .tc main_arg8) = (m ((c : Thread nD τ).loc main_arg8)) :=
  (W10_of_ne m ρ c main_arg8 (by decide)).trans (W9_arg8 m ρ c)
theorem W11_v71 : W11 m ρ c (Proc.devRef .tc main_v71) = (Hand.rawRC (F := Ideal) (x1K (m ((c : Thread nD τ).loc main_arg4)) (m ((c : Thread nD τ).loc main_arg1)) (m ((c : Thread nD τ).loc main_arg2)) (m ((c : Thread nD τ).loc main_arg7)) (m ((c : Thread nD τ).loc main_arg8)) (m ((c : Thread nD τ).loc main_arg9))) (Hand.rowOf (m ((c : Thread nD τ).loc main_arg9))) (Hand.colOf (m ((c : Thread nD τ).loc main_arg9)))) :=
  (ops5_v71 (W10 m ρ c)).trans (by rw [W10_v61 m ρ c, W10_v1 m ρ c, W10_v3 m ρ c])
theorem W11_v73 : W11 m ρ c (Proc.devRef .tc main_v73) = (Hand.wSlab1 (F := Ideal) (Hand.wtOf (m ((c : Thread nD τ).loc main_arg7)))) :=
  (ops5_v73 (W10 m ρ c)).trans (by rw [W10_v46 m ρ c])
theorem W11_v75 : W11 m ρ c (Proc.devRef .tc main_v75) = (Hand.bSlab1 (F := Ideal) (m ((c : Thread nD τ).loc main_arg8))) :=
  (ops5_v75 (W10 m ρ c)).trans (by rw [W10_arg8 m ρ c])
theorem W11_v10 : W11 m ρ c (Proc.devRef .tc main_v10) = (Hand.dinvOf (F := Ideal) (m ((c : Thread nD τ).loc main_arg9))) :=
  (ops5_keep_v10 (W10 m ρ c)).trans (W10_v10 m ρ c)
theorem W11_v43 : W11 m ρ c (Proc.devRef .tc main_v43) = (x2K (m ((c : Thread nD τ).loc main_arg3)) (m ((c : Thread nD τ).loc main_arg0)) (m ((c : Thread nD τ).loc main_arg2)) (m ((c : Thread nD τ).loc main_arg5)) (m ((c : Thread nD τ).loc main_arg6)) (m ((c : Thread nD τ).loc main_arg9))) :=
  (ops5_keep_v43 (W10 m ρ c)).trans (W10_v43 m ρ c)
theorem W11_v61 : W11 m ρ c (Proc.devRef .tc main_v61) = (x1K (m ((c : Thread nD τ).loc main_arg4)) (m ((c : Thread nD τ).loc main_arg1)) (m ((c : Thread nD τ).loc main_arg2)) (m ((c : Thread nD τ).loc main_arg7)) (m ((c : Thread nD τ).loc main_arg8)) (m ((c : Thread nD τ).loc main_arg9))) :=
  (ops5_keep_v61 (W10 m ρ c)).trans (W10_v61 m ρ c)
theorem W11_arg2 : W11 m ρ c (Proc.devRef .tc main_arg2) = (m ((c : Thread nD τ).loc main_arg2)) :=
  (ops5_keep_arg2 (W10 m ρ c)).trans (W10_arg2 m ρ c)
theorem W12_v76 : W12 m ρ c (Proc.devRef .tc main_v76) = (x2K (m ((c : Thread nD τ).loc main_arg4)) (m ((c : Thread nD τ).loc main_arg1)) (m ((c : Thread nD τ).loc main_arg2)) (m ((c : Thread nD τ).loc main_arg7)) (m ((c : Thread nD τ).loc main_arg8)) (m ((c : Thread nD τ).loc main_arg9))) :=
  (W12_arr m ρ c 6).trans ((Reg.final5 (V11 m ρ) c).trans (show Reg.layerTab (W11 m ρ c (Proc.devRef .tc main_v71)) (W11 m ρ c (Proc.devRef .tc main_v10)) (W11 m ρ c (Proc.devRef .tc main_v61)) (W11 m ρ c (Proc.devRef .tc main_arg2)) (W11 m ρ c (Proc.devRef .tc main_v73)) (W11 m ρ c (Proc.devRef .tc main_v75)) = _ from by rw [W11_v71 m ρ c, W11_v10 m ρ c, W11_v61 m ρ c, W11_arg2 m ρ c, W11_v73 m ρ c, W11_v75 m ρ c]; rfl))
theorem W12_v43 : W12 m ρ c (Proc.devRef .tc main_v43) = (x2K (m ((c : Thread nD τ).loc main_arg3)) (m ((c : Thread nD τ).loc main_arg0)) (m ((c : Thread nD τ).loc main_arg2)) (m ((c : Thread nD τ).loc main_arg5)) (m ((c : Thread nD τ).loc main_arg6)) (m ((c : Thread nD τ).loc main_arg9))) :=
  (W12_of_ne m ρ c main_v43 (by decide)).trans (W11_v43 m ρ c)
theorem W13_v79 : W13 m ρ c (Proc.devRef .tc main_v79) = (Hand.halfSum (F := Ideal) (x2K (m ((c : Thread nD τ).loc main_arg3)) (m ((c : Thread nD τ).loc main_arg0)) (m ((c : Thread nD τ).loc main_arg2)) (m ((c : Thread nD τ).loc main_arg5)) (m ((c : Thread nD τ).loc main_arg6)) (m ((c : Thread nD τ).loc main_arg9))) (x2K (m ((c : Thread nD τ).loc main_arg4)) (m ((c : Thread nD τ).loc main_arg1)) (m ((c : Thread nD τ).loc main_arg2)) (m ((c : Thread nD τ).loc main_arg7)) (m ((c : Thread nD τ).loc main_arg8)) (m ((c : Thread nD τ).loc main_arg9)))) :=
  (ops6_v79 (W12 m ρ c)).trans (by rw [W12_v43 m ρ c, W12_v76 m ρ c])

end Cert.KernelIdeal.Chain

end
-- ==== Proof.LibWords.lean ====
/-
  The five 32-bit patterns the two programs spell, as the extended reals they denote: +0.0 is 0, 2.0 is the
  real 2, the all-ones exponent with a zero significand is +∞, 32768.0 = 2¹⁵ is the real 32768, and 1.0 is 1.
  A normal pattern with exponent field E and significand field T denotes (2²³ + T) · 2^(E − 127 − 23).
-/
import Idealize.ShloMosaic.PureOps.Ideal

noncomputable section

namespace Cert.Chamfer.Words

open Idealize.ShloMosaic

/-- +0.0 denotes 0. -/
theorem ofBits_zero : Ideal.ofBits .f32 0x00000000#32 = 0 := by
  simp [Ideal.ofBits, Ideal.ieee]

/-- 2.0: exponent field 128, significand field 0, so 2²³ · 2^(128 − 150) = 2. -/
theorem ofBits_two : Ideal.ofBits .f32 0x40000000#32 = ((2 : ℝ) : EReal) := by
  simp [Ideal.ofBits, Ideal.ieee, -EReal.coe_mul]; norm_num

/-- The all-ones exponent with a zero significand and a clear sign bit denotes +∞. -/
theorem ofBits_top : Ideal.ofBits .f32 0x7F800000#32 = ⊤ := by
  simp [Ideal.ofBits, Ideal.ieee]

/-- 32768.0: exponent field 142, significand field 0, so 2²³ · 2^(142 − 150) = 2¹⁵. -/
theorem ofBits_32768 : Ideal.ofBits .f32 0x47000000#32 = ((32768 : ℝ) : EReal) := by
  simp [Ideal.ofBits, Ideal.ieee, -EReal.coe_mul]; norm_num

/-- 1.0: exponent field 127, significand field 0, so 2²³ · 2^(127 − 150) = 1. -/
theorem ofBits_one : Ideal.ofBits .f32 0x3F800000#32 = 1 := by
  simp [Ideal.ofBits, Ideal.ieee, -EReal.coe_mul]; norm_num

end Cert.Chamfer.Words

end
-- ==== Proof.KRead.lean ====
/-
  The kernel program's host layout operations, entry by entry, on the extended reals.

  The weight stack with its last two axes exchanged reads the stack at the exchanged coordinates; a layer's slab of it
  and of the bias stack reads the stack at that layer; the reciprocal in-degree column reads, at row `r`, one over the
  count at `r` (the word `0x3F800000` is the real 1); and the closing half sum divides the sum of two entries by the
  value of the word `0x40000000`.
-/
import proofs.«109543_j54176717472163_1_alg».proof.Proof.KOps
import proofs.«109543_j54176717472163_1_alg».proof.Proof.Spec
import proofs.«109543_j54176717472163_1_alg».proof.Proof.LibWords
import Idealize.ShloMosaic.Lib.ValueLayout

noncomputable section

namespace Cert.KernelIdeal.Read

open Idealize.ShloMosaic Idealize.ShloMosaic.ValueIdx Cert.KernelIdeal

/-- The transposed weight stack at `(l, s, k, j)` is the stack at `(l, s, j, k)`. -/
theorem wtOf_apply (W : FVec Ideal S2x3x64x64 .f32) (l : Fin 2) (s : Fin 3) (k j : Fin 64) :
    Hand.wtOf W (ix4 l s k j) = W (ix4 l s j k) :=
  transpose_apply _ W Gen.transposes_S2x3x64x64_S2x3x64x64_0_1_3_2 (ix4 l s k j) (ix4 l s j k) fun c =>
    match c with | ⟨0, _⟩ => rfl | ⟨1, _⟩ => rfl | ⟨2, _⟩ => rfl | ⟨3, _⟩ => rfl

/-- Layer 0's slab of the weight stack at `(s, k, j)` is the stack at `(0, s, k, j)`. -/
theorem wSlab0_apply (Wt : FVec Ideal S2x3x64x64 .f32) (s : Fin 3) (k j : Fin 64) :
    Hand.wSlab0 Wt (ix3 s k j) = Wt (ix4 0 s k j) := by
  refine (shapeCast_1abc_abc_apply _ Gen.shapeCasts_S1x3x64x64_S3x64x64 s k j).trans ?_
  refine extractStridedSlice_apply _ Wt _ _ (ix4 (0 : Fin 2) s k j) fun a => ?_
  match a with
  | ⟨0, _⟩ => rfl
  | ⟨1, _⟩ => exact (Nat.zero_add _).symm
  | ⟨2, _⟩ => exact (Nat.zero_add _).symm
  | ⟨3, _⟩ => exact (Nat.zero_add _).symm

/-- Layer 1's slab of the weight stack at `(s, k, j)` is the stack at `(1, s, k, j)`. -/
theorem wSlab1_apply (Wt : FVec Ideal S2x3x64x64 .f32) (s : Fin 3) (k j : Fin 64) :
    Hand.wSlab1 Wt (ix3 s k j) = Wt (ix4 1 s k j) := by
  refine (shapeCast_1abc_abc_apply _ Gen.shapeCasts_S1x3x64x64_S3x64x64 s k j).trans ?_
  refine extractStridedSlice_apply _ Wt _ _ (ix4 (1 : Fin 2) s k j) fun a => ?_
  match a with
  | ⟨0, _⟩ => rfl
  | ⟨1, _⟩ => exact (Nat.zero_add _).symm
  | ⟨2, _⟩ => exact (Nat.zero_add _).symm
  | ⟨3, _⟩ => exact (Nat.zero_add _).symm

/-- Layer 0's slab of the bias stack at `(s, j)` is the stack at `(0, s, j)`. -/
theorem bSlab0_apply (b : FVec Ideal S2x3x64 .f32) (s : Fin 3) (j : Fin 64) :
    Hand.bSlab0 b (ix2 s j) = b (ix3 0 s j) := by
  refine (shapeCast_1ab_ab_apply _ Gen.shapeCasts_S1x3x64_S3x64 s j).trans ?_
  refine extractStridedSlice_apply _ b _ _ (ix3 (0 : Fin 2) s j) fun a => ?_
  match a with
  | ⟨0, _⟩ => rfl
  | ⟨1, _⟩ => exact (Nat.zero_add _).symm
  | ⟨2, _⟩ => exact (Nat.zero_add _).symm

/-- Layer 1's slab of the bias stack at `(s, j)` is the stack at `(1, s, j)`. -/
theorem bSlab1_apply (b : FVec Ideal S2x3x64 .f32) (s : Fin 3) (j : Fin 64) :
    Hand.bSlab1 b (ix2 s j) = b (ix3 1 s j) := by
  refine (shapeCast_1ab_ab_apply _ Gen.shapeCasts_S1x3x64_S3x64 s j).trans ?_
  refine extractStridedSlice_apply _ b _ _ (ix3 (1 : Fin 2) s j) fun a => ?_
  match a with
  | ⟨0, _⟩ => rfl
  | ⟨1, _⟩ => exact (Nat.zero_add _).symm
  | ⟨2, _⟩ => exact (Nat.zero_add _).symm

/-- One over a count vector, laid out as a column: at row `r` it is one over the count at `r` (the word `0x3F800000` is
    the real 1). -/
theorem recip_col (d : FVec Ideal S80000 .f32) (r : Fin 80000) :
    shapeCast S80000x1 (Host.divf (broadcastInDim S80000 ![] Gen.bcast_S_S80000 (constant (F := Ideal) S_ .f32 0x3F800000#32)) d)
        Gen.shapeCasts_S80000_S80000x1 (ix2 r (0 : Fin 1)) = Ideal.div 1 (d (ix1 r)) := by
  have h1 : broadcastInDim S80000 ![] Gen.bcast_S_S80000 (constant (F := Ideal) S_ .f32 0x3F800000#32) (ix1 r) = 1 := by
    unfold broadcastInDim
    exact (constant_apply _ _).trans Cert.Chamfer.Words.ofBits_one
  refine (shapeCast_apply _ Gen.shapeCasts_S80000_S80000x1 (ix2 r (0 : Fin 1)) (ix1 r) ?_).trans ?_
  · rw [Shape.rowMajor_val_two, Shape.rowMajor_val_one]
    show r.val = r.val * 1 + 0
    rw [Nat.mul_one, Nat.add_zero]
  · unfold Host.divf
    rw [Ideal.hostDivf_def, h1]

/-- The reciprocal in-degree column at row `r` is one over the count at `r`. -/
theorem dinvOf_apply (e : IVec S2x1600000 32) (r : Fin 80000) :
    Hand.dinvOf (F := Ideal) e (ix2 r 0) = Ideal.div 1 (Hand.degOf (F := Ideal) e (ix1 r)) :=
  recip_col (Hand.degOf (F := Ideal) e) r

/-- The closing half sum at an entry: the sum of the two entries over the value of the word `0x40000000`. -/
theorem halfSum_apply (u v : FVec Ideal S80000x64 .f32) (i : S80000x64.Idx) :
    Hand.halfSum (F := Ideal) u v i = Ideal.div (u i + v i) (Ideal.ofBits .f32 0x40000000#32) := rfl

end Cert.KernelIdeal.Read

end
-- ==== Proof.RefOps.lean ====
/-
  The reference's host operations grouped into the stages of its computation, as functions of whole arrays at
  any float instance: the edge rows and columns cut out of the edge table, the in-degree count, the neighbourhood
  mean (a row gather, an accumulating row scatter, a quotient by the broadcast count), the row scaling, the leaky
  rectifier, one affine map, one layer, one tower, and the result: the mean of the two towers.
-/
import proofs.«109543_j54176717472163_1_alg».proof.Proof.Gen.ReferenceIdeal

noncomputable section

namespace Cert.ReferenceIdeal.Hand

open Cert.ReferenceIdeal Cert.ReferenceIdeal.Gen Idealize.ShloMosaic

variable {F : FTy → Type} [FloatOps F]

/-- The first line of the edge table: the row (target) of every edge. -/
def rowOf (e : IVec S2x1600000 32) : IVec S1600000 32 :=
  shapeCast S1600000 (extractStridedSlice S1x1600000 ![0, 0] e slices_S2x1600000_S1x1600000_0_0) shapeCasts_S1x1600000_S1600000

/-- The second line: the column (source) of every edge. -/
def colOf (e : IVec S2x1600000 32) : IVec S1600000 32 :=
  shapeCast S1600000 (extractStridedSlice S1x1600000 ![1, 0] e slices_S2x1600000_S1x1600000_1_0) shapeCasts_S1x1600000_S1600000

/-- The edge rows as a column of row numbers. -/
def rowIdx (e : IVec S2x1600000 32) : IVec S1600000x1 32 :=
  broadcastInDim S1600000x1 ![0] bcast_S1600000_S1600000x1_0 (rowOf e)

/-- How many edges point at each node: ones accumulated at the edge rows. -/
def degOf (e : IVec S2x1600000 32) : FVec F S80000 .f32 :=
  Host.scatterAdd scatter_S80000_S1600000x1_S1600000_n_0_0_1
    (broadcastInDim S80000 ![] bcast_S_S80000 (constant S_ .f32 0x00000000#32)) (rowIdx e)
    (broadcastInDim S1600000 ![] bcast_S_S1600000 (constant S_ .f32 0x3F800000#32))

/-- The edge columns with a negative number counted from the end, as a column of row numbers. -/
def colIdx (e : IVec S2x1600000 32) : IVec S1600000x1 32 :=
  broadcastInDim S1600000x1 ![0] bcast_S1600000_S1600000x1_0
    (select (cmpi .slt (colOf e) (broadcastInDim S1600000 ![] bcast_S_S1600000 (constantI S_ 32 0#32)))
      (addi (colOf e) (broadcastInDim S1600000 ![] bcast_S_S1600000 (constantI S_ 32 80000#32))) (colOf e))

/-- The sum, at each node, of the source rows of the edges pointing at it. -/
def rawOf (x : FVec F S80000x64 .f32) (e : IVec S2x1600000 32) : FVec F S80000x64 .f32 :=
  Host.scatterAdd scatter_S80000x64_S1600000x1_S1600000x64_1_0_0_1
    (broadcastInDim S80000x64 ![] bcast_S_S80000x64 (constant S_ .f32 0x00000000#32)) (rowIdx e)
    (Host.gather gather_S80000x64_S1600000x1_S1600000x64_1_0_n_n_0_1_164 x (colIdx e))

/-- The count laid along every row. -/
def degRows (e : IVec S2x1600000 32) : FVec F S80000x64 .f32 :=
  broadcastInDim S80000x64 ![0, 1] bcast_S80000x1_S80000x64_0_1 (broadcastInDim S80000x1 ![0] bcast_S80000_S80000x1_0 (degOf e))

/-- The neighbourhood mean. -/
def aggOf (x : FVec F S80000x64 .f32) (e : IVec S2x1600000 32) : FVec F S80000x64 .f32 :=
  Host.divf (rawOf x e) (degRows e)

/-- The features of all nodes: the preferences above the item features. -/
def catOf (pref : FVec F S50000x64 .f32) (feat : FVec F S30000x64 .f32) : FVec F S80000x64 .f32 :=
  concatenate S80000x64 0 [⟨S50000x64, pref⟩, ⟨S30000x64, feat⟩] concatenates_S50000x64_S30000x64_S80000x64_d0

/-- Every row's Euclidean length, as a column. -/
def lenOf (x : FVec F S80000x64 .f32) : FVec F S80000x1 .f32 :=
  Host.sqrt (broadcastInDim S80000x1 ![0] bcast_S80000_S80000x1_0
    (Host.reduceAdd (mulf x x) (constant S_ .f32 0x00000000#32) reducesTo_S80000x64_S80000_d1 h_S_))

/-- Every row divided by its guarded length. -/
def normOf (x : FVec F S80000x64 .f32) : FVec F S80000x64 .f32 :=
  Host.divf x (broadcastInDim S80000x64 ![0, 1] bcast_S80000x1_S80000x64_0_1
    (maximumf (lenOf x) (broadcastInDim S80000x1 ![] bcast_S_S80000x1 (constant S_ .f32 0x2B8CBCCC#32))))

/-- The leaky rectifier of slope `s`. -/
def leakyOf (v : FVec F S80000x64 .f32) (s : FVec F S_ .f32) : FVec F S80000x64 .f32 :=
  select (cmpf .oge v (broadcastInDim S80000x64 ![] bcast_S_S80000x64 (constant S_ .f32 0x00000000#32))) v
    (mulf (broadcastInDim S80000x64 ![] bcast_S_S80000x64 (id s)) v)

/-- One weight matrix of the stack, transposed for the product. -/
def wOf (w : FVec F S1x1x64x64 .f32) : FVec F S64x64 .f32 :=
  transpose S64x64 [1, 0] (shapeCast S64x64 w shapeCasts_S1x1x64x64_S64x64) transposes_S64x64_S64x64_1_0

/-- One bias vector of the stack laid along every row. -/
def bOf (b : FVec F S1x1x64 .f32) : FVec F S80000x64 .f32 :=
  broadcastInDim S80000x64 ![0, 1] bcast_S1x64_S80000x64_0_1
    (broadcastInDim S1x64 ![1] bcast_S64_S1x64_1 (shapeCast S64 b shapeCasts_S1x1x64_S64))

/-- One affine map. -/
def denseOf (a : FVec F S80000x64 .f32) (w : FVec F S1x1x64x64 .f32) (b : FVec F S1x1x64 .f32) : FVec F S80000x64 .f32 :=
  addf (Host.dotGeneral dot_S80000x64_S64x64_S80000x64_1_0_0_1_n_n none a (wOf w)) (bOf b)

/-- The slope word. -/
def slopeW : FVec F S_ .f32 := constant S_ .f32 0x3C23D70A#32

/-- One layer. -/
def layerOf (agg x idm : FVec F S80000x64 .f32) (w0 w1 w2 : FVec F S1x1x64x64 .f32) (b0 b1 b2 : FVec F S1x1x64 .f32) :
    FVec F S80000x64 .f32 :=
  leakyOf (addf (denseOf (leakyOf (denseOf agg w0 b0) slopeW) w2 b2) (addf (leakyOf (denseOf x w1 b1) slopeW) idm)) slopeW

/-- Weight matrix `s` of layer `l`, as the one-entry stack it is cut out as. -/
abbrev wSl (W : FVec F S2x3x64x64 .f32) {l s : ℕ} (h : S2x3x64x64.Slices ![l, s, 0, 0] S1x1x64x64) : FVec F S1x1x64x64 .f32 :=
  extractStridedSlice S1x1x64x64 ![l, s, 0, 0] W h

/-- Bias vector `s` of layer `l`. -/
abbrev bSl (b : FVec F S2x3x64 .f32) {l s : ℕ} (h : S2x3x64.Slices ![l, s, 0] S1x1x64) : FVec F S1x1x64 .f32 :=
  extractStridedSlice S1x1x64 ![l, s, 0] b h

/-- A tower's features before the first layer. -/
def x0Of (pref : FVec F S50000x64 .f32) (feat : FVec F S30000x64 .f32) : FVec F S80000x64 .f32 := normOf (catOf pref feat)

/-- After the first layer. -/
def x1Of (pref : FVec F S50000x64 .f32) (feat : FVec F S30000x64 .f32) (idm : FVec F S80000x64 .f32)
    (W : FVec F S2x3x64x64 .f32) (b : FVec F S2x3x64 .f32) (e : IVec S2x1600000 32) : FVec F S80000x64 .f32 :=
  layerOf (aggOf (x0Of pref feat) e) (x0Of pref feat) idm
    (wSl W slices_S2x3x64x64_S1x1x64x64_0_0_0_0) (wSl W slices_S2x3x64x64_S1x1x64x64_0_1_0_0) (wSl W slices_S2x3x64x64_S1x1x64x64_0_2_0_0)
    (bSl b slices_S2x3x64_S1x1x64_0_0_0) (bSl b slices_S2x3x64_S1x1x64_0_1_0) (bSl b slices_S2x3x64_S1x1x64_0_2_0)

/-- After the second layer: the tower's output. -/
def x2Of (pref : FVec F S50000x64 .f32) (feat : FVec F S30000x64 .f32) (idm : FVec F S80000x64 .f32)
    (W : FVec F S2x3x64x64 .f32) (b : FVec F S2x3x64 .f32) (e : IVec S2x1600000 32) : FVec F S80000x64 .f32 :=
  layerOf (aggOf (x1Of pref feat idm W b e) e) (x1Of pref feat idm W b e) idm
    (wSl W slices_S2x3x64x64_S1x1x64x64_1_0_0_0) (wSl W slices_S2x3x64x64_S1x1x64x64_1_1_0_0) (wSl W slices_S2x3x64x64_S1x1x64x64_1_2_0_0)
    (bSl b slices_S2x3x64_S1x1x64_1_0_0) (bSl b slices_S2x3x64_S1x1x64_1_1_0) (bSl b slices_S2x3x64_S1x1x64_1_2_0)

/-- Half the sum of two tower outputs. -/
def halfSum (u v : FVec F S80000x64 .f32) : FVec F S80000x64 .f32 :=
  Host.divf (addf u v) (broadcastInDim S80000x64 ![] bcast_S_S80000x64 (constant S_ .f32 0x40000000#32))

/-- The reference's result as a function of its ten arguments (in the order of its parameters). -/
def resultOf (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32) : FVec F S80000x64 .f32 :=
  halfSum (x2Of a3 a0 a2 a5 a6 a9) (x2Of a4 a1 a2 a7 a8 a9)

end Cert.ReferenceIdeal.Hand

end
-- ==== Proof.RefReadLayer.lean ====
/-
  One layer of the reference, entry by entry on the extended reals.

  The reference multiplies a table of rows by the TRANSPOSE of a stored square weight, so entry (r, j) of the product is
  `∑ k, a (r, k) * w (j, k)`: row r of the left operand against row j of the stored weight. The bias is laid along
  every row, the leaky rectifier acts entry by entry, and a layer is three such affine maps, three rectifiers and two
  sums — the layer of the specification at the stored weights and biases. All sums are finite sums in the commutative
  monoid of the extended reals; nothing here needs an entry to be finite.
-/
import proofs.«109543_j54176717472163_1_alg».proof.Proof.Spec
import proofs.«109543_j54176717472163_1_alg».proof.Proof.RefOps
import proofs.«109543_j54176717472163_1_alg».proof.Proof.LibDense
import Idealize.ShloMosaic.Lib.Pipeline.Value

noncomputable section

namespace Cert.ReferenceIdeal.Read

open Cert.ReferenceIdeal Cert.ReferenceIdeal.Gen Idealize.ShloMosaic Idealize.ShloMosaic.ValueIdx

/-- The reference's leaky rectifier with its slope word, entry by entry. -/
theorem leakyOf_apply (v : FVec Ideal S80000x64 .f32) (i : S80000x64.Idx) :
    Hand.leakyOf (F := Ideal) v Hand.slopeW i = Cert.Gcn.leaky (v i) := rfl

/-- The same as an equation of tables. -/
theorem leakyOf_eq (v : FVec Ideal S80000x64 .f32) :
    Hand.leakyOf (F := Ideal) v Hand.slopeW = fun i => Cert.Gcn.leaky (v i) := rfl

/-- The reference's dimension numbers are the plain rows-by-columns ones. -/
theorem dot_eq_plain : dot_S80000x64_S64x64_S80000x64_1_0_0_1_n_n = DotDims.plain 80000 64 64 := rfl

/-- The transposed weight at (k, j) is the stored weight at (j, k). -/
theorem wOf_apply (w : FVec Ideal S1x1x64x64 .f32) (k j : Fin 64) :
    Hand.wOf (F := Ideal) w (ix2 k j) = w (ix4 0 0 j k) := by
  unfold Hand.wOf
  refine (transpose_apply [1, 0] _ transposes_S64x64_S64x64_1_0 (ix2 k j) (ix2 j k) (fun b => ?_)).trans ?_
  · match b with
    | ⟨0, _⟩ => rfl
    | ⟨1, _⟩ => rfl
  · refine shapeCast_apply w shapeCasts_S1x1x64x64_S64x64 (ix2 j k) (ix4 0 0 j k) ?_
    rw [Shape.rowMajor_val_four, Shape.rowMajor_val_two]
    show ((0 * 1 + 0) * 64 + j.val) * 64 + k.val = j.val * 64 + k.val
    omega

/-- The bias laid along every row, at (r, j), is the stored bias at j. -/
theorem bOf_apply (b : FVec Ideal S1x1x64 .f32) (i : S80000x64.Idx) :
    Hand.bOf (F := Ideal) b i = b (ix3 0 0 (i 1)) := by
  unfold Hand.bOf
  refine (broadcastInDim_apply ![0, 1] bcast_S1x64_S80000x64_0_1 _ i (ix2 0 (i 1)) (fun a => ?_)).trans ?_
  · match a with
    | ⟨0, _⟩ => rfl
    | ⟨1, _⟩ => rfl
  · refine (broadcastInDim_apply ![1] bcast_S64_S1x64_1 _ (ix2 0 (i 1)) (ix1 (i 1)) (fun a => ?_)).trans ?_
    · match a with
      | ⟨0, _⟩ => rfl
    · refine shapeCast_apply b shapeCasts_S1x1x64_S64 (ix1 (i 1)) (ix3 0 0 (i 1)) ?_
      rw [Shape.rowMajor_val_three, Shape.rowMajor_val_one]
      show ((0 * 1 + 0) * 64 + (i 1).val) = (i 1).val
      omega

/-- One affine map of the reference, entry by entry: row r of the left operand against row j of the stored weight
    (the product is taken with the transposed weight), plus the bias at j. -/
theorem denseOf_eq (a : FVec Ideal S80000x64 .f32) (w : FVec Ideal S1x1x64x64 .f32) (b : FVec Ideal S1x1x64 .f32) :
    Hand.denseOf (F := Ideal) a w b
      = Cert.Gcn.lin a (fun p : S64x64.Idx => w (ix4 0 0 (p 0) (p 1))) (fun j => b (ix3 0 0 j)) := by
  funext i
  unfold Hand.denseOf Cert.Gcn.lin
  refine congrArg₂ (· + ·) ?_ (bOf_apply b i)
  refine (Cert.LibDense.dotGeneral_plain .single a (Hand.wOf w) i).trans ?_
  unfold Cert.LibDense.prod
  exact Finset.sum_congr rfl fun k _ => congrArg (a (ix2 (i 0) k) * ·) (wOf_apply w k (i 1))

/-- One layer of the reference is the layer of the specification at the stored weights and biases. -/
theorem layerOf_eq (agg x idm : FVec Ideal S80000x64 .f32) (w0 w1 w2 : FVec Ideal S1x1x64x64 .f32)
    (b0 b1 b2 : FVec Ideal S1x1x64 .f32) :
    Hand.layerOf (F := Ideal) agg x idm w0 w1 w2 b0 b1 b2
      = Cert.Gcn.layer agg x idm (fun p : S64x64.Idx => w0 (ix4 0 0 (p 0) (p 1))) (fun p : S64x64.Idx => w1 (ix4 0 0 (p 0) (p 1)))
          (fun p : S64x64.Idx => w2 (ix4 0 0 (p 0) (p 1))) (fun j => b0 (ix3 0 0 j)) (fun j => b1 (ix3 0 0 j)) (fun j => b2 (ix3 0 0 j)) := by
  funext i
  unfold Hand.layerOf Cert.Gcn.layer
  rw [leakyOf_eq, leakyOf_eq, leakyOf_eq, denseOf_eq, denseOf_eq, denseOf_eq]
  rfl

end Cert.ReferenceIdeal.Read

end
-- ==== Proof.RefReadNorm.lean ====
/-
  The reference's row scaling, neighbourhood mean, half sum, stacked parameters and stacked features, entry by entry
  on the extended reals.

  A row's Euclidean length is the square root of the finite sum of the squares of its entries (the host's sum starts
  from the zero word, whose value is 0); the length is guarded from below and laid along the row, and every entry is
  divided by it. The neighbourhood mean divides the accumulated sum of a row by the node's count, laid along the row;
  the accumulated sum and the count stay as the reference spells them. A cut of a stack of matrices reads the stack at
  the cut's offsets, and a stack of two tables reads the upper table above the seam and the lower one below it.
-/
import proofs.«109543_j54176717472163_1_alg».proof.Proof.Spec
import proofs.«109543_j54176717472163_1_alg».proof.Proof.RefOps
import Idealize.ShloMosaic.Lib.Pipeline.Value

noncomputable section

namespace Cert.ReferenceIdeal.Read

open Cert.ReferenceIdeal Cert.ReferenceIdeal.Gen Idealize.ShloMosaic Idealize.ShloMosaic.ValueIdx

/-- The host's quotient at an index is the quotient of the entries. -/
theorem hostDivf_apply {s : Shape} {φ : FTy} (a b : FVec Ideal s φ) (i : s.Idx) :
    Host.divf a b i = Ideal.div (a i) (b i) := rfl

/-- The host's square root at an index is the square root of the entry. -/
theorem hostSqrt_apply {s : Shape} {φ : FTy} (a : FVec Ideal s φ) (i : s.Idx) :
    Host.sqrt a i = Ideal.sqrt (a i) := rfl

/-- A column laid along every row reads, at (r, j), its entry of row r. -/
theorem rows_apply (c : FVec Ideal S80000x1 .f32) (r : Fin 80000) (j : Fin 64) :
    broadcastInDim S80000x64 ![0, 1] bcast_S80000x1_S80000x64_0_1 c (ix2 r j) = c (ix2 r 0) := by
  refine broadcastInDim_apply ![0, 1] bcast_S80000x1_S80000x64_0_1 c (ix2 r j) (ix2 r 0) (fun a => ?_)
  match a with
  | ⟨0, _⟩ => rfl
  | ⟨1, _⟩ => rfl

/-- A vector stood up as a column reads, at (r, 0), its entry r. -/
theorem col_apply (c : FVec Ideal S80000 .f32) (r : Fin 80000) :
    broadcastInDim S80000x1 ![0] bcast_S80000_S80000x1_0 c (ix2 r 0) = c (ix1 r) := by
  refine broadcastInDim_apply ![0] bcast_S80000_S80000x1_0 c (ix2 r 0) (ix1 r) (fun a => ?_)
  match a with
  | ⟨0, _⟩ => rfl

/-- The sum of the squares of a row, as the reference's host reduction takes it from the zero word. -/
theorem sumsq_read (x : FVec Ideal S80000x64 .f32) (r : Fin 80000) :
    Host.reduceAdd (F := Ideal) (mulf x x) (constant S_ .f32 0x00000000#32) reducesTo_S80000x64_S80000_d1 h_S_ (ix1 r)
      = Cert.Gcn.sumsq x r := by
  have h : S80000x64.Reduces [1] S80000 := by decide
  refine (Ideal.hostReduceAdd_single reducesTo_S80000x64_S80000_d1 h (mulf x x) _ (ix1 r)).trans ?_
  rw [constant_apply, Ideal.ofBits_zero_f32, zero_add]
  unfold Cert.Gcn.sumsq
  refine Finset.sum_congr rfl fun k _ => ?_
  have e : h.lift (ix1 r) k = ix2 r k := funext fun a => Fin.ext (by
    match a with
    | ⟨0, _⟩ => rfl
    | ⟨1, _⟩ => rfl)
  rw [e]
  rfl

/-- The Euclidean length of row r. -/
theorem lenOf_apply (x : FVec Ideal S80000x64 .f32) (r : Fin 80000) :
    Hand.lenOf (F := Ideal) x (ix2 r 0) = Ideal.sqrt (Cert.Gcn.sumsq x r) := by
  unfold Hand.lenOf
  refine (hostSqrt_apply _ _).trans ?_
  refine congrArg Ideal.sqrt ?_
  exact (col_apply _ r).trans (sumsq_read x r)

/-- The reference's row scaling is the specification's: every entry divided by its row's guarded length. -/
theorem normOf_eq (x : FVec Ideal S80000x64 .f32) : Hand.normOf (F := Ideal) x = Cert.Gcn.normRows x := by
  funext i
  obtain ⟨r, j, rfl⟩ : ∃ r j, i = ix2 r j := ⟨i 0, i 1, eq_ix2 i⟩
  unfold Hand.normOf Cert.Gcn.normRows
  refine (hostDivf_apply _ _ _).trans ?_
  refine congrArg (Ideal.div (x (ix2 r j))) ?_
  refine (rows_apply _ r j).trans ?_
  refine (maximumf_apply _ _ _).trans ?_
  rw [lenOf_apply]
  rfl

/-- The neighbourhood mean at (r, j): the accumulated sum there divided by the count of node r. -/
theorem aggOf_apply (x : FVec Ideal S80000x64 .f32) (e : IVec S2x1600000 32) (r : Fin 80000) (j : Fin 64) :
    Hand.aggOf (F := Ideal) x e (ix2 r j)
      = Ideal.div (Hand.rawOf (F := Ideal) x e (ix2 r j)) (Hand.degOf (F := Ideal) e (ix1 r)) := by
  unfold Hand.aggOf Hand.degRows
  refine (hostDivf_apply _ _ _).trans ?_
  refine congrArg (Ideal.div (Hand.rawOf (F := Ideal) x e (ix2 r j))) ?_
  exact (rows_apply _ r j).trans (col_apply _ r)

/-- Half the sum of two tables, entry by entry: the sum divided by the value of the word of two. -/
theorem halfSum_apply (u v : FVec Ideal S80000x64 .f32) (i : S80000x64.Idx) :
    Hand.halfSum (F := Ideal) u v i = Ideal.div (u i + v i) (Ideal.ofBits .f32 0x40000000#32) := rfl

/-- A one-matrix cut of the weight stack at (l, s) reads the stack there. -/
theorem wSl_apply (W : FVec Ideal S2x3x64x64 .f32) {l s : ℕ} (h : S2x3x64x64.Slices ![l, s, 0, 0] S1x1x64x64)
    (hl : l < 2) (hs : s < 3) (j k : Fin 64) :
    Hand.wSl W h (ix4 0 0 j k) = W (ix4 ⟨l, hl⟩ ⟨s, hs⟩ j k) := by
  refine extractStridedSlice_apply ![l, s, 0, 0] W h (ix4 0 0 j k) (ix4 ⟨l, hl⟩ ⟨s, hs⟩ j k) (fun a => ?_)
  match a with
  | ⟨0, _⟩ => rfl
  | ⟨1, _⟩ => rfl
  | ⟨2, _⟩ => exact (Nat.zero_add _).symm
  | ⟨3, _⟩ => exact (Nat.zero_add _).symm

/-- A one-vector cut of the bias stack at (l, s) reads the stack there. -/
theorem bSl_apply (b : FVec Ideal S2x3x64 .f32) {l s : ℕ} (h : S2x3x64.Slices ![l, s, 0] S1x1x64)
    (hl : l < 2) (hs : s < 3) (j : Fin 64) :
    Hand.bSl b h (ix3 0 0 j) = b (ix3 ⟨l, hl⟩ ⟨s, hs⟩ j) := by
  refine extractStridedSlice_apply ![l, s, 0] b h (ix3 0 0 j) (ix3 ⟨l, hl⟩ ⟨s, hs⟩ j) (fun a => ?_)
  match a with
  | ⟨0, _⟩ => rfl
  | ⟨1, _⟩ => rfl
  | ⟨2, _⟩ => exact (Nat.zero_add _).symm

/-- The stacked features read the upper table above the seam at row 50000 and the lower table, the seam less, below it. -/
theorem catOf_apply (pref : FVec Ideal S50000x64 .f32) (feat : FVec Ideal S30000x64 .f32) (r : Fin 80000) (j : Fin 64) :
    Hand.catOf (F := Ideal) pref feat (ix2 r j)
      = if h : r.val < 50000 then pref (ix2 ⟨r.val, h⟩ j)
        else feat (ix2 ⟨r.val - 50000, by have := r.isLt; omega⟩ j) := by
  unfold Hand.catOf
  split
  · next h =>
    refine concatenate_pair_apply_left 0 pref feat concatenates_S50000x64_S30000x64_S80000x64_d0 (ix2 r j) rfl
      (ix2 ⟨r.val, h⟩ j) (fun b => ?_)
    match b with
    | ⟨0, _⟩ => rfl
    | ⟨1, _⟩ => rfl
  · next h =>
    refine concatenate_pair_apply_right 0 pref feat concatenates_S50000x64_S30000x64_S80000x64_d0 (ix2 r j) rfl rfl
      (ix2 ⟨r.val - 50000, by have := r.isLt; omega⟩ j) (fun b hb => ?_) ?_
    · match b with
      | ⟨0, _⟩ => exact absurd rfl hb
      | ⟨1, _⟩ => rfl
    · show (r.val - 50000) + 50000 = r.val
      omega

end Cert.ReferenceIdeal.Read

end
-- ==== Proof.Same.lean ====
/-
  The two programs share their host stages: the in-degree count, the accumulated sum of gathered rows, the stacked
  features and the closing half sum are spelt in each program with that program's own copies of the same dimension
  numbers and shape facts. The copies agree field by field and a fact is a proof, so the stages are the same
  functions; the accumulating scatter and the gather are compared by their operands only and never opened.
-/
import proofs.«109543_j54176717472163_1_alg».proof.Proof.RefOps
import proofs.«109543_j54176717472163_1_alg».proof.Proof.KOps

noncomputable section

namespace Cert.Same

open Idealize.ShloMosaic

variable {F : FTy → Type} [FloatOps F]

attribute [local irreducible] Host.scatterAdd Host.gather in
/-- The in-degree count is the same function in both programs. -/
theorem degOf_eq (e : IVec Cert.ReferenceIdeal.S2x1600000 32) :
    Cert.KernelIdeal.Hand.degOf (F := F) e = Cert.ReferenceIdeal.Hand.degOf (F := F) e := rfl

attribute [local irreducible] Host.scatterAdd Host.gather in
/-- The accumulated sum of gathered rows is the same function in both programs. -/
theorem rawOf_eq (x : FVec F Cert.ReferenceIdeal.S80000x64 .f32) (e : IVec Cert.ReferenceIdeal.S2x1600000 32) :
    Cert.KernelIdeal.Hand.rawRC (F := F) x (Cert.KernelIdeal.Hand.rowOf e) (Cert.KernelIdeal.Hand.colOf e)
      = Cert.ReferenceIdeal.Hand.rawOf (F := F) x e := rfl

/-- The stacked features are the same function in both programs. -/
theorem catOf_eq (p : FVec F Cert.ReferenceIdeal.S50000x64 .f32) (f : FVec F Cert.ReferenceIdeal.S30000x64 .f32) :
    Cert.KernelIdeal.Hand.catOf (F := F) p f = Cert.ReferenceIdeal.Hand.catOf (F := F) p f := rfl

/-- The closing half sum is the same function in both programs. -/
theorem halfSum_eq (u v : FVec F Cert.ReferenceIdeal.S80000x64 .f32) :
    Cert.KernelIdeal.Hand.halfSum (F := F) u v = Cert.ReferenceIdeal.Hand.halfSum (F := F) u v := rfl

end Cert.Same

end
-- ==== Proof.Bridge.lean ====
/-
  The kernel program's result and the reference's are one function of the ten arguments wherever every node has
  an in-edge. Stage by stage: the stacked features and their row scaling are the same; a layer differs only in how
  the neighbourhood mean is formed — the kernel multiplies the accumulated sum by the reciprocal of the count, the
  reference divides by the count, and for a count that is not zero the product with the reciprocal IS the
  quotient on the extended reals, whatever the sum — and in where the weight matrices are transposed: the kernel
  transposes the whole stack before cutting a layer's three matrices out, the reference cuts a matrix out and then
  transposes it; both read the stack at the same entry.
-/
import proofs.«109543_j54176717472163_1_alg».proof.Proof.Spec
import proofs.«109543_j54176717472163_1_alg».proof.Proof.KTower
import proofs.«109543_j54176717472163_1_alg».proof.Proof.KRead
import proofs.«109543_j54176717472163_1_alg».proof.Proof.RefReadLayer
import proofs.«109543_j54176717472163_1_alg».proof.Proof.RefReadNorm
import proofs.«109543_j54176717472163_1_alg».proof.Proof.Same

noncomputable section

namespace Cert.Bridge

open Idealize.ShloMosaic Idealize.ShloMosaic.ValueIdx

variable (e : IVec Cert.ReferenceIdeal.S2x1600000 32) (hdeg : ∀ r : Fin 80000, Cert.KernelIdeal.Hand.degOf (F := Ideal) e (ix1 r) ≠ 0)
include hdeg

/-- The accumulated sum times the reciprocal count of its row is the reference's neighbourhood mean. -/
theorem agg_eq (x : Cert.Gcn.Mat 80000 64) :
    (fun i : (⟨2, ![80000, 64]⟩ : Shape).Idx => Cert.KernelIdeal.Hand.rawRC (F := Ideal) x (Cert.KernelIdeal.Hand.rowOf e) (Cert.KernelIdeal.Hand.colOf e) i * Cert.KernelIdeal.Hand.dinvOf (F := Ideal) e (ix2 (i 0) 0))
      = Cert.ReferenceIdeal.Hand.aggOf (F := Ideal) x e := by
  funext i
  obtain ⟨r, j, rfl⟩ : ∃ (r : Fin 80000) (j : Fin 64), i = ix2 r j := ⟨i 0, i 1, eq_ix2 i⟩
  show Cert.KernelIdeal.Hand.rawRC (F := Ideal) x (Cert.KernelIdeal.Hand.rowOf e) (Cert.KernelIdeal.Hand.colOf e) (ix2 r j) * Cert.KernelIdeal.Hand.dinvOf (F := Ideal) e (ix2 r 0) = _
  rw [Cert.KernelIdeal.Read.dinvOf_apply, Cert.ReferenceIdeal.Read.aggOf_apply, Cert.Gcn.mul_div_one _ _ (hdeg r),
    Cert.Same.rawOf_eq, Cert.Same.degOf_eq]

/-- Layer 0: the kernel's table-level layer, fed the accumulated gather and the reciprocal count, with its weights
    read out of the transposed stack, is the reference's layer of the neighbourhood mean with its weights cut out
    of the stack and transposed. -/
theorem layer0_eq (x idm : Cert.Gcn.Mat 80000 64) (W : Cert.ReferenceIdeal.S2x3x64x64.Idx → EReal) (b : Cert.ReferenceIdeal.S2x3x64.Idx → EReal) :
    Cert.KernelIdeal.Reg.layerTab (Cert.KernelIdeal.Hand.rawRC (F := Ideal) x (Cert.KernelIdeal.Hand.rowOf e) (Cert.KernelIdeal.Hand.colOf e)) (Cert.KernelIdeal.Hand.dinvOf (F := Ideal) e) x idm
        (Cert.KernelIdeal.Hand.wSlab0 (F := Ideal) (Cert.KernelIdeal.Hand.wtOf W)) (Cert.KernelIdeal.Hand.bSlab0 (F := Ideal) b)
      = Cert.ReferenceIdeal.Hand.layerOf (F := Ideal) (Cert.ReferenceIdeal.Hand.aggOf x e) x idm
          (Cert.ReferenceIdeal.Hand.wSl W Cert.ReferenceIdeal.Gen.slices_S2x3x64x64_S1x1x64x64_0_0_0_0) (Cert.ReferenceIdeal.Hand.wSl W Cert.ReferenceIdeal.Gen.slices_S2x3x64x64_S1x1x64x64_0_1_0_0) (Cert.ReferenceIdeal.Hand.wSl W Cert.ReferenceIdeal.Gen.slices_S2x3x64x64_S1x1x64x64_0_2_0_0)
          (Cert.ReferenceIdeal.Hand.bSl b Cert.ReferenceIdeal.Gen.slices_S2x3x64_S1x1x64_0_0_0) (Cert.ReferenceIdeal.Hand.bSl b Cert.ReferenceIdeal.Gen.slices_S2x3x64_S1x1x64_0_1_0) (Cert.ReferenceIdeal.Hand.bSl b Cert.ReferenceIdeal.Gen.slices_S2x3x64_S1x1x64_0_2_0) := by
  rw [Cert.ReferenceIdeal.Read.layerOf_eq]
  unfold Cert.KernelIdeal.Reg.layerTab
  rw [agg_eq e hdeg x]
  have hw0 : (fun a : (⟨2, ![64, 64]⟩ : Shape).Idx => Cert.KernelIdeal.Hand.wSlab0 (F := Ideal) (Cert.KernelIdeal.Hand.wtOf W) (ix3 0 (a 1) (a 0)))
      = fun p : Cert.ReferenceIdeal.S64x64.Idx => Cert.ReferenceIdeal.Hand.wSl W Cert.ReferenceIdeal.Gen.slices_S2x3x64x64_S1x1x64x64_0_0_0_0 (ix4 0 0 (p 0) (p 1)) :=
    funext fun a => by
      obtain ⟨j, k, rfl⟩ : ∃ (j k : Fin 64), a = ix2 j k := ⟨a 0, a 1, eq_ix2 a⟩
      show Cert.KernelIdeal.Hand.wSlab0 (F := Ideal) (Cert.KernelIdeal.Hand.wtOf W) (ix3 (0 : Fin 3) k j)
        = Cert.ReferenceIdeal.Hand.wSl W Cert.ReferenceIdeal.Gen.slices_S2x3x64x64_S1x1x64x64_0_0_0_0 (ix4 (0 : Fin 1) (0 : Fin 1) j k)
      rw [Cert.KernelIdeal.Read.wSlab0_apply, Cert.KernelIdeal.Read.wtOf_apply,
        Cert.ReferenceIdeal.Read.wSl_apply W _ (by decide) (by decide)]
      rfl
  have hb0 : (fun j : Fin 64 => Cert.KernelIdeal.Hand.bSlab0 (F := Ideal) b (ix2 0 j))
      = fun j : Fin 64 => Cert.ReferenceIdeal.Hand.bSl b Cert.ReferenceIdeal.Gen.slices_S2x3x64_S1x1x64_0_0_0 (ix3 0 0 j) :=
    funext fun j => by
      rw [Cert.KernelIdeal.Read.bSlab0_apply, Cert.ReferenceIdeal.Read.bSl_apply b _ (by decide) (by decide)]
      rfl
  have hw1 : (fun a : (⟨2, ![64, 64]⟩ : Shape).Idx => Cert.KernelIdeal.Hand.wSlab0 (F := Ideal) (Cert.KernelIdeal.Hand.wtOf W) (ix3 1 (a 1) (a 0)))
      = fun p : Cert.ReferenceIdeal.S64x64.Idx => Cert.ReferenceIdeal.Hand.wSl W Cert.ReferenceIdeal.Gen.slices_S2x3x64x64_S1x1x64x64_0_1_0_0 (ix4 0 0 (p 0) (p 1)) :=
    funext fun a => by
      obtain ⟨j, k, rfl⟩ : ∃ (j k : Fin 64), a = ix2 j k := ⟨a 0, a 1, eq_ix2 a⟩
      show Cert.KernelIdeal.Hand.wSlab0 (F := Ideal) (Cert.KernelIdeal.Hand.wtOf W) (ix3 (1 : Fin 3) k j)
        = Cert.ReferenceIdeal.Hand.wSl W Cert.ReferenceIdeal.Gen.slices_S2x3x64x64_S1x1x64x64_0_1_0_0 (ix4 (0 : Fin 1) (0 : Fin 1) j k)
      rw [Cert.KernelIdeal.Read.wSlab0_apply, Cert.KernelIdeal.Read.wtOf_apply,
        Cert.ReferenceIdeal.Read.wSl_apply W _ (by decide) (by decide)]
      rfl
  have hb1 : (fun j : Fin 64 => Cert.KernelIdeal.Hand.bSlab0 (F := Ideal) b (ix2 1 j))
      = fun j : Fin 64 => Cert.ReferenceIdeal.Hand.bSl b Cert.ReferenceIdeal.Gen.slices_S2x3x64_S1x1x64_0_1_0 (ix3 0 0 j) :=
    funext fun j => by
      rw [Cert.KernelIdeal.Read.bSlab0_apply, Cert.ReferenceIdeal.Read.bSl_apply b _ (by decide) (by decide)]
      rfl
  have hw2 : (fun a : (⟨2, ![64, 64]⟩ : Shape).Idx => Cert.KernelIdeal.Hand.wSlab0 (F := Ideal) (Cert.KernelIdeal.Hand.wtOf W) (ix3 2 (a 1) (a 0)))
      = fun p : Cert.ReferenceIdeal.S64x64.Idx => Cert.ReferenceIdeal.Hand.wSl W Cert.ReferenceIdeal.Gen.slices_S2x3x64x64_S1x1x64x64_0_2_0_0 (ix4 0 0 (p 0) (p 1)) :=
    funext fun a => by
      obtain ⟨j, k, rfl⟩ : ∃ (j k : Fin 64), a = ix2 j k := ⟨a 0, a 1, eq_ix2 a⟩
      show Cert.KernelIdeal.Hand.wSlab0 (F := Ideal) (Cert.KernelIdeal.Hand.wtOf W) (ix3 (2 : Fin 3) k j)
        = Cert.ReferenceIdeal.Hand.wSl W Cert.ReferenceIdeal.Gen.slices_S2x3x64x64_S1x1x64x64_0_2_0_0 (ix4 (0 : Fin 1) (0 : Fin 1) j k)
      rw [Cert.KernelIdeal.Read.wSlab0_apply, Cert.KernelIdeal.Read.wtOf_apply,
        Cert.ReferenceIdeal.Read.wSl_apply W _ (by decide) (by decide)]
      rfl
  have hb2 : (fun j : Fin 64 => Cert.KernelIdeal.Hand.bSlab0 (F := Ideal) b (ix2 2 j))
      = fun j : Fin 64 => Cert.ReferenceIdeal.Hand.bSl b Cert.ReferenceIdeal.Gen.slices_S2x3x64_S1x1x64_0_2_0 (ix3 0 0 j) :=
    funext fun j => by
      rw [Cert.KernelIdeal.Read.bSlab0_apply, Cert.ReferenceIdeal.Read.bSl_apply b _ (by decide) (by decide)]
      rfl
  rw [hw0, hw1, hw2, hb0, hb1, hb2]

/-- Layer 1: the kernel's table-level layer, fed the accumulated gather and the reciprocal count, with its weights
    read out of the transposed stack, is the reference's layer of the neighbourhood mean with its weights cut out
    of the stack and transposed. -/
theorem layer1_eq (x idm : Cert.Gcn.Mat 80000 64) (W : Cert.ReferenceIdeal.S2x3x64x64.Idx → EReal) (b : Cert.ReferenceIdeal.S2x3x64.Idx → EReal) :
    Cert.KernelIdeal.Reg.layerTab (Cert.KernelIdeal.Hand.rawRC (F := Ideal) x (Cert.KernelIdeal.Hand.rowOf e) (Cert.KernelIdeal.Hand.colOf e)) (Cert.KernelIdeal.Hand.dinvOf (F := Ideal) e) x idm
        (Cert.KernelIdeal.Hand.wSlab1 (F := Ideal) (Cert.KernelIdeal.Hand.wtOf W)) (Cert.KernelIdeal.Hand.bSlab1 (F := Ideal) b)
      = Cert.ReferenceIdeal.Hand.layerOf (F := Ideal) (Cert.ReferenceIdeal.Hand.aggOf x e) x idm
          (Cert.ReferenceIdeal.Hand.wSl W Cert.ReferenceIdeal.Gen.slices_S2x3x64x64_S1x1x64x64_1_0_0_0) (Cert.ReferenceIdeal.Hand.wSl W Cert.ReferenceIdeal.Gen.slices_S2x3x64x64_S1x1x64x64_1_1_0_0) (Cert.ReferenceIdeal.Hand.wSl W Cert.ReferenceIdeal.Gen.slices_S2x3x64x64_S1x1x64x64_1_2_0_0)
          (Cert.ReferenceIdeal.Hand.bSl b Cert.ReferenceIdeal.Gen.slices_S2x3x64_S1x1x64_1_0_0) (Cert.ReferenceIdeal.Hand.bSl b Cert.ReferenceIdeal.Gen.slices_S2x3x64_S1x1x64_1_1_0) (Cert.ReferenceIdeal.Hand.bSl b Cert.ReferenceIdeal.Gen.slices_S2x3x64_S1x1x64_1_2_0) := by
  rw [Cert.ReferenceIdeal.Read.layerOf_eq]
  unfold Cert.KernelIdeal.Reg.layerTab
  rw [agg_eq e hdeg x]
  have hw0 : (fun a : (⟨2, ![64, 64]⟩ : Shape).Idx => Cert.KernelIdeal.Hand.wSlab1 (F := Ideal) (Cert.KernelIdeal.Hand.wtOf W) (ix3 0 (a 1) (a 0)))
      = fun p : Cert.ReferenceIdeal.S64x64.Idx => Cert.ReferenceIdeal.Hand.wSl W Cert.ReferenceIdeal.Gen.slices_S2x3x64x64_S1x1x64x64_1_0_0_0 (ix4 0 0 (p 0) (p 1)) :=
    funext fun a => by
      obtain ⟨j, k, rfl⟩ : ∃ (j k : Fin 64), a = ix2 j k := ⟨a 0, a 1, eq_ix2 a⟩
      show Cert.KernelIdeal.Hand.wSlab1 (F := Ideal) (Cert.KernelIdeal.Hand.wtOf W) (ix3 (0 : Fin 3) k j)
        = Cert.ReferenceIdeal.Hand.wSl W Cert.ReferenceIdeal.Gen.slices_S2x3x64x64_S1x1x64x64_1_0_0_0 (ix4 (0 : Fin 1) (0 : Fin 1) j k)
      rw [Cert.KernelIdeal.Read.wSlab1_apply, Cert.KernelIdeal.Read.wtOf_apply,
        Cert.ReferenceIdeal.Read.wSl_apply W _ (by decide) (by decide)]
      rfl
  have hb0 : (fun j : Fin 64 => Cert.KernelIdeal.Hand.bSlab1 (F := Ideal) b (ix2 0 j))
      = fun j : Fin 64 => Cert.ReferenceIdeal.Hand.bSl b Cert.ReferenceIdeal.Gen.slices_S2x3x64_S1x1x64_1_0_0 (ix3 0 0 j) :=
    funext fun j => by
      rw [Cert.KernelIdeal.Read.bSlab1_apply, Cert.ReferenceIdeal.Read.bSl_apply b _ (by decide) (by decide)]
      rfl
  have hw1 : (fun a : (⟨2, ![64, 64]⟩ : Shape).Idx => Cert.KernelIdeal.Hand.wSlab1 (F := Ideal) (Cert.KernelIdeal.Hand.wtOf W) (ix3 1 (a 1) (a 0)))
      = fun p : Cert.ReferenceIdeal.S64x64.Idx => Cert.ReferenceIdeal.Hand.wSl W Cert.ReferenceIdeal.Gen.slices_S2x3x64x64_S1x1x64x64_1_1_0_0 (ix4 0 0 (p 0) (p 1)) :=
    funext fun a => by
      obtain ⟨j, k, rfl⟩ : ∃ (j k : Fin 64), a = ix2 j k := ⟨a 0, a 1, eq_ix2 a⟩
      show Cert.KernelIdeal.Hand.wSlab1 (F := Ideal) (Cert.KernelIdeal.Hand.wtOf W) (ix3 (1 : Fin 3) k j)
        = Cert.ReferenceIdeal.Hand.wSl W Cert.ReferenceIdeal.Gen.slices_S2x3x64x64_S1x1x64x64_1_1_0_0 (ix4 (0 : Fin 1) (0 : Fin 1) j k)
      rw [Cert.KernelIdeal.Read.wSlab1_apply, Cert.KernelIdeal.Read.wtOf_apply,
        Cert.ReferenceIdeal.Read.wSl_apply W _ (by decide) (by decide)]
      rfl
  have hb1 : (fun j : Fin 64 => Cert.KernelIdeal.Hand.bSlab1 (F := Ideal) b (ix2 1 j))
      = fun j : Fin 64 => Cert.ReferenceIdeal.Hand.bSl b Cert.ReferenceIdeal.Gen.slices_S2x3x64_S1x1x64_1_1_0 (ix3 0 0 j) :=
    funext fun j => by
      rw [Cert.KernelIdeal.Read.bSlab1_apply, Cert.ReferenceIdeal.Read.bSl_apply b _ (by decide) (by decide)]
      rfl
  have hw2 : (fun a : (⟨2, ![64, 64]⟩ : Shape).Idx => Cert.KernelIdeal.Hand.wSlab1 (F := Ideal) (Cert.KernelIdeal.Hand.wtOf W) (ix3 2 (a 1) (a 0)))
      = fun p : Cert.ReferenceIdeal.S64x64.Idx => Cert.ReferenceIdeal.Hand.wSl W Cert.ReferenceIdeal.Gen.slices_S2x3x64x64_S1x1x64x64_1_2_0_0 (ix4 0 0 (p 0) (p 1)) :=
    funext fun a => by
      obtain ⟨j, k, rfl⟩ : ∃ (j k : Fin 64), a = ix2 j k := ⟨a 0, a 1, eq_ix2 a⟩
      show Cert.KernelIdeal.Hand.wSlab1 (F := Ideal) (Cert.KernelIdeal.Hand.wtOf W) (ix3 (2 : Fin 3) k j)
        = Cert.ReferenceIdeal.Hand.wSl W Cert.ReferenceIdeal.Gen.slices_S2x3x64x64_S1x1x64x64_1_2_0_0 (ix4 (0 : Fin 1) (0 : Fin 1) j k)
      rw [Cert.KernelIdeal.Read.wSlab1_apply, Cert.KernelIdeal.Read.wtOf_apply,
        Cert.ReferenceIdeal.Read.wSl_apply W _ (by decide) (by decide)]
      rfl
  have hb2 : (fun j : Fin 64 => Cert.KernelIdeal.Hand.bSlab1 (F := Ideal) b (ix2 2 j))
      = fun j : Fin 64 => Cert.ReferenceIdeal.Hand.bSl b Cert.ReferenceIdeal.Gen.slices_S2x3x64_S1x1x64_1_2_0 (ix3 0 0 j) :=
    funext fun j => by
      rw [Cert.KernelIdeal.Read.bSlab1_apply, Cert.ReferenceIdeal.Read.bSl_apply b _ (by decide) (by decide)]
      rfl
  rw [hw0, hw1, hw2, hb0, hb1, hb2]

/-- The scaled features of a tower. -/
theorem x0_eq (pref : Cert.ReferenceIdeal.S50000x64.Idx → EReal) (feat : Cert.ReferenceIdeal.S30000x64.Idx → EReal) :
    Cert.KernelIdeal.Chain.x0K pref feat = Cert.ReferenceIdeal.Hand.x0Of (F := Ideal) pref feat := by
  unfold Cert.KernelIdeal.Chain.x0K Cert.ReferenceIdeal.Hand.x0Of
  rw [Cert.ReferenceIdeal.Read.normOf_eq, Cert.Same.catOf_eq]

/-- A tower after its first layer. -/
theorem x1_eq (pref : Cert.ReferenceIdeal.S50000x64.Idx → EReal) (feat : Cert.ReferenceIdeal.S30000x64.Idx → EReal) (idm : Cert.Gcn.Mat 80000 64)
    (W : Cert.ReferenceIdeal.S2x3x64x64.Idx → EReal) (b : Cert.ReferenceIdeal.S2x3x64.Idx → EReal) :
    Cert.KernelIdeal.Chain.x1K pref feat idm W b e = Cert.ReferenceIdeal.Hand.x1Of (F := Ideal) pref feat idm W b e := by
  unfold Cert.KernelIdeal.Chain.x1K Cert.ReferenceIdeal.Hand.x1Of
  rw [x0_eq e hdeg]
  exact layer0_eq e hdeg _ idm W b

/-- A tower's output. -/
theorem x2_eq (pref : Cert.ReferenceIdeal.S50000x64.Idx → EReal) (feat : Cert.ReferenceIdeal.S30000x64.Idx → EReal) (idm : Cert.Gcn.Mat 80000 64)
    (W : Cert.ReferenceIdeal.S2x3x64x64.Idx → EReal) (b : Cert.ReferenceIdeal.S2x3x64.Idx → EReal) :
    Cert.KernelIdeal.Chain.x2K pref feat idm W b e = Cert.ReferenceIdeal.Hand.x2Of (F := Ideal) pref feat idm W b e := by
  unfold Cert.KernelIdeal.Chain.x2K Cert.ReferenceIdeal.Hand.x2Of
  rw [x1_eq e hdeg]
  exact layer1_eq e hdeg _ idm W b

/-- The two results. -/
theorem result_eq (a0 a1 : Cert.ReferenceIdeal.S30000x64.Idx → EReal) (a2 : Cert.Gcn.Mat 80000 64) (a3 a4 : Cert.ReferenceIdeal.S50000x64.Idx → EReal)
    (a5 : Cert.ReferenceIdeal.S2x3x64x64.Idx → EReal) (a6 : Cert.ReferenceIdeal.S2x3x64.Idx → EReal) (a7 : Cert.ReferenceIdeal.S2x3x64x64.Idx → EReal) (a8 : Cert.ReferenceIdeal.S2x3x64.Idx → EReal) :
    Cert.KernelIdeal.Hand.halfSum (F := Ideal) (Cert.KernelIdeal.Chain.x2K a3 a0 a2 a5 a6 e) (Cert.KernelIdeal.Chain.x2K a4 a1 a2 a7 a8 e)
      = Cert.ReferenceIdeal.Hand.resultOf (F := Ideal) a0 a1 a2 a3 a4 a5 a6 a7 a8 e := by
  unfold Cert.ReferenceIdeal.Hand.resultOf
  rw [x2_eq e hdeg, x2_eq e hdeg, Cert.Same.halfSum_eq]

end Cert.Bridge

end
-- ==== Proof.PreDeg.lean ====
/-
  The precondition's last conjunct, read back: every node has at least one in-edge.

  The predicate ends in the conjunction of "all inputs finite" with "every in-degree count exceeds the zero word"; the
  count is the accumulating scatter of ones at the edge rows. A conjunction of one-bit words that is 1 has both
  conjuncts 1, an `and`-reduction over all axes that is 1 met only 1s, and a comparison `x > y` on the extended reals
  that is 1 says `y < x`; the zero word denotes 0, so every count is positive, hence not zero.
-/
import proofs.«109543_j54176717472163_1_alg».proof.Defs
import proofs.«109543_j54176717472163_1_alg».proof.Proof.Gen.Pre_finite_inputs
import proofs.«109543_j54176717472163_1_alg».proof.Proof.KOps
import Idealize.ShloMosaic.Lib.ReduceAll
import Idealize.ShloMosaic.Lib.ValueIdx
import Idealize.ShloMosaic.PureOps.Ideal.Laws

noncomputable section

namespace Cert.PreDeg

open Idealize.ShloMosaic Idealize.ShloMosaic.ValueIdx Idealize.SL.Sem

/-- The scalar shape has one index. -/
instance : Subsingleton Cert.Pre_finite_inputs.S_.Idx := ⟨fun a b => funext fun d => d.elim0⟩

/-- A comparison `x > y` on the extended reals that is 1 says `y < x`. -/
theorem lt_of_cmp_ogt {x y : EReal} (h : Ideal.cmp .ogt x y = 1#1) : y < x := by
  by_contra hn
  have h0 : Ideal.cmp .ogt x y = 0#1 := by simp [Ideal.cmp, hn]
  rw [h0] at h
  exact absurd h (by decide)

/-- The predicate's closing stage — a conjunction whose second conjunct is the `and`-reduction of `count > zeros` —
    is 1 only if every count exceeds the entry of `zeros` beside it. -/
theorem part3_last (v43 : IVec Cert.Pre_finite_inputs.S_ 1) (v49 v50 : FVec Ideal Cert.Pre_finite_inputs.S80000 .f32)
    (h : Cert.Pre_finite_inputs.fn_part3 (F := Ideal) v43 v49 v50 ix0 = 1#1) (i : Cert.Pre_finite_inputs.S80000.Idx) :
    v50 i < v49 i :=
  lt_of_cmp_ogt (Host.reduce_andi_all _ _ _ _ ix0 (IntOp.andi_eq_one.1 h).2 i)

/-- The predicate's vector of zeros, at an entry, is 0. -/
theorem zeros_apply (hb : Cert.Pre_finite_inputs.S_.BroadcastsInDim Cert.Pre_finite_inputs.S80000 (![] : Fin 0 → Fin Cert.Pre_finite_inputs.S80000.rank))
    (i : Cert.Pre_finite_inputs.S80000.Idx) :
    broadcastInDim Cert.Pre_finite_inputs.S80000 ![] hb (constant (F := Ideal) Cert.Pre_finite_inputs.S_ .f32 0x00000000#32) i = 0 := by
  unfold broadcastInDim
  exact (constant_apply _ _).trans Ideal.ofBits_zero_f32

attribute [local irreducible] Host.scatterAdd in
/-- Under the precondition every node's in-degree count is not zero. -/
theorem deg_ne_zero (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) (r : Fin 80000) :
    Cert.KernelIdeal.Hand.degOf (F := Ideal) (m ((c.tc : Thread Cert.KernelIdeal.nD Cert.KernelIdeal.τ).loc Cert.KernelIdeal.main_arg9)) (ix1 r) ≠ 0 := by
  have h0 := congrFun (h c) ix0
  have h1 := part3_last _
    (Cert.KernelIdeal.Hand.degOf (F := Ideal) (m ((c.tc : Thread Cert.KernelIdeal.nD Cert.KernelIdeal.τ).loc Cert.KernelIdeal.main_arg9)))
    (broadcastInDim Cert.Pre_finite_inputs.S80000 ![] Cert.Pre_finite_inputs.Gen.bcast_S_S80000 (constant (F := Ideal) Cert.Pre_finite_inputs.S_ .f32 0x00000000#32))
    h0 (ix1 r)
  rw [zeros_apply] at h1
  exact h1.ne'

end Cert.PreDeg

end
-- ==== Proof.RefRunInv.lean ====
/-
  What the reference's buffers hold along its run, stage by stage: after each group of host operations, which
  buffers are still read later and which whole-array function of the ten arguments (Proof/RefOps.lean) each of
  them holds. A stage's statement is: if the buffers held these before, they hold those after.
-/
import proofs.«109543_j54176717472163_1_alg».proof.Proof.RefOps
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Contents of a device's buffers. -/
abbrev Vl (F : FTy → Type) := Valuation τ sig (Elt F)

/-- The first hidden activation of a layer: the rectified affine image of the neighbourhood mean. -/
def hidA (agg : FVec F S80000x64 .f32) (w0 : FVec F S1x1x64x64 .f32) (b0 : FVec F S1x1x64 .f32) : FVec F S80000x64 .f32 :=
  Hand.leakyOf (Hand.denseOf agg w0 b0) Hand.slopeW

/-- The second: the rectified affine image of the features, plus the identity embedding. -/
def hidB (x idm : FVec F S80000x64 .f32) (w1 : FVec F S1x1x64x64 .f32) (b1 : FVec F S1x1x64 .f32) : FVec F S80000x64 .f32 :=
  addf (Hand.leakyOf (Hand.denseOf x w1 b1) Hand.slopeW) idm

/-- A layer is the rectified sum of the third affine map of the first activation and the second activation. -/
theorem layerOf_eq (agg x idm : FVec F S80000x64 .f32) (w0 w1 w2 : FVec F S1x1x64x64 .f32) (b0 b1 b2 : FVec F S1x1x64 .f32) :
    Hand.layerOf agg x idm w0 w1 w2 b0 b1 b2
      = Hand.leakyOf (addf (Hand.denseOf (hidA agg w0 b0) w2 b2) (hidB x idm w1 b1)) Hand.slopeW := rfl

/-! Weight matrix and bias vector `s` of layer `l` of a stack. -/
abbrev W00 (W : FVec F S2x3x64x64 .f32) : FVec F S1x1x64x64 .f32 := Hand.wSl W slices_S2x3x64x64_S1x1x64x64_0_0_0_0
abbrev B00 (b : FVec F S2x3x64 .f32) : FVec F S1x1x64 .f32 := Hand.bSl b slices_S2x3x64_S1x1x64_0_0_0
abbrev W01 (W : FVec F S2x3x64x64 .f32) : FVec F S1x1x64x64 .f32 := Hand.wSl W slices_S2x3x64x64_S1x1x64x64_0_1_0_0
abbrev B01 (b : FVec F S2x3x64 .f32) : FVec F S1x1x64 .f32 := Hand.bSl b slices_S2x3x64_S1x1x64_0_1_0
abbrev W02 (W : FVec F S2x3x64x64 .f32) : FVec F S1x1x64x64 .f32 := Hand.wSl W slices_S2x3x64x64_S1x1x64x64_0_2_0_0
abbrev B02 (b : FVec F S2x3x64 .f32) : FVec F S1x1x64 .f32 := Hand.bSl b slices_S2x3x64_S1x1x64_0_2_0
abbrev W10 (W : FVec F S2x3x64x64 .f32) : FVec F S1x1x64x64 .f32 := Hand.wSl W slices_S2x3x64x64_S1x1x64x64_1_0_0_0
abbrev B10 (b : FVec F S2x3x64 .f32) : FVec F S1x1x64 .f32 := Hand.bSl b slices_S2x3x64_S1x1x64_1_0_0
abbrev W11 (W : FVec F S2x3x64x64 .f32) : FVec F S1x1x64x64 .f32 := Hand.wSl W slices_S2x3x64x64_S1x1x64x64_1_1_0_0
abbrev B11 (b : FVec F S2x3x64 .f32) : FVec F S1x1x64 .f32 := Hand.bSl b slices_S2x3x64_S1x1x64_1_1_0
abbrev W12 (W : FVec F S2x3x64x64 .f32) : FVec F S1x1x64x64 .f32 := Hand.wSl W slices_S2x3x64x64_S1x1x64x64_1_2_0_0
abbrev B12 (b : FVec F S2x3x64 .f32) : FVec F S1x1x64 .f32 := Hand.bSl b slices_S2x3x64_S1x1x64_1_2_0

/-- The ten argument buffers hold the ten given arrays. -/
abbrev Args (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32) : Prop :=
  V (no_index (Proc.devRef .tc main_arg0)) = a0 ∧ V (no_index (Proc.devRef .tc main_arg1)) = a1 ∧ V (no_index (Proc.devRef .tc main_arg2)) = a2 ∧ V (no_index (Proc.devRef .tc main_arg3)) = a3 ∧ V (no_index (Proc.devRef .tc main_arg4)) = a4 ∧ V (no_index (Proc.devRef .tc main_arg5)) = a5 ∧ V (no_index (Proc.devRef .tc main_arg6)) = a6 ∧ V (no_index (Proc.devRef .tc main_arg7)) = a7 ∧ V (no_index (Proc.devRef .tc main_arg8)) = a8 ∧ V (no_index (Proc.devRef .tc main_arg9)) = a9

/-- Once the edge rows and columns are cut out. -/
abbrev InvA (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32) : Prop :=
  Args V a0 a1 a2 a3 a4 a5 a6 a7 a8 a9
  ∧ V (no_index (Proc.devRef .tc main_v1)) = Hand.rowOf a9
  ∧ V (no_index (Proc.devRef .tc main_v3)) = Hand.colOf a9

/-- Once the first tower's rows are scaled. -/
abbrev InvB (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32) : Prop :=
  Args V a0 a1 a2 a3 a4 a5 a6 a7 a8 a9
  ∧ V (no_index (Proc.devRef .tc main_v1)) = Hand.rowOf a9
  ∧ V (no_index (Proc.devRef .tc main_v3)) = Hand.colOf a9
  ∧ V (no_index (Proc.devRef .tc main_v9)) = Hand.x0Of a3 a0

/-- Once the in-degree is counted. -/
abbrev InvC (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32) : Prop :=
  Args V a0 a1 a2 a3 a4 a5 a6 a7 a8 a9
  ∧ V (no_index (Proc.devRef .tc main_v1)) = Hand.rowOf a9
  ∧ V (no_index (Proc.devRef .tc main_v3)) = Hand.colOf a9
  ∧ V (no_index (Proc.devRef .tc main_v9)) = Hand.x0Of a3 a0
  ∧ V (no_index (Proc.devRef .tc main_v13)) = Hand.degOf a9

/-- Once the first neighbourhood mean of the first tower. -/
abbrev InvD (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32) : Prop :=
  Args V a0 a1 a2 a3 a4 a5 a6 a7 a8 a9
  ∧ V (no_index (Proc.devRef .tc main_v1)) = Hand.rowOf a9
  ∧ V (no_index (Proc.devRef .tc main_v3)) = Hand.colOf a9
  ∧ V (no_index (Proc.devRef .tc main_v9)) = Hand.x0Of a3 a0
  ∧ V (no_index (Proc.devRef .tc main_v13)) = Hand.degOf a9
  ∧ V (no_index (Proc.devRef .tc main_v26)) = Hand.aggOf (Hand.x0Of a3 a0) a9

/-- Once the first hidden activation of the first tower's first layer. -/
abbrev InvE (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32) : Prop :=
  Args V a0 a1 a2 a3 a4 a5 a6 a7 a8 a9
  ∧ V (no_index (Proc.devRef .tc main_v1)) = Hand.rowOf a9
  ∧ V (no_index (Proc.devRef .tc main_v3)) = Hand.colOf a9
  ∧ V (no_index (Proc.devRef .tc main_v9)) = Hand.x0Of a3 a0
  ∧ V (no_index (Proc.devRef .tc main_v13)) = Hand.degOf a9
  ∧ V (no_index (Proc.devRef .tc main_v36)) = hidA (Hand.aggOf (Hand.x0Of a3 a0) a9) (W00 a5) (B00 a6)

/-- Once its second, with the identity embedding added. -/
abbrev InvF (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32) : Prop :=
  Args V a0 a1 a2 a3 a4 a5 a6 a7 a8 a9
  ∧ V (no_index (Proc.devRef .tc main_v1)) = Hand.rowOf a9
  ∧ V (no_index (Proc.devRef .tc main_v3)) = Hand.colOf a9
  ∧ V (no_index (Proc.devRef .tc main_v13)) = Hand.degOf a9
  ∧ V (no_index (Proc.devRef .tc main_v36)) = hidA (Hand.aggOf (Hand.x0Of a3 a0) a9) (W00 a5) (B00 a6)
  ∧ V (no_index (Proc.devRef .tc main_v47)) = hidB (Hand.x0Of a3 a0) a2 (W01 a5) (B01 a6)

/-- Once the product with the third weight matrix. -/
abbrev InvG1 (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32) : Prop :=
  Args V a0 a1 a2 a3 a4 a5 a6 a7 a8 a9
  ∧ V (no_index (Proc.devRef .tc main_v1)) = Hand.rowOf a9
  ∧ V (no_index (Proc.devRef .tc main_v3)) = Hand.colOf a9
  ∧ V (no_index (Proc.devRef .tc main_v13)) = Hand.degOf a9
  ∧ V (no_index (Proc.devRef .tc main_v47)) = hidB (Hand.x0Of a3 a0) a2 (W01 a5) (B01 a6)
  ∧ V (no_index (Proc.devRef .tc main_v51)) = Host.dotGeneral dot_S80000x64_S64x64_S80000x64_1_0_0_1_n_n none (hidA (Hand.aggOf (Hand.x0Of a3 a0) a9) (W00 a5) (B00 a6)) (Hand.wOf (W02 a5))

/-- Once the first tower after its first layer. -/
abbrev InvG2 (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32) : Prop :=
  Args V a0 a1 a2 a3 a4 a5 a6 a7 a8 a9
  ∧ V (no_index (Proc.devRef .tc main_v1)) = Hand.rowOf a9
  ∧ V (no_index (Proc.devRef .tc main_v3)) = Hand.colOf a9
  ∧ V (no_index (Proc.devRef .tc main_v13)) = Hand.degOf a9
  ∧ V (no_index (Proc.devRef .tc main_v58)) = Hand.x1Of a3 a0 a2 a5 a6 a9

/-- Once its neighbourhood mean. -/
abbrev InvH (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32) : Prop :=
  Args V a0 a1 a2 a3 a4 a5 a6 a7 a8 a9
  ∧ V (no_index (Proc.devRef .tc main_v1)) = Hand.rowOf a9
  ∧ V (no_index (Proc.devRef .tc main_v3)) = Hand.colOf a9
  ∧ V (no_index (Proc.devRef .tc main_v58)) = Hand.x1Of a3 a0 a2 a5 a6 a9
  ∧ V (no_index (Proc.devRef .tc main_v71)) = Hand.aggOf (Hand.x1Of a3 a0 a2 a5 a6 a9) a9

/-- Once the first hidden activation of the second layer. -/
abbrev InvI (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32) : Prop :=
  Args V a0 a1 a2 a3 a4 a5 a6 a7 a8 a9
  ∧ V (no_index (Proc.devRef .tc main_v1)) = Hand.rowOf a9
  ∧ V (no_index (Proc.devRef .tc main_v3)) = Hand.colOf a9
  ∧ V (no_index (Proc.devRef .tc main_v58)) = Hand.x1Of a3 a0 a2 a5 a6 a9
  ∧ V (no_index (Proc.devRef .tc main_v81)) = hidA (Hand.aggOf (Hand.x1Of a3 a0 a2 a5 a6 a9) a9) (W10 a5) (B10 a6)

/-- Once the second, with the identity embedding added. -/
abbrev InvJ (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32) : Prop :=
  Args V a0 a1 a2 a3 a4 a5 a6 a7 a8 a9
  ∧ V (no_index (Proc.devRef .tc main_v1)) = Hand.rowOf a9
  ∧ V (no_index (Proc.devRef .tc main_v3)) = Hand.colOf a9
  ∧ V (no_index (Proc.devRef .tc main_v81)) = hidA (Hand.aggOf (Hand.x1Of a3 a0 a2 a5 a6 a9) a9) (W10 a5) (B10 a6)
  ∧ V (no_index (Proc.devRef .tc main_v92)) = hidB (Hand.x1Of a3 a0 a2 a5 a6 a9) a2 (W11 a5) (B11 a6)

/-- Once the first tower's output. -/
abbrev InvK (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32) : Prop :=
  Args V a0 a1 a2 a3 a4 a5 a6 a7 a8 a9
  ∧ V (no_index (Proc.devRef .tc main_v1)) = Hand.rowOf a9
  ∧ V (no_index (Proc.devRef .tc main_v3)) = Hand.colOf a9
  ∧ V (no_index (Proc.devRef .tc main_v103)) = Hand.x2Of a3 a0 a2 a5 a6 a9

/-- Once the second tower's features are stacked. -/
abbrev InvL1 (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32) : Prop :=
  Args V a0 a1 a2 a3 a4 a5 a6 a7 a8 a9
  ∧ V (no_index (Proc.devRef .tc main_v1)) = Hand.rowOf a9
  ∧ V (no_index (Proc.devRef .tc main_v3)) = Hand.colOf a9
  ∧ V (no_index (Proc.devRef .tc main_v103)) = Hand.x2Of a3 a0 a2 a5 a6 a9
  ∧ V (no_index (Proc.devRef .tc main_v104)) = Hand.catOf a4 a1

/-- Once and scaled. -/
abbrev InvL2 (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32) : Prop :=
  Args V a0 a1 a2 a3 a4 a5 a6 a7 a8 a9
  ∧ V (no_index (Proc.devRef .tc main_v1)) = Hand.rowOf a9
  ∧ V (no_index (Proc.devRef .tc main_v3)) = Hand.colOf a9
  ∧ V (no_index (Proc.devRef .tc main_v103)) = Hand.x2Of a3 a0 a2 a5 a6 a9
  ∧ V (no_index (Proc.devRef .tc main_v109)) = Hand.x0Of a4 a1

/-- Once the in-degree is counted again. -/
abbrev InvM (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32) : Prop :=
  Args V a0 a1 a2 a3 a4 a5 a6 a7 a8 a9
  ∧ V (no_index (Proc.devRef .tc main_v1)) = Hand.rowOf a9
  ∧ V (no_index (Proc.devRef .tc main_v3)) = Hand.colOf a9
  ∧ V (no_index (Proc.devRef .tc main_v103)) = Hand.x2Of a3 a0 a2 a5 a6 a9
  ∧ V (no_index (Proc.devRef .tc main_v109)) = Hand.x0Of a4 a1
  ∧ V (no_index (Proc.devRef .tc main_v113)) = Hand.degOf a9

/-- Once the second tower's first neighbourhood mean. -/
abbrev InvN (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32) : Prop :=
  Args V a0 a1 a2 a3 a4 a5 a6 a7 a8 a9
  ∧ V (no_index (Proc.devRef .tc main_v1)) = Hand.rowOf a9
  ∧ V (no_index (Proc.devRef .tc main_v3)) = Hand.colOf a9
  ∧ V (no_index (Proc.devRef .tc main_v103)) = Hand.x2Of a3 a0 a2 a5 a6 a9
  ∧ V (no_index (Proc.devRef .tc main_v109)) = Hand.x0Of a4 a1
  ∧ V (no_index (Proc.devRef .tc main_v113)) = Hand.degOf a9
  ∧ V (no_index (Proc.devRef .tc main_v126)) = Hand.aggOf (Hand.x0Of a4 a1) a9

/-- Once the first hidden activation of its first layer. -/
abbrev InvO (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32) : Prop :=
  Args V a0 a1 a2 a3 a4 a5 a6 a7 a8 a9
  ∧ V (no_index (Proc.devRef .tc main_v1)) = Hand.rowOf a9
  ∧ V (no_index (Proc.devRef .tc main_v3)) = Hand.colOf a9
  ∧ V (no_index (Proc.devRef .tc main_v103)) = Hand.x2Of a3 a0 a2 a5 a6 a9
  ∧ V (no_index (Proc.devRef .tc main_v109)) = Hand.x0Of a4 a1
  ∧ V (no_index (Proc.devRef .tc main_v113)) = Hand.degOf a9
  ∧ V (no_index (Proc.devRef .tc main_v136)) = hidA (Hand.aggOf (Hand.x0Of a4 a1) a9) (W00 a7) (B00 a8)

/-- Once the second, with the identity embedding added. -/
abbrev InvP (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32) : Prop :=
  Args V a0 a1 a2 a3 a4 a5 a6 a7 a8 a9
  ∧ V (no_index (Proc.devRef .tc main_v1)) = Hand.rowOf a9
  ∧ V (no_index (Proc.devRef .tc main_v3)) = Hand.colOf a9
  ∧ V (no_index (Proc.devRef .tc main_v103)) = Hand.x2Of a3 a0 a2 a5 a6 a9
  ∧ V (no_index (Proc.devRef .tc main_v113)) = Hand.degOf a9
  ∧ V (no_index (Proc.devRef .tc main_v136)) = hidA (Hand.aggOf (Hand.x0Of a4 a1) a9) (W00 a7) (B00 a8)
  ∧ V (no_index (Proc.devRef .tc main_v147)) = hidB (Hand.x0Of a4 a1) a2 (W01 a7) (B01 a8)

/-- Once the third affine map. -/
abbrev InvQ1 (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32) : Prop :=
  Args V a0 a1 a2 a3 a4 a5 a6 a7 a8 a9
  ∧ V (no_index (Proc.devRef .tc main_v1)) = Hand.rowOf a9
  ∧ V (no_index (Proc.devRef .tc main_v3)) = Hand.colOf a9
  ∧ V (no_index (Proc.devRef .tc main_v103)) = Hand.x2Of a3 a0 a2 a5 a6 a9
  ∧ V (no_index (Proc.devRef .tc main_v113)) = Hand.degOf a9
  ∧ V (no_index (Proc.devRef .tc main_v147)) = hidB (Hand.x0Of a4 a1) a2 (W01 a7) (B01 a8)
  ∧ V (no_index (Proc.devRef .tc main_v156)) = Hand.denseOf (hidA (Hand.aggOf (Hand.x0Of a4 a1) a9) (W00 a7) (B00 a8)) (W02 a7) (B02 a8)

/-- Once the second tower after its first layer. -/
abbrev InvQ2 (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32) : Prop :=
  Args V a0 a1 a2 a3 a4 a5 a6 a7 a8 a9
  ∧ V (no_index (Proc.devRef .tc main_v1)) = Hand.rowOf a9
  ∧ V (no_index (Proc.devRef .tc main_v3)) = Hand.colOf a9
  ∧ V (no_index (Proc.devRef .tc main_v103)) = Hand.x2Of a3 a0 a2 a5 a6 a9
  ∧ V (no_index (Proc.devRef .tc main_v113)) = Hand.degOf a9
  ∧ V (no_index (Proc.devRef .tc main_v158)) = Hand.x1Of a4 a1 a2 a7 a8 a9

/-- Once its neighbourhood mean. -/
abbrev InvR (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32) : Prop :=
  Args V a0 a1 a2 a3 a4 a5 a6 a7 a8 a9
  ∧ V (no_index (Proc.devRef .tc main_v1)) = Hand.rowOf a9
  ∧ V (no_index (Proc.devRef .tc main_v3)) = Hand.colOf a9
  ∧ V (no_index (Proc.devRef .tc main_v103)) = Hand.x2Of a3 a0 a2 a5 a6 a9
  ∧ V (no_index (Proc.devRef .tc main_v158)) = Hand.x1Of a4 a1 a2 a7 a8 a9
  ∧ V (no_index (Proc.devRef .tc main_v171)) = Hand.aggOf (Hand.x1Of a4 a1 a2 a7 a8 a9) a9

/-- Once the first hidden activation of the second layer. -/
abbrev InvS (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32) : Prop :=
  Args V a0 a1 a2 a3 a4 a5 a6 a7 a8 a9
  ∧ V (no_index (Proc.devRef .tc main_v1)) = Hand.rowOf a9
  ∧ V (no_index (Proc.devRef .tc main_v3)) = Hand.colOf a9
  ∧ V (no_index (Proc.devRef .tc main_v103)) = Hand.x2Of a3 a0 a2 a5 a6 a9
  ∧ V (no_index (Proc.devRef .tc main_v158)) = Hand.x1Of a4 a1 a2 a7 a8 a9
  ∧ V (no_index (Proc.devRef .tc main_v181)) = hidA (Hand.aggOf (Hand.x1Of a4 a1 a2 a7 a8 a9) a9) (W10 a7) (B10 a8)

/-- Once the second, with the identity embedding added. -/
abbrev InvT (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32) : Prop :=
  Args V a0 a1 a2 a3 a4 a5 a6 a7 a8 a9
  ∧ V (no_index (Proc.devRef .tc main_v1)) = Hand.rowOf a9
  ∧ V (no_index (Proc.devRef .tc main_v3)) = Hand.colOf a9
  ∧ V (no_index (Proc.devRef .tc main_v103)) = Hand.x2Of a3 a0 a2 a5 a6 a9
  ∧ V (no_index (Proc.devRef .tc main_v181)) = hidA (Hand.aggOf (Hand.x1Of a4 a1 a2 a7 a8 a9) a9) (W10 a7) (B10 a8)
  ∧ V (no_index (Proc.devRef .tc main_v192)) = hidB (Hand.x1Of a4 a1 a2 a7 a8 a9) a2 (W11 a7) (B11 a8)

/-- Once the second tower's output. -/
abbrev InvU (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32) : Prop :=
  Args V a0 a1 a2 a3 a4 a5 a6 a7 a8 a9
  ∧ V (no_index (Proc.devRef .tc main_v103)) = Hand.x2Of a3 a0 a2 a5 a6 a9
  ∧ V (no_index (Proc.devRef .tc main_v203)) = Hand.x2Of a4 a1 a2 a7 a8 a9

/-- Once the mean of the two towers. -/
abbrev InvW (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32) : Prop :=
  Args V a0 a1 a2 a3 a4 a5 a6 a7 a8 a9
  ∧ V (no_index (Proc.devRef .tc main_v206)) = Hand.resultOf a0 a1 a2 a3 a4 a5 a6 a7 a8 a9

/-- Running two lines one after the other is running their concatenation. -/
theorem after_app : ∀ (l₁ l₂ : List (HloOp τ sig (Elt F))) (V : Vl F), after (l₁ ++ l₂) V = after l₂ (after l₁ V)
  | [], _, _ => rfl
  | op :: l₁, l₂, V => by rw [List.cons_append, after_cons, after_cons, after_app l₁ l₂]

/-- One buffer after one stage: the stage's operations are run at that buffer (each operation's result at its own buffer,
    what was there at any other), the buffers read are replaced by what they are known to hold, and the two sides are
    then the same composition of array operations. -/
macro "stage_goal" : tactic =>
  `(tactic| (after_results_simp; first | assumption | (simp only [*]; try rfl) | rfl))

end Cert.ReferenceIdeal.HandRun

end
-- ==== Proof.RefRunW0.lean ====
/-
  The reference's run, window 1 of 4 (its statements 1 … 60): the window's host operations as lists, one per stage of
  the computation, the calls of the outlined functions (the row norm, the leaky rectifier and the selection inside it)
  written out at their call sites over the calls' own buffers; the window's program is the straight line of those
  operations; and, stage by stage, what the buffers read later hold afterwards as whole-array functions of the ten
  arguments (Proof/RefRunInv.lean), given what they held before.
-/
import proofs.«109543_j54176717472163_1_alg».proof.Proof.RefRunInv

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The edge table's two lines, each cut out and flattened: the row and the column of every edge. -/
abbrev opsA : List (HloOp τ sig (Elt F)) :=
  [ unary main_arg9 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg9 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000 ]

/-- The first tower's features: preferences stacked on item features, each row divided by its guarded Euclidean length (the length through the outlined row-norm function: squares, their row sums, the square root). -/
abbrev opsB : List (HloOp τ sig (Elt F)) :=
  [ binary main_arg3 main_arg0 main_v4 ((fun a b => concatenate S80000x64 0 [⟨S50000x64, a⟩, ⟨S30000x64, b⟩] concatenates_S50000x64_S30000x64_S80000x64_d0) : (⟨S50000x64, .f32⟩ : BufTy).Contents (Elt F) → (⟨S30000x64, .f32⟩ : BufTy).Contents (Elt F) → (⟨S80000x64, .f32⟩ : BufTy).Contents (Elt F)),
    TRef.binary (.of main_v4 : TRef sig ⟨S80000x64, .f32⟩) (.of main_v4 : TRef sig ⟨S80000x64, .f32⟩) main_call0.v0 mulf,
    TRef.nullary main_call0.cst (constant S_ .f32 0x00000000#32),
    TRef.binary main_call0.v0 main_call0.cst main_call0.v1 (fun x v => Host.reduceAdd x v reducesTo_S80000x64_S80000_d1 h_S_),
    TRef.unary main_call0.v1 main_call0.v2 (broadcastInDim S80000x1 ![0] bcast_S80000_S80000x1_0),
    TRef.unary main_call0.v2 main_call0.v3 Host.sqrt,
    nullary main_cst (constant S_ .f32 0x2B8CBCCC#32),
    unary main_cst main_v6 (broadcastInDim S80000x1 ![] bcast_S_S80000x1 : (⟨S_, .f32⟩ : BufTy).Contents (Elt F) → (⟨S80000x1, .f32⟩ : BufTy).Contents (Elt F)),
    binary main_v5 main_v6 main_v7 (maximumf : (⟨S80000x1, .f32⟩ : BufTy).Contents (Elt F) → (⟨S80000x1, .f32⟩ : BufTy).Contents (Elt F) → (⟨S80000x1, .f32⟩ : BufTy).Contents (Elt F)),
    unary main_v7 main_v8 (broadcastInDim S80000x64 ![0, 1] bcast_S80000x1_S80000x64_0_1 : (⟨S80000x1, .f32⟩ : BufTy).Contents (Elt F) → (⟨S80000x64, .f32⟩ : BufTy).Contents (Elt F)),
    binary main_v4 main_v8 main_v9 (Host.divf : (⟨S80000x64, .f32⟩ : BufTy).Contents (Elt F) → (⟨S80000x64, .f32⟩ : BufTy).Contents (Elt F) → (⟨S80000x64, .f32⟩ : BufTy).Contents (Elt F)) ]

/-- The in-degree: ones accumulated at the edge rows. -/
abbrev opsC : List (HloOp τ sig (Elt F)) :=
  [ nullary main_cst_0 (constant S_ .f32 0x3F800000#32),
    unary main_cst_0 main_v10 (broadcastInDim S1600000 ![] bcast_S_S1600000 : (⟨S_, .f32⟩ : BufTy).Contents (Elt F) → (⟨S1600000, .f32⟩ : BufTy).Contents (Elt F)),
    nullary main_cst_1 (constant S_ .f32 0x00000000#32),
    unary main_cst_1 main_v11 (broadcastInDim S80000 ![] bcast_S_S80000 : (⟨S_, .f32⟩ : BufTy).Contents (Elt F) → (⟨S80000, .f32⟩ : BufTy).Contents (Elt F)),
    unary main_v1 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S80000_S1600000x1_S1600000_n_0_0_1 x i u) : (⟨S80000, .f32⟩ : BufTy).Contents (Elt F) → (⟨S1600000x1, .i32⟩ : BufTy).Contents (Elt F) → (⟨S1600000, .f32⟩ : BufTy).Contents (Elt F) → (⟨S80000, .f32⟩ : BufTy).Contents (Elt F)) ]

/-- The neighbourhood mean: negative columns wrapped, the source rows gathered, accumulated at the edge rows, divided by the broadcast in-degree. -/
abbrev opsD : List (HloOp τ sig (Elt F)) :=
  [ nullary main_c (constantI S_ 32 0#32),
    unary main_c main_v14 (broadcastInDim S1600000 ![] bcast_S_S1600000 : (⟨S_, .i32⟩ : BufTy).Contents (Elt F) → (⟨S1600000, .i32⟩ : BufTy).Contents (Elt F)),
    binary main_v3 main_v14 main_v15 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 80000#32),
    unary main_c_2 main_v16 (broadcastInDim S1600000 ![] bcast_S_S1600000 : (⟨S_, .i32⟩ : BufTy).Contents (Elt F) → (⟨S1600000, .i32⟩ : BufTy).Contents (Elt F)),
    binary main_v3 main_v16 main_v17 (addi : (⟨S1600000, .i32⟩ : BufTy).Contents (Elt F) → (⟨S1600000, .i32⟩ : BufTy).Contents (Elt F) → (⟨S1600000, .i32⟩ : BufTy).Contents (Elt F)),
    ternary main_v15 main_v17 main_v3 main_v18 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v18 main_v19 (broadcastInDim S1600000x1 ![0] bcast_S1600000_S1600000x1_0 : (⟨S1600000, .i32⟩ : BufTy).Contents (Elt F) → (⟨S1600000x1, .i32⟩ : BufTy).Contents (Elt F)),
    binary main_v9 main_v19 main_v20 ((fun x i => Host.gather gather_S80000x64_S1600000x1_S1600000x64_1_0_n_n_0_1_164 x i) : (⟨S80000x64, .f32⟩ : BufTy).Contents (Elt F) → (⟨S1600000x1, .i32⟩ : BufTy).Contents (Elt F) → (⟨S1600000x64, .f32⟩ : BufTy).Contents (Elt F)),
    nullary main_cst_3 (constant S_ .f32 0x00000000#32),
    unary main_cst_3 main_v21 (broadcastInDim S80000x64 ![] bcast_S_S80000x64 : (⟨S_, .f32⟩ : BufTy).Contents (Elt F) → (⟨S80000x64, .f32⟩ : BufTy).Contents (Elt F)),
    unary main_v1 main_v22 (broadcastInDim S1600000x1 ![0] bcast_S1600000_S1600000x1_0 : (⟨S1600000, .i32⟩ : BufTy).Contents (Elt F) → (⟨S1600000x1, .i32⟩ : BufTy).Contents (Elt F)),
    ternary main_v21 main_v22 main_v20 main_v23 ((fun x i u => Host.scatterAdd scatter_S80000x64_S1600000x1_S1600000x64_1_0_0_1 x i u) : (⟨S80000x64, .f32⟩ : BufTy).Contents (Elt F) → (⟨S1600000x1, .i32⟩ : BufTy).Contents (Elt F) → (⟨S1600000x64, .f32⟩ : BufTy).Contents (Elt F) → (⟨S80000x64, .f32⟩ : BufTy).Contents (Elt F)),
    unary main_v13 main_v24 (broadcastInDim S80000x1 ![0] bcast_S80000_S80000x1_0 : (⟨S80000, .f32⟩ : BufTy).Contents (Elt F) → (⟨S80000x1, .f32⟩ : BufTy).Contents (Elt F)),
    unary main_v24 main_v25 (broadcastInDim S80000x64 ![0, 1] bcast_S80000x1_S80000x64_0_1 : (⟨S80000x1, .f32⟩ : BufTy).Contents (Elt F) → (⟨S80000x64, .f32⟩ : BufTy).Contents (Elt F)),
    binary main_v23 main_v25 main_v26 (Host.divf : (⟨S80000x64, .f32⟩ : BufTy).Contents (Elt F) → (⟨S80000x64, .f32⟩ : BufTy).Contents (Elt F) → (⟨S80000x64, .f32⟩ : BufTy).Contents (Elt F)) ]

/-- Layer one, first affine map (weights 0, bias 0) of the neighbourhood mean, through the leaky rectifier (outlined: comparison with zero, the slope times the value, the selection). -/
abbrev opsE : List (HloOp τ sig (Elt F)) :=
  [ unary main_arg5 main_v27 ((extractStridedSlice S1x1x64x64 ![0, 0, 0, 0] · slices_S2x3x64x64_S1x1x64x64_0_0_0_0) : (⟨S2x3x64x64, .f32⟩ : BufTy).Contents (Elt F) → (⟨S1x1x64x64, .f32⟩ : BufTy).Contents (Elt F)),
    reshape main_v27 main_v28 rfl shapeCasts_S1x1x64x64_S64x64,
    unary main_v28 main_v29 ((transpose S64x64 [1, 0] · transposes_S64x64_S64x64_1_0) : (⟨S64x64, .f32⟩ : BufTy).Contents (Elt F) → (⟨S64x64, .f32⟩ : BufTy).Contents (Elt F)),
    binary main_v26 main_v29 main_v30 ((fun l r => Host.dotGeneral dot_S80000x64_S64x64_S80000x64_1_0_0_1_n_n none l r) : (⟨S80000x64, .f32⟩ : BufTy).Contents (Elt F) → (⟨S64x64, .f32⟩ : BufTy).Contents (Elt F) → (⟨S80000x64, .f32⟩ : BufTy).Contents (Elt F)),
    unary main_arg6 main_v31 ((extractStridedSlice S1x1x64 ![0, 0, 0] · slices_S2x3x64_S1x1x64_0_0_0) : (⟨S2x3x64, .f32⟩ : BufTy).Contents (Elt F) → (⟨S1x1x64, .f32⟩ : BufTy).Contents (Elt F)),
    reshape main_v31 main_v32 rfl shapeCasts_S1x1x64_S64,
    unary main_v32 main_v33 (broadcastInDim S1x64 ![1] bcast_S64_S1x64_1 : (⟨S64, .f32⟩ : BufTy).Contents (Elt F) → (⟨S1x64, .f32⟩ : BufTy).Contents (Elt F)),
    unary main_v33 main_v34 (broadcastInDim S80000x64 ![0, 1] bcast_S1x64_S80000x64_0_1 : (⟨S1x64, .f32⟩ : BufTy).Contents (Elt F) → (⟨S80000x64, .f32⟩ : BufTy).Contents (Elt F)),
    binary main_v30 main_v34 main_v35 (addf : (⟨S80000x64, .f32⟩ : BufTy).Contents (Elt F) → (⟨S80000x64, .f32⟩ : BufTy).Contents (Elt F) → (⟨S80000x64, .f32⟩ : BufTy).Contents (Elt F)),
    nullary main_cst_4 (constant S_ .f32 0x3C23D70A#32),
    TRef.nullary main_call1.cst (constant S_ .f32 0x00000000#32),
    TRef.unary main_call1.cst main_call1.v0 (broadcastInDim S80000x64 ![] bcast_S_S80000x64),
    TRef.binary (.of main_v35 : TRef sig ⟨S80000x64, .f32⟩) main_call1.v0 main_call1.v1 (cmpf .oge),
    TRef.unary (.of main_cst_4 : TRef sig ⟨S_, .f32⟩) main_call1.v2 id,
    TRef.unary main_call1.v2 main_call1.v3 (broadcastInDim S80000x64 ![] bcast_S_S80000x64),
    TRef.binary main_call1.v3 (.of main_v35 : TRef sig ⟨S80000x64, .f32⟩) main_call1.v4 mulf,
    TRef.ternary main_call1.v1 (.of main_v35 : TRef sig ⟨S80000x64, .f32⟩) main_call1.v4 main_call1.call0.v0 select ]

/-- Layer one, second affine map (weights 1, bias 1) of the features, rectified, plus the identity embedding. -/
abbrev opsF : List (HloOp τ sig (Elt F)) :=
  [ unary main_arg5 main_v37 ((extractStridedSlice S1x1x64x64 ![0, 1, 0, 0] · slices_S2x3x64x64_S1x1x64x64_0_1_0_0) : (⟨S2x3x64x64, .f32⟩ : BufTy).Contents (Elt F) → (⟨S1x1x64x64, .f32⟩ : BufTy).Contents (Elt F)),
    reshape main_v37 main_v38 rfl shapeCasts_S1x1x64x64_S64x64,
    unary main_v38 main_v39 ((transpose S64x64 [1, 0] · transposes_S64x64_S64x64_1_0) : (⟨S64x64, .f32⟩ : BufTy).Contents (Elt F) → (⟨S64x64, .f32⟩ : BufTy).Contents (Elt F)),
    binary main_v9 main_v39 main_v40 ((fun l r => Host.dotGeneral dot_S80000x64_S64x64_S80000x64_1_0_0_1_n_n none l r) : (⟨S80000x64, .f32⟩ : BufTy).Contents (Elt F) → (⟨S64x64, .f32⟩ : BufTy).Contents (Elt F) → (⟨S80000x64, .f32⟩ : BufTy).Contents (Elt F)),
    unary main_arg6 main_v41 ((extractStridedSlice S1x1x64 ![0, 1, 0] · slices_S2x3x64_S1x1x64_0_1_0) : (⟨S2x3x64, .f32⟩ : BufTy).Contents (Elt F) → (⟨S1x1x64, .f32⟩ : BufTy).Contents (Elt F)),
    reshape main_v41 main_v42 rfl shapeCasts_S1x1x64_S64,
    unary main_v42 main_v43 (broadcastInDim S1x64 ![1] bcast_S64_S1x64_1 : (⟨S64, .f32⟩ : BufTy).Contents (Elt F) → (⟨S1x64, .f32⟩ : BufTy).Contents (Elt F)),
    unary main_v43 main_v44 (broadcastInDim S80000x64 ![0, 1] bcast_S1x64_S80000x64_0_1 : (⟨S1x64, .f32⟩ : BufTy).Contents (Elt F) → (⟨S80000x64, .f32⟩ : BufTy).Contents (Elt F)),
    binary main_v40 main_v44 main_v45 (addf : (⟨S80000x64, .f32⟩ : BufTy).Contents (Elt F) → (⟨S80000x64, .f32⟩ : BufTy).Contents (Elt F) → (⟨S80000x64, .f32⟩ : BufTy).Contents (Elt F)),
    nullary main_cst_5 (constant S_ .f32 0x3C23D70A#32),
    TRef.nullary main_call2.cst (constant S_ .f32 0x00000000#32),
    TRef.unary main_call2.cst main_call2.v0 (broadcastInDim S80000x64 ![] bcast_S_S80000x64),
    TRef.binary (.of main_v45 : TRef sig ⟨S80000x64, .f32⟩) main_call2.v0 main_call2.v1 (cmpf .oge),
    TRef.unary (.of main_cst_5 : TRef sig ⟨S_, .f32⟩) main_call2.v2 id,
    TRef.unary main_call2.v2 main_call2.v3 (broadcastInDim S80000x64 ![] bcast_S_S80000x64),
    TRef.binary main_call2.v3 (.of main_v45 : TRef sig ⟨S80000x64, .f32⟩) main_call2.v4 mulf,
    TRef.ternary main_call2.v1 (.of main_v45 : TRef sig ⟨S80000x64, .f32⟩) main_call2.v4 main_call2.call0.v0 select,
    binary main_v46 main_arg2 main_v47 (addf : (⟨S80000x64, .f32⟩ : BufTy).Contents (Elt F) → (⟨S80000x64, .f32⟩ : BufTy).Contents (Elt F) → (⟨S80000x64, .f32⟩ : BufTy).Contents (Elt F)) ]

/-- Layer one, the product of the first activation with the third weight matrix. -/
abbrev opsG1 : List (HloOp τ sig (Elt F)) :=
  [ unary main_arg5 main_v48 ((extractStridedSlice S1x1x64x64 ![0, 2, 0, 0] · slices_S2x3x64x64_S1x1x64x64_0_2_0_0) : (⟨S2x3x64x64, .f32⟩ : BufTy).Contents (Elt F) → (⟨S1x1x64x64, .f32⟩ : BufTy).Contents (Elt F)),
    reshape main_v48 main_v49 rfl shapeCasts_S1x1x64x64_S64x64,
    unary main_v49 main_v50 ((transpose S64x64 [1, 0] · transposes_S64x64_S64x64_1_0) : (⟨S64x64, .f32⟩ : BufTy).Contents (Elt F) → (⟨S64x64, .f32⟩ : BufTy).Contents (Elt F)),
    binary main_v36 main_v50 main_v51 ((fun l r => Host.dotGeneral dot_S80000x64_S64x64_S80000x64_1_0_0_1_n_n none l r) : (⟨S80000x64, .f32⟩ : BufTy).Contents (Elt F) → (⟨S64x64, .f32⟩ : BufTy).Contents (Elt F) → (⟨S80000x64, .f32⟩ : BufTy).Contents (Elt F)) ]

set_option maxRecDepth 4096 in
set_option maxHeartbeats 4000000 in
/-- The window is the straight line of its stages' operations: the outlined functions' bodies unfolded at their calls,
    both sides are one chain of host steps once sequencing is reassociated. -/
theorem part0_eq (c : Dev nD) : main_part0 (F := F) c = seq (opsA ++ opsB ++ opsC ++ opsD ++ opsE ++ opsF ++ opsG1) := by
  simp only [main_part0, fn_norm.body, fn_leaky_relu.body, fn_where.body, seq_append, seq, bind_assoc, pure_bind]
  rfl

/-- Every operation of stage A touches buffers of this core only, and determines what it writes. -/
theorem okA : (opsA : List (HloOp τ sig (Elt F))).Forall fun op => op.bufs ⊆ tcRefs τ sig ∧ op.fresh = ∅ :=
  ⟨⟨unary_bufs_sub .., rfl⟩,
    ⟨reshape_bufs_sub .., rfl⟩,
    ⟨unary_bufs_sub .., rfl⟩,
    ⟨reshape_bufs_sub .., rfl⟩⟩

/-- Every operation of stage B touches buffers of this core only, and determines what it writes. -/
theorem okB : (opsB : List (HloOp τ sig (Elt F))).Forall fun op => op.bufs ⊆ tcRefs τ sig ∧ op.fresh = ∅ :=
  ⟨⟨binary_bufs_sub .., rfl⟩,
    ⟨binary_bufs_sub .., rfl⟩,
    ⟨nullary_bufs_sub .., rfl⟩,
    ⟨binary_bufs_sub .., rfl⟩,
    ⟨unary_bufs_sub .., rfl⟩,
    ⟨unary_bufs_sub .., rfl⟩,
    ⟨nullary_bufs_sub .., rfl⟩,
    ⟨unary_bufs_sub .., rfl⟩,
    ⟨binary_bufs_sub .., rfl⟩,
    ⟨unary_bufs_sub .., rfl⟩,
    ⟨binary_bufs_sub .., rfl⟩⟩

/-- Every operation of stage C touches buffers of this core only, and determines what it writes. -/
theorem okC : (opsC : List (HloOp τ sig (Elt F))).Forall fun op => op.bufs ⊆ tcRefs τ sig ∧ op.fresh = ∅ :=
  ⟨⟨nullary_bufs_sub .., rfl⟩,
    ⟨unary_bufs_sub .., rfl⟩,
    ⟨nullary_bufs_sub .., rfl⟩,
    ⟨unary_bufs_sub .., rfl⟩,
    ⟨unary_bufs_sub .., rfl⟩,
    ⟨ternary_bufs_sub .., rfl⟩⟩

/-- Every operation of stage D touches buffers of this core only, and determines what it writes. -/
theorem okD : (opsD : List (HloOp τ sig (Elt F))).Forall fun op => op.bufs ⊆ tcRefs τ sig ∧ op.fresh = ∅ :=
  ⟨⟨nullary_bufs_sub .., rfl⟩,
    ⟨unary_bufs_sub .., rfl⟩,
    ⟨binary_bufs_sub .., rfl⟩,
    ⟨nullary_bufs_sub .., rfl⟩,
    ⟨unary_bufs_sub .., rfl⟩,
    ⟨binary_bufs_sub .., rfl⟩,
    ⟨ternary_bufs_sub .., rfl⟩,
    ⟨unary_bufs_sub .., rfl⟩,
    ⟨binary_bufs_sub .., rfl⟩,
    ⟨nullary_bufs_sub .., rfl⟩,
    ⟨unary_bufs_sub .., rfl⟩,
    ⟨unary_bufs_sub .., rfl⟩,
    ⟨ternary_bufs_sub .., rfl⟩,
    ⟨unary_bufs_sub .., rfl⟩,
    ⟨unary_bufs_sub .., rfl⟩,
    ⟨binary_bufs_sub .., rfl⟩⟩

/-- Every operation of stage E touches buffers of this core only, and determines what it writes. -/
theorem okE : (opsE : List (HloOp τ sig (Elt F))).Forall fun op => op.bufs ⊆ tcRefs τ sig ∧ op.fresh = ∅ :=
  ⟨⟨unary_bufs_sub .., rfl⟩,
    ⟨reshape_bufs_sub .., rfl⟩,
    ⟨unary_bufs_sub .., rfl⟩,
    ⟨binary_bufs_sub .., rfl⟩,
    ⟨unary_bufs_sub .., rfl⟩,
    ⟨reshape_bufs_sub .., rfl⟩,
    ⟨unary_bufs_sub .., rfl⟩,
    ⟨unary_bufs_sub .., rfl⟩,
    ⟨binary_bufs_sub .., rfl⟩,
    ⟨nullary_bufs_sub .., rfl⟩,
    ⟨nullary_bufs_sub .., rfl⟩,
    ⟨unary_bufs_sub .., rfl⟩,
    ⟨binary_bufs_sub .., rfl⟩,
    ⟨unary_bufs_sub .., rfl⟩,
    ⟨unary_bufs_sub .., rfl⟩,
    ⟨binary_bufs_sub .., rfl⟩,
    ⟨ternary_bufs_sub .., rfl⟩⟩

/-- Every operation of stage F touches buffers of this core only, and determines what it writes. -/
theorem okF : (opsF : List (HloOp τ sig (Elt F))).Forall fun op => op.bufs ⊆ tcRefs τ sig ∧ op.fresh = ∅ :=
  ⟨⟨unary_bufs_sub .., rfl⟩,
    ⟨reshape_bufs_sub .., rfl⟩,
    ⟨unary_bufs_sub .., rfl⟩,
    ⟨binary_bufs_sub .., rfl⟩,
    ⟨unary_bufs_sub .., rfl⟩,
    ⟨reshape_bufs_sub .., rfl⟩,
    ⟨unary_bufs_sub .., rfl⟩,
    ⟨unary_bufs_sub .., rfl⟩,
    ⟨binary_bufs_sub .., rfl⟩,
    ⟨nullary_bufs_sub .., rfl⟩,
    ⟨nullary_bufs_sub .., rfl⟩,
    ⟨unary_bufs_sub .., rfl⟩,
    ⟨binary_bufs_sub .., rfl⟩,
    ⟨unary_bufs_sub .., rfl⟩,
    ⟨unary_bufs_sub .., rfl⟩,
    ⟨binary_bufs_sub .., rfl⟩,
    ⟨ternary_bufs_sub .., rfl⟩,
    ⟨binary_bufs_sub .., rfl⟩⟩

/-- Every operation of stage G1 touches buffers of this core only, and determines what it writes. -/
theorem okG1 : (opsG1 : List (HloOp τ sig (Elt F))).Forall fun op => op.bufs ⊆ tcRefs τ sig ∧ op.fresh = ∅ :=
  ⟨⟨unary_bufs_sub .., rfl⟩,
    ⟨reshape_bufs_sub .., rfl⟩,
    ⟨unary_bufs_sub .., rfl⟩,
    ⟨binary_bufs_sub .., rfl⟩⟩

/-- Stage A: the edge rows and columns are cut out. -/
theorem stepA (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32)
    (h : Args V a0 a1 a2 a3 a4 a5 a6 a7 a8 a9) : InvA (after opsA V) a0 a1 a2 a3 a4 a5 a6 a7 a8 a9 := by
  obtain ⟨h0, h1, h2, h3, h4, h5, h6, h7, h8, h9⟩ := h
  refine ⟨⟨?_, ?_, ?_, ?_, ?_, ?_, ?_, ?_, ?_, ?_⟩, ?_, ?_⟩
  all_goals stage_goal

/-- Stage B: the first tower's rows are scaled. -/
theorem stepB (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32)
    (h : InvA V a0 a1 a2 a3 a4 a5 a6 a7 a8 a9) : InvB (after opsB V) a0 a1 a2 a3 a4 a5 a6 a7 a8 a9 := by
  obtain ⟨⟨h0, h1, h2, h3, h4, h5, h6, h7, h8, h9⟩, k0, k1⟩ := h
  refine ⟨⟨?_, ?_, ?_, ?_, ?_, ?_, ?_, ?_, ?_, ?_⟩, ?_, ?_, ?_⟩
  iterate 12 stage_goal
  -- the stacked features: the two arguments read inside the list of the concatenated arrays
  · after_results_simp
    rw [h3, h0]
    rfl

/-- Stage C: the in-degree is counted. -/
theorem stepC (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32)
    (h : InvB V a0 a1 a2 a3 a4 a5 a6 a7 a8 a9) : InvC (after opsC V) a0 a1 a2 a3 a4 a5 a6 a7 a8 a9 := by
  obtain ⟨⟨h0, h1, h2, h3, h4, h5, h6, h7, h8, h9⟩, k0, k1, k2⟩ := h
  refine ⟨⟨?_, ?_, ?_, ?_, ?_, ?_, ?_, ?_, ?_, ?_⟩, ?_, ?_, ?_, ?_⟩
  all_goals stage_goal

/-- Stage D: the first neighbourhood mean of the first tower. -/
theorem stepD (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32)
    (h : InvC V a0 a1 a2 a3 a4 a5 a6 a7 a8 a9) : InvD (after opsD V) a0 a1 a2 a3 a4 a5 a6 a7 a8 a9 := by
  obtain ⟨⟨h0, h1, h2, h3, h4, h5, h6, h7, h8, h9⟩, k0, k1, k2, k3⟩ := h
  refine ⟨⟨?_, ?_, ?_, ?_, ?_, ?_, ?_, ?_, ?_, ?_⟩, ?_, ?_, ?_, ?_, ?_⟩
  all_goals stage_goal

/-- Stage E: the first hidden activation of the first tower's first layer. -/
theorem stepE (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32)
    (h : InvD V a0 a1 a2 a3 a4 a5 a6 a7 a8 a9) : InvE (after opsE V) a0 a1 a2 a3 a4 a5 a6 a7 a8 a9 := by
  obtain ⟨⟨h0, h1, h2, h3, h4, h5, h6, h7, h8, h9⟩, k0, k1, k2, k3, k4⟩ := h
  refine ⟨⟨?_, ?_, ?_, ?_, ?_, ?_, ?_, ?_, ?_, ?_⟩, ?_, ?_, ?_, ?_, ?_⟩
  all_goals stage_goal

/-- Stage F: its second, with the identity embedding added. -/
theorem stepF (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32)
    (h : InvE V a0 a1 a2 a3 a4 a5 a6 a7 a8 a9) : InvF (after opsF V) a0 a1 a2 a3 a4 a5 a6 a7 a8 a9 := by
  obtain ⟨⟨h0, h1, h2, h3, h4, h5, h6, h7, h8, h9⟩, k0, k1, k2, k3, k4⟩ := h
  refine ⟨⟨?_, ?_, ?_, ?_, ?_, ?_, ?_, ?_, ?_, ?_⟩, ?_, ?_, ?_, ?_, ?_⟩
  all_goals stage_goal

/-- Stage G1: the product with the third weight matrix. -/
theorem stepG1 (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32)
    (h : InvF V a0 a1 a2 a3 a4 a5 a6 a7 a8 a9) : InvG1 (after opsG1 V) a0 a1 a2 a3 a4 a5 a6 a7 a8 a9 := by
  obtain ⟨⟨h0, h1, h2, h3, h4, h5, h6, h7, h8, h9⟩, k0, k1, k2, k3, k4⟩ := h
  refine ⟨⟨?_, ?_, ?_, ?_, ?_, ?_, ?_, ?_, ?_, ?_⟩, ?_, ?_, ?_, ?_, ?_⟩
  all_goals stage_goal

/-- The whole window: its stages in turn. -/
theorem win0 (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32)
    (h : Args V a0 a1 a2 a3 a4 a5 a6 a7 a8 a9) : InvG1 (after (opsA ++ opsB ++ opsC ++ opsD ++ opsE ++ opsF ++ opsG1) V) a0 a1 a2 a3 a4 a5 a6 a7 a8 a9 := by
  simp only [after_app]
  exact (stepG1 _ a0 a1 a2 a3 a4 a5 a6 a7 a8 a9 (stepF _ a0 a1 a2 a3 a4 a5 a6 a7 a8 a9 (stepE _ a0 a1 a2 a3 a4 a5 a6 a7 a8 a9 (stepD _ a0 a1 a2 a3 a4 a5 a6 a7 a8 a9 (stepC _ a0 a1 a2 a3 a4 a5 a6 a7 a8 a9 (stepB _ a0 a1 a2 a3 a4 a5 a6 a7 a8 a9 (stepA _ a0 a1 a2 a3 a4 a5 a6 a7 a8 a9 h)))))))

/-- Every operation of the window touches buffers of this core only, and determines what it writes. -/
theorem okWin0 : (opsA ++ opsB ++ opsC ++ opsD ++ opsE ++ opsF ++ opsG1 : List (HloOp τ sig (Elt F))).Forall fun op => op.bufs ⊆ tcRefs τ sig ∧ op.fresh = ∅ := by
  simp only [List.forall_append]
  exact ⟨⟨⟨⟨⟨⟨okA, okB⟩, okC⟩, okD⟩, okE⟩, okF⟩, okG1⟩

end Cert.ReferenceIdeal.HandRun

end
-- ==== Proof.RefRunW1.lean ====
/-
  The reference's run, window 2 of 4 (its statements 61 … 120): the window's host operations as lists, one per stage of
  the computation, the calls of the outlined functions (the row norm, the leaky rectifier and the selection inside it)
  written out at their call sites over the calls' own buffers; the window's program is the straight line of those
  operations; and, stage by stage, what the buffers read later hold afterwards as whole-array functions of the ten
  arguments (Proof/RefRunInv.lean), given what they held before.
-/
import proofs.«109543_j54176717472163_1_alg».proof.Proof.RefRunInv

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Layer one, the third bias, the sum with the second activation, the rectifier: the tower after one layer. -/
abbrev opsG2 : List (HloOp τ sig (Elt F)) :=
  [ unary main_arg6 main_v52 ((extractStridedSlice S1x1x64 ![0, 2, 0] · slices_S2x3x64_S1x1x64_0_2_0) : (⟨S2x3x64, .f32⟩ : BufTy).Contents (Elt F) → (⟨S1x1x64, .f32⟩ : BufTy).Contents (Elt F)),
    reshape main_v52 main_v53 rfl shapeCasts_S1x1x64_S64,
    unary main_v53 main_v54 (broadcastInDim S1x64 ![1] bcast_S64_S1x64_1 : (⟨S64, .f32⟩ : BufTy).Contents (Elt F) → (⟨S1x64, .f32⟩ : BufTy).Contents (Elt F)),
    unary main_v54 main_v55 (broadcastInDim S80000x64 ![0, 1] bcast_S1x64_S80000x64_0_1 : (⟨S1x64, .f32⟩ : BufTy).Contents (Elt F) → (⟨S80000x64, .f32⟩ : BufTy).Contents (Elt F)),
    binary main_v51 main_v55 main_v56 (addf : (⟨S80000x64, .f32⟩ : BufTy).Contents (Elt F) → (⟨S80000x64, .f32⟩ : BufTy).Contents (Elt F) → (⟨S80000x64, .f32⟩ : BufTy).Contents (Elt F)),
    binary main_v56 main_v47 main_v57 (addf : (⟨S80000x64, .f32⟩ : BufTy).Contents (Elt F) → (⟨S80000x64, .f32⟩ : BufTy).Contents (Elt F) → (⟨S80000x64, .f32⟩ : BufTy).Contents (Elt F)),
    nullary main_cst_6 (constant S_ .f32 0x3C23D70A#32),
    TRef.nullary main_call3.cst (constant S_ .f32 0x00000000#32),
    TRef.unary main_call3.cst main_call3.v0 (broadcastInDim S80000x64 ![] bcast_S_S80000x64),
    TRef.binary (.of main_v57 : TRef sig ⟨S80000x64, .f32⟩) main_call3.v0 main_call3.v1 (cmpf .oge),
    TRef.unary (.of main_cst_6 : TRef sig ⟨S_, .f32⟩) main_call3.v2 id,
    TRef.unary main_call3.v2 main_call3.v3 (broadcastInDim S80000x64 ![] bcast_S_S80000x64),
    TRef.binary main_call3.v3 (.of main_v57 : TRef sig ⟨S80000x64, .f32⟩) main_call3.v4 mulf,
    TRef.ternary main_call3.v1 (.of main_v57 : TRef sig ⟨S80000x64, .f32⟩) main_call3.v4 main_call3.call0.v0 select ]

/-- Layer two's neighbourhood mean. -/
abbrev opsH : List (HloOp τ sig (Elt F)) :=
  [ nullary main_c_7 (constantI S_ 32 0#32),
    unary main_c_7 main_v59 (broadcastInDim S1600000 ![] bcast_S_S1600000 : (⟨S_, .i32⟩ : BufTy).Contents (Elt F) → (⟨S1600000, .i32⟩ : BufTy).Contents (Elt F)),
    binary main_v3 main_v59 main_v60 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 80000#32),
    unary main_c_8 main_v61 (broadcastInDim S1600000 ![] bcast_S_S1600000 : (⟨S_, .i32⟩ : BufTy).Contents (Elt F) → (⟨S1600000, .i32⟩ : BufTy).Contents (Elt F)),
    binary main_v3 main_v61 main_v62 (addi : (⟨S1600000, .i32⟩ : BufTy).Contents (Elt F) → (⟨S1600000, .i32⟩ : BufTy).Contents (Elt F) → (⟨S1600000, .i32⟩ : BufTy).Contents (Elt F)),
    ternary main_v60 main_v62 main_v3 main_v63 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v63 main_v64 (broadcastInDim S1600000x1 ![0] bcast_S1600000_S1600000x1_0 : (⟨S1600000, .i32⟩ : BufTy).Contents (Elt F) → (⟨S1600000x1, .i32⟩ : BufTy).Contents (Elt F)),
    binary main_v58 main_v64 main_v65 ((fun x i => Host.gather gather_S80000x64_S1600000x1_S1600000x64_1_0_n_n_0_1_164 x i) : (⟨S80000x64, .f32⟩ : BufTy).Contents (Elt F) → (⟨S1600000x1, .i32⟩ : BufTy).Contents (Elt F) → (⟨S1600000x64, .f32⟩ : BufTy).Contents (Elt F)),
    nullary main_cst_9 (constant S_ .f32 0x00000000#32),
    unary main_cst_9 main_v66 (broadcastInDim S80000x64 ![] bcast_S_S80000x64 : (⟨S_, .f32⟩ : BufTy).Contents (Elt F) → (⟨S80000x64, .f32⟩ : BufTy).Contents (Elt F)),
    unary main_v1 main_v67 (broadcastInDim S1600000x1 ![0] bcast_S1600000_S1600000x1_0 : (⟨S1600000, .i32⟩ : BufTy).Contents (Elt F) → (⟨S1600000x1, .i32⟩ : BufTy).Contents (Elt F)),
    ternary main_v66 main_v67 main_v65 main_v68 ((fun x i u => Host.scatterAdd scatter_S80000x64_S1600000x1_S1600000x64_1_0_0_1 x i u) : (⟨S80000x64, .f32⟩ : BufTy).Contents (Elt F) → (⟨S1600000x1, .i32⟩ : BufTy).Contents (Elt F) → (⟨S1600000x64, .f32⟩ : BufTy).Contents (Elt F) → (⟨S80000x64, .f32⟩ : BufTy).Contents (Elt F)),
    unary main_v13 main_v69 (broadcastInDim S80000x1 ![0] bcast_S80000_S80000x1_0 : (⟨S80000, .f32⟩ : BufTy).Contents (Elt F) → (⟨S80000x1, .f32⟩ : BufTy).Contents (Elt F)),
    unary main_v69 main_v70 (broadcastInDim S80000x64 ![0, 1] bcast_S80000x1_S80000x64_0_1 : (⟨S80000x1, .f32⟩ : BufTy).Contents (Elt F) → (⟨S80000x64, .f32⟩ : BufTy).Contents (Elt F)),
    binary main_v68 main_v70 main_v71 (Host.divf : (⟨S80000x64, .f32⟩ : BufTy).Contents (Elt F) → (⟨S80000x64, .f32⟩ : BufTy).Contents (Elt F) → (⟨S80000x64, .f32⟩ : BufTy).Contents (Elt F)) ]

/-- Layer two, first affine map of the mean, rectified. -/
abbrev opsI : List (HloOp τ sig (Elt F)) :=
  [ unary main_arg5 main_v72 ((extractStridedSlice S1x1x64x64 ![1, 0, 0, 0] · slices_S2x3x64x64_S1x1x64x64_1_0_0_0) : (⟨S2x3x64x64, .f32⟩ : BufTy).Contents (Elt F) → (⟨S1x1x64x64, .f32⟩ : BufTy).Contents (Elt F)),
    reshape main_v72 main_v73 rfl shapeCasts_S1x1x64x64_S64x64,
    unary main_v73 main_v74 ((transpose S64x64 [1, 0] · transposes_S64x64_S64x64_1_0) : (⟨S64x64, .f32⟩ : BufTy).Contents (Elt F) → (⟨S64x64, .f32⟩ : BufTy).Contents (Elt F)),
    binary main_v71 main_v74 main_v75 ((fun l r => Host.dotGeneral dot_S80000x64_S64x64_S80000x64_1_0_0_1_n_n none l r) : (⟨S80000x64, .f32⟩ : BufTy).Contents (Elt F) → (⟨S64x64, .f32⟩ : BufTy).Contents (Elt F) → (⟨S80000x64, .f32⟩ : BufTy).Contents (Elt F)),
    unary main_arg6 main_v76 ((extractStridedSlice S1x1x64 ![1, 0, 0] · slices_S2x3x64_S1x1x64_1_0_0) : (⟨S2x3x64, .f32⟩ : BufTy).Contents (Elt F) → (⟨S1x1x64, .f32⟩ : BufTy).Contents (Elt F)),
    reshape main_v76 main_v77 rfl shapeCasts_S1x1x64_S64,
    unary main_v77 main_v78 (broadcastInDim S1x64 ![1] bcast_S64_S1x64_1 : (⟨S64, .f32⟩ : BufTy).Contents (Elt F) → (⟨S1x64, .f32⟩ : BufTy).Contents (Elt F)),
    unary main_v78 main_v79 (broadcastInDim S80000x64 ![0, 1] bcast_S1x64_S80000x64_0_1 : (⟨S1x64, .f32⟩ : BufTy).Contents (Elt F) → (⟨S80000x64, .f32⟩ : BufTy).Contents (Elt F)),
    binary main_v75 main_v79 main_v80 (addf : (⟨S80000x64, .f32⟩ : BufTy).Contents (Elt F) → (⟨S80000x64, .f32⟩ : BufTy).Contents (Elt F) → (⟨S80000x64, .f32⟩ : BufTy).Contents (Elt F)),
    nullary main_cst_10 (constant S_ .f32 0x3C23D70A#32),
    TRef.nullary main_call4.cst (constant S_ .f32 0x00000000#32),
    TRef.unary main_call4.cst main_call4.v0 (broadcastInDim S80000x64 ![] bcast_S_S80000x64),
    TRef.binary (.of main_v80 : TRef sig ⟨S80000x64, .f32⟩) main_call4.v0 main_call4.v1 (cmpf .oge),
    TRef.unary (.of main_cst_10 : TRef sig ⟨S_, .f32⟩) main_call4.v2 id,
    TRef.unary main_call4.v2 main_call4.v3 (broadcastInDim S80000x64 ![] bcast_S_S80000x64),
    TRef.binary main_call4.v3 (.of main_v80 : TRef sig ⟨S80000x64, .f32⟩) main_call4.v4 mulf,
    TRef.ternary main_call4.v1 (.of main_v80 : TRef sig ⟨S80000x64, .f32⟩) main_call4.v4 main_call4.call0.v0 select ]

/-- Layer two, second affine map of the features, rectified, plus the identity embedding. -/
abbrev opsJ : List (HloOp τ sig (Elt F)) :=
  [ unary main_arg5 main_v82 ((extractStridedSlice S1x1x64x64 ![1, 1, 0, 0] · slices_S2x3x64x64_S1x1x64x64_1_1_0_0) : (⟨S2x3x64x64, .f32⟩ : BufTy).Contents (Elt F) → (⟨S1x1x64x64, .f32⟩ : BufTy).Contents (Elt F)),
    reshape main_v82 main_v83 rfl shapeCasts_S1x1x64x64_S64x64,
    unary main_v83 main_v84 ((transpose S64x64 [1, 0] · transposes_S64x64_S64x64_1_0) : (⟨S64x64, .f32⟩ : BufTy).Contents (Elt F) → (⟨S64x64, .f32⟩ : BufTy).Contents (Elt F)),
    binary main_v58 main_v84 main_v85 ((fun l r => Host.dotGeneral dot_S80000x64_S64x64_S80000x64_1_0_0_1_n_n none l r) : (⟨S80000x64, .f32⟩ : BufTy).Contents (Elt F) → (⟨S64x64, .f32⟩ : BufTy).Contents (Elt F) → (⟨S80000x64, .f32⟩ : BufTy).Contents (Elt F)),
    unary main_arg6 main_v86 ((extractStridedSlice S1x1x64 ![1, 1, 0] · slices_S2x3x64_S1x1x64_1_1_0) : (⟨S2x3x64, .f32⟩ : BufTy).Contents (Elt F) → (⟨S1x1x64, .f32⟩ : BufTy).Contents (Elt F)),
    reshape main_v86 main_v87 rfl shapeCasts_S1x1x64_S64,
    unary main_v87 main_v88 (broadcastInDim S1x64 ![1] bcast_S64_S1x64_1 : (⟨S64, .f32⟩ : BufTy).Contents (Elt F) → (⟨S1x64, .f32⟩ : BufTy).Contents (Elt F)),
    unary main_v88 main_v89 (broadcastInDim S80000x64 ![0, 1] bcast_S1x64_S80000x64_0_1 : (⟨S1x64, .f32⟩ : BufTy).Contents (Elt F) → (⟨S80000x64, .f32⟩ : BufTy).Contents (Elt F)),
    binary main_v85 main_v89 main_v90 (addf : (⟨S80000x64, .f32⟩ : BufTy).Contents (Elt F) → (⟨S80000x64, .f32⟩ : BufTy).Contents (Elt F) → (⟨S80000x64, .f32⟩ : BufTy).Contents (Elt F)),
    nullary main_cst_11 (constant S_ .f32 0x3C23D70A#32),
    TRef.nullary main_call5.cst (constant S_ .f32 0x00000000#32),
    TRef.unary main_call5.cst main_call5.v0 (broadcastInDim S80000x64 ![] bcast_S_S80000x64),
    TRef.binary (.of main_v90 : TRef sig ⟨S80000x64, .f32⟩) main_call5.v0 main_call5.v1 (cmpf .oge),
    TRef.unary (.of main_cst_11 : TRef sig ⟨S_, .f32⟩) main_call5.v2 id,
    TRef.unary main_call5.v2 main_call5.v3 (broadcastInDim S80000x64 ![] bcast_S_S80000x64),
    TRef.binary main_call5.v3 (.of main_v90 : TRef sig ⟨S80000x64, .f32⟩) main_call5.v4 mulf,
    TRef.ternary main_call5.v1 (.of main_v90 : TRef sig ⟨S80000x64, .f32⟩) main_call5.v4 main_call5.call0.v0 select,
    binary main_v91 main_arg2 main_v92 (addf : (⟨S80000x64, .f32⟩ : BufTy).Contents (Elt F) → (⟨S80000x64, .f32⟩ : BufTy).Contents (Elt F) → (⟨S80000x64, .f32⟩ : BufTy).Contents (Elt F)) ]

/-- Layer two, third affine map, the sum, the rectifier: the first tower's output. -/
abbrev opsK : List (HloOp τ sig (Elt F)) :=
  [ unary main_arg5 main_v93 ((extractStridedSlice S1x1x64x64 ![1, 2, 0, 0] · slices_S2x3x64x64_S1x1x64x64_1_2_0_0) : (⟨S2x3x64x64, .f32⟩ : BufTy).Contents (Elt F) → (⟨S1x1x64x64, .f32⟩ : BufTy).Contents (Elt F)),
    reshape main_v93 main_v94 rfl shapeCasts_S1x1x64x64_S64x64,
    unary main_v94 main_v95 ((transpose S64x64 [1, 0] · transposes_S64x64_S64x64_1_0) : (⟨S64x64, .f32⟩ : BufTy).Contents (Elt F) → (⟨S64x64, .f32⟩ : BufTy).Contents (Elt F)),
    binary main_v81 main_v95 main_v96 ((fun l r => Host.dotGeneral dot_S80000x64_S64x64_S80000x64_1_0_0_1_n_n none l r) : (⟨S80000x64, .f32⟩ : BufTy).Contents (Elt F) → (⟨S64x64, .f32⟩ : BufTy).Contents (Elt F) → (⟨S80000x64, .f32⟩ : BufTy).Contents (Elt F)),
    unary main_arg6 main_v97 ((extractStridedSlice S1x1x64 ![1, 2, 0] · slices_S2x3x64_S1x1x64_1_2_0) : (⟨S2x3x64, .f32⟩ : BufTy).Contents (Elt F) → (⟨S1x1x64, .f32⟩ : BufTy).Contents (Elt F)),
    reshape main_v97 main_v98 rfl shapeCasts_S1x1x64_S64,
    unary main_v98 main_v99 (broadcastInDim S1x64 ![1] bcast_S64_S1x64_1 : (⟨S64, .f32⟩ : BufTy).Contents (Elt F) → (⟨S1x64, .f32⟩ : BufTy).Contents (Elt F)),
    unary main_v99 main_v100 (broadcastInDim S80000x64 ![0, 1] bcast_S1x64_S80000x64_0_1 : (⟨S1x64, .f32⟩ : BufTy).Contents (Elt F) → (⟨S80000x64, .f32⟩ : BufTy).Contents (Elt F)),
    binary main_v96 main_v100 main_v101 (addf : (⟨S80000x64, .f32⟩ : BufTy).Contents (Elt F) → (⟨S80000x64, .f32⟩ : BufTy).Contents (Elt F) → (⟨S80000x64, .f32⟩ : BufTy).Contents (Elt F)),
    binary main_v101 main_v92 main_v102 (addf : (⟨S80000x64, .f32⟩ : BufTy).Contents (Elt F) → (⟨S80000x64, .f32⟩ : BufTy).Contents (Elt F) → (⟨S80000x64, .f32⟩ : BufTy).Contents (Elt F)),
    nullary main_cst_12 (constant S_ .f32 0x3C23D70A#32),
    TRef.nullary main_call6.cst (constant S_ .f32 0x00000000#32),
    TRef.unary main_call6.cst main_call6.v0 (broadcastInDim S80000x64 ![] bcast_S_S80000x64),
    TRef.binary (.of main_v102 : TRef sig ⟨S80000x64, .f32⟩) main_call6.v0 main_call6.v1 (cmpf .oge),
    TRef.unary (.of main_cst_12 : TRef sig ⟨S_, .f32⟩) main_call6.v2 id,
    TRef.unary main_call6.v2 main_call6.v3 (broadcastInDim S80000x64 ![] bcast_S_S80000x64),
    TRef.binary main_call6.v3 (.of main_v102 : TRef sig ⟨S80000x64, .f32⟩) main_call6.v4 mulf,
    TRef.ternary main_call6.v1 (.of main_v102 : TRef sig ⟨S80000x64, .f32⟩) main_call6.v4 main_call6.call0.v0 select ]

/-- The second tower's features stacked. -/
abbrev opsL1 : List (HloOp τ sig (Elt F)) :=
  [ binary main_arg4 main_arg1 main_v104 ((fun a b => concatenate S80000x64 0 [⟨S50000x64, a⟩, ⟨S30000x64, b⟩] concatenates_S50000x64_S30000x64_S80000x64_d0) : (⟨S50000x64, .f32⟩ : BufTy).Contents (Elt F) → (⟨S30000x64, .f32⟩ : BufTy).Contents (Elt F) → (⟨S80000x64, .f32⟩ : BufTy).Contents (Elt F)) ]

set_option maxRecDepth 4096 in
set_option maxHeartbeats 4000000 in
/-- The window is the straight line of its stages' operations: the outlined functions' bodies unfolded at their calls,
    both sides are one chain of host steps once sequencing is reassociated. -/
theorem part1_eq (c : Dev nD) : main_part1 (F := F) c = seq (opsG2 ++ opsH ++ opsI ++ opsJ ++ opsK ++ opsL1) := by
  simp only [main_part1, fn_norm.body, fn_leaky_relu.body, fn_where.body, seq_append, seq, bind_assoc, pure_bind]
  rfl

/-- Every operation of stage G2 touches buffers of this core only, and determines what it writes. -/
theorem okG2 : (opsG2 : List (HloOp τ sig (Elt F))).Forall fun op => op.bufs ⊆ tcRefs τ sig ∧ op.fresh = ∅ :=
  ⟨⟨unary_bufs_sub .., rfl⟩,
    ⟨reshape_bufs_sub .., rfl⟩,
    ⟨unary_bufs_sub .., rfl⟩,
    ⟨unary_bufs_sub .., rfl⟩,
    ⟨binary_bufs_sub .., rfl⟩,
    ⟨binary_bufs_sub .., rfl⟩,
    ⟨nullary_bufs_sub .., rfl⟩,
    ⟨nullary_bufs_sub .., rfl⟩,
    ⟨unary_bufs_sub .., rfl⟩,
    ⟨binary_bufs_sub .., rfl⟩,
    ⟨unary_bufs_sub .., rfl⟩,
    ⟨unary_bufs_sub .., rfl⟩,
    ⟨binary_bufs_sub .., rfl⟩,
    ⟨ternary_bufs_sub .., rfl⟩⟩

/-- Every operation of stage H touches buffers of this core only, and determines what it writes. -/
theorem okH : (opsH : List (HloOp τ sig (Elt F))).Forall fun op => op.bufs ⊆ tcRefs τ sig ∧ op.fresh = ∅ :=
  ⟨⟨nullary_bufs_sub .., rfl⟩,
    ⟨unary_bufs_sub .., rfl⟩,
    ⟨binary_bufs_sub .., rfl⟩,
    ⟨nullary_bufs_sub .., rfl⟩,
    ⟨unary_bufs_sub .., rfl⟩,
    ⟨binary_bufs_sub .., rfl⟩,
    ⟨ternary_bufs_sub .., rfl⟩,
    ⟨unary_bufs_sub .., rfl⟩,
    ⟨binary_bufs_sub .., rfl⟩,
    ⟨nullary_bufs_sub .., rfl⟩,
    ⟨unary_bufs_sub .., rfl⟩,
    ⟨unary_bufs_sub .., rfl⟩,
    ⟨ternary_bufs_sub .., rfl⟩,
    ⟨unary_bufs_sub .., rfl⟩,
    ⟨unary_bufs_sub .., rfl⟩,
    ⟨binary_bufs_sub .., rfl⟩⟩

/-- Every operation of stage I touches buffers of this core only, and determines what it writes. -/
theorem okI : (opsI : List (HloOp τ sig (Elt F))).Forall fun op => op.bufs ⊆ tcRefs τ sig ∧ op.fresh = ∅ :=
  ⟨⟨unary_bufs_sub .., rfl⟩,
    ⟨reshape_bufs_sub .., rfl⟩,
    ⟨unary_bufs_sub .., rfl⟩,
    ⟨binary_bufs_sub .., rfl⟩,
    ⟨unary_bufs_sub .., rfl⟩,
    ⟨reshape_bufs_sub .., rfl⟩,
    ⟨unary_bufs_sub .., rfl⟩,
    ⟨unary_bufs_sub .., rfl⟩,
    ⟨binary_bufs_sub .., rfl⟩,
    ⟨nullary_bufs_sub .., rfl⟩,
    ⟨nullary_bufs_sub .., rfl⟩,
    ⟨unary_bufs_sub .., rfl⟩,
    ⟨binary_bufs_sub .., rfl⟩,
    ⟨unary_bufs_sub .., rfl⟩,
    ⟨unary_bufs_sub .., rfl⟩,
    ⟨binary_bufs_sub .., rfl⟩,
    ⟨ternary_bufs_sub .., rfl⟩⟩

/-- Every operation of stage J touches buffers of this core only, and determines what it writes. -/
theorem okJ : (opsJ : List (HloOp τ sig (Elt F))).Forall fun op => op.bufs ⊆ tcRefs τ sig ∧ op.fresh = ∅ :=
  ⟨⟨unary_bufs_sub .., rfl⟩,
    ⟨reshape_bufs_sub .., rfl⟩,
    ⟨unary_bufs_sub .., rfl⟩,
    ⟨binary_bufs_sub .., rfl⟩,
    ⟨unary_bufs_sub .., rfl⟩,
    ⟨reshape_bufs_sub .., rfl⟩,
    ⟨unary_bufs_sub .., rfl⟩,
    ⟨unary_bufs_sub .., rfl⟩,
    ⟨binary_bufs_sub .., rfl⟩,
    ⟨nullary_bufs_sub .., rfl⟩,
    ⟨nullary_bufs_sub .., rfl⟩,
    ⟨unary_bufs_sub .., rfl⟩,
    ⟨binary_bufs_sub .., rfl⟩,
    ⟨unary_bufs_sub .., rfl⟩,
    ⟨unary_bufs_sub .., rfl⟩,
    ⟨binary_bufs_sub .., rfl⟩,
    ⟨ternary_bufs_sub .., rfl⟩,
    ⟨binary_bufs_sub .., rfl⟩⟩

/-- Every operation of stage K touches buffers of this core only, and determines what it writes. -/
theorem okK : (opsK : List (HloOp τ sig (Elt F))).Forall fun op => op.bufs ⊆ tcRefs τ sig ∧ op.fresh = ∅ :=
  ⟨⟨unary_bufs_sub .., rfl⟩,
    ⟨reshape_bufs_sub .., rfl⟩,
    ⟨unary_bufs_sub .., rfl⟩,
    ⟨binary_bufs_sub .., rfl⟩,
    ⟨unary_bufs_sub .., rfl⟩,
    ⟨reshape_bufs_sub .., rfl⟩,
    ⟨unary_bufs_sub .., rfl⟩,
    ⟨unary_bufs_sub .., rfl⟩,
    ⟨binary_bufs_sub .., rfl⟩,
    ⟨binary_bufs_sub .., rfl⟩,
    ⟨nullary_bufs_sub .., rfl⟩,
    ⟨nullary_bufs_sub .., rfl⟩,
    ⟨unary_bufs_sub .., rfl⟩,
    ⟨binary_bufs_sub .., rfl⟩,
    ⟨unary_bufs_sub .., rfl⟩,
    ⟨unary_bufs_sub .., rfl⟩,
    ⟨binary_bufs_sub .., rfl⟩,
    ⟨ternary_bufs_sub .., rfl⟩⟩

/-- Every operation of stage L1 touches buffers of this core only, and determines what it writes. -/
theorem okL1 : (opsL1 : List (HloOp τ sig (Elt F))).Forall fun op => op.bufs ⊆ tcRefs τ sig ∧ op.fresh = ∅ :=
  ⟨binary_bufs_sub .., rfl⟩

/-- Stage G2: the first tower after its first layer. -/
theorem stepG2 (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32)
    (h : InvG1 V a0 a1 a2 a3 a4 a5 a6 a7 a8 a9) : InvG2 (after opsG2 V) a0 a1 a2 a3 a4 a5 a6 a7 a8 a9 := by
  obtain ⟨⟨h0, h1, h2, h3, h4, h5, h6, h7, h8, h9⟩, k0, k1, k2, k3, k4⟩ := h
  refine ⟨⟨?_, ?_, ?_, ?_, ?_, ?_, ?_, ?_, ?_, ?_⟩, ?_, ?_, ?_, ?_⟩
  all_goals stage_goal

/-- Stage H: its neighbourhood mean. -/
theorem stepH (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32)
    (h : InvG2 V a0 a1 a2 a3 a4 a5 a6 a7 a8 a9) : InvH (after opsH V) a0 a1 a2 a3 a4 a5 a6 a7 a8 a9 := by
  obtain ⟨⟨h0, h1, h2, h3, h4, h5, h6, h7, h8, h9⟩, k0, k1, k2, k3⟩ := h
  refine ⟨⟨?_, ?_, ?_, ?_, ?_, ?_, ?_, ?_, ?_, ?_⟩, ?_, ?_, ?_, ?_⟩
  all_goals stage_goal

/-- Stage I: the first hidden activation of the second layer. -/
theorem stepI (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32)
    (h : InvH V a0 a1 a2 a3 a4 a5 a6 a7 a8 a9) : InvI (after opsI V) a0 a1 a2 a3 a4 a5 a6 a7 a8 a9 := by
  obtain ⟨⟨h0, h1, h2, h3, h4, h5, h6, h7, h8, h9⟩, k0, k1, k2, k3⟩ := h
  refine ⟨⟨?_, ?_, ?_, ?_, ?_, ?_, ?_, ?_, ?_, ?_⟩, ?_, ?_, ?_, ?_⟩
  all_goals stage_goal

/-- Stage J: the second, with the identity embedding added. -/
theorem stepJ (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32)
    (h : InvI V a0 a1 a2 a3 a4 a5 a6 a7 a8 a9) : InvJ (after opsJ V) a0 a1 a2 a3 a4 a5 a6 a7 a8 a9 := by
  obtain ⟨⟨h0, h1, h2, h3, h4, h5, h6, h7, h8, h9⟩, k0, k1, k2, k3⟩ := h
  refine ⟨⟨?_, ?_, ?_, ?_, ?_, ?_, ?_, ?_, ?_, ?_⟩, ?_, ?_, ?_, ?_⟩
  all_goals stage_goal

/-- Stage K: the first tower's output. -/
theorem stepK (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32)
    (h : InvJ V a0 a1 a2 a3 a4 a5 a6 a7 a8 a9) : InvK (after opsK V) a0 a1 a2 a3 a4 a5 a6 a7 a8 a9 := by
  obtain ⟨⟨h0, h1, h2, h3, h4, h5, h6, h7, h8, h9⟩, k0, k1, k2, k3⟩ := h
  refine ⟨⟨?_, ?_, ?_, ?_, ?_, ?_, ?_, ?_, ?_, ?_⟩, ?_, ?_, ?_⟩
  all_goals stage_goal

/-- Stage L1: the second tower's features are stacked. -/
theorem stepL1 (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32)
    (h : InvK V a0 a1 a2 a3 a4 a5 a6 a7 a8 a9) : InvL1 (after opsL1 V) a0 a1 a2 a3 a4 a5 a6 a7 a8 a9 := by
  obtain ⟨⟨h0, h1, h2, h3, h4, h5, h6, h7, h8, h9⟩, k0, k1, k2⟩ := h
  refine ⟨⟨?_, ?_, ?_, ?_, ?_, ?_, ?_, ?_, ?_, ?_⟩, ?_, ?_, ?_, ?_⟩
  iterate 13 stage_goal
  -- the stacked features: the two arguments read inside the list of the concatenated arrays
  · after_results_simp
    rw [h4, h1]
    rfl

/-- The whole window: its stages in turn. -/
theorem win1 (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32)
    (h : InvG1 V a0 a1 a2 a3 a4 a5 a6 a7 a8 a9) : InvL1 (after (opsG2 ++ opsH ++ opsI ++ opsJ ++ opsK ++ opsL1) V) a0 a1 a2 a3 a4 a5 a6 a7 a8 a9 := by
  simp only [after_app]
  exact (stepL1 _ a0 a1 a2 a3 a4 a5 a6 a7 a8 a9 (stepK _ a0 a1 a2 a3 a4 a5 a6 a7 a8 a9 (stepJ _ a0 a1 a2 a3 a4 a5 a6 a7 a8 a9 (stepI _ a0 a1 a2 a3 a4 a5 a6 a7 a8 a9 (stepH _ a0 a1 a2 a3 a4 a5 a6 a7 a8 a9 (stepG2 _ a0 a1 a2 a3 a4 a5 a6 a7 a8 a9 h))))))

/-- Every operation of the window touches buffers of this core only, and determines what it writes. -/
theorem okWin1 : (opsG2 ++ opsH ++ opsI ++ opsJ ++ opsK ++ opsL1 : List (HloOp τ sig (Elt F))).Forall fun op => op.bufs ⊆ tcRefs τ sig ∧ op.fresh = ∅ := by
  simp only [List.forall_append]
  exact ⟨⟨⟨⟨⟨okG2, okH⟩, okI⟩, okJ⟩, okK⟩, okL1⟩

end Cert.ReferenceIdeal.HandRun

end
-- ==== Proof.RefRunW2.lean ====
/-
  The reference's run, window 3 of 4 (its statements 121 … 180): the window's host operations as lists, one per stage of
  the computation, the calls of the outlined functions (the row norm, the leaky rectifier and the selection inside it)
  written out at their call sites over the calls' own buffers; the window's program is the straight line of those
  operations; and, stage by stage, what the buffers read later hold afterwards as whole-array functions of the ten
  arguments (Proof/RefRunInv.lean), given what they held before.
-/
import proofs.«109543_j54176717472163_1_alg».proof.Proof.RefRunInv

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The second tower's rows divided by their guarded lengths. -/
abbrev opsL2 : List (HloOp τ sig (Elt F)) :=
  [ TRef.binary (.of main_v104 : TRef sig ⟨S80000x64, .f32⟩) (.of main_v104 : TRef sig ⟨S80000x64, .f32⟩) main_call7.v0 mulf,
    TRef.nullary main_call7.cst (constant S_ .f32 0x00000000#32),
    TRef.binary main_call7.v0 main_call7.cst main_call7.v1 (fun x v => Host.reduceAdd x v reducesTo_S80000x64_S80000_d1 h_S_),
    TRef.unary main_call7.v1 main_call7.v2 (broadcastInDim S80000x1 ![0] bcast_S80000_S80000x1_0),
    TRef.unary main_call7.v2 main_call7.v3 Host.sqrt,
    nullary main_cst_13 (constant S_ .f32 0x2B8CBCCC#32),
    unary main_cst_13 main_v106 (broadcastInDim S80000x1 ![] bcast_S_S80000x1 : (⟨S_, .f32⟩ : BufTy).Contents (Elt F) → (⟨S80000x1, .f32⟩ : BufTy).Contents (Elt F)),
    binary main_v105 main_v106 main_v107 (maximumf : (⟨S80000x1, .f32⟩ : BufTy).Contents (Elt F) → (⟨S80000x1, .f32⟩ : BufTy).Contents (Elt F) → (⟨S80000x1, .f32⟩ : BufTy).Contents (Elt F)),
    unary main_v107 main_v108 (broadcastInDim S80000x64 ![0, 1] bcast_S80000x1_S80000x64_0_1 : (⟨S80000x1, .f32⟩ : BufTy).Contents (Elt F) → (⟨S80000x64, .f32⟩ : BufTy).Contents (Elt F)),
    binary main_v104 main_v108 main_v109 (Host.divf : (⟨S80000x64, .f32⟩ : BufTy).Contents (Elt F) → (⟨S80000x64, .f32⟩ : BufTy).Contents (Elt F) → (⟨S80000x64, .f32⟩ : BufTy).Contents (Elt F)) ]

/-- The in-degree, computed a second time. -/
abbrev opsM : List (HloOp τ sig (Elt F)) :=
  [ nullary main_cst_14 (constant S_ .f32 0x3F800000#32),
    unary main_cst_14 main_v110 (broadcastInDim S1600000 ![] bcast_S_S1600000 : (⟨S_, .f32⟩ : BufTy).Contents (Elt F) → (⟨S1600000, .f32⟩ : BufTy).Contents (Elt F)),
    nullary main_cst_15 (constant S_ .f32 0x00000000#32),
    unary main_cst_15 main_v111 (broadcastInDim S80000 ![] bcast_S_S80000 : (⟨S_, .f32⟩ : BufTy).Contents (Elt F) → (⟨S80000, .f32⟩ : BufTy).Contents (Elt F)),
    unary main_v1 main_v112 (broadcastInDim S1600000x1 ![0] bcast_S1600000_S1600000x1_0 : (⟨S1600000, .i32⟩ : BufTy).Contents (Elt F) → (⟨S1600000x1, .i32⟩ : BufTy).Contents (Elt F)),
    ternary main_v111 main_v112 main_v110 main_v113 ((fun x i u => Host.scatterAdd scatter_S80000_S1600000x1_S1600000_n_0_0_1 x i u) : (⟨S80000, .f32⟩ : BufTy).Contents (Elt F) → (⟨S1600000x1, .i32⟩ : BufTy).Contents (Elt F) → (⟨S1600000, .f32⟩ : BufTy).Contents (Elt F) → (⟨S80000, .f32⟩ : BufTy).Contents (Elt F)) ]

/-- The second tower's first neighbourhood mean. -/
abbrev opsN : List (HloOp τ sig (Elt F)) :=
  [ nullary main_c_16 (constantI S_ 32 0#32),
    unary main_c_16 main_v114 (broadcastInDim S1600000 ![] bcast_S_S1600000 : (⟨S_, .i32⟩ : BufTy).Contents (Elt F) → (⟨S1600000, .i32⟩ : BufTy).Contents (Elt F)),
    binary main_v3 main_v114 main_v115 (cmpi .slt : (⟨S1600000, .i32⟩ : BufTy).Contents (Elt F) → (⟨S1600000, .i32⟩ : BufTy).Contents (Elt F) → (⟨S1600000, .i1⟩ : BufTy).Contents (Elt F)),
    nullary main_c_17 (constantI S_ 32 80000#32),
    unary main_c_17 main_v116 (broadcastInDim S1600000 ![] bcast_S_S1600000 : (⟨S_, .i32⟩ : BufTy).Contents (Elt F) → (⟨S1600000, .i32⟩ : BufTy).Contents (Elt F)),
    binary main_v3 main_v116 main_v117 (addi : (⟨S1600000, .i32⟩ : BufTy).Contents (Elt F) → (⟨S1600000, .i32⟩ : BufTy).Contents (Elt F) → (⟨S1600000, .i32⟩ : BufTy).Contents (Elt F)),
    ternary main_v115 main_v117 main_v3 main_v118 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v118 main_v119 (broadcastInDim S1600000x1 ![0] bcast_S1600000_S1600000x1_0 : (⟨S1600000, .i32⟩ : BufTy).Contents (Elt F) → (⟨S1600000x1, .i32⟩ : BufTy).Contents (Elt F)),
    binary main_v109 main_v119 main_v120 ((fun x i => Host.gather gather_S80000x64_S1600000x1_S1600000x64_1_0_n_n_0_1_164 x i) : (⟨S80000x64, .f32⟩ : BufTy).Contents (Elt F) → (⟨S1600000x1, .i32⟩ : BufTy).Contents (Elt F) → (⟨S1600000x64, .f32⟩ : BufTy).Contents (Elt F)),
    nullary main_cst_18 (constant S_ .f32 0x00000000#32),
    unary main_cst_18 main_v121 (broadcastInDim S80000x64 ![] bcast_S_S80000x64 : (⟨S_, .f32⟩ : BufTy).Contents (Elt F) → (⟨S80000x64, .f32⟩ : BufTy).Contents (Elt F)),
    unary main_v1 main_v122 (broadcastInDim S1600000x1 ![0] bcast_S1600000_S1600000x1_0 : (⟨S1600000, .i32⟩ : BufTy).Contents (Elt F) → (⟨S1600000x1, .i32⟩ : BufTy).Contents (Elt F)),
    ternary main_v121 main_v122 main_v120 main_v123 ((fun x i u => Host.scatterAdd scatter_S80000x64_S1600000x1_S1600000x64_1_0_0_1 x i u) : (⟨S80000x64, .f32⟩ : BufTy).Contents (Elt F) → (⟨S1600000x1, .i32⟩ : BufTy).Contents (Elt F) → (⟨S1600000x64, .f32⟩ : BufTy).Contents (Elt F) → (⟨S80000x64, .f32⟩ : BufTy).Contents (Elt F)),
    unary main_v113 main_v124 (broadcastInDim S80000x1 ![0] bcast_S80000_S80000x1_0 : (⟨S80000, .f32⟩ : BufTy).Contents (Elt F) → (⟨S80000x1, .f32⟩ : BufTy).Contents (Elt F)),
    unary main_v124 main_v125 (broadcastInDim S80000x64 ![0, 1] bcast_S80000x1_S80000x64_0_1 : (⟨S80000x1, .f32⟩ : BufTy).Contents (Elt F) → (⟨S80000x64, .f32⟩ : BufTy).Contents (Elt F)),
    binary main_v123 main_v125 main_v126 (Host.divf : (⟨S80000x64, .f32⟩ : BufTy).Contents (Elt F) → (⟨S80000x64, .f32⟩ : BufTy).Contents (Elt F) → (⟨S80000x64, .f32⟩ : BufTy).Contents (Elt F)) ]

/-- Second tower, layer one, first affine map of the mean, rectified. -/
abbrev opsO : List (HloOp τ sig (Elt F)) :=
  [ unary main_arg7 main_v127 ((extractStridedSlice S1x1x64x64 ![0, 0, 0, 0] · slices_S2x3x64x64_S1x1x64x64_0_0_0_0) : (⟨S2x3x64x64, .f32⟩ : BufTy).Contents (Elt F) → (⟨S1x1x64x64, .f32⟩ : BufTy).Contents (Elt F)),
    reshape main_v127 main_v128 rfl shapeCasts_S1x1x64x64_S64x64,
    unary main_v128 main_v129 ((transpose S64x64 [1, 0] · transposes_S64x64_S64x64_1_0) : (⟨S64x64, .f32⟩ : BufTy).Contents (Elt F) → (⟨S64x64, .f32⟩ : BufTy).Contents (Elt F)),
    binary main_v126 main_v129 main_v130 ((fun l r => Host.dotGeneral dot_S80000x64_S64x64_S80000x64_1_0_0_1_n_n none l r) : (⟨S80000x64, .f32⟩ : BufTy).Contents (Elt F) → (⟨S64x64, .f32⟩ : BufTy).Contents (Elt F) → (⟨S80000x64, .f32⟩ : BufTy).Contents (Elt F)),
    unary main_arg8 main_v131 ((extractStridedSlice S1x1x64 ![0, 0, 0] · slices_S2x3x64_S1x1x64_0_0_0) : (⟨S2x3x64, .f32⟩ : BufTy).Contents (Elt F) → (⟨S1x1x64, .f32⟩ : BufTy).Contents (Elt F)),
    reshape main_v131 main_v132 rfl shapeCasts_S1x1x64_S64,
    unary main_v132 main_v133 (broadcastInDim S1x64 ![1] bcast_S64_S1x64_1 : (⟨S64, .f32⟩ : BufTy).Contents (Elt F) → (⟨S1x64, .f32⟩ : BufTy).Contents (Elt F)),
    unary main_v133 main_v134 (broadcastInDim S80000x64 ![0, 1] bcast_S1x64_S80000x64_0_1 : (⟨S1x64, .f32⟩ : BufTy).Contents (Elt F) → (⟨S80000x64, .f32⟩ : BufTy).Contents (Elt F)),
    binary main_v130 main_v134 main_v135 (addf : (⟨S80000x64, .f32⟩ : BufTy).Contents (Elt F) → (⟨S80000x64, .f32⟩ : BufTy).Contents (Elt F) → (⟨S80000x64, .f32⟩ : BufTy).Contents (Elt F)),
    nullary main_cst_19 (constant S_ .f32 0x3C23D70A#32),
    TRef.nullary main_call8.cst (constant S_ .f32 0x00000000#32),
    TRef.unary main_call8.cst main_call8.v0 (broadcastInDim S80000x64 ![] bcast_S_S80000x64),
    TRef.binary (.of main_v135 : TRef sig ⟨S80000x64, .f32⟩) main_call8.v0 main_call8.v1 (cmpf .oge),
    TRef.unary (.of main_cst_19 : TRef sig ⟨S_, .f32⟩) main_call8.v2 id,
    TRef.unary main_call8.v2 main_call8.v3 (broadcastInDim S80000x64 ![] bcast_S_S80000x64),
    TRef.binary main_call8.v3 (.of main_v135 : TRef sig ⟨S80000x64, .f32⟩) main_call8.v4 mulf,
    TRef.ternary main_call8.v1 (.of main_v135 : TRef sig ⟨S80000x64, .f32⟩) main_call8.v4 main_call8.call0.v0 select ]

/-- Second tower, layer one, second affine map of the features, rectified, plus the identity embedding. -/
abbrev opsP : List (HloOp τ sig (Elt F)) :=
  [ unary main_arg7 main_v137 ((extractStridedSlice S1x1x64x64 ![0, 1, 0, 0] · slices_S2x3x64x64_S1x1x64x64_0_1_0_0) : (⟨S2x3x64x64, .f32⟩ : BufTy).Contents (Elt F) → (⟨S1x1x64x64, .f32⟩ : BufTy).Contents (Elt F)),
    reshape main_v137 main_v138 rfl shapeCasts_S1x1x64x64_S64x64,
    unary main_v138 main_v139 ((transpose S64x64 [1, 0] · transposes_S64x64_S64x64_1_0) : (⟨S64x64, .f32⟩ : BufTy).Contents (Elt F) → (⟨S64x64, .f32⟩ : BufTy).Contents (Elt F)),
    binary main_v109 main_v139 main_v140 ((fun l r => Host.dotGeneral dot_S80000x64_S64x64_S80000x64_1_0_0_1_n_n none l r) : (⟨S80000x64, .f32⟩ : BufTy).Contents (Elt F) → (⟨S64x64, .f32⟩ : BufTy).Contents (Elt F) → (⟨S80000x64, .f32⟩ : BufTy).Contents (Elt F)),
    unary main_arg8 main_v141 ((extractStridedSlice S1x1x64 ![0, 1, 0] · slices_S2x3x64_S1x1x64_0_1_0) : (⟨S2x3x64, .f32⟩ : BufTy).Contents (Elt F) → (⟨S1x1x64, .f32⟩ : BufTy).Contents (Elt F)),
    reshape main_v141 main_v142 rfl shapeCasts_S1x1x64_S64,
    unary main_v142 main_v143 (broadcastInDim S1x64 ![1] bcast_S64_S1x64_1 : (⟨S64, .f32⟩ : BufTy).Contents (Elt F) → (⟨S1x64, .f32⟩ : BufTy).Contents (Elt F)),
    unary main_v143 main_v144 (broadcastInDim S80000x64 ![0, 1] bcast_S1x64_S80000x64_0_1 : (⟨S1x64, .f32⟩ : BufTy).Contents (Elt F) → (⟨S80000x64, .f32⟩ : BufTy).Contents (Elt F)),
    binary main_v140 main_v144 main_v145 (addf : (⟨S80000x64, .f32⟩ : BufTy).Contents (Elt F) → (⟨S80000x64, .f32⟩ : BufTy).Contents (Elt F) → (⟨S80000x64, .f32⟩ : BufTy).Contents (Elt F)),
    nullary main_cst_20 (constant S_ .f32 0x3C23D70A#32),
    TRef.nullary main_call9.cst (constant S_ .f32 0x00000000#32),
    TRef.unary main_call9.cst main_call9.v0 (broadcastInDim S80000x64 ![] bcast_S_S80000x64),
    TRef.binary (.of main_v145 : TRef sig ⟨S80000x64, .f32⟩) main_call9.v0 main_call9.v1 (cmpf .oge),
    TRef.unary (.of main_cst_20 : TRef sig ⟨S_, .f32⟩) main_call9.v2 id,
    TRef.unary main_call9.v2 main_call9.v3 (broadcastInDim S80000x64 ![] bcast_S_S80000x64),
    TRef.binary main_call9.v3 (.of main_v145 : TRef sig ⟨S80000x64, .f32⟩) main_call9.v4 mulf,
    TRef.ternary main_call9.v1 (.of main_v145 : TRef sig ⟨S80000x64, .f32⟩) main_call9.v4 main_call9.call0.v0 select,
    binary main_v146 main_arg2 main_v147 (addf : (⟨S80000x64, .f32⟩ : BufTy).Contents (Elt F) → (⟨S80000x64, .f32⟩ : BufTy).Contents (Elt F) → (⟨S80000x64, .f32⟩ : BufTy).Contents (Elt F)) ]

/-- Second tower, layer one, the third affine map of the first activation. -/
abbrev opsQ1 : List (HloOp τ sig (Elt F)) :=
  [ unary main_arg7 main_v148 ((extractStridedSlice S1x1x64x64 ![0, 2, 0, 0] · slices_S2x3x64x64_S1x1x64x64_0_2_0_0) : (⟨S2x3x64x64, .f32⟩ : BufTy).Contents (Elt F) → (⟨S1x1x64x64, .f32⟩ : BufTy).Contents (Elt F)),
    reshape main_v148 main_v149 rfl shapeCasts_S1x1x64x64_S64x64,
    unary main_v149 main_v150 ((transpose S64x64 [1, 0] · transposes_S64x64_S64x64_1_0) : (⟨S64x64, .f32⟩ : BufTy).Contents (Elt F) → (⟨S64x64, .f32⟩ : BufTy).Contents (Elt F)),
    binary main_v136 main_v150 main_v151 ((fun l r => Host.dotGeneral dot_S80000x64_S64x64_S80000x64_1_0_0_1_n_n none l r) : (⟨S80000x64, .f32⟩ : BufTy).Contents (Elt F) → (⟨S64x64, .f32⟩ : BufTy).Contents (Elt F) → (⟨S80000x64, .f32⟩ : BufTy).Contents (Elt F)),
    unary main_arg8 main_v152 ((extractStridedSlice S1x1x64 ![0, 2, 0] · slices_S2x3x64_S1x1x64_0_2_0) : (⟨S2x3x64, .f32⟩ : BufTy).Contents (Elt F) → (⟨S1x1x64, .f32⟩ : BufTy).Contents (Elt F)),
    reshape main_v152 main_v153 rfl shapeCasts_S1x1x64_S64,
    unary main_v153 main_v154 (broadcastInDim S1x64 ![1] bcast_S64_S1x64_1 : (⟨S64, .f32⟩ : BufTy).Contents (Elt F) → (⟨S1x64, .f32⟩ : BufTy).Contents (Elt F)),
    unary main_v154 main_v155 (broadcastInDim S80000x64 ![0, 1] bcast_S1x64_S80000x64_0_1 : (⟨S1x64, .f32⟩ : BufTy).Contents (Elt F) → (⟨S80000x64, .f32⟩ : BufTy).Contents (Elt F)),
    binary main_v151 main_v155 main_v156 (addf : (⟨S80000x64, .f32⟩ : BufTy).Contents (Elt F) → (⟨S80000x64, .f32⟩ : BufTy).Contents (Elt F) → (⟨S80000x64, .f32⟩ : BufTy).Contents (Elt F)) ]

set_option maxRecDepth 4096 in
set_option maxHeartbeats 4000000 in
/-- The window is the straight line of its stages' operations: the outlined functions' bodies unfolded at their calls,
    both sides are one chain of host steps once sequencing is reassociated. -/
theorem part2_eq (c : Dev nD) : main_part2 (F := F) c = seq (opsL2 ++ opsM ++ opsN ++ opsO ++ opsP ++ opsQ1) := by
  simp only [main_part2, fn_norm.body, fn_leaky_relu.body, fn_where.body, seq_append, seq, bind_assoc, pure_bind]
  rfl

/-- Every operation of stage L2 touches buffers of this core only, and determines what it writes. -/
theorem okL2 : (opsL2 : List (HloOp τ sig (Elt F))).Forall fun op => op.bufs ⊆ tcRefs τ sig ∧ op.fresh = ∅ :=
  ⟨⟨binary_bufs_sub .., rfl⟩,
    ⟨nullary_bufs_sub .., rfl⟩,
    ⟨binary_bufs_sub .., rfl⟩,
    ⟨unary_bufs_sub .., rfl⟩,
    ⟨unary_bufs_sub .., rfl⟩,
    ⟨nullary_bufs_sub .., rfl⟩,
    ⟨unary_bufs_sub .., rfl⟩,
    ⟨binary_bufs_sub .., rfl⟩,
    ⟨unary_bufs_sub .., rfl⟩,
    ⟨binary_bufs_sub .., rfl⟩⟩

/-- Every operation of stage M touches buffers of this core only, and determines what it writes. -/
theorem okM : (opsM : List (HloOp τ sig (Elt F))).Forall fun op => op.bufs ⊆ tcRefs τ sig ∧ op.fresh = ∅ :=
  ⟨⟨nullary_bufs_sub .., rfl⟩,
    ⟨unary_bufs_sub .., rfl⟩,
    ⟨nullary_bufs_sub .., rfl⟩,
    ⟨unary_bufs_sub .., rfl⟩,
    ⟨unary_bufs_sub .., rfl⟩,
    ⟨ternary_bufs_sub .., rfl⟩⟩

/-- Every operation of stage N touches buffers of this core only, and determines what it writes. -/
theorem okN : (opsN : List (HloOp τ sig (Elt F))).Forall fun op => op.bufs ⊆ tcRefs τ sig ∧ op.fresh = ∅ :=
  ⟨⟨nullary_bufs_sub .., rfl⟩,
    ⟨unary_bufs_sub .., rfl⟩,
    ⟨binary_bufs_sub .., rfl⟩,
    ⟨nullary_bufs_sub .., rfl⟩,
    ⟨unary_bufs_sub .., rfl⟩,
    ⟨binary_bufs_sub .., rfl⟩,
    ⟨ternary_bufs_sub .., rfl⟩,
    ⟨unary_bufs_sub .., rfl⟩,
    ⟨binary_bufs_sub .., rfl⟩,
    ⟨nullary_bufs_sub .., rfl⟩,
    ⟨unary_bufs_sub .., rfl⟩,
    ⟨unary_bufs_sub .., rfl⟩,
    ⟨ternary_bufs_sub .., rfl⟩,
    ⟨unary_bufs_sub .., rfl⟩,
    ⟨unary_bufs_sub .., rfl⟩,
    ⟨binary_bufs_sub .., rfl⟩⟩

/-- Every operation of stage O touches buffers of this core only, and determines what it writes. -/
theorem okO : (opsO : List (HloOp τ sig (Elt F))).Forall fun op => op.bufs ⊆ tcRefs τ sig ∧ op.fresh = ∅ :=
  ⟨⟨unary_bufs_sub .., rfl⟩,
    ⟨reshape_bufs_sub .., rfl⟩,
    ⟨unary_bufs_sub .., rfl⟩,
    ⟨binary_bufs_sub .., rfl⟩,
    ⟨unary_bufs_sub .., rfl⟩,
    ⟨reshape_bufs_sub .., rfl⟩,
    ⟨unary_bufs_sub .., rfl⟩,
    ⟨unary_bufs_sub .., rfl⟩,
    ⟨binary_bufs_sub .., rfl⟩,
    ⟨nullary_bufs_sub .., rfl⟩,
    ⟨nullary_bufs_sub .., rfl⟩,
    ⟨unary_bufs_sub .., rfl⟩,
    ⟨binary_bufs_sub .., rfl⟩,
    ⟨unary_bufs_sub .., rfl⟩,
    ⟨unary_bufs_sub .., rfl⟩,
    ⟨binary_bufs_sub .., rfl⟩,
    ⟨ternary_bufs_sub .., rfl⟩⟩

/-- Every operation of stage P touches buffers of this core only, and determines what it writes. -/
theorem okP : (opsP : List (HloOp τ sig (Elt F))).Forall fun op => op.bufs ⊆ tcRefs τ sig ∧ op.fresh = ∅ :=
  ⟨⟨unary_bufs_sub .., rfl⟩,
    ⟨reshape_bufs_sub .., rfl⟩,
    ⟨unary_bufs_sub .., rfl⟩,
    ⟨binary_bufs_sub .., rfl⟩,
    ⟨unary_bufs_sub .., rfl⟩,
    ⟨reshape_bufs_sub .., rfl⟩,
    ⟨unary_bufs_sub .., rfl⟩,
    ⟨unary_bufs_sub .., rfl⟩,
    ⟨binary_bufs_sub .., rfl⟩,
    ⟨nullary_bufs_sub .., rfl⟩,
    ⟨nullary_bufs_sub .., rfl⟩,
    ⟨unary_bufs_sub .., rfl⟩,
    ⟨binary_bufs_sub .., rfl⟩,
    ⟨unary_bufs_sub .., rfl⟩,
    ⟨unary_bufs_sub .., rfl⟩,
    ⟨binary_bufs_sub .., rfl⟩,
    ⟨ternary_bufs_sub .., rfl⟩,
    ⟨binary_bufs_sub .., rfl⟩⟩

/-- Every operation of stage Q1 touches buffers of this core only, and determines what it writes. -/
theorem okQ1 : (opsQ1 : List (HloOp τ sig (Elt F))).Forall fun op => op.bufs ⊆ tcRefs τ sig ∧ op.fresh = ∅ :=
  ⟨⟨unary_bufs_sub .., rfl⟩,
    ⟨reshape_bufs_sub .., rfl⟩,
    ⟨unary_bufs_sub .., rfl⟩,
    ⟨binary_bufs_sub .., rfl⟩,
    ⟨unary_bufs_sub .., rfl⟩,
    ⟨reshape_bufs_sub .., rfl⟩,
    ⟨unary_bufs_sub .., rfl⟩,
    ⟨unary_bufs_sub .., rfl⟩,
    ⟨binary_bufs_sub .., rfl⟩⟩

/-- Stage L2: and scaled. -/
theorem stepL2 (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32)
    (h : InvL1 V a0 a1 a2 a3 a4 a5 a6 a7 a8 a9) : InvL2 (after opsL2 V) a0 a1 a2 a3 a4 a5 a6 a7 a8 a9 := by
  obtain ⟨⟨h0, h1, h2, h3, h4, h5, h6, h7, h8, h9⟩, k0, k1, k2, k3⟩ := h
  refine ⟨⟨?_, ?_, ?_, ?_, ?_, ?_, ?_, ?_, ?_, ?_⟩, ?_, ?_, ?_, ?_⟩
  all_goals stage_goal

/-- Stage M: the in-degree is counted again. -/
theorem stepM (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32)
    (h : InvL2 V a0 a1 a2 a3 a4 a5 a6 a7 a8 a9) : InvM (after opsM V) a0 a1 a2 a3 a4 a5 a6 a7 a8 a9 := by
  obtain ⟨⟨h0, h1, h2, h3, h4, h5, h6, h7, h8, h9⟩, k0, k1, k2, k3⟩ := h
  refine ⟨⟨?_, ?_, ?_, ?_, ?_, ?_, ?_, ?_, ?_, ?_⟩, ?_, ?_, ?_, ?_, ?_⟩
  all_goals stage_goal

/-- Stage N: the second tower's first neighbourhood mean. -/
theorem stepN (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32)
    (h : InvM V a0 a1 a2 a3 a4 a5 a6 a7 a8 a9) : InvN (after opsN V) a0 a1 a2 a3 a4 a5 a6 a7 a8 a9 := by
  obtain ⟨⟨h0, h1, h2, h3, h4, h5, h6, h7, h8, h9⟩, k0, k1, k2, k3, k4⟩ := h
  refine ⟨⟨?_, ?_, ?_, ?_, ?_, ?_, ?_, ?_, ?_, ?_⟩, ?_, ?_, ?_, ?_, ?_, ?_⟩
  all_goals stage_goal

/-- Stage O: the first hidden activation of its first layer. -/
theorem stepO (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32)
    (h : InvN V a0 a1 a2 a3 a4 a5 a6 a7 a8 a9) : InvO (after opsO V) a0 a1 a2 a3 a4 a5 a6 a7 a8 a9 := by
  obtain ⟨⟨h0, h1, h2, h3, h4, h5, h6, h7, h8, h9⟩, k0, k1, k2, k3, k4, k5⟩ := h
  refine ⟨⟨?_, ?_, ?_, ?_, ?_, ?_, ?_, ?_, ?_, ?_⟩, ?_, ?_, ?_, ?_, ?_, ?_⟩
  all_goals stage_goal

/-- Stage P: the second, with the identity embedding added. -/
theorem stepP (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32)
    (h : InvO V a0 a1 a2 a3 a4 a5 a6 a7 a8 a9) : InvP (after opsP V) a0 a1 a2 a3 a4 a5 a6 a7 a8 a9 := by
  obtain ⟨⟨h0, h1, h2, h3, h4, h5, h6, h7, h8, h9⟩, k0, k1, k2, k3, k4, k5⟩ := h
  refine ⟨⟨?_, ?_, ?_, ?_, ?_, ?_, ?_, ?_, ?_, ?_⟩, ?_, ?_, ?_, ?_, ?_, ?_⟩
  all_goals stage_goal

/-- Stage Q1: the third affine map. -/
theorem stepQ1 (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32)
    (h : InvP V a0 a1 a2 a3 a4 a5 a6 a7 a8 a9) : InvQ1 (after opsQ1 V) a0 a1 a2 a3 a4 a5 a6 a7 a8 a9 := by
  obtain ⟨⟨h0, h1, h2, h3, h4, h5, h6, h7, h8, h9⟩, k0, k1, k2, k3, k4, k5⟩ := h
  refine ⟨⟨?_, ?_, ?_, ?_, ?_, ?_, ?_, ?_, ?_, ?_⟩, ?_, ?_, ?_, ?_, ?_, ?_⟩
  all_goals stage_goal

/-- The whole window: its stages in turn. -/
theorem win2 (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32)
    (h : InvL1 V a0 a1 a2 a3 a4 a5 a6 a7 a8 a9) : InvQ1 (after (opsL2 ++ opsM ++ opsN ++ opsO ++ opsP ++ opsQ1) V) a0 a1 a2 a3 a4 a5 a6 a7 a8 a9 := by
  simp only [after_app]
  exact (stepQ1 _ a0 a1 a2 a3 a4 a5 a6 a7 a8 a9 (stepP _ a0 a1 a2 a3 a4 a5 a6 a7 a8 a9 (stepO _ a0 a1 a2 a3 a4 a5 a6 a7 a8 a9 (stepN _ a0 a1 a2 a3 a4 a5 a6 a7 a8 a9 (stepM _ a0 a1 a2 a3 a4 a5 a6 a7 a8 a9 (stepL2 _ a0 a1 a2 a3 a4 a5 a6 a7 a8 a9 h))))))

/-- Every operation of the window touches buffers of this core only, and determines what it writes. -/
theorem okWin2 : (opsL2 ++ opsM ++ opsN ++ opsO ++ opsP ++ opsQ1 : List (HloOp τ sig (Elt F))).Forall fun op => op.bufs ⊆ tcRefs τ sig ∧ op.fresh = ∅ := by
  simp only [List.forall_append]
  exact ⟨⟨⟨⟨⟨okL2, okM⟩, okN⟩, okO⟩, okP⟩, okQ1⟩

end Cert.ReferenceIdeal.HandRun

end
-- ==== Proof.RefRunW3.lean ====
/-
  The reference's run, window 4 of 4 (its statements 181 … 239): the window's host operations as lists, one per stage of
  the computation, the calls of the outlined functions (the row norm, the leaky rectifier and the selection inside it)
  written out at their call sites over the calls' own buffers; the window's program is the straight line of those
  operations; and, stage by stage, what the buffers read later hold afterwards as whole-array functions of the ten
  arguments (Proof/RefRunInv.lean), given what they held before.
-/
import proofs.«109543_j54176717472163_1_alg».proof.Proof.RefRunInv

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Second tower, layer one, the sum with the second activation and the rectifier. -/
abbrev opsQ2 : List (HloOp τ sig (Elt F)) :=
  [ binary main_v156 main_v147 main_v157 (addf : (⟨S80000x64, .f32⟩ : BufTy).Contents (Elt F) → (⟨S80000x64, .f32⟩ : BufTy).Contents (Elt F) → (⟨S80000x64, .f32⟩ : BufTy).Contents (Elt F)),
    nullary main_cst_21 (constant S_ .f32 0x3C23D70A#32),
    TRef.nullary main_call10.cst (constant S_ .f32 0x00000000#32),
    TRef.unary main_call10.cst main_call10.v0 (broadcastInDim S80000x64 ![] bcast_S_S80000x64),
    TRef.binary (.of main_v157 : TRef sig ⟨S80000x64, .f32⟩) main_call10.v0 main_call10.v1 (cmpf .oge),
    TRef.unary (.of main_cst_21 : TRef sig ⟨S_, .f32⟩) main_call10.v2 id,
    TRef.unary main_call10.v2 main_call10.v3 (broadcastInDim S80000x64 ![] bcast_S_S80000x64),
    TRef.binary main_call10.v3 (.of main_v157 : TRef sig ⟨S80000x64, .f32⟩) main_call10.v4 mulf,
    TRef.ternary main_call10.v1 (.of main_v157 : TRef sig ⟨S80000x64, .f32⟩) main_call10.v4 main_call10.call0.v0 select ]

/-- Second tower, layer two's neighbourhood mean. -/
abbrev opsR : List (HloOp τ sig (Elt F)) :=
  [ nullary main_c_22 (constantI S_ 32 0#32),
    unary main_c_22 main_v159 (broadcastInDim S1600000 ![] bcast_S_S1600000 : (⟨S_, .i32⟩ : BufTy).Contents (Elt F) → (⟨S1600000, .i32⟩ : BufTy).Contents (Elt F)),
    binary main_v3 main_v159 main_v160 (cmpi .slt : (⟨S1600000, .i32⟩ : BufTy).Contents (Elt F) → (⟨S1600000, .i32⟩ : BufTy).Contents (Elt F) → (⟨S1600000, .i1⟩ : BufTy).Contents (Elt F)),
    nullary main_c_23 (constantI S_ 32 80000#32),
    unary main_c_23 main_v161 (broadcastInDim S1600000 ![] bcast_S_S1600000 : (⟨S_, .i32⟩ : BufTy).Contents (Elt F) → (⟨S1600000, .i32⟩ : BufTy).Contents (Elt F)),
    binary main_v3 main_v161 main_v162 (addi : (⟨S1600000, .i32⟩ : BufTy).Contents (Elt F) → (⟨S1600000, .i32⟩ : BufTy).Contents (Elt F) → (⟨S1600000, .i32⟩ : BufTy).Contents (Elt F)),
    ternary main_v160 main_v162 main_v3 main_v163 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v163 main_v164 (broadcastInDim S1600000x1 ![0] bcast_S1600000_S1600000x1_0 : (⟨S1600000, .i32⟩ : BufTy).Contents (Elt F) → (⟨S1600000x1, .i32⟩ : BufTy).Contents (Elt F)),
    binary main_v158 main_v164 main_v165 ((fun x i => Host.gather gather_S80000x64_S1600000x1_S1600000x64_1_0_n_n_0_1_164 x i) : (⟨S80000x64, .f32⟩ : BufTy).Contents (Elt F) → (⟨S1600000x1, .i32⟩ : BufTy).Contents (Elt F) → (⟨S1600000x64, .f32⟩ : BufTy).Contents (Elt F)),
    nullary main_cst_24 (constant S_ .f32 0x00000000#32),
    unary main_cst_24 main_v166 (broadcastInDim S80000x64 ![] bcast_S_S80000x64 : (⟨S_, .f32⟩ : BufTy).Contents (Elt F) → (⟨S80000x64, .f32⟩ : BufTy).Contents (Elt F)),
    unary main_v1 main_v167 (broadcastInDim S1600000x1 ![0] bcast_S1600000_S1600000x1_0 : (⟨S1600000, .i32⟩ : BufTy).Contents (Elt F) → (⟨S1600000x1, .i32⟩ : BufTy).Contents (Elt F)),
    ternary main_v166 main_v167 main_v165 main_v168 ((fun x i u => Host.scatterAdd scatter_S80000x64_S1600000x1_S1600000x64_1_0_0_1 x i u) : (⟨S80000x64, .f32⟩ : BufTy).Contents (Elt F) → (⟨S1600000x1, .i32⟩ : BufTy).Contents (Elt F) → (⟨S1600000x64, .f32⟩ : BufTy).Contents (Elt F) → (⟨S80000x64, .f32⟩ : BufTy).Contents (Elt F)),
    unary main_v113 main_v169 (broadcastInDim S80000x1 ![0] bcast_S80000_S80000x1_0 : (⟨S80000, .f32⟩ : BufTy).Contents (Elt F) → (⟨S80000x1, .f32⟩ : BufTy).Contents (Elt F)),
    unary main_v169 main_v170 (broadcastInDim S80000x64 ![0, 1] bcast_S80000x1_S80000x64_0_1 : (⟨S80000x1, .f32⟩ : BufTy).Contents (Elt F) → (⟨S80000x64, .f32⟩ : BufTy).Contents (Elt F)),
    binary main_v168 main_v170 main_v171 (Host.divf : (⟨S80000x64, .f32⟩ : BufTy).Contents (Elt F) → (⟨S80000x64, .f32⟩ : BufTy).Contents (Elt F) → (⟨S80000x64, .f32⟩ : BufTy).Contents (Elt F)) ]

/-- Second tower, layer two, first affine map of the mean, rectified. -/
abbrev opsS : List (HloOp τ sig (Elt F)) :=
  [ unary main_arg7 main_v172 ((extractStridedSlice S1x1x64x64 ![1, 0, 0, 0] · slices_S2x3x64x64_S1x1x64x64_1_0_0_0) : (⟨S2x3x64x64, .f32⟩ : BufTy).Contents (Elt F) → (⟨S1x1x64x64, .f32⟩ : BufTy).Contents (Elt F)),
    reshape main_v172 main_v173 rfl shapeCasts_S1x1x64x64_S64x64,
    unary main_v173 main_v174 ((transpose S64x64 [1, 0] · transposes_S64x64_S64x64_1_0) : (⟨S64x64, .f32⟩ : BufTy).Contents (Elt F) → (⟨S64x64, .f32⟩ : BufTy).Contents (Elt F)),
    binary main_v171 main_v174 main_v175 ((fun l r => Host.dotGeneral dot_S80000x64_S64x64_S80000x64_1_0_0_1_n_n none l r) : (⟨S80000x64, .f32⟩ : BufTy).Contents (Elt F) → (⟨S64x64, .f32⟩ : BufTy).Contents (Elt F) → (⟨S80000x64, .f32⟩ : BufTy).Contents (Elt F)),
    unary main_arg8 main_v176 ((extractStridedSlice S1x1x64 ![1, 0, 0] · slices_S2x3x64_S1x1x64_1_0_0) : (⟨S2x3x64, .f32⟩ : BufTy).Contents (Elt F) → (⟨S1x1x64, .f32⟩ : BufTy).Contents (Elt F)),
    reshape main_v176 main_v177 rfl shapeCasts_S1x1x64_S64,
    unary main_v177 main_v178 (broadcastInDim S1x64 ![1] bcast_S64_S1x64_1 : (⟨S64, .f32⟩ : BufTy).Contents (Elt F) → (⟨S1x64, .f32⟩ : BufTy).Contents (Elt F)),
    unary main_v178 main_v179 (broadcastInDim S80000x64 ![0, 1] bcast_S1x64_S80000x64_0_1 : (⟨S1x64, .f32⟩ : BufTy).Contents (Elt F) → (⟨S80000x64, .f32⟩ : BufTy).Contents (Elt F)),
    binary main_v175 main_v179 main_v180 (addf : (⟨S80000x64, .f32⟩ : BufTy).Contents (Elt F) → (⟨S80000x64, .f32⟩ : BufTy).Contents (Elt F) → (⟨S80000x64, .f32⟩ : BufTy).Contents (Elt F)),
    nullary main_cst_25 (constant S_ .f32 0x3C23D70A#32),
    TRef.nullary main_call11.cst (constant S_ .f32 0x00000000#32),
    TRef.unary main_call11.cst main_call11.v0 (broadcastInDim S80000x64 ![] bcast_S_S80000x64),
    TRef.binary (.of main_v180 : TRef sig ⟨S80000x64, .f32⟩) main_call11.v0 main_call11.v1 (cmpf .oge),
    TRef.unary (.of main_cst_25 : TRef sig ⟨S_, .f32⟩) main_call11.v2 id,
    TRef.unary main_call11.v2 main_call11.v3 (broadcastInDim S80000x64 ![] bcast_S_S80000x64),
    TRef.binary main_call11.v3 (.of main_v180 : TRef sig ⟨S80000x64, .f32⟩) main_call11.v4 mulf,
    TRef.ternary main_call11.v1 (.of main_v180 : TRef sig ⟨S80000x64, .f32⟩) main_call11.v4 main_call11.call0.v0 select ]

/-- Second tower, layer two, second affine map of the features, rectified, plus the identity embedding. -/
abbrev opsT : List (HloOp τ sig (Elt F)) :=
  [ unary main_arg7 main_v182 ((extractStridedSlice S1x1x64x64 ![1, 1, 0, 0] · slices_S2x3x64x64_S1x1x64x64_1_1_0_0) : (⟨S2x3x64x64, .f32⟩ : BufTy).Contents (Elt F) → (⟨S1x1x64x64, .f32⟩ : BufTy).Contents (Elt F)),
    reshape main_v182 main_v183 rfl shapeCasts_S1x1x64x64_S64x64,
    unary main_v183 main_v184 ((transpose S64x64 [1, 0] · transposes_S64x64_S64x64_1_0) : (⟨S64x64, .f32⟩ : BufTy).Contents (Elt F) → (⟨S64x64, .f32⟩ : BufTy).Contents (Elt F)),
    binary main_v158 main_v184 main_v185 ((fun l r => Host.dotGeneral dot_S80000x64_S64x64_S80000x64_1_0_0_1_n_n none l r) : (⟨S80000x64, .f32⟩ : BufTy).Contents (Elt F) → (⟨S64x64, .f32⟩ : BufTy).Contents (Elt F) → (⟨S80000x64, .f32⟩ : BufTy).Contents (Elt F)),
    unary main_arg8 main_v186 ((extractStridedSlice S1x1x64 ![1, 1, 0] · slices_S2x3x64_S1x1x64_1_1_0) : (⟨S2x3x64, .f32⟩ : BufTy).Contents (Elt F) → (⟨S1x1x64, .f32⟩ : BufTy).Contents (Elt F)),
    reshape main_v186 main_v187 rfl shapeCasts_S1x1x64_S64,
    unary main_v187 main_v188 (broadcastInDim S1x64 ![1] bcast_S64_S1x64_1 : (⟨S64, .f32⟩ : BufTy).Contents (Elt F) → (⟨S1x64, .f32⟩ : BufTy).Contents (Elt F)),
    unary main_v188 main_v189 (broadcastInDim S80000x64 ![0, 1] bcast_S1x64_S80000x64_0_1 : (⟨S1x64, .f32⟩ : BufTy).Contents (Elt F) → (⟨S80000x64, .f32⟩ : BufTy).Contents (Elt F)),
    binary main_v185 main_v189 main_v190 (addf : (⟨S80000x64, .f32⟩ : BufTy).Contents (Elt F) → (⟨S80000x64, .f32⟩ : BufTy).Contents (Elt F) → (⟨S80000x64, .f32⟩ : BufTy).Contents (Elt F)),
    nullary main_cst_26 (constant S_ .f32 0x3C23D70A#32),
    TRef.nullary main_call12.cst (constant S_ .f32 0x00000000#32),
    TRef.unary main_call12.cst main_call12.v0 (broadcastInDim S80000x64 ![] bcast_S_S80000x64),
    TRef.binary (.of main_v190 : TRef sig ⟨S80000x64, .f32⟩) main_call12.v0 main_call12.v1 (cmpf .oge),
    TRef.unary (.of main_cst_26 : TRef sig ⟨S_, .f32⟩) main_call12.v2 id,
    TRef.unary main_call12.v2 main_call12.v3 (broadcastInDim S80000x64 ![] bcast_S_S80000x64),
    TRef.binary main_call12.v3 (.of main_v190 : TRef sig ⟨S80000x64, .f32⟩) main_call12.v4 mulf,
    TRef.ternary main_call12.v1 (.of main_v190 : TRef sig ⟨S80000x64, .f32⟩) main_call12.v4 main_call12.call0.v0 select,
    binary main_v191 main_arg2 main_v192 (addf : (⟨S80000x64, .f32⟩ : BufTy).Contents (Elt F) → (⟨S80000x64, .f32⟩ : BufTy).Contents (Elt F) → (⟨S80000x64, .f32⟩ : BufTy).Contents (Elt F)) ]

/-- Second tower, layer two, third affine map, the sum, the rectifier: the second tower's output. -/
abbrev opsU : List (HloOp τ sig (Elt F)) :=
  [ unary main_arg7 main_v193 ((extractStridedSlice S1x1x64x64 ![1, 2, 0, 0] · slices_S2x3x64x64_S1x1x64x64_1_2_0_0) : (⟨S2x3x64x64, .f32⟩ : BufTy).Contents (Elt F) → (⟨S1x1x64x64, .f32⟩ : BufTy).Contents (Elt F)),
    reshape main_v193 main_v194 rfl shapeCasts_S1x1x64x64_S64x64,
    unary main_v194 main_v195 ((transpose S64x64 [1, 0] · transposes_S64x64_S64x64_1_0) : (⟨S64x64, .f32⟩ : BufTy).Contents (Elt F) → (⟨S64x64, .f32⟩ : BufTy).Contents (Elt F)),
    binary main_v181 main_v195 main_v196 ((fun l r => Host.dotGeneral dot_S80000x64_S64x64_S80000x64_1_0_0_1_n_n none l r) : (⟨S80000x64, .f32⟩ : BufTy).Contents (Elt F) → (⟨S64x64, .f32⟩ : BufTy).Contents (Elt F) → (⟨S80000x64, .f32⟩ : BufTy).Contents (Elt F)),
    unary main_arg8 main_v197 ((extractStridedSlice S1x1x64 ![1, 2, 0] · slices_S2x3x64_S1x1x64_1_2_0) : (⟨S2x3x64, .f32⟩ : BufTy).Contents (Elt F) → (⟨S1x1x64, .f32⟩ : BufTy).Contents (Elt F)),
    reshape main_v197 main_v198 rfl shapeCasts_S1x1x64_S64,
    unary main_v198 main_v199 (broadcastInDim S1x64 ![1] bcast_S64_S1x64_1 : (⟨S64, .f32⟩ : BufTy).Contents (Elt F) → (⟨S1x64, .f32⟩ : BufTy).Contents (Elt F)),
    unary main_v199 main_v200 (broadcastInDim S80000x64 ![0, 1] bcast_S1x64_S80000x64_0_1 : (⟨S1x64, .f32⟩ : BufTy).Contents (Elt F) → (⟨S80000x64, .f32⟩ : BufTy).Contents (Elt F)),
    binary main_v196 main_v200 main_v201 (addf : (⟨S80000x64, .f32⟩ : BufTy).Contents (Elt F) → (⟨S80000x64, .f32⟩ : BufTy).Contents (Elt F) → (⟨S80000x64, .f32⟩ : BufTy).Contents (Elt F)),
    binary main_v201 main_v192 main_v202 (addf : (⟨S80000x64, .f32⟩ : BufTy).Contents (Elt F) → (⟨S80000x64, .f32⟩ : BufTy).Contents (Elt F) → (⟨S80000x64, .f32⟩ : BufTy).Contents (Elt F)),
    nullary main_cst_27 (constant S_ .f32 0x3C23D70A#32),
    TRef.nullary main_call13.cst (constant S_ .f32 0x00000000#32),
    TRef.unary main_call13.cst main_call13.v0 (broadcastInDim S80000x64 ![] bcast_S_S80000x64),
    TRef.binary (.of main_v202 : TRef sig ⟨S80000x64, .f32⟩) main_call13.v0 main_call13.v1 (cmpf .oge),
    TRef.unary (.of main_cst_27 : TRef sig ⟨S_, .f32⟩) main_call13.v2 id,
    TRef.unary main_call13.v2 main_call13.v3 (broadcastInDim S80000x64 ![] bcast_S_S80000x64),
    TRef.binary main_call13.v3 (.of main_v202 : TRef sig ⟨S80000x64, .f32⟩) main_call13.v4 mulf,
    TRef.ternary main_call13.v1 (.of main_v202 : TRef sig ⟨S80000x64, .f32⟩) main_call13.v4 main_call13.call0.v0 select ]

/-- Half the sum of the two towers' outputs. -/
abbrev opsW : List (HloOp τ sig (Elt F)) :=
  [ binary main_v103 main_v203 main_v204 (addf : (⟨S80000x64, .f32⟩ : BufTy).Contents (Elt F) → (⟨S80000x64, .f32⟩ : BufTy).Contents (Elt F) → (⟨S80000x64, .f32⟩ : BufTy).Contents (Elt F)),
    nullary main_cst_28 (constant S_ .f32 0x40000000#32),
    unary main_cst_28 main_v205 (broadcastInDim S80000x64 ![] bcast_S_S80000x64 : (⟨S_, .f32⟩ : BufTy).Contents (Elt F) → (⟨S80000x64, .f32⟩ : BufTy).Contents (Elt F)),
    binary main_v204 main_v205 main_v206 (Host.divf : (⟨S80000x64, .f32⟩ : BufTy).Contents (Elt F) → (⟨S80000x64, .f32⟩ : BufTy).Contents (Elt F) → (⟨S80000x64, .f32⟩ : BufTy).Contents (Elt F)) ]

set_option maxRecDepth 4096 in
set_option maxHeartbeats 4000000 in
/-- The window is the straight line of its stages' operations: the outlined functions' bodies unfolded at their calls,
    both sides are one chain of host steps once sequencing is reassociated. -/
theorem part3_eq (c : Dev nD) : main_part3 (F := F) c = seq (opsQ2 ++ opsR ++ opsS ++ opsT ++ opsU ++ opsW) := by
  simp only [main_part3, fn_norm.body, fn_leaky_relu.body, fn_where.body, seq_append, seq, bind_assoc, pure_bind]

/-- Every operation of stage Q2 touches buffers of this core only, and determines what it writes. -/
theorem okQ2 : (opsQ2 : List (HloOp τ sig (Elt F))).Forall fun op => op.bufs ⊆ tcRefs τ sig ∧ op.fresh = ∅ :=
  ⟨⟨binary_bufs_sub .., rfl⟩,
    ⟨nullary_bufs_sub .., rfl⟩,
    ⟨nullary_bufs_sub .., rfl⟩,
    ⟨unary_bufs_sub .., rfl⟩,
    ⟨binary_bufs_sub .., rfl⟩,
    ⟨unary_bufs_sub .., rfl⟩,
    ⟨unary_bufs_sub .., rfl⟩,
    ⟨binary_bufs_sub .., rfl⟩,
    ⟨ternary_bufs_sub .., rfl⟩⟩

/-- Every operation of stage R touches buffers of this core only, and determines what it writes. -/
theorem okR : (opsR : List (HloOp τ sig (Elt F))).Forall fun op => op.bufs ⊆ tcRefs τ sig ∧ op.fresh = ∅ :=
  ⟨⟨nullary_bufs_sub .., rfl⟩,
    ⟨unary_bufs_sub .., rfl⟩,
    ⟨binary_bufs_sub .., rfl⟩,
    ⟨nullary_bufs_sub .., rfl⟩,
    ⟨unary_bufs_sub .., rfl⟩,
    ⟨binary_bufs_sub .., rfl⟩,
    ⟨ternary_bufs_sub .., rfl⟩,
    ⟨unary_bufs_sub .., rfl⟩,
    ⟨binary_bufs_sub .., rfl⟩,
    ⟨nullary_bufs_sub .., rfl⟩,
    ⟨unary_bufs_sub .., rfl⟩,
    ⟨unary_bufs_sub .., rfl⟩,
    ⟨ternary_bufs_sub .., rfl⟩,
    ⟨unary_bufs_sub .., rfl⟩,
    ⟨unary_bufs_sub .., rfl⟩,
    ⟨binary_bufs_sub .., rfl⟩⟩

/-- Every operation of stage S touches buffers of this core only, and determines what it writes. -/
theorem okS : (opsS : List (HloOp τ sig (Elt F))).Forall fun op => op.bufs ⊆ tcRefs τ sig ∧ op.fresh = ∅ :=
  ⟨⟨unary_bufs_sub .., rfl⟩,
    ⟨reshape_bufs_sub .., rfl⟩,
    ⟨unary_bufs_sub .., rfl⟩,
    ⟨binary_bufs_sub .., rfl⟩,
    ⟨unary_bufs_sub .., rfl⟩,
    ⟨reshape_bufs_sub .., rfl⟩,
    ⟨unary_bufs_sub .., rfl⟩,
    ⟨unary_bufs_sub .., rfl⟩,
    ⟨binary_bufs_sub .., rfl⟩,
    ⟨nullary_bufs_sub .., rfl⟩,
    ⟨nullary_bufs_sub .., rfl⟩,
    ⟨unary_bufs_sub .., rfl⟩,
    ⟨binary_bufs_sub .., rfl⟩,
    ⟨unary_bufs_sub .., rfl⟩,
    ⟨unary_bufs_sub .., rfl⟩,
    ⟨binary_bufs_sub .., rfl⟩,
    ⟨ternary_bufs_sub .., rfl⟩⟩

/-- Every operation of stage T touches buffers of this core only, and determines what it writes. -/
theorem okT : (opsT : List (HloOp τ sig (Elt F))).Forall fun op => op.bufs ⊆ tcRefs τ sig ∧ op.fresh = ∅ :=
  ⟨⟨unary_bufs_sub .., rfl⟩,
    ⟨reshape_bufs_sub .., rfl⟩,
    ⟨unary_bufs_sub .., rfl⟩,
    ⟨binary_bufs_sub .., rfl⟩,
    ⟨unary_bufs_sub .., rfl⟩,
    ⟨reshape_bufs_sub .., rfl⟩,
    ⟨unary_bufs_sub .., rfl⟩,
    ⟨unary_bufs_sub .., rfl⟩,
    ⟨binary_bufs_sub .., rfl⟩,
    ⟨nullary_bufs_sub .., rfl⟩,
    ⟨nullary_bufs_sub .., rfl⟩,
    ⟨unary_bufs_sub .., rfl⟩,
    ⟨binary_bufs_sub .., rfl⟩,
    ⟨unary_bufs_sub .., rfl⟩,
    ⟨unary_bufs_sub .., rfl⟩,
    ⟨binary_bufs_sub .., rfl⟩,
    ⟨ternary_bufs_sub .., rfl⟩,
    ⟨binary_bufs_sub .., rfl⟩⟩

/-- Every operation of stage U touches buffers of this core only, and determines what it writes. -/
theorem okU : (opsU : List (HloOp τ sig (Elt F))).Forall fun op => op.bufs ⊆ tcRefs τ sig ∧ op.fresh = ∅ :=
  ⟨⟨unary_bufs_sub .., rfl⟩,
    ⟨reshape_bufs_sub .., rfl⟩,
    ⟨unary_bufs_sub .., rfl⟩,
    ⟨binary_bufs_sub .., rfl⟩,
    ⟨unary_bufs_sub .., rfl⟩,
    ⟨reshape_bufs_sub .., rfl⟩,
    ⟨unary_bufs_sub .., rfl⟩,
    ⟨unary_bufs_sub .., rfl⟩,
    ⟨binary_bufs_sub .., rfl⟩,
    ⟨binary_bufs_sub .., rfl⟩,
    ⟨nullary_bufs_sub .., rfl⟩,
    ⟨nullary_bufs_sub .., rfl⟩,
    ⟨unary_bufs_sub .., rfl⟩,
    ⟨binary_bufs_sub .., rfl⟩,
    ⟨unary_bufs_sub .., rfl⟩,
    ⟨unary_bufs_sub .., rfl⟩,
    ⟨binary_bufs_sub .., rfl⟩,
    ⟨ternary_bufs_sub .., rfl⟩⟩

/-- Every operation of stage W touches buffers of this core only, and determines what it writes. -/
theorem okW : (opsW : List (HloOp τ sig (Elt F))).Forall fun op => op.bufs ⊆ tcRefs τ sig ∧ op.fresh = ∅ :=
  ⟨⟨binary_bufs_sub .., rfl⟩,
    ⟨nullary_bufs_sub .., rfl⟩,
    ⟨unary_bufs_sub .., rfl⟩,
    ⟨binary_bufs_sub .., rfl⟩⟩

/-- Stage Q2: the second tower after its first layer. -/
theorem stepQ2 (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32)
    (h : InvQ1 V a0 a1 a2 a3 a4 a5 a6 a7 a8 a9) : InvQ2 (after opsQ2 V) a0 a1 a2 a3 a4 a5 a6 a7 a8 a9 := by
  obtain ⟨⟨h0, h1, h2, h3, h4, h5, h6, h7, h8, h9⟩, k0, k1, k2, k3, k4, k5⟩ := h
  refine ⟨⟨?_, ?_, ?_, ?_, ?_, ?_, ?_, ?_, ?_, ?_⟩, ?_, ?_, ?_, ?_, ?_⟩
  all_goals stage_goal

/-- Stage R: its neighbourhood mean. -/
theorem stepR (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32)
    (h : InvQ2 V a0 a1 a2 a3 a4 a5 a6 a7 a8 a9) : InvR (after opsR V) a0 a1 a2 a3 a4 a5 a6 a7 a8 a9 := by
  obtain ⟨⟨h0, h1, h2, h3, h4, h5, h6, h7, h8, h9⟩, k0, k1, k2, k3, k4⟩ := h
  refine ⟨⟨?_, ?_, ?_, ?_, ?_, ?_, ?_, ?_, ?_, ?_⟩, ?_, ?_, ?_, ?_, ?_⟩
  all_goals stage_goal

/-- Stage S: the first hidden activation of the second layer. -/
theorem stepS (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32)
    (h : InvR V a0 a1 a2 a3 a4 a5 a6 a7 a8 a9) : InvS (after opsS V) a0 a1 a2 a3 a4 a5 a6 a7 a8 a9 := by
  obtain ⟨⟨h0, h1, h2, h3, h4, h5, h6, h7, h8, h9⟩, k0, k1, k2, k3, k4⟩ := h
  refine ⟨⟨?_, ?_, ?_, ?_, ?_, ?_, ?_, ?_, ?_, ?_⟩, ?_, ?_, ?_, ?_, ?_⟩
  all_goals stage_goal

/-- Stage T: the second, with the identity embedding added. -/
theorem stepT (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32)
    (h : InvS V a0 a1 a2 a3 a4 a5 a6 a7 a8 a9) : InvT (after opsT V) a0 a1 a2 a3 a4 a5 a6 a7 a8 a9 := by
  obtain ⟨⟨h0, h1, h2, h3, h4, h5, h6, h7, h8, h9⟩, k0, k1, k2, k3, k4⟩ := h
  refine ⟨⟨?_, ?_, ?_, ?_, ?_, ?_, ?_, ?_, ?_, ?_⟩, ?_, ?_, ?_, ?_, ?_⟩
  all_goals stage_goal

/-- Stage U: the second tower's output. -/
theorem stepU (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32)
    (h : InvT V a0 a1 a2 a3 a4 a5 a6 a7 a8 a9) : InvU (after opsU V) a0 a1 a2 a3 a4 a5 a6 a7 a8 a9 := by
  obtain ⟨⟨h0, h1, h2, h3, h4, h5, h6, h7, h8, h9⟩, k0, k1, k2, k3, k4⟩ := h
  refine ⟨⟨?_, ?_, ?_, ?_, ?_, ?_, ?_, ?_, ?_, ?_⟩, ?_, ?_⟩
  all_goals stage_goal

/-- Stage W: the mean of the two towers. -/
theorem stepW (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32)
    (h : InvU V a0 a1 a2 a3 a4 a5 a6 a7 a8 a9) : InvW (after opsW V) a0 a1 a2 a3 a4 a5 a6 a7 a8 a9 := by
  obtain ⟨⟨h0, h1, h2, h3, h4, h5, h6, h7, h8, h9⟩, k0, k1⟩ := h
  refine ⟨⟨?_, ?_, ?_, ?_, ?_, ?_, ?_, ?_, ?_, ?_⟩, ?_⟩
  all_goals stage_goal

/-- The whole window: its stages in turn. -/
theorem win3 (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32)
    (h : InvQ1 V a0 a1 a2 a3 a4 a5 a6 a7 a8 a9) : InvW (after (opsQ2 ++ opsR ++ opsS ++ opsT ++ opsU ++ opsW) V) a0 a1 a2 a3 a4 a5 a6 a7 a8 a9 := by
  simp only [after_app]
  exact (stepW _ a0 a1 a2 a3 a4 a5 a6 a7 a8 a9 (stepU _ a0 a1 a2 a3 a4 a5 a6 a7 a8 a9 (stepT _ a0 a1 a2 a3 a4 a5 a6 a7 a8 a9 (stepS _ a0 a1 a2 a3 a4 a5 a6 a7 a8 a9 (stepR _ a0 a1 a2 a3 a4 a5 a6 a7 a8 a9 (stepQ2 _ a0 a1 a2 a3 a4 a5 a6 a7 a8 a9 h))))))

/-- Every operation of the window touches buffers of this core only, and determines what it writes. -/
theorem okWin3 : (opsQ2 ++ opsR ++ opsS ++ opsT ++ opsU ++ opsW : List (HloOp τ sig (Elt F))).Forall fun op => op.bufs ⊆ tcRefs τ sig ∧ op.fresh = ∅ := by
  simp only [List.forall_append]
  exact ⟨⟨⟨⟨⟨okQ2, okR⟩, okS⟩, okT⟩, okU⟩, okW⟩

end Cert.ReferenceIdeal.HandRun

end
-- ==== Proof.RefRun.lean ====
/-
  The reference's run read back. Its @main is the straight line of 318 host operations (the four windows' lists,
  the outlined functions written out at their calls); run on every device from any memory with zero counters it
  terminates, the result buffer holding `Hand.resultOf` of the ten arguments' launch contents (Proof/RefOps.lean:
  the mean of the two towers) and the arguments unchanged. The result is read stage by stage: each stage's lemma
  says what the buffers still to be read hold after it, given what they held before (Proof/RefRunW0 … W3.lean).
-/
import proofs.«109543_j54176717472163_1_alg».proof.Proof.RefRunW0
import proofs.«109543_j54176717472163_1_alg».proof.Proof.RefRunW1
import proofs.«109543_j54176717472163_1_alg».proof.Proof.RefRunW2
import proofs.«109543_j54176717472163_1_alg».proof.Proof.RefRunW3

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's host operations, in order. -/
abbrev ops : List (HloOp τ sig (Elt F)) :=
  (opsA ++ opsB ++ opsC ++ opsD ++ opsE ++ opsF ++ opsG1)
  ++ ((opsG2 ++ opsH ++ opsI ++ opsJ ++ opsK ++ opsL1)
  ++ ((opsL2 ++ opsM ++ opsN ++ opsO ++ opsP ++ opsQ1)
  ++ (opsQ2 ++ opsR ++ opsS ++ opsT ++ opsU ++ opsW)))

/-- @main is that straight line: its four windows in order, each the line of its own operations. -/
theorem main_eq (c : Dev nD) : main (F := F) c = seq ops := by
  show main (F := F) c = seq ((opsA ++ opsB ++ opsC ++ opsD ++ opsE ++ opsF ++ opsG1) ++ ((opsG2 ++ opsH ++ opsI ++ opsJ ++ opsK ++ opsL1) ++ ((opsL2 ++ opsM ++ opsN ++ opsO ++ opsP ++ opsQ1) ++ (opsQ2 ++ opsR ++ opsS ++ opsT ++ opsU ++ opsW))))
  rw [seq_append (opsA ++ opsB ++ opsC ++ opsD ++ opsE ++ opsF ++ opsG1), seq_append (opsG2 ++ opsH ++ opsI ++ opsJ ++ opsK ++ opsL1), seq_append (opsL2 ++ opsM ++ opsN ++ opsO ++ opsP ++ opsQ1),
    ← part0_eq c, ← part1_eq c, ← part2_eq c, ← part3_eq c]
  rfl

/-- No buffer of the reference is scoped: it launches no kernel. -/
theorem scopedRefs_eq : (Finset.univ.filter fun b : Ref sig .tc => b.isScoped) = ∅ := by decide
/-- It has no semaphore. -/
theorem scopedSems_eq : (Finset.univ.filter fun sm : SemLoc sig => sm.isScoped .tc) = ∅ := by decide

/-- Every operation touches buffers of this core only, and determines what it writes. -/
theorem ops_ok : (ops : List (HloOp τ sig (Elt F))).Forall fun op => op.bufs ⊆ tcRefs τ sig ∧ op.fresh = ∅ :=
  List.forall_append.2 ⟨okWin0, List.forall_append.2 ⟨okWin1, List.forall_append.2 ⟨okWin2, okWin3⟩⟩⟩

theorem ops_sub : (ops : List (HloOp τ sig (Elt F))).Forall fun op => op.bufs ⊆ tcRefs τ sig :=
  List.forall_iff_forall_mem.2 fun op h => (List.forall_iff_forall_mem.1 ops_ok op h).1

theorem ops_fresh : ∀ op ∈ (ops : List (HloOp τ sig (Elt F))), op.fresh = ∅ :=
  fun op h => (List.forall_iff_forall_mem.1 ops_ok op h).2

/-- After the whole line, from buffers whose argument entries hold the ten arrays: the result buffer holds the mean of
    the two towers of those arrays, and the argument buffers still hold them. The four windows in turn. -/
theorem final (V : Vl F) (a0 a1 : FVec F S30000x64 .f32) (a2 : FVec F S80000x64 .f32) (a3 a4 : FVec F S50000x64 .f32)
    (a5 : FVec F S2x3x64x64 .f32) (a6 : FVec F S2x3x64 .f32) (a7 : FVec F S2x3x64x64 .f32) (a8 : FVec F S2x3x64 .f32)
    (a9 : IVec S2x1600000 32)
    (h : Args V a0 a1 a2 a3 a4 a5 a6 a7 a8 a9) : InvW (after ops V) a0 a1 a2 a3 a4 a5 a6 a7 a8 a9 := by
  show InvW (after ((opsA ++ opsB ++ opsC ++ opsD ++ opsE ++ opsF ++ opsG1) ++ ((opsG2 ++ opsH ++ opsI ++ opsJ ++ opsK ++ opsL1) ++ ((opsL2 ++ opsM ++ opsN ++ opsO ++ opsP ++ opsQ1) ++ (opsQ2 ++ opsR ++ opsS ++ opsT ++ opsU ++ opsW)))) V) a0 a1 a2 a3 a4 a5 a6 a7 a8 a9
  rw [after_app (opsA ++ opsB ++ opsC ++ opsD ++ opsE ++ opsF ++ opsG1), after_app (opsG2 ++ opsH ++ opsI ++ opsJ ++ opsK ++ opsL1), after_app (opsL2 ++ opsM ++ opsN ++ opsO ++ opsP ++ opsQ1)]
  exact win3 _ a0 a1 a2 a3 a4 a5 a6 a7 a8 a9 (win2 _ a0 a1 a2 a3 a4 a5 a6 a7 a8 a9 (win1 _ a0 a1 a2 a3 a4 a5 a6 a7 a8 a9 (win0 V a0 a1 a2 a3 a4 a5 a6 a7 a8 a9 h)))

/-- On every device, for any float values, from any memory with zero counters: every weakly fair execution of @main
    terminates with the result buffer at `Hand.resultOf` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v206) = Hand.resultOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => by
      obtain ⟨⟨g0, g1, g2, g3, g4, g5, g6, g7, g8, g9⟩, g⟩ :=
        final (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
          ⟨rfl, rfl, rfl, rfl, rfl, rfl, rfl, rfl, rfl, rfl⟩
      exact ⟨(h c main_v206).trans g, (h c main_arg0).trans g0, (h c main_arg1).trans g1, (h c main_arg2).trans g2, (h c main_arg3).trans g3, (h c main_arg4).trans g4, (h c main_arg5).trans g5, (h c main_arg6).trans g6, (h c main_arg7).trans g7, (h c main_arg8).trans g8, (h c main_arg9).trans g9⟩)
    (run_seq scopedRefs_eq scopedSems_eq defs main (fun _ => ops) main_eq (fun _ => ops_sub) m ρ (fun _ => ops_fresh))

end Cert.ReferenceIdeal.HandRun

end
-- ==== Proof.lean ====
/-
  Two towers of a two-layer graph convolution: the tiled program against the plain one.

  Both programs scale the rows of the stacked node features to unit length, then apply twice a layer that reads
  the neighbourhood mean (the rows of the current features gathered along the edges, accumulated at the edges'
  targets and divided by the in-degree), the current features and an identity embedding through three affine
  maps and a leaky rectifier, and return half the sum of the two towers. The tiled program computes the row
  scaling and each layer in twenty blocks of 4000 rows, forms the mean as the accumulated sum TIMES the
  reciprocal of the in-degree, and transposes the whole weight stack once; the plain one divides by the
  in-degree and transposes each matrix where it is used.

  On the extended reals every sum is exact, a change of float format is the identity, and a matrix product is
  the same finite sum however it is tiled; so the two results differ at most where the mean is formed. For an
  in-degree that is not zero the product with the reciprocal is the quotient, whatever the accumulated sum
  (`a · (1 · d⁻¹) = a · d⁻¹`), and the precondition states that every node has an in-edge (where one has none the
  plain program divides zero by zero). No entry needs to be finite anywhere in the argument.

  The pieces: the run of the tiled program with its result named and followed through its thirteen segments
  (KRun, KChain0, KChain over the regions' tables KRegNorm, KRegLayer1/2/4/5 and the bodies' values KPayNorm,
  KPay), the plain program's run (RefRun) and its stages read entry by entry (RefReadNorm, RefReadLayer), the
  stages the two programs share (Same), the in-degree off zero (PreDeg) and the comparison (Bridge).
-/
import proofs.«109543_j54176717472163_1_alg».proof.Defs
import proofs.«109543_j54176717472163_1_alg».proof.Proof.Gen.Kernel
import proofs.«109543_j54176717472163_1_alg».proof.Proof.Gen.Kernel.Frame
import proofs.«109543_j54176717472163_1_alg».proof.Proof.Gen.KernelIdeal
import proofs.«109543_j54176717472163_1_alg».proof.Proof.Gen.KernelIdeal.Frame
import proofs.«109543_j54176717472163_1_alg».proof.Proof.Gen.ReferenceIdeal
import proofs.«109543_j54176717472163_1_alg».proof.Proof.Gen.Pre_finite_inputs
import proofs.«109543_j54176717472163_1_alg».proof.Proof.KRun
import proofs.«109543_j54176717472163_1_alg».proof.Proof.KChain
import proofs.«109543_j54176717472163_1_alg».proof.Proof.Bridge
import proofs.«109543_j54176717472163_1_alg».proof.Proof.PreDeg
import proofs.«109543_j54176717472163_1_alg».proof.Proof.RefRun
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_k : Cert.frame_Kernel := fun m ρ _ => Cert.Kernel.Gen.frame m ρ

/-- So does the idealized program. -/
theorem frame_ki : Cert.frame_KernelIdeal := fun m ρ _ => Cert.KernelIdeal.Gen.frame m ρ

/-- The plain program's frame is its run with the result dropped. -/
theorem frame_ri : Cert.frame_ReferenceIdeal := fun m ρ _ =>
  (θ_run Cert.ReferenceIdeal.defs _ _).mono (fun _ h c => (h c).2) (Cert.ReferenceIdeal.HandRun.run (F := Ideal) m ρ)

/-- From memories agreeing on the arguments both programs end at the plain program's function of the arguments:
    the tiled one by its segments' chain and the comparison of the two functions where every node has an in-edge,
    the plain one by its run. -/
theorem algebraic : Cert.algebraic_KernelIdeal_ReferenceIdeal := by
  intro m ρ m' ρ' hpre hagree
  refine ⟨fun c => Cert.ReferenceIdeal.Hand.resultOf (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ⟨(h c).1.trans ?_, (h c).2⟩)
      (Cert.KernelIdeal.HandRun.run_W (F := Ideal) m ρ)
    exact (Cert.KernelIdeal.Chain.W13_v79 m ρ c).trans
      (Cert.Bridge.result_eq _ (Cert.PreDeg.deg_ne_zero m hpre c) _ _ _ _ _ _ _ _ _)
  · refine (θ_run Cert.ReferenceIdeal.defs _ _).mono (fun r h c => ⟨(h c).1.trans ?_, (h c).2⟩)
      (Cert.ReferenceIdeal.HandRun.run (F := Ideal) m' ρ')
    obtain ⟨e0, e1, e2, e3, e4, e5, e6, e7, e8, e9⟩ := hagree c
    rw [e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
